-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v579) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x24 : Shape := ⟨2, ![500000, 24]⟩
abbrev S24x7x7 : Shape := ⟨3, ![24, 7, 7]⟩
abbrev S24x7 : Shape := ⟨2, ![24, 7]⟩
abbrev S24x6x7 : Shape := ⟨3, ![24, 6, 7]⟩
abbrev S24x6 : Shape := ⟨2, ![24, 6]⟩
abbrev S_ : Shape := ⟨0, ![]⟩

class Facts : Prop where
  bcast_S_S500000x24 : S_.BroadcastsInDim S500000x24 (![] : Fin 0 → Fin S500000x24.rank)
  reducesTo_S500000x24_S_d0_1 : S500000x24.ReducesTo [0, 1] S_
  h_S_ : 0 < S_.numel
  bcast_S_S24x7x7 : S_.BroadcastsInDim S24x7x7 (![] : Fin 0 → Fin S24x7x7.rank)
  reducesTo_S24x7x7_S_d0_1_2 : S24x7x7.ReducesTo [0, 1, 2] S_
  bcast_S_S24x7 : S_.BroadcastsInDim S24x7 (![] : Fin 0 → Fin S24x7.rank)
  reducesTo_S24x7_S_d0_1 : S24x7.ReducesTo [0, 1] S_
  bcast_S_S24x6x7 : S_.BroadcastsInDim S24x6x7 (![] : Fin 0 → Fin S24x6x7.rank)
  reducesTo_S24x6x7_S_d0_1_2 : S24x6x7.ReducesTo [0, 1, 2] S_
  bcast_S_S24x6 : S_.BroadcastsInDim S24x6 (![] : Fin 0 → Fin S24x6.rank)
  reducesTo_S24x6_S_d0_1 : S24x6.ReducesTo [0, 1] S_

variable [Facts]

def fn_part1 {F : FTy → Type} [FloatOps F] (main_arg4 : FVec F S24x6 .f32) (main_v13 : IVec S_ 1) (main_v16 : IVec S24x6x7 1) : IVec S_ 1 :=
  let main_c_5 : IVec S_ 1 := constantI S_ 1 1#1
  let main_v17 : IVec S_ 1 := (fun x v => Host.reduce IntOp.andi x v reducesTo_S24x6x7_S_d0_1_2 h_S_) main_v16 main_c_5
  let main_v18 : IVec S_ 1 := andi main_v13 main_v17
  let main_v19 : FVec F S24x6 .f32 := Host.absf main_arg4
  let main_cst_6 : FVec F S_ .f32 := constant S_ .f32 0x7F800000#32
  let main_v20 : FVec F S24x6 .f32 := broadcastInDim S24x6 ![] bcast_S_S24x6 main_cst_6
  let main_v21 : IVec S24x6 1 := cmpf .olt main_v19 main_v20
  let main_c_7 : IVec S_ 1 := constantI S_ 1 1#1
  let main_v22 : IVec S_ 1 := (fun x v => Host.reduce IntOp.andi x v reducesTo_S24x6_S_d0_1 h_S_) main_v21 main_c_7
  let main_v23 : IVec S_ 1 := andi main_v18 main_v22
  main_v23

def fn {F : FTy → Type} [FloatOps F] (main_arg0 : FVec F S500000x24 .f32) (main_arg1 : FVec F S24x7x7 .f32) (main_arg2 : FVec F S24x7 .f32) (main_arg3 : FVec F S24x6x7 .f32) (main_arg4 : FVec F S24x6 .f32) : IVec S_ 1 :=
  let main_v0 : FVec F S500000x24 .f32 := Host.absf main_arg0
  let main_cst : FVec F S_ .f32 := constant S_ .f32 0x7F800000#32
  let main_v1 : FVec F S500000x24 .f32 := broadcastInDim S500000x24 ![] bcast_S_S500000x24 main_cst
  let main_v2 : IVec S500000x24 1 := cmpf .olt main_v0 main_v1
  let main_c : IVec S_ 1 := constantI S_ 1 1#1
  let main_v3 : IVec S_ 1 := (fun x v => Host.reduce IntOp.andi x v reducesTo_S500000x24_S_d0_1 h_S_) main_v2 main_c
  let main_v4 : FVec F S24x7x7 .f32 := Host.absf main_arg1
  let main_cst_0 : FVec F S_ .f32 := constant S_ .f32 0x7F800000#32
  let main_v5 : FVec F S24x7x7 .f32 := broadcastInDim S24x7x7 ![] bcast_S_S24x7x7 main_cst_0
  let main_v6 : IVec S24x7x7 1 := cmpf .olt main_v4 main_v5
  let main_c_1 : IVec S_ 1 := constantI S_ 1 1#1
  let main_v7 : IVec S_ 1 := (fun x v => Host.reduce IntOp.andi x v reducesTo_S24x7x7_S_d0_1_2 h_S_) main_v6 main_c_1
  let main_v8 : IVec S_ 1 := andi main_v3 main_v7
  let main_v9 : FVec F S24x7 .f32 := Host.absf main_arg2
  let main_cst_2 : FVec F S_ .f32 := constant S_ .f32 0x7F800000#32
  let main_v10 : FVec F S24x7 .f32 := broadcastInDim S24x7 ![] bcast_S_S24x7 main_cst_2
  let main_v11 : IVec S24x7 1 := cmpf .olt main_v9 main_v10
  let main_c_3 : IVec S_ 1 := constantI S_ 1 1#1
  let main_v12 : IVec S_ 1 := (fun x v => Host.reduce IntOp.andi x v reducesTo_S24x7_S_d0_1 h_S_) main_v11 main_c_3
  let main_v13 : IVec S_ 1 := andi main_v8 main_v12
  let main_v14 : FVec F S24x6x7 .f32 := Host.absf main_arg3
  let main_cst_4 : FVec F S_ .f32 := constant S_ .f32 0x7F800000#32
  let main_v15 : FVec F S24x6x7 .f32 := broadcastInDim S24x6x7 ![] bcast_S_S24x6x7 main_cst_4
  let main_v16 : IVec S24x6x7 1 := cmpf .olt main_v14 main_v15
  fn_part1 (F := F) main_arg4 main_v13 main_v16
-- ==== Kernel.lean ====
abbrev S500000x24 : Shape := ⟨2, ![500000, 24]⟩
abbrev S24x7x7 : Shape := ⟨3, ![24, 7, 7]⟩
abbrev S24x7 : Shape := ⟨2, ![24, 7]⟩
abbrev S24x6x7 : Shape := ⟨3, ![24, 6, 7]⟩
abbrev S24x6 : Shape := ⟨2, ![24, 6]⟩
abbrev S7x24 : Shape := ⟨2, ![7, 24]⟩
abbrev S6x24 : Shape := ⟨2, ![6, 24]⟩
abbrev S500000x144 : Shape := ⟨2, ![500000, 144]⟩
abbrev S5000x24 : Shape := ⟨2, ![5000, 24]⟩
abbrev S5000x144 : Shape := ⟨2, ![5000, 144]⟩
abbrev S144x5000 : Shape := ⟨2, ![144, 5000]⟩
abbrev S24x5000 : Shape := ⟨2, ![24, 5000]⟩
abbrev S1x5000 : Shape := ⟨2, ![1, 5000]⟩
abbrev S1x7x7 : Shape := ⟨3, ![1, 7, 7]⟩
abbrev S7x7 : Shape := ⟨2, ![7, 7]⟩
abbrev S7x1 : Shape := ⟨2, ![7, 1]⟩
abbrev S7x5000 : Shape := ⟨2, ![7, 5000]⟩
abbrev S1x6x7 : Shape := ⟨3, ![1, 6, 7]⟩
abbrev S6x7 : Shape := ⟨2, ![6, 7]⟩
abbrev S6x1 : Shape := ⟨2, ![6, 1]⟩
abbrev S6x5000 : Shape := ⟨2, ![6, 5000]⟩
abbrev S7x6 : Shape := ⟨2, ![7, 6]⟩

abbrev nBuf : Space → Nat
  | .hbm => 8
  | .vmem => 9
  | .smem => 0
  | _ => 0

abbrev bufTy : (tb : Table) → Fin (tcTables nBuf tb) → BufTy
  | .hbm, ⟨0, _⟩ => ⟨S500000x24, .f32⟩
  | .hbm, ⟨1, _⟩ => ⟨S24x7x7, .f32⟩
  | .hbm, ⟨2, _⟩ => ⟨S24x7, .f32⟩
  | .hbm, ⟨3, _⟩ => ⟨S24x6x7, .f32⟩
  | .hbm, ⟨4, _⟩ => ⟨S24x6, .f32⟩
  | .hbm, ⟨5, _⟩ => ⟨S7x24, .f32⟩
  | .hbm, ⟨6, _⟩ => ⟨S6x24, .f32⟩
  | .hbm, ⟨7, _⟩ => ⟨S500000x144, .f32⟩
  | .local _ .vmem, ⟨0, _⟩ => ⟨S5000x24, .f32⟩
  | .local _ .vmem, ⟨1, _⟩ => ⟨S5000x24, .f32⟩
  | .local _ .vmem, ⟨2, _⟩ => ⟨S24x7x7, .f32⟩
  | .local _ .vmem, ⟨3, _⟩ => ⟨S7x24, .f32⟩
  | .local _ .vmem, ⟨4, _⟩ => ⟨S24x6x7, .f32⟩
  | .local _ .vmem, ⟨5, _⟩ => ⟨S6x24, .f32⟩
  | .local _ .vmem, ⟨6, _⟩ => ⟨S5000x144, .f32⟩
  | .local _ .vmem, ⟨7, _⟩ => ⟨S5000x144, .f32⟩
  | .local _ .vmem, ⟨8, _⟩ => ⟨S144x5000, .f32⟩
  | _, _ => ⟨S500000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x7x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x6x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S24x7_S7x24_1_0 : S24x7.Transposes [1, 0] S7x24
  transposes_S24x6_S6x24_1_0 : S24x6.Transposes [1, 0] S6x24
  inb_S5000x24_S5000x24_0_0 : ∀ a, (![0, 0] : Fin 2 → Nat) a + S5000x24.size a ≤ S5000x24.size a
  h_S5000x24 : 0 < S5000x24.numel
  transposes_S5000x24_p1_0_S24x5000 : S5000x24.Transposes [1, 0] S24x5000
  inb_S24x7x7_S24x7x7_0_0_0 : ∀ a, (![0, 0, 0] : Fin 3 → Nat) a + S24x7x7.size a ≤ S24x7x7.size a
  h_S24x7x7 : 0 < S24x7x7.numel
  inb_S7x24_S7x24_0_0 : ∀ a, (![0, 0] : Fin 2 → Nat) a + S7x24.size a ≤ S7x24.size a
  h_S7x24 : 0 < S7x24.numel
  shapeCasts_S7x24_S7x24 : S7x24.ShapeCasts S7x24
  inb_S24x6x7_S24x6x7_0_0_0 : ∀ a, (![0, 0, 0] : Fin 3 → Nat) a + S24x6x7.size a ≤ S24x6x7.size a
  h_S24x6x7 : 0 < S24x6x7.numel
  inb_S6x24_S6x24_0_0 : ∀ a, (![0, 0] : Fin 2 → Nat) a + S6x24.size a ≤ S6x24.size a
  h_S6x24 : 0 < S6x24.numel
  shapeCasts_S6x24_S6x24 : S6x24.ShapeCasts S6x24
  slices_S24x5000_o0_0_S1x5000 : S24x5000.Slices ![0, 0] S1x5000
  slices_S24x7x7_o0_0_0_S1x7x7 : S24x7x7.Slices ![0, 0, 0] S1x7x7
  shapeCasts_S1x7x7_S7x7 : S1x7x7.ShapeCasts S7x7
  slices_S7x7_o0_0_S7x1 : S7x7.Slices ![0, 0] S7x1
  broadcasts_S7x1_S7x5000 : S7x1.Broadcasts S7x5000
  broadcasts_S1x5000_S7x5000 : S1x5000.Broadcasts S7x5000
  slices_S7x24_o0_0_S7x1 : S7x24.Slices ![0, 0] S7x1
  slices_S24x6x7_o0_0_0_S1x6x7 : S24x6x7.Slices ![0, 0, 0] S1x6x7
  shapeCasts_S1x6x7_S6x7 : S1x6x7.ShapeCasts S6x7
  slices_S6x24_o0_0_S6x1 : S6x24.Slices ![0, 0] S6x1
  broadcasts_S6x1_S6x5000 : S6x1.Broadcasts S6x5000
  inb_S144x5000_S6x5000_0_0 : ∀ a, (![0, 0] : Fin 2 → Nat) a + S6x5000.size a ≤ S144x5000.size a
  h_S6x5000 : 0 < S6x5000.numel
  shapeCasts_S6x5000_S6x5000 : S6x5000.ShapeCasts S6x5000
  slices_S24x5000_o1_0_S1x5000 : S24x5000.Slices ![1, 0] S1x5000
  slices_S24x7x7_o1_0_0_S1x7x7 : S24x7x7.Slices ![1, 0, 0] S1x7x7
  slices_S7x7_o0_1_S7x6 : S7x7.Slices ![0, 1] S7x6
  slices_S7x24_o0_1_S7x1 : S7x24.Slices ![0, 1] S7x1
  slices_S24x6x7_o1_0_0_S1x6x7 : S24x6x7.Slices ![1, 0, 0] S1x6x7
  slices_S6x24_o0_1_S6x1 : S6x24.Slices ![0, 1] S6x1
  inb_S144x5000_S6x5000_6_0 : ∀ a, (![6, 0] : Fin 2 → Nat) a + S6x5000.size a ≤ S144x5000.size a
  slices_S24x5000_o2_0_S1x5000 : S24x5000.Slices ![2, 0] S1x5000
  slices_S24x7x7_o2_0_0_S1x7x7 : S24x7x7.Slices ![2, 0, 0] S1x7x7
  slices_S7x24_o0_2_S7x1 : S7x24.Slices ![0, 2] S7x1
  slices_S24x6x7_o2_0_0_S1x6x7 : S24x6x7.Slices ![2, 0, 0] S1x6x7
  slices_S6x24_o0_2_S6x1 : S6x24.Slices ![0, 2] S6x1
  inb_S144x5000_S6x5000_12_0 : ∀ a, (![12, 0] : Fin 2 → Nat) a + S6x5000.size a ≤ S144x5000.size a
  slices_S24x5000_o3_0_S1x5000 : S24x5000.Slices ![3, 0] S1x5000
  slices_S24x7x7_o3_0_0_S1x7x7 : S24x7x7.Slices ![3, 0, 0] S1x7x7
  slices_S7x24_o0_3_S7x1 : S7x24.Slices ![0, 3] S7x1
  slices_S24x6x7_o3_0_0_S1x6x7 : S24x6x7.Slices ![3, 0, 0] S1x6x7
  slices_S6x24_o0_3_S6x1 : S6x24.Slices ![0, 3] S6x1
  inb_S144x5000_S6x5000_18_0 : ∀ a, (![18, 0] : Fin 2 → Nat) a + S6x5000.size a ≤ S144x5000.size a
  slices_S24x5000_o4_0_S1x5000 : S24x5000.Slices ![4, 0] S1x5000
  slices_S24x7x7_o4_0_0_S1x7x7 : S24x7x7.Slices ![4, 0, 0] S1x7x7
  slices_S7x24_o0_4_S7x1 : S7x24.Slices ![0, 4] S7x1
  slices_S24x6x7_o4_0_0_S1x6x7 : S24x6x7.Slices ![4, 0, 0] S1x6x7
  slices_S6x24_o0_4_S6x1 : S6x24.Slices ![0, 4] S6x1
  inb_S144x5000_S6x5000_24_0 : ∀ a, (![24, 0] : Fin 2 → Nat) a + S6x5000.size a ≤ S144x5000.size a
  slices_S24x5000_o5_0_S1x5000 : S24x5000.Slices ![5, 0] S1x5000
  slices_S24x7x7_o5_0_0_S1x7x7 : S24x7x7.Slices ![5, 0, 0] S1x7x7
  slices_S7x24_o0_5_S7x1 : S7x24.Slices ![0, 5] S7x1
  slices_S24x6x7_o5_0_0_S1x6x7 : S24x6x7.Slices ![5, 0, 0] S1x6x7
  slices_S6x24_o0_5_S6x1 : S6x24.Slices ![0, 5] S6x1
  inb_S144x5000_S6x5000_30_0 : ∀ a, (![30, 0] : Fin 2 → Nat) a + S6x5000.size a ≤ S144x5000.size a
  slices_S24x5000_o6_0_S1x5000 : S24x5000.Slices ![6, 0] S1x5000
  slices_S24x7x7_o6_0_0_S1x7x7 : S24x7x7.Slices ![6, 0, 0] S1x7x7
  slices_S7x24_o0_6_S7x1 : S7x24.Slices ![0, 6] S7x1
  slices_S24x6x7_o6_0_0_S1x6x7 : S24x6x7.Slices ![6, 0, 0] S1x6x7
  slices_S6x24_o0_6_S6x1 : S6x24.Slices ![0, 6] S6x1
  inb_S144x5000_S6x5000_36_0 : ∀ a, (![36, 0] : Fin 2 → Nat) a + S6x5000.size a ≤ S144x5000.size a
  slices_S24x5000_o7_0_S1x5000 : S24x5000.Slices ![7, 0] S1x5000
  slices_S24x7x7_o7_0_0_S1x7x7 : S24x7x7.Slices ![7, 0, 0] S1x7x7
  slices_S7x24_o0_7_S7x1 : S7x24.Slices ![0, 7] S7x1
  slices_S24x6x7_o7_0_0_S1x6x7 : S24x6x7.Slices ![7, 0, 0] S1x6x7
  slices_S6x24_o0_7_S6x1 : S6x24.Slices ![0, 7] S6x1
  inb_S144x5000_S6x5000_42_0 : ∀ a, (![42, 0] : Fin 2 → Nat) a + S6x5000.size a ≤ S144x5000.size a
  slices_S24x5000_o8_0_S1x5000 : S24x5000.Slices ![8, 0] S1x5000
  slices_S24x7x7_o8_0_0_S1x7x7 : S24x7x7.Slices ![8, 0, 0] S1x7x7
  slices_S7x24_o0_8_S7x1 : S7x24.Slices ![0, 8] S7x1
  slices_S24x6x7_o8_0_0_S1x6x7 : S24x6x7.Slices ![8, 0, 0] S1x6x7
  slices_S6x24_o0_8_S6x1 : S6x24.Slices ![0, 8] S6x1
  inb_S144x5000_S6x5000_48_0 : ∀ a, (![48, 0] : Fin 2 → Nat) a + S6x5000.size a ≤ S144x5000.size a
  slices_S24x5000_o9_0_S1x5000 : S24x5000.Slices ![9, 0] S1x5000
  slices_S24x7x7_o9_0_0_S1x7x7 : S24x7x7.Slices ![9, 0, 0] S1x7x7
  slices_S7x24_o0_9_S7x1 : S7x24.Slices ![0, 9] S7x1
  slices_S24x6x7_o9_0_0_S1x6x7 : S24x6x7.Slices ![9, 0, 0] S1x6x7
  slices_S6x24_o0_9_S6x1 : S6x24.Slices ![0, 9] S6x1
  inb_S144x5000_S6x5000_54_0 : ∀ a, (![54, 0] : Fin 2 → Nat) a + S6x5000.size a ≤ S144x5000.size a
  slices_S24x5000_o10_0_S1x5000 : S24x5000.Slices ![10, 0] S1x5000
  slices_S24x7x7_o10_0_0_S1x7x7 : S24x7x7.Slices ![10, 0, 0] S1x7x7
  slices_S7x24_o0_10_S7x1 : S7x24.Slices ![0, 10] S7x1
  slices_S24x6x7_o10_0_0_S1x6x7 : S24x6x7.Slices ![10, 0, 0] S1x6x7
  slices_S6x24_o0_10_S6x1 : S6x24.Slices ![0, 10] S6x1
  inb_S144x5000_S6x5000_60_0 : ∀ a, (![60, 0] : Fin 2 → Nat) a + S6x5000.size a ≤ S144x5000.size a
  slices_S24x5000_o11_0_S1x5000 : S24x5000.Slices ![11, 0] S1x5000
  slices_S24x7x7_o11_0_0_S1x7x7 : S24x7x7.Slices ![11, 0, 0] S1x7x7
  slices_S7x24_o0_11_S7x1 : S7x24.Slices ![0, 11] S7x1
  slices_S24x6x7_o11_0_0_S1x6x7 : S24x6x7.Slices ![11, 0, 0] S1x6x7
  slices_S6x24_o0_11_S6x1 : S6x24.Slices ![0, 11] S6x1
  inb_S144x5000_S6x5000_66_0 : ∀ a, (![66, 0] : Fin 2 → Nat) a + S6x5000.size a ≤ S144x5000.size a
  slices_S24x5000_o12_0_S1x5000 : S24x5000.Slices ![12, 0] S1x5000
  slices_S24x7x7_o12_0_0_S1x7x7 : S24x7x7.Slices ![12, 0, 0] S1x7x7
  slices_S7x24_o0_12_S7x1 : S7x24.Slices ![0, 12] S7x1
  slices_S24x6x7_o12_0_0_S1x6x7 : S24x6x7.Slices ![12, 0, 0] S1x6x7
  slices_S6x24_o0_12_S6x1 : S6x24.Slices ![0, 12] S6x1
  inb_S144x5000_S6x5000_72_0 : ∀ a, (![72, 0] : Fin 2 → Nat) a + S6x5000.size a ≤ S144x5000.size a
  slices_S24x5000_o13_0_S1x5000 : S24x5000.Slices ![13, 0] S1x5000
  slices_S24x7x7_o13_0_0_S1x7x7 : S24x7x7.Slices ![13, 0, 0] S1x7x7
  slices_S7x24_o0_13_S7x1 : S7x24.Slices ![0, 13] S7x1
  slices_S24x6x7_o13_0_0_S1x6x7 : S24x6x7.Slices ![13, 0, 0] S1x6x7
  slices_S6x24_o0_13_S6x1 : S6x24.Slices ![0, 13] S6x1
  inb_S144x5000_S6x5000_78_0 : ∀ a, (![78, 0] : Fin 2 → Nat) a + S6x5000.size a ≤ S144x5000.size a
  slices_S24x5000_o14_0_S1x5000 : S24x5000.Slices ![14, 0] S1x5000
  slices_S24x7x7_o14_0_0_S1x7x7 : S24x7x7.Slices ![14, 0, 0] S1x7x7
  slices_S7x24_o0_14_S7x1 : S7x24.Slices ![0, 14] S7x1
  slices_S24x6x7_o14_0_0_S1x6x7 : S24x6x7.Slices ![14, 0, 0] S1x6x7
  slices_S6x24_o0_14_S6x1 : S6x24.Slices ![0, 14] S6x1
  inb_S144x5000_S6x5000_84_0 : ∀ a, (![84, 0] : Fin 2 → Nat) a + S6x5000.size a ≤ S144x5000.size a
  slices_S24x5000_o15_0_S1x5000 : S24x5000.Slices ![15, 0] S1x5000
  slices_S24x7x7_o15_0_0_S1x7x7 : S24x7x7.Slices ![15, 0, 0] S1x7x7
  slices_S7x24_o0_15_S7x1 : S7x24.Slices ![0, 15] S7x1
  slices_S24x6x7_o15_0_0_S1x6x7 : S24x6x7.Slices ![15, 0, 0] S1x6x7
  slices_S6x24_o0_15_S6x1 : S6x24.Slices ![0, 15] S6x1
  inb_S144x5000_S6x5000_90_0 : ∀ a, (![90, 0] : Fin 2 → Nat) a + S6x5000.size a ≤ S144x5000.size a
  slices_S24x5000_o16_0_S1x5000 : S24x5000.Slices ![16, 0] S1x5000
  slices_S24x7x7_o16_0_0_S1x7x7 : S24x7x7.Slices ![16, 0, 0] S1x7x7
  slices_S7x24_o0_16_S7x1 : S7x24.Slices ![0, 16] S7x1
  slices_S24x6x7_o16_0_0_S1x6x7 : S24x6x7.Slices ![16, 0, 0] S1x6x7
  slices_S6x24_o0_16_S6x1 : S6x24.Slices ![0, 16] S6x1
  inb_S144x5000_S6x5000_96_0 : ∀ a, (![96, 0] : Fin 2 → Nat) a + S6x5000.size a ≤ S144x5000.size a
  slices_S24x5000_o17_0_S1x5000 : S24x5000.Slices ![17, 0] S1x5000
  slices_S24x7x7_o17_0_0_S1x7x7 : S24x7x7.Slices ![17, 0, 0] S1x7x7
  slices_S7x24_o0_17_S7x1 : S7x24.Slices ![0, 17] S7x1
  slices_S24x6x7_o17_0_0_S1x6x7 : S24x6x7.Slices ![17, 0, 0] S1x6x7
  slices_S6x24_o0_17_S6x1 : S6x24.Slices ![0, 17] S6x1
  inb_S144x5000_S6x5000_102_0 : ∀ a, (![102, 0] : Fin 2 → Nat) a + S6x5000.size a ≤ S144x5000.size a
  slices_S24x5000_o18_0_S1x5000 : S24x5000.Slices ![18, 0] S1x5000
  slices_S24x7x7_o18_0_0_S1x7x7 : S24x7x7.Slices ![18, 0, 0] S1x7x7
  slices_S7x24_o0_18_S7x1 : S7x24.Slices ![0, 18] S7x1
  slices_S24x6x7_o18_0_0_S1x6x7 : S24x6x7.Slices ![18, 0, 0] S1x6x7
  slices_S6x24_o0_18_S6x1 : S6x24.Slices ![0, 18] S6x1
  inb_S144x5000_S6x5000_108_0 : ∀ a, (![108, 0] : Fin 2 → Nat) a + S6x5000.size a ≤ S144x5000.size a
  slices_S24x5000_o19_0_S1x5000 : S24x5000.Slices ![19, 0] S1x5000
  slices_S24x7x7_o19_0_0_S1x7x7 : S24x7x7.Slices ![19, 0, 0] S1x7x7
  slices_S7x24_o0_19_S7x1 : S7x24.Slices ![0, 19] S7x1
  slices_S24x6x7_o19_0_0_S1x6x7 : S24x6x7.Slices ![19, 0, 0] S1x6x7
  slices_S6x24_o0_19_S6x1 : S6x24.Slices ![0, 19] S6x1
  inb_S144x5000_S6x5000_114_0 : ∀ a, (![114, 0] : Fin 2 → Nat) a + S6x5000.size a ≤ S144x5000.size a
  slices_S24x5000_o20_0_S1x5000 : S24x5000.Slices ![20, 0] S1x5000
  slices_S24x7x7_o20_0_0_S1x7x7 : S24x7x7.Slices ![20, 0, 0] S1x7x7
  slices_S7x24_o0_20_S7x1 : S7x24.Slices ![0, 20] S7x1
  slices_S24x6x7_o20_0_0_S1x6x7 : S24x6x7.Slices ![20, 0, 0] S1x6x7
  slices_S6x24_o0_20_S6x1 : S6x24.Slices ![0, 20] S6x1
  inb_S144x5000_S6x5000_120_0 : ∀ a, (![120, 0] : Fin 2 → Nat) a + S6x5000.size a ≤ S144x5000.size a
  slices_S24x5000_o21_0_S1x5000 : S24x5000.Slices ![21, 0] S1x5000
  slices_S24x7x7_o21_0_0_S1x7x7 : S24x7x7.Slices ![21, 0, 0] S1x7x7
  slices_S7x24_o0_21_S7x1 : S7x24.Slices ![0, 21] S7x1
  slices_S24x6x7_o21_0_0_S1x6x7 : S24x6x7.Slices ![21, 0, 0] S1x6x7
  slices_S6x24_o0_21_S6x1 : S6x24.Slices ![0, 21] S6x1
  inb_S144x5000_S6x5000_126_0 : ∀ a, (![126, 0] : Fin 2 → Nat) a + S6x5000.size a ≤ S144x5000.size a
  slices_S24x5000_o22_0_S1x5000 : S24x5000.Slices ![22, 0] S1x5000
  slices_S24x7x7_o22_0_0_S1x7x7 : S24x7x7.Slices ![22, 0, 0] S1x7x7
  slices_S7x24_o0_22_S7x1 : S7x24.Slices ![0, 22] S7x1
  slices_S24x6x7_o22_0_0_S1x6x7 : S24x6x7.Slices ![22, 0, 0] S1x6x7
  slices_S6x24_o0_22_S6x1 : S6x24.Slices ![0, 22] S6x1
  inb_S144x5000_S6x5000_132_0 : ∀ a, (![132, 0] : Fin 2 → Nat) a + S6x5000.size a ≤ S144x5000.size a
  slices_S24x5000_o23_0_S1x5000 : S24x5000.Slices ![23, 0] S1x5000
  slices_S24x7x7_o23_0_0_S1x7x7 : S24x7x7.Slices ![23, 0, 0] S1x7x7
  slices_S7x24_o0_23_S7x1 : S7x24.Slices ![0, 23] S7x1
  slices_S24x6x7_o23_0_0_S1x6x7 : S24x6x7.Slices ![23, 0, 0] S1x6x7
  slices_S6x24_o0_23_S6x1 : S6x24.Slices ![0, 23] S6x1
  inb_S144x5000_S6x5000_138_0 : ∀ a, (![138, 0] : Fin 2 → Nat) a + S6x5000.size a ≤ S144x5000.size a
  inb_S144x5000_S144x5000_0_0 : ∀ a, (![0, 0] : Fin 2 → Nat) a + S144x5000.size a ≤ S144x5000.size a
  h_S144x5000 : 0 < S144x5000.numel
  transposes_S144x5000_p1_0_S5000x144 : S144x5000.Transposes [1, 0] S5000x144
  inb_S5000x144_S5000x144_0_0 : ∀ a, (![0, 0] : Fin 2 → Nat) a + S5000x144.size a ≤ S5000x144.size a
  h_S5000x144 : 0 < S5000x144.numel
  dot_S6x7_S7x5000_S6x5000_1_0_0_1_n_n_wf : DotDims.WF S6x7 S7x5000 S6x5000 [1] [0] [0] [1] [] []
  dot_S7x6_S6x5000_S7x5000_1_0_0_1_n_n_wf : DotDims.WF S7x6 S6x5000 S7x5000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x24.size a ≤ S500000x24.size a
  hwx0_0 : ∀ i : grid0.Coords, EltTy.bits .f32 = 32 ∨ (Rect.block (s := S500000x24) S5000x24.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x7x7.size a ≤ S24x7x7.size a
  hwx0_1 : ∀ i : grid0.Coords, EltTy.bits .f32 = 32 ∨ (Rect.block (s := S24x7x7) S24x7x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x24.size a ≤ S7x24.size a
  hwx0_2 : ∀ i : grid0.Coords, EltTy.bits .f32 = 32 ∨ (Rect.block (s := S7x24) S7x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x6x7.size a ≤ S24x6x7.size a
  hwx0_3 : ∀ i : grid0.Coords, EltTy.bits .f32 = 32 ∨ (Rect.block (s := S24x6x7) S24x6x7.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x24.size a ≤ S6x24.size a
  hwx0_4 : ∀ i : grid0.Coords, EltTy.bits .f32 = 32 ∨ (Rect.block (s := S6x24) S6x24.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x144.size a ≤ S500000x144.size a
  hwx0_5 : ∀ i : grid0.Coords, EltTy.bits .f32 = 32 ∨ (Rect.block (s := S500000x144) S5000x144.size (cc0_transform_5 i) (hinb0_5 i)).WholeWords (EltTy.packing .f32)

variable [Facts₀]

def dot_S6x7_S7x5000_S6x5000_1_0_0_1_n_n : DotDims S6x7 S7x5000 S6x5000 where
  lhsContracting := [1]
  rhsContracting := [0]
  lhsNonContracting := [0]
  rhsNonContracting := [1]
  lhsBatch := []
  rhsBatch := []
  wf := dot_S6x7_S7x5000_S6x5000_1_0_0_1_n_n_wf
def dot_S7x6_S6x5000_S7x5000_1_0_0_1_n_n : DotDims S7x6 S6x5000 S7x5000 where
  lhsContracting := [1]
  rhsContracting := [0]
  lhsNonContracting := [0]
  rhsNonContracting := [1]
  lhsBatch := []
  rhsBatch := []
  wf := dot_S7x6_S6x5000_S7x5000_1_0_0_1_n_n_wf

abbrev win0_0 : Pipeline.Window sig grid0 :=
  Pipeline.Window.ofSpec (Memref.whole main_arg0) S5000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S24x7x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S7x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S24x6x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S6x24.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5000x144.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S500000x24 : Shape := ⟨2, ![500000, 24]⟩
abbrev S24x7x7 : Shape := ⟨3, ![24, 7, 7]⟩
abbrev S24x7 : Shape := ⟨2, ![24, 7]⟩
abbrev S24x6x7 : Shape := ⟨3, ![24, 6, 7]⟩
abbrev S24x6 : Shape := ⟨2, ![24, 6]⟩
abbrev S_ : Shape := ⟨0, ![]⟩
abbrev S500000x6 : Shape := ⟨2, ![500000, 6]⟩
abbrev S500000x1 : Shape := ⟨2, ![500000, 1]⟩
abbrev S500000 : Shape := ⟨1, ![500000]⟩
abbrev S500000x7 : Shape := ⟨2, ![500000, 7]⟩
abbrev S1x7x7 : Shape := ⟨3, ![1, 7, 7]⟩
abbrev S7x7 : Shape := ⟨2, ![7, 7]⟩
abbrev S1x7 : Shape := ⟨2, ![1, 7]⟩
abbrev S7 : Shape := ⟨1, ![7]⟩
abbrev S1x6x7 : Shape := ⟨3, ![1, 6, 7]⟩
abbrev S6x7 : Shape := ⟨2, ![6, 7]⟩
abbrev S7x6 : Shape := ⟨2, ![7, 6]⟩
abbrev S1x6 : Shape := ⟨2, ![1, 6]⟩
abbrev S6 : Shape := ⟨1, ![6]⟩
abbrev S500000x96 : Shape := ⟨2, ![500000, 96]⟩
abbrev S500000x48 : Shape := ⟨2, ![500000, 48]⟩
abbrev S500000x144 : Shape := ⟨2, ![500000, 144]⟩

abbrev nBuf : Space → Nat
  | .hbm => 682
  | .vmem => 0
  | .smem => 0
  | _ => 0

abbrev hbmTy0_0 (i : Nat) : BufTy := match i % 128 with
  | 0 => ⟨S500000x24, .f32⟩
  | 1 => ⟨S24x7x7, .f32⟩
  | 2 => ⟨S24x7, .f32⟩
  | 3 => ⟨S24x6x7, .f32⟩
  | 4 => ⟨S24x6, .f32⟩
  | 5 => ⟨S_, .f32⟩
  | 6 => ⟨S500000x6, .f32⟩
  | 7 => ⟨S500000x1, .f32⟩
  | 8 => ⟨S500000, .f32⟩
  | 9 => ⟨S500000x1, .f32⟩
  | 10 => ⟨S500000x7, .f32⟩
  | 11 => ⟨S1x7x7, .f32⟩
  | 12 => ⟨S7x7, .f32⟩
  | 13 => ⟨S7x7, .f32⟩
  | 14 => ⟨S500000x7, .f32⟩
  | 15 => ⟨S1x7, .f32⟩
  | 16 => ⟨S7, .f32⟩
  | 17 => ⟨S1x7, .f32⟩
  | 18 => ⟨S500000x7, .f32⟩
  | 19 => ⟨S500000x7, .f32⟩
  | 20 => ⟨S_, .f32⟩
  | 21 => ⟨S500000x7, .f32⟩
  | 22 => ⟨S500000x7, .f32⟩
  | 23 => ⟨S1x6x7, .f32⟩
  | 24 => ⟨S6x7, .f32⟩
  | 25 => ⟨S7x6, .f32⟩
  | 26 => ⟨S500000x6, .f32⟩
  | 27 => ⟨S1x6, .f32⟩
  | 28 => ⟨S6, .f32⟩
  | 29 => ⟨S1x6, .f32⟩
  | 30 => ⟨S500000x6, .f32⟩
  | 31 => ⟨S500000x6, .f32⟩
  | 32 => ⟨S_, .f32⟩
  | 33 => ⟨S500000x6, .f32⟩
  | 34 => ⟨S500000x6, .f32⟩
  | 35 => ⟨S500000x1, .f32⟩
  | 36 => ⟨S500000, .f32⟩
  | 37 => ⟨S500000x1, .f32⟩
  | 38 => ⟨S500000x7, .f32⟩
  | 39 => ⟨S1x7x7, .f32⟩
  | 40 => ⟨S7x7, .f32⟩
  | 41 => ⟨S7x7, .f32⟩
  | 42 => ⟨S500000x7, .f32⟩
  | 43 => ⟨S1x7, .f32⟩
  | 44 => ⟨S7, .f32⟩
  | 45 => ⟨S1x7, .f32⟩
  | 46 => ⟨S500000x7, .f32⟩
  | 47 => ⟨S500000x7, .f32⟩
  | 48 => ⟨S_, .f32⟩
  | 49 => ⟨S500000x7, .f32⟩
  | 50 => ⟨S500000x7, .f32⟩
  | 51 => ⟨S1x6x7, .f32⟩
  | 52 => ⟨S6x7, .f32⟩
  | 53 => ⟨S7x6, .f32⟩
  | 54 => ⟨S500000x6, .f32⟩
  | 55 => ⟨S1x6, .f32⟩
  | 56 => ⟨S6, .f32⟩
  | 57 => ⟨S1x6, .f32⟩
  | 58 => ⟨S500000x6, .f32⟩
  | 59 => ⟨S500000x6, .f32⟩
  | 60 => ⟨S_, .f32⟩
  | 61 => ⟨S500000x6, .f32⟩
  | 62 => ⟨S500000x6, .f32⟩
  | 63 => ⟨S500000x1, .f32⟩
  | 64 => ⟨S500000, .f32⟩
  | 65 => ⟨S500000x1, .f32⟩
  | 66 => ⟨S500000x7, .f32⟩
  | 67 => ⟨S1x7x7, .f32⟩
  | 68 => ⟨S7x7, .f32⟩
  | 69 => ⟨S7x7, .f32⟩
  | 70 => ⟨S500000x7, .f32⟩
  | 71 => ⟨S1x7, .f32⟩
  | 72 => ⟨S7, .f32⟩
  | 73 => ⟨S1x7, .f32⟩
  | 74 => ⟨S500000x7, .f32⟩
  | 75 => ⟨S500000x7, .f32⟩
  | 76 => ⟨S_, .f32⟩
  | 77 => ⟨S500000x7, .f32⟩
  | 78 => ⟨S500000x7, .f32⟩
  | 79 => ⟨S1x6x7, .f32⟩
  | 80 => ⟨S6x7, .f32⟩
  | 81 => ⟨S7x6, .f32⟩
  | 82 => ⟨S500000x6, .f32⟩
  | 83 => ⟨S1x6, .f32⟩
  | 84 => ⟨S6, .f32⟩
  | 85 => ⟨S1x6, .f32⟩
  | 86 => ⟨S500000x6, .f32⟩
  | 87 => ⟨S500000x6, .f32⟩
  | 88 => ⟨S_, .f32⟩
  | 89 => ⟨S500000x6, .f32⟩
  | 90 => ⟨S500000x6, .f32⟩
  | 91 => ⟨S500000x1, .f32⟩
  | 92 => ⟨S500000, .f32⟩
  | 93 => ⟨S500000x1, .f32⟩
  | 94 => ⟨S500000x7, .f32⟩
  | 95 => ⟨S1x7x7, .f32⟩
  | 96 => ⟨S7x7, .f32⟩
  | 97 => ⟨S7x7, .f32⟩
  | 98 => ⟨S500000x7, .f32⟩
  | 99 => ⟨S1x7, .f32⟩
  | 100 => ⟨S7, .f32⟩
  | 101 => ⟨S1x7, .f32⟩
  | 102 => ⟨S500000x7, .f32⟩
  | 103 => ⟨S500000x7, .f32⟩
  | 104 => ⟨S_, .f32⟩
  | 105 => ⟨S500000x7, .f32⟩
  | 106 => ⟨S500000x7, .f32⟩
  | 107 => ⟨S1x6x7, .f32⟩
  | 108 => ⟨S6x7, .f32⟩
  | 109 => ⟨S7x6, .f32⟩
  | 110 => ⟨S500000x6, .f32⟩
  | 111 => ⟨S1x6, .f32⟩
  | 112 => ⟨S6, .f32⟩
  | 113 => ⟨S1x6, .f32⟩
  | 114 => ⟨S500000x6, .f32⟩
  | 115 => ⟨S500000x6, .f32⟩
  | 116 => ⟨S_, .f32⟩
  | 117 => ⟨S500000x6, .f32⟩
  | 118 => ⟨S500000x6, .f32⟩
  | 119 => ⟨S500000x1, .f32⟩
  | 120 => ⟨S500000, .f32⟩
  | 121 => ⟨S500000x1, .f32⟩
  | 122 => ⟨S500000x7, .f32⟩
  | 123 => ⟨S1x7x7, .f32⟩
  | 124 => ⟨S7x7, .f32⟩
  | 125 => ⟨S7x7, .f32⟩
  | 126 => ⟨S500000x7, .f32⟩
  | 127 => ⟨S1x7, .f32⟩
  | _ => ⟨S500000x24, .f32⟩

abbrev hbmTy0_1 (i : Nat) : BufTy := match i % 128 with
  | 0 => ⟨S7, .f32⟩
  | 1 => ⟨S1x7, .f32⟩
  | 2 => ⟨S500000x7, .f32⟩
  | 3 => ⟨S500000x7, .f32⟩
  | 4 => ⟨S_, .f32⟩
  | 5 => ⟨S500000x7, .f32⟩
  | 6 => ⟨S500000x7, .f32⟩
  | 7 => ⟨S1x6x7, .f32⟩
  | 8 => ⟨S6x7, .f32⟩
  | 9 => ⟨S7x6, .f32⟩
  | 10 => ⟨S500000x6, .f32⟩
  | 11 => ⟨S1x6, .f32⟩
  | 12 => ⟨S6, .f32⟩
  | 13 => ⟨S1x6, .f32⟩
  | 14 => ⟨S500000x6, .f32⟩
  | 15 => ⟨S500000x6, .f32⟩
  | 16 => ⟨S_, .f32⟩
  | 17 => ⟨S500000x6, .f32⟩
  | 18 => ⟨S500000x6, .f32⟩
  | 19 => ⟨S500000x1, .f32⟩
  | 20 => ⟨S500000, .f32⟩
  | 21 => ⟨S500000x1, .f32⟩
  | 22 => ⟨S500000x7, .f32⟩
  | 23 => ⟨S1x7x7, .f32⟩
  | 24 => ⟨S7x7, .f32⟩
  | 25 => ⟨S7x7, .f32⟩
  | 26 => ⟨S500000x7, .f32⟩
  | 27 => ⟨S1x7, .f32⟩
  | 28 => ⟨S7, .f32⟩
  | 29 => ⟨S1x7, .f32⟩
  | 30 => ⟨S500000x7, .f32⟩
  | 31 => ⟨S500000x7, .f32⟩
  | 32 => ⟨S_, .f32⟩
  | 33 => ⟨S500000x7, .f32⟩
  | 34 => ⟨S500000x7, .f32⟩
  | 35 => ⟨S1x6x7, .f32⟩
  | 36 => ⟨S6x7, .f32⟩
  | 37 => ⟨S7x6, .f32⟩
  | 38 => ⟨S500000x6, .f32⟩
  | 39 => ⟨S1x6, .f32⟩
  | 40 => ⟨S6, .f32⟩
  | 41 => ⟨S1x6, .f32⟩
  | 42 => ⟨S500000x6, .f32⟩
  | 43 => ⟨S500000x6, .f32⟩
  | 44 => ⟨S_, .f32⟩
  | 45 => ⟨S500000x6, .f32⟩
  | 46 => ⟨S500000x6, .f32⟩
  | 47 => ⟨S500000x1, .f32⟩
  | 48 => ⟨S500000, .f32⟩
  | 49 => ⟨S500000x1, .f32⟩
  | 50 => ⟨S500000x7, .f32⟩
  | 51 => ⟨S1x7x7, .f32⟩
  | 52 => ⟨S7x7, .f32⟩
  | 53 => ⟨S7x7, .f32⟩
  | 54 => ⟨S500000x7, .f32⟩
  | 55 => ⟨S1x7, .f32⟩
  | 56 => ⟨S7, .f32⟩
  | 57 => ⟨S1x7, .f32⟩
  | 58 => ⟨S500000x7, .f32⟩
  | 59 => ⟨S500000x7, .f32⟩
  | 60 => ⟨S_, .f32⟩
  | 61 => ⟨S500000x7, .f32⟩
  | 62 => ⟨S500000x7, .f32⟩
  | 63 => ⟨S1x6x7, .f32⟩
  | 64 => ⟨S6x7, .f32⟩
  | 65 => ⟨S7x6, .f32⟩
  | 66 => ⟨S500000x6, .f32⟩
  | 67 => ⟨S1x6, .f32⟩
  | 68 => ⟨S6, .f32⟩
  | 69 => ⟨S1x6, .f32⟩
  | 70 => ⟨S500000x6, .f32⟩
  | 71 => ⟨S500000x6, .f32⟩
  | 72 => ⟨S_, .f32⟩
  | 73 => ⟨S500000x6, .f32⟩
  | 74 => ⟨S500000x6, .f32⟩
  | 75 => ⟨S500000x1, .f32⟩
  | 76 => ⟨S500000, .f32⟩
  | 77 => ⟨S500000x1, .f32⟩
  | 78 => ⟨S500000x7, .f32⟩
  | 79 => ⟨S1x7x7, .f32⟩
  | 80 => ⟨S7x7, .f32⟩
  | 81 => ⟨S7x7, .f32⟩
  | 82 => ⟨S500000x7, .f32⟩
  | 83 => ⟨S1x7, .f32⟩
  | 84 => ⟨S7, .f32⟩
  | 85 => ⟨S1x7, .f32⟩
  | 86 => ⟨S500000x7, .f32⟩
  | 87 => ⟨S500000x7, .f32⟩
  | 88 => ⟨S_, .f32⟩
  | 89 => ⟨S500000x7, .f32⟩
  | 90 => ⟨S500000x7, .f32⟩
  | 91 => ⟨S1x6x7, .f32⟩
  | 92 => ⟨S6x7, .f32⟩
  | 93 => ⟨S7x6, .f32⟩
  | 94 => ⟨S500000x6, .f32⟩
  | 95 => ⟨S1x6, .f32⟩
  | 96 => ⟨S6, .f32⟩
  | 97 => ⟨S1x6, .f32⟩
  | 98 => ⟨S500000x6, .f32⟩
  | 99 => ⟨S500000x6, .f32⟩
  | 100 => ⟨S_, .f32⟩
  | 101 => ⟨S500000x6, .f32⟩
  | 102 => ⟨S500000x6, .f32⟩
  | 103 => ⟨S500000x1, .f32⟩
  | 104 => ⟨S500000, .f32⟩
  | 105 => ⟨S500000x1, .f32⟩
  | 106 => ⟨S500000x7, .f32⟩
  | 107 => ⟨S1x7x7, .f32⟩
  | 108 => ⟨S7x7, .f32⟩
  | 109 => ⟨S7x7, .f32⟩
  | 110 => ⟨S500000x7, .f32⟩
  | 111 => ⟨S1x7, .f32⟩
  | 112 => ⟨S7, .f32⟩
  | 113 => ⟨S1x7, .f32⟩
  | 114 => ⟨S500000x7, .f32⟩
  | 115 => ⟨S500000x7, .f32⟩
  | 116 => ⟨S_, .f32⟩
  | 117 => ⟨S500000x7, .f32⟩
  | 118 => ⟨S500000x7, .f32⟩
  | 119 => ⟨S1x6x7, .f32⟩
  | 120 => ⟨S6x7, .f32⟩
  | 121 => ⟨S7x6, .f32⟩
  | 122 => ⟨S500000x6, .f32⟩
  | 123 => ⟨S1x6, .f32⟩
  | 124 => ⟨S6, .f32⟩
  | 125 => ⟨S1x6, .f32⟩
  | 126 => ⟨S500000x6, .f32⟩
  | 127 => ⟨S500000x6, .f32⟩
  | _ => ⟨S500000x24, .f32⟩

abbrev hbmTy0_2 (i : Nat) : BufTy := match i % 128 with
  | 0 => ⟨S_, .f32⟩
  | 1 => ⟨S500000x6, .f32⟩
  | 2 => ⟨S500000x6, .f32⟩
  | 3 => ⟨S500000x1, .f32⟩
  | 4 => ⟨S500000, .f32⟩
  | 5 => ⟨S500000x1, .f32⟩
  | 6 => ⟨S500000x7, .f32⟩
  | 7 => ⟨S1x7x7, .f32⟩
  | 8 => ⟨S7x7, .f32⟩
  | 9 => ⟨S7x7, .f32⟩
  | 10 => ⟨S500000x7, .f32⟩
  | 11 => ⟨S1x7, .f32⟩
  | 12 => ⟨S7, .f32⟩
  | 13 => ⟨S1x7, .f32⟩
  | 14 => ⟨S500000x7, .f32⟩
  | 15 => ⟨S500000x7, .f32⟩
  | 16 => ⟨S_, .f32⟩
  | 17 => ⟨S500000x7, .f32⟩
  | 18 => ⟨S500000x7, .f32⟩
  | 19 => ⟨S1x6x7, .f32⟩
  | 20 => ⟨S6x7, .f32⟩
  | 21 => ⟨S7x6, .f32⟩
  | 22 => ⟨S500000x6, .f32⟩
  | 23 => ⟨S1x6, .f32⟩
  | 24 => ⟨S6, .f32⟩
  | 25 => ⟨S1x6, .f32⟩
  | 26 => ⟨S500000x6, .f32⟩
  | 27 => ⟨S500000x6, .f32⟩
  | 28 => ⟨S_, .f32⟩
  | 29 => ⟨S500000x6, .f32⟩
  | 30 => ⟨S500000x6, .f32⟩
  | 31 => ⟨S500000x1, .f32⟩
  | 32 => ⟨S500000, .f32⟩
  | 33 => ⟨S500000x1, .f32⟩
  | 34 => ⟨S500000x7, .f32⟩
  | 35 => ⟨S1x7x7, .f32⟩
  | 36 => ⟨S7x7, .f32⟩
  | 37 => ⟨S7x7, .f32⟩
  | 38 => ⟨S500000x7, .f32⟩
  | 39 => ⟨S1x7, .f32⟩
  | 40 => ⟨S7, .f32⟩
  | 41 => ⟨S1x7, .f32⟩
  | 42 => ⟨S500000x7, .f32⟩
  | 43 => ⟨S500000x7, .f32⟩
  | 44 => ⟨S_, .f32⟩
  | 45 => ⟨S500000x7, .f32⟩
  | 46 => ⟨S500000x7, .f32⟩
  | 47 => ⟨S1x6x7, .f32⟩
  | 48 => ⟨S6x7, .f32⟩
  | 49 => ⟨S7x6, .f32⟩
  | 50 => ⟨S500000x6, .f32⟩
  | 51 => ⟨S1x6, .f32⟩
  | 52 => ⟨S6, .f32⟩
  | 53 => ⟨S1x6, .f32⟩
  | 54 => ⟨S500000x6, .f32⟩
  | 55 => ⟨S500000x6, .f32⟩
  | 56 => ⟨S_, .f32⟩
  | 57 => ⟨S500000x6, .f32⟩
  | 58 => ⟨S500000x6, .f32⟩
  | 59 => ⟨S500000x1, .f32⟩
  | 60 => ⟨S500000, .f32⟩
  | 61 => ⟨S500000x1, .f32⟩
  | 62 => ⟨S500000x7, .f32⟩
  | 63 => ⟨S1x7x7, .f32⟩
  | 64 => ⟨S7x7, .f32⟩
  | 65 => ⟨S7x7, .f32⟩
  | 66 => ⟨S500000x7, .f32⟩
  | 67 => ⟨S1x7, .f32⟩
  | 68 => ⟨S7, .f32⟩
  | 69 => ⟨S1x7, .f32⟩
  | 70 => ⟨S500000x7, .f32⟩
  | 71 => ⟨S500000x7, .f32⟩
  | 72 => ⟨S_, .f32⟩
  | 73 => ⟨S500000x7, .f32⟩
  | 74 => ⟨S500000x7, .f32⟩
  | 75 => ⟨S1x6x7, .f32⟩
  | 76 => ⟨S6x7, .f32⟩
  | 77 => ⟨S7x6, .f32⟩
  | 78 => ⟨S500000x6, .f32⟩
  | 79 => ⟨S1x6, .f32⟩
  | 80 => ⟨S6, .f32⟩
  | 81 => ⟨S1x6, .f32⟩
  | 82 => ⟨S500000x6, .f32⟩
  | 83 => ⟨S500000x6, .f32⟩
  | 84 => ⟨S_, .f32⟩
  | 85 => ⟨S500000x6, .f32⟩
  | 86 => ⟨S500000x6, .f32⟩
  | 87 => ⟨S500000x1, .f32⟩
  | 88 => ⟨S500000, .f32⟩
  | 89 => ⟨S500000x1, .f32⟩
  | 90 => ⟨S500000x7, .f32⟩
  | 91 => ⟨S1x7x7, .f32⟩
  | 92 => ⟨S7x7, .f32⟩
  | 93 => ⟨S7x7, .f32⟩
  | 94 => ⟨S500000x7, .f32⟩
  | 95 => ⟨S1x7, .f32⟩
  | 96 => ⟨S7, .f32⟩
  | 97 => ⟨S1x7, .f32⟩
  | 98 => ⟨S500000x7, .f32⟩
  | 99 => ⟨S500000x7, .f32⟩
  | 100 => ⟨S_, .f32⟩
  | 101 => ⟨S500000x7, .f32⟩
  | 102 => ⟨S500000x7, .f32⟩
  | 103 => ⟨S1x6x7, .f32⟩
  | 104 => ⟨S6x7, .f32⟩
  | 105 => ⟨S7x6, .f32⟩
  | 106 => ⟨S500000x6, .f32⟩
  | 107 => ⟨S1x6, .f32⟩
  | 108 => ⟨S6, .f32⟩
  | 109 => ⟨S1x6, .f32⟩
  | 110 => ⟨S500000x6, .f32⟩
  | 111 => ⟨S500000x6, .f32⟩
  | 112 => ⟨S_, .f32⟩
  | 113 => ⟨S500000x6, .f32⟩
  | 114 => ⟨S500000x6, .f32⟩
  | 115 => ⟨S500000x1, .f32⟩
  | 116 => ⟨S500000, .f32⟩
  | 117 => ⟨S500000x1, .f32⟩
  | 118 => ⟨S500000x7, .f32⟩
  | 119 => ⟨S1x7x7, .f32⟩
  | 120 => ⟨S7x7, .f32⟩
  | 121 => ⟨S7x7, .f32⟩
  | 122 => ⟨S500000x7, .f32⟩
  | 123 => ⟨S1x7, .f32⟩
  | 124 => ⟨S7, .f32⟩
  | 125 => ⟨S1x7, .f32⟩
  | 126 => ⟨S500000x7, .f32⟩
  | 127 => ⟨S500000x7, .f32⟩
  | _ => ⟨S500000x24, .f32⟩

abbrev hbmTy0_3 (i : Nat) : BufTy := match i % 128 with
  | 0 => ⟨S_, .f32⟩
  | 1 => ⟨S500000x7, .f32⟩
  | 2 => ⟨S500000x7, .f32⟩
  | 3 => ⟨S1x6x7, .f32⟩
  | 4 => ⟨S6x7, .f32⟩
  | 5 => ⟨S7x6, .f32⟩
  | 6 => ⟨S500000x6, .f32⟩
  | 7 => ⟨S1x6, .f32⟩
  | 8 => ⟨S6, .f32⟩
  | 9 => ⟨S1x6, .f32⟩
  | 10 => ⟨S500000x6, .f32⟩
  | 11 => ⟨S500000x6, .f32⟩
  | 12 => ⟨S_, .f32⟩
  | 13 => ⟨S500000x6, .f32⟩
  | 14 => ⟨S500000x6, .f32⟩
  | 15 => ⟨S500000x1, .f32⟩
  | 16 => ⟨S500000, .f32⟩
  | 17 => ⟨S500000x1, .f32⟩
  | 18 => ⟨S500000x7, .f32⟩
  | 19 => ⟨S1x7x7, .f32⟩
  | 20 => ⟨S7x7, .f32⟩
  | 21 => ⟨S7x7, .f32⟩
  | 22 => ⟨S500000x7, .f32⟩
  | 23 => ⟨S1x7, .f32⟩
  | 24 => ⟨S7, .f32⟩
  | 25 => ⟨S1x7, .f32⟩
  | 26 => ⟨S500000x7, .f32⟩
  | 27 => ⟨S500000x7, .f32⟩
  | 28 => ⟨S_, .f32⟩
  | 29 => ⟨S500000x7, .f32⟩
  | 30 => ⟨S500000x7, .f32⟩
  | 31 => ⟨S1x6x7, .f32⟩
  | 32 => ⟨S6x7, .f32⟩
  | 33 => ⟨S7x6, .f32⟩
  | 34 => ⟨S500000x6, .f32⟩
  | 35 => ⟨S1x6, .f32⟩
  | 36 => ⟨S6, .f32⟩
  | 37 => ⟨S1x6, .f32⟩
  | 38 => ⟨S500000x6, .f32⟩
  | 39 => ⟨S500000x6, .f32⟩
  | 40 => ⟨S_, .f32⟩
  | 41 => ⟨S500000x6, .f32⟩
  | 42 => ⟨S500000x6, .f32⟩
  | 43 => ⟨S500000x1, .f32⟩
  | 44 => ⟨S500000, .f32⟩
  | 45 => ⟨S500000x1, .f32⟩
  | 46 => ⟨S500000x7, .f32⟩
  | 47 => ⟨S1x7x7, .f32⟩
  | 48 => ⟨S7x7, .f32⟩
  | 49 => ⟨S7x7, .f32⟩
  | 50 => ⟨S500000x7, .f32⟩
  | 51 => ⟨S1x7, .f32⟩
  | 52 => ⟨S7, .f32⟩
  | 53 => ⟨S1x7, .f32⟩
  | 54 => ⟨S500000x7, .f32⟩
  | 55 => ⟨S500000x7, .f32⟩
  | 56 => ⟨S_, .f32⟩
  | 57 => ⟨S500000x7, .f32⟩
  | 58 => ⟨S500000x7, .f32⟩
  | 59 => ⟨S1x6x7, .f32⟩
  | 60 => ⟨S6x7, .f32⟩
  | 61 => ⟨S7x6, .f32⟩
  | 62 => ⟨S500000x6, .f32⟩
  | 63 => ⟨S1x6, .f32⟩
  | 64 => ⟨S6, .f32⟩
  | 65 => ⟨S1x6, .f32⟩
  | 66 => ⟨S500000x6, .f32⟩
  | 67 => ⟨S500000x6, .f32⟩
  | 68 => ⟨S_, .f32⟩
  | 69 => ⟨S500000x6, .f32⟩
  | 70 => ⟨S500000x6, .f32⟩
  | 71 => ⟨S500000x1, .f32⟩
  | 72 => ⟨S500000, .f32⟩
  | 73 => ⟨S500000x1, .f32⟩
  | 74 => ⟨S500000x7, .f32⟩
  | 75 => ⟨S1x7x7, .f32⟩
  | 76 => ⟨S7x7, .f32⟩
  | 77 => ⟨S7x7, .f32⟩
  | 78 => ⟨S500000x7, .f32⟩
  | 79 => ⟨S1x7, .f32⟩
  | 80 => ⟨S7, .f32⟩
  | 81 => ⟨S1x7, .f32⟩
  | 82 => ⟨S500000x7, .f32⟩
  | 83 => ⟨S500000x7, .f32⟩
  | 84 => ⟨S_, .f32⟩
  | 85 => ⟨S500000x7, .f32⟩
  | 86 => ⟨S500000x7, .f32⟩
  | 87 => ⟨S1x6x7, .f32⟩
  | 88 => ⟨S6x7, .f32⟩
  | 89 => ⟨S7x6, .f32⟩
  | 90 => ⟨S500000x6, .f32⟩
  | 91 => ⟨S1x6, .f32⟩
  | 92 => ⟨S6, .f32⟩
  | 93 => ⟨S1x6, .f32⟩
  | 94 => ⟨S500000x6, .f32⟩
  | 95 => ⟨S500000x6, .f32⟩
  | 96 => ⟨S_, .f32⟩
  | 97 => ⟨S500000x6, .f32⟩
  | 98 => ⟨S500000x6, .f32⟩
  | 99 => ⟨S500000x1, .f32⟩
  | 100 => ⟨S500000, .f32⟩
  | 101 => ⟨S500000x1, .f32⟩
  | 102 => ⟨S500000x7, .f32⟩
  | 103 => ⟨S1x7x7, .f32⟩
  | 104 => ⟨S7x7, .f32⟩
  | 105 => ⟨S7x7, .f32⟩
  | 106 => ⟨S500000x7, .f32⟩
  | 107 => ⟨S1x7, .f32⟩
  | 108 => ⟨S7, .f32⟩
  | 109 => ⟨S1x7, .f32⟩
  | 110 => ⟨S500000x7, .f32⟩
  | 111 => ⟨S500000x7, .f32⟩
  | 112 => ⟨S_, .f32⟩
  | 113 => ⟨S500000x7, .f32⟩
  | 114 => ⟨S500000x7, .f32⟩
  | 115 => ⟨S1x6x7, .f32⟩
  | 116 => ⟨S6x7, .f32⟩
  | 117 => ⟨S7x6, .f32⟩
  | 118 => ⟨S500000x6, .f32⟩
  | 119 => ⟨S1x6, .f32⟩
  | 120 => ⟨S6, .f32⟩
  | 121 => ⟨S1x6, .f32⟩
  | 122 => ⟨S500000x6, .f32⟩
  | 123 => ⟨S500000x6, .f32⟩
  | 124 => ⟨S_, .f32⟩
  | 125 => ⟨S500000x6, .f32⟩
  | 126 => ⟨S500000x6, .f32⟩
  | 127 => ⟨S500000x1, .f32⟩
  | _ => ⟨S500000x24, .f32⟩

abbrev hbmTy0_4 (i : Nat) : BufTy := match i % 128 with
  | 0 => ⟨S500000, .f32⟩
  | 1 => ⟨S500000x1, .f32⟩
  | 2 => ⟨S500000x7, .f32⟩
  | 3 => ⟨S1x7x7, .f32⟩
  | 4 => ⟨S7x7, .f32⟩
  | 5 => ⟨S7x7, .f32⟩
  | 6 => ⟨S500000x7, .f32⟩
  | 7 => ⟨S1x7, .f32⟩
  | 8 => ⟨S7, .f32⟩
  | 9 => ⟨S1x7, .f32⟩
  | 10 => ⟨S500000x7, .f32⟩
  | 11 => ⟨S500000x7, .f32⟩
  | 12 => ⟨S_, .f32⟩
  | 13 => ⟨S500000x7, .f32⟩
  | 14 => ⟨S500000x7, .f32⟩
  | 15 => ⟨S1x6x7, .f32⟩
  | 16 => ⟨S6x7, .f32⟩
  | 17 => ⟨S7x6, .f32⟩
  | 18 => ⟨S500000x6, .f32⟩
  | 19 => ⟨S1x6, .f32⟩
  | 20 => ⟨S6, .f32⟩
  | 21 => ⟨S1x6, .f32⟩
  | 22 => ⟨S500000x6, .f32⟩
  | 23 => ⟨S500000x6, .f32⟩
  | 24 => ⟨S_, .f32⟩
  | 25 => ⟨S500000x6, .f32⟩
  | 26 => ⟨S500000x6, .f32⟩
  | 27 => ⟨S500000x1, .f32⟩
  | 28 => ⟨S500000, .f32⟩
  | 29 => ⟨S500000x1, .f32⟩
  | 30 => ⟨S500000x7, .f32⟩
  | 31 => ⟨S1x7x7, .f32⟩
  | 32 => ⟨S7x7, .f32⟩
  | 33 => ⟨S7x7, .f32⟩
  | 34 => ⟨S500000x7, .f32⟩
  | 35 => ⟨S1x7, .f32⟩
  | 36 => ⟨S7, .f32⟩
  | 37 => ⟨S1x7, .f32⟩
  | 38 => ⟨S500000x7, .f32⟩
  | 39 => ⟨S500000x7, .f32⟩
  | 40 => ⟨S_, .f32⟩
  | 41 => ⟨S500000x7, .f32⟩
  | 42 => ⟨S500000x7, .f32⟩
  | 43 => ⟨S1x6x7, .f32⟩
  | 44 => ⟨S6x7, .f32⟩
  | 45 => ⟨S7x6, .f32⟩
  | 46 => ⟨S500000x6, .f32⟩
  | 47 => ⟨S1x6, .f32⟩
  | 48 => ⟨S6, .f32⟩
  | 49 => ⟨S1x6, .f32⟩
  | 50 => ⟨S500000x6, .f32⟩
  | 51 => ⟨S500000x6, .f32⟩
  | 52 => ⟨S_, .f32⟩
  | 53 => ⟨S500000x6, .f32⟩
  | 54 => ⟨S500000x6, .f32⟩
  | 55 => ⟨S500000x1, .f32⟩
  | 56 => ⟨S500000, .f32⟩
  | 57 => ⟨S500000x1, .f32⟩
  | 58 => ⟨S500000x7, .f32⟩
  | 59 => ⟨S1x7x7, .f32⟩
  | 60 => ⟨S7x7, .f32⟩
  | 61 => ⟨S7x7, .f32⟩
  | 62 => ⟨S500000x7, .f32⟩
  | 63 => ⟨S1x7, .f32⟩
  | 64 => ⟨S7, .f32⟩
  | 65 => ⟨S1x7, .f32⟩
  | 66 => ⟨S500000x7, .f32⟩
  | 67 => ⟨S500000x7, .f32⟩
  | 68 => ⟨S_, .f32⟩
  | 69 => ⟨S500000x7, .f32⟩
  | 70 => ⟨S500000x7, .f32⟩
  | 71 => ⟨S1x6x7, .f32⟩
  | 72 => ⟨S6x7, .f32⟩
  | 73 => ⟨S7x6, .f32⟩
  | 74 => ⟨S500000x6, .f32⟩
  | 75 => ⟨S1x6, .f32⟩
  | 76 => ⟨S6, .f32⟩
  | 77 => ⟨S1x6, .f32⟩
  | 78 => ⟨S500000x6, .f32⟩
  | 79 => ⟨S500000x6, .f32⟩
  | 80 => ⟨S_, .f32⟩
  | 81 => ⟨S500000x6, .f32⟩
  | 82 => ⟨S500000x6, .f32⟩
  | 83 => ⟨S500000x1, .f32⟩
  | 84 => ⟨S500000, .f32⟩
  | 85 => ⟨S500000x1, .f32⟩
  | 86 => ⟨S500000x7, .f32⟩
  | 87 => ⟨S1x7x7, .f32⟩
  | 88 => ⟨S7x7, .f32⟩
  | 89 => ⟨S7x7, .f32⟩
  | 90 => ⟨S500000x7, .f32⟩
  | 91 => ⟨S1x7, .f32⟩
  | 92 => ⟨S7, .f32⟩
  | 93 => ⟨S1x7, .f32⟩
  | 94 => ⟨S500000x7, .f32⟩
  | 95 => ⟨S500000x7, .f32⟩
  | 96 => ⟨S_, .f32⟩
  | 97 => ⟨S500000x7, .f32⟩
  | 98 => ⟨S500000x7, .f32⟩
  | 99 => ⟨S1x6x7, .f32⟩
  | 100 => ⟨S6x7, .f32⟩
  | 101 => ⟨S7x6, .f32⟩
  | 102 => ⟨S500000x6, .f32⟩
  | 103 => ⟨S1x6, .f32⟩
  | 104 => ⟨S6, .f32⟩
  | 105 => ⟨S1x6, .f32⟩
  | 106 => ⟨S500000x6, .f32⟩
  | 107 => ⟨S500000x6, .f32⟩
  | 108 => ⟨S_, .f32⟩
  | 109 => ⟨S500000x6, .f32⟩
  | 110 => ⟨S500000x6, .f32⟩
  | 111 => ⟨S500000x1, .f32⟩
  | 112 => ⟨S500000, .f32⟩
  | 113 => ⟨S500000x1, .f32⟩
  | 114 => ⟨S500000x7, .f32⟩
  | 115 => ⟨S1x7x7, .f32⟩
  | 116 => ⟨S7x7, .f32⟩
  | 117 => ⟨S7x7, .f32⟩
  | 118 => ⟨S500000x7, .f32⟩
  | 119 => ⟨S1x7, .f32⟩
  | 120 => ⟨S7, .f32⟩
  | 121 => ⟨S1x7, .f32⟩
  | 122 => ⟨S500000x7, .f32⟩
  | 123 => ⟨S500000x7, .f32⟩
  | 124 => ⟨S_, .f32⟩
  | 125 => ⟨S500000x7, .f32⟩
  | 126 => ⟨S500000x7, .f32⟩
  | 127 => ⟨S1x6x7, .f32⟩
  | _ => ⟨S500000x24, .f32⟩

abbrev hbmTy0_5 (i : Nat) : BufTy := match i % 128 with
  | 0 => ⟨S6x7, .f32⟩
  | 1 => ⟨S7x6, .f32⟩
  | 2 => ⟨S500000x6, .f32⟩
  | 3 => ⟨S1x6, .f32⟩
  | 4 => ⟨S6, .f32⟩
  | 5 => ⟨S1x6, .f32⟩
  | 6 => ⟨S500000x6, .f32⟩
  | 7 => ⟨S500000x6, .f32⟩
  | 8 => ⟨S_, .f32⟩
  | 9 => ⟨S500000x6, .f32⟩
  | 10 => ⟨S500000x6, .f32⟩
  | 11 => ⟨S500000x1, .f32⟩
  | 12 => ⟨S500000, .f32⟩
  | 13 => ⟨S500000x1, .f32⟩
  | 14 => ⟨S500000x7, .f32⟩
  | 15 => ⟨S1x7x7, .f32⟩
  | 16 => ⟨S7x7, .f32⟩
  | 17 => ⟨S7x7, .f32⟩
  | 18 => ⟨S500000x7, .f32⟩
  | 19 => ⟨S1x7, .f32⟩
  | 20 => ⟨S7, .f32⟩
  | 21 => ⟨S1x7, .f32⟩
  | 22 => ⟨S500000x7, .f32⟩
  | 23 => ⟨S500000x7, .f32⟩
  | 24 => ⟨S_, .f32⟩
  | 25 => ⟨S500000x7, .f32⟩
  | 26 => ⟨S500000x7, .f32⟩
  | 27 => ⟨S1x6x7, .f32⟩
  | 28 => ⟨S6x7, .f32⟩
  | 29 => ⟨S7x6, .f32⟩
  | 30 => ⟨S500000x6, .f32⟩
  | 31 => ⟨S1x6, .f32⟩
  | 32 => ⟨S6, .f32⟩
  | 33 => ⟨S1x6, .f32⟩
  | 34 => ⟨S500000x6, .f32⟩
  | 35 => ⟨S500000x6, .f32⟩
  | 36 => ⟨S_, .f32⟩
  | 37 => ⟨S500000x6, .f32⟩
  | 38 => ⟨S500000x6, .f32⟩
  | 39 => ⟨S500000x96, .f32⟩
  | 40 => ⟨S500000x48, .f32⟩
  | 41 => ⟨S500000x144, .f32⟩
  | _ => ⟨S500000x24, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S500000x24, .f32⟩

abbrev bufTy : (tb : Table) → Fin (tcTables nBuf tb) → BufTy
  | .hbm, ⟨i, _⟩ => hbmTy i
  | _, _ => ⟨S500000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call1_cst : Ref sig .tc := ⟨.hbm, 32, rfl⟩
abbrev main_call1_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call2_cst : Ref sig .tc := ⟨.hbm, 48, rfl⟩
abbrev main_call2_v0 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call3_cst : Ref sig .tc := ⟨.hbm, 60, rfl⟩
abbrev main_call3_v0 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_call4_cst : Ref sig .tc := ⟨.hbm, 76, rfl⟩
abbrev main_call4_v0 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_call5_cst : Ref sig .tc := ⟨.hbm, 88, rfl⟩
abbrev main_call5_v0 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_call6_cst : Ref sig .tc := ⟨.hbm, 104, rfl⟩
abbrev main_call6_v0 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_call7_cst : Ref sig .tc := ⟨.hbm, 116, rfl⟩
abbrev main_call7_v0 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_call8_cst : Ref sig .tc := ⟨.hbm, 132, rfl⟩
abbrev main_call8_v0 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_call9_cst : Ref sig .tc := ⟨.hbm, 144, rfl⟩
abbrev main_call9_v0 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_call10_cst : Ref sig .tc := ⟨.hbm, 160, rfl⟩
abbrev main_call10_v0 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_call11_cst : Ref sig .tc := ⟨.hbm, 172, rfl⟩
abbrev main_call11_v0 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_call12_cst : Ref sig .tc := ⟨.hbm, 188, rfl⟩
abbrev main_call12_v0 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_call13_cst : Ref sig .tc := ⟨.hbm, 200, rfl⟩
abbrev main_call13_v0 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_call14_cst : Ref sig .tc := ⟨.hbm, 216, rfl⟩
abbrev main_call14_v0 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_call15_cst : Ref sig .tc := ⟨.hbm, 228, rfl⟩
abbrev main_call15_v0 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_call16_cst : Ref sig .tc := ⟨.hbm, 244, rfl⟩
abbrev main_call16_v0 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_call17_cst : Ref sig .tc := ⟨.hbm, 256, rfl⟩
abbrev main_call17_v0 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_call18_cst : Ref sig .tc := ⟨.hbm, 272, rfl⟩
abbrev main_call18_v0 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_call19_cst : Ref sig .tc := ⟨.hbm, 284, rfl⟩
abbrev main_call19_v0 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_call20_cst : Ref sig .tc := ⟨.hbm, 300, rfl⟩
abbrev main_call20_v0 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_call21_cst : Ref sig .tc := ⟨.hbm, 312, rfl⟩
abbrev main_call21_v0 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_v270 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_call22_cst : Ref sig .tc := ⟨.hbm, 328, rfl⟩
abbrev main_call22_v0 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_v284 : Ref sig .tc := ⟨.hbm, 336, rfl⟩
abbrev main_v285 : Ref sig .tc := ⟨.hbm, 337, rfl⟩
abbrev main_v286 : Ref sig .tc := ⟨.hbm, 338, rfl⟩
abbrev main_v287 : Ref sig .tc := ⟨.hbm, 339, rfl⟩
abbrev main_call23_cst : Ref sig .tc := ⟨.hbm, 340, rfl⟩
abbrev main_call23_v0 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_call24_cst : Ref sig .tc := ⟨.hbm, 356, rfl⟩
abbrev main_call24_v0 : Ref sig .tc := ⟨.hbm, 357, rfl⟩
abbrev main_v302 : Ref sig .tc := ⟨.hbm, 358, rfl⟩
abbrev main_v303 : Ref sig .tc := ⟨.hbm, 359, rfl⟩
abbrev main_v304 : Ref sig .tc := ⟨.hbm, 360, rfl⟩
abbrev main_v305 : Ref sig .tc := ⟨.hbm, 361, rfl⟩
abbrev main_v306 : Ref sig .tc := ⟨.hbm, 362, rfl⟩
abbrev main_v307 : Ref sig .tc := ⟨.hbm, 363, rfl⟩
abbrev main_v308 : Ref sig .tc := ⟨.hbm, 364, rfl⟩
abbrev main_v309 : Ref sig .tc := ⟨.hbm, 365, rfl⟩
abbrev main_v310 : Ref sig .tc := ⟨.hbm, 366, rfl⟩
abbrev main_v311 : Ref sig .tc := ⟨.hbm, 367, rfl⟩
abbrev main_call25_cst : Ref sig .tc := ⟨.hbm, 368, rfl⟩
abbrev main_call25_v0 : Ref sig .tc := ⟨.hbm, 369, rfl⟩
abbrev main_v312 : Ref sig .tc := ⟨.hbm, 370, rfl⟩
abbrev main_v313 : Ref sig .tc := ⟨.hbm, 371, rfl⟩
abbrev main_v314 : Ref sig .tc := ⟨.hbm, 372, rfl⟩
abbrev main_v315 : Ref sig .tc := ⟨.hbm, 373, rfl⟩
abbrev main_v316 : Ref sig .tc := ⟨.hbm, 374, rfl⟩
abbrev main_v317 : Ref sig .tc := ⟨.hbm, 375, rfl⟩
abbrev main_v318 : Ref sig .tc := ⟨.hbm, 376, rfl⟩
abbrev main_v319 : Ref sig .tc := ⟨.hbm, 377, rfl⟩
abbrev main_v320 : Ref sig .tc := ⟨.hbm, 378, rfl⟩
abbrev main_v321 : Ref sig .tc := ⟨.hbm, 379, rfl⟩
abbrev main_v322 : Ref sig .tc := ⟨.hbm, 380, rfl⟩
abbrev main_v323 : Ref sig .tc := ⟨.hbm, 381, rfl⟩
abbrev main_v324 : Ref sig .tc := ⟨.hbm, 382, rfl⟩
abbrev main_v325 : Ref sig .tc := ⟨.hbm, 383, rfl⟩
abbrev main_call26_cst : Ref sig .tc := ⟨.hbm, 384, rfl⟩
abbrev main_call26_v0 : Ref sig .tc := ⟨.hbm, 385, rfl⟩
abbrev main_v326 : Ref sig .tc := ⟨.hbm, 386, rfl⟩
abbrev main_v327 : Ref sig .tc := ⟨.hbm, 387, rfl⟩
abbrev main_v328 : Ref sig .tc := ⟨.hbm, 388, rfl⟩
abbrev main_v329 : Ref sig .tc := ⟨.hbm, 389, rfl⟩
abbrev main_v330 : Ref sig .tc := ⟨.hbm, 390, rfl⟩
abbrev main_v331 : Ref sig .tc := ⟨.hbm, 391, rfl⟩
abbrev main_v332 : Ref sig .tc := ⟨.hbm, 392, rfl⟩
abbrev main_v333 : Ref sig .tc := ⟨.hbm, 393, rfl⟩
abbrev main_v334 : Ref sig .tc := ⟨.hbm, 394, rfl⟩
abbrev main_v335 : Ref sig .tc := ⟨.hbm, 395, rfl⟩
abbrev main_call27_cst : Ref sig .tc := ⟨.hbm, 396, rfl⟩
abbrev main_call27_v0 : Ref sig .tc := ⟨.hbm, 397, rfl⟩
abbrev main_v336 : Ref sig .tc := ⟨.hbm, 398, rfl⟩
abbrev main_v337 : Ref sig .tc := ⟨.hbm, 399, rfl⟩
abbrev main_v338 : Ref sig .tc := ⟨.hbm, 400, rfl⟩
abbrev main_v339 : Ref sig .tc := ⟨.hbm, 401, rfl⟩
abbrev main_v340 : Ref sig .tc := ⟨.hbm, 402, rfl⟩
abbrev main_v341 : Ref sig .tc := ⟨.hbm, 403, rfl⟩
abbrev main_v342 : Ref sig .tc := ⟨.hbm, 404, rfl⟩
abbrev main_v343 : Ref sig .tc := ⟨.hbm, 405, rfl⟩
abbrev main_v344 : Ref sig .tc := ⟨.hbm, 406, rfl⟩
abbrev main_v345 : Ref sig .tc := ⟨.hbm, 407, rfl⟩
abbrev main_v346 : Ref sig .tc := ⟨.hbm, 408, rfl⟩
abbrev main_v347 : Ref sig .tc := ⟨.hbm, 409, rfl⟩
abbrev main_v348 : Ref sig .tc := ⟨.hbm, 410, rfl⟩
abbrev main_v349 : Ref sig .tc := ⟨.hbm, 411, rfl⟩
abbrev main_call28_cst : Ref sig .tc := ⟨.hbm, 412, rfl⟩
abbrev main_call28_v0 : Ref sig .tc := ⟨.hbm, 413, rfl⟩
abbrev main_v350 : Ref sig .tc := ⟨.hbm, 414, rfl⟩
abbrev main_v351 : Ref sig .tc := ⟨.hbm, 415, rfl⟩
abbrev main_v352 : Ref sig .tc := ⟨.hbm, 416, rfl⟩
abbrev main_v353 : Ref sig .tc := ⟨.hbm, 417, rfl⟩
abbrev main_v354 : Ref sig .tc := ⟨.hbm, 418, rfl⟩
abbrev main_v355 : Ref sig .tc := ⟨.hbm, 419, rfl⟩
abbrev main_v356 : Ref sig .tc := ⟨.hbm, 420, rfl⟩
abbrev main_v357 : Ref sig .tc := ⟨.hbm, 421, rfl⟩
abbrev main_v358 : Ref sig .tc := ⟨.hbm, 422, rfl⟩
abbrev main_v359 : Ref sig .tc := ⟨.hbm, 423, rfl⟩
abbrev main_call29_cst : Ref sig .tc := ⟨.hbm, 424, rfl⟩
abbrev main_call29_v0 : Ref sig .tc := ⟨.hbm, 425, rfl⟩
abbrev main_v360 : Ref sig .tc := ⟨.hbm, 426, rfl⟩
abbrev main_v361 : Ref sig .tc := ⟨.hbm, 427, rfl⟩
abbrev main_v362 : Ref sig .tc := ⟨.hbm, 428, rfl⟩
abbrev main_v363 : Ref sig .tc := ⟨.hbm, 429, rfl⟩
abbrev main_v364 : Ref sig .tc := ⟨.hbm, 430, rfl⟩
abbrev main_v365 : Ref sig .tc := ⟨.hbm, 431, rfl⟩
abbrev main_v366 : Ref sig .tc := ⟨.hbm, 432, rfl⟩
abbrev main_v367 : Ref sig .tc := ⟨.hbm, 433, rfl⟩
abbrev main_v368 : Ref sig .tc := ⟨.hbm, 434, rfl⟩
abbrev main_v369 : Ref sig .tc := ⟨.hbm, 435, rfl⟩
abbrev main_v370 : Ref sig .tc := ⟨.hbm, 436, rfl⟩
abbrev main_v371 : Ref sig .tc := ⟨.hbm, 437, rfl⟩
abbrev main_v372 : Ref sig .tc := ⟨.hbm, 438, rfl⟩
abbrev main_v373 : Ref sig .tc := ⟨.hbm, 439, rfl⟩
abbrev main_call30_cst : Ref sig .tc := ⟨.hbm, 440, rfl⟩
abbrev main_call30_v0 : Ref sig .tc := ⟨.hbm, 441, rfl⟩
abbrev main_v374 : Ref sig .tc := ⟨.hbm, 442, rfl⟩
abbrev main_v375 : Ref sig .tc := ⟨.hbm, 443, rfl⟩
abbrev main_v376 : Ref sig .tc := ⟨.hbm, 444, rfl⟩
abbrev main_v377 : Ref sig .tc := ⟨.hbm, 445, rfl⟩
abbrev main_v378 : Ref sig .tc := ⟨.hbm, 446, rfl⟩
abbrev main_v379 : Ref sig .tc := ⟨.hbm, 447, rfl⟩
abbrev main_v380 : Ref sig .tc := ⟨.hbm, 448, rfl⟩
abbrev main_v381 : Ref sig .tc := ⟨.hbm, 449, rfl⟩
abbrev main_v382 : Ref sig .tc := ⟨.hbm, 450, rfl⟩
abbrev main_v383 : Ref sig .tc := ⟨.hbm, 451, rfl⟩
abbrev main_call31_cst : Ref sig .tc := ⟨.hbm, 452, rfl⟩
abbrev main_call31_v0 : Ref sig .tc := ⟨.hbm, 453, rfl⟩
abbrev main_v384 : Ref sig .tc := ⟨.hbm, 454, rfl⟩
abbrev main_v385 : Ref sig .tc := ⟨.hbm, 455, rfl⟩
abbrev main_v386 : Ref sig .tc := ⟨.hbm, 456, rfl⟩
abbrev main_v387 : Ref sig .tc := ⟨.hbm, 457, rfl⟩
abbrev main_v388 : Ref sig .tc := ⟨.hbm, 458, rfl⟩
abbrev main_v389 : Ref sig .tc := ⟨.hbm, 459, rfl⟩
abbrev main_v390 : Ref sig .tc := ⟨.hbm, 460, rfl⟩
abbrev main_v391 : Ref sig .tc := ⟨.hbm, 461, rfl⟩
abbrev main_v392 : Ref sig .tc := ⟨.hbm, 462, rfl⟩
abbrev main_v393 : Ref sig .tc := ⟨.hbm, 463, rfl⟩
abbrev main_v394 : Ref sig .tc := ⟨.hbm, 464, rfl⟩
abbrev main_v395 : Ref sig .tc := ⟨.hbm, 465, rfl⟩
abbrev main_v396 : Ref sig .tc := ⟨.hbm, 466, rfl⟩
abbrev main_v397 : Ref sig .tc := ⟨.hbm, 467, rfl⟩
abbrev main_call32_cst : Ref sig .tc := ⟨.hbm, 468, rfl⟩
abbrev main_call32_v0 : Ref sig .tc := ⟨.hbm, 469, rfl⟩
abbrev main_v398 : Ref sig .tc := ⟨.hbm, 470, rfl⟩
abbrev main_v399 : Ref sig .tc := ⟨.hbm, 471, rfl⟩
abbrev main_v400 : Ref sig .tc := ⟨.hbm, 472, rfl⟩
abbrev main_v401 : Ref sig .tc := ⟨.hbm, 473, rfl⟩
abbrev main_v402 : Ref sig .tc := ⟨.hbm, 474, rfl⟩
abbrev main_v403 : Ref sig .tc := ⟨.hbm, 475, rfl⟩
abbrev main_v404 : Ref sig .tc := ⟨.hbm, 476, rfl⟩
abbrev main_v405 : Ref sig .tc := ⟨.hbm, 477, rfl⟩
abbrev main_v406 : Ref sig .tc := ⟨.hbm, 478, rfl⟩
abbrev main_v407 : Ref sig .tc := ⟨.hbm, 479, rfl⟩
abbrev main_call33_cst : Ref sig .tc := ⟨.hbm, 480, rfl⟩
abbrev main_call33_v0 : Ref sig .tc := ⟨.hbm, 481, rfl⟩
abbrev main_v408 : Ref sig .tc := ⟨.hbm, 482, rfl⟩
abbrev main_v409 : Ref sig .tc := ⟨.hbm, 483, rfl⟩
abbrev main_v410 : Ref sig .tc := ⟨.hbm, 484, rfl⟩
abbrev main_v411 : Ref sig .tc := ⟨.hbm, 485, rfl⟩
abbrev main_v412 : Ref sig .tc := ⟨.hbm, 486, rfl⟩
abbrev main_v413 : Ref sig .tc := ⟨.hbm, 487, rfl⟩
abbrev main_v414 : Ref sig .tc := ⟨.hbm, 488, rfl⟩
abbrev main_v415 : Ref sig .tc := ⟨.hbm, 489, rfl⟩
abbrev main_v416 : Ref sig .tc := ⟨.hbm, 490, rfl⟩
abbrev main_v417 : Ref sig .tc := ⟨.hbm, 491, rfl⟩
abbrev main_v418 : Ref sig .tc := ⟨.hbm, 492, rfl⟩
abbrev main_v419 : Ref sig .tc := ⟨.hbm, 493, rfl⟩
abbrev main_v420 : Ref sig .tc := ⟨.hbm, 494, rfl⟩
abbrev main_v421 : Ref sig .tc := ⟨.hbm, 495, rfl⟩
abbrev main_call34_cst : Ref sig .tc := ⟨.hbm, 496, rfl⟩
abbrev main_call34_v0 : Ref sig .tc := ⟨.hbm, 497, rfl⟩
abbrev main_v422 : Ref sig .tc := ⟨.hbm, 498, rfl⟩
abbrev main_v423 : Ref sig .tc := ⟨.hbm, 499, rfl⟩
abbrev main_v424 : Ref sig .tc := ⟨.hbm, 500, rfl⟩
abbrev main_v425 : Ref sig .tc := ⟨.hbm, 501, rfl⟩
abbrev main_v426 : Ref sig .tc := ⟨.hbm, 502, rfl⟩
abbrev main_v427 : Ref sig .tc := ⟨.hbm, 503, rfl⟩
abbrev main_v428 : Ref sig .tc := ⟨.hbm, 504, rfl⟩
abbrev main_v429 : Ref sig .tc := ⟨.hbm, 505, rfl⟩
abbrev main_v430 : Ref sig .tc := ⟨.hbm, 506, rfl⟩
abbrev main_v431 : Ref sig .tc := ⟨.hbm, 507, rfl⟩
abbrev main_call35_cst : Ref sig .tc := ⟨.hbm, 508, rfl⟩
abbrev main_call35_v0 : Ref sig .tc := ⟨.hbm, 509, rfl⟩
abbrev main_v432 : Ref sig .tc := ⟨.hbm, 510, rfl⟩
abbrev main_v433 : Ref sig .tc := ⟨.hbm, 511, rfl⟩
abbrev main_v434 : Ref sig .tc := ⟨.hbm, 512, rfl⟩
abbrev main_v435 : Ref sig .tc := ⟨.hbm, 513, rfl⟩
abbrev main_v436 : Ref sig .tc := ⟨.hbm, 514, rfl⟩
abbrev main_v437 : Ref sig .tc := ⟨.hbm, 515, rfl⟩
abbrev main_v438 : Ref sig .tc := ⟨.hbm, 516, rfl⟩
abbrev main_v439 : Ref sig .tc := ⟨.hbm, 517, rfl⟩
abbrev main_v440 : Ref sig .tc := ⟨.hbm, 518, rfl⟩
abbrev main_v441 : Ref sig .tc := ⟨.hbm, 519, rfl⟩
abbrev main_v442 : Ref sig .tc := ⟨.hbm, 520, rfl⟩
abbrev main_v443 : Ref sig .tc := ⟨.hbm, 521, rfl⟩
abbrev main_v444 : Ref sig .tc := ⟨.hbm, 522, rfl⟩
abbrev main_v445 : Ref sig .tc := ⟨.hbm, 523, rfl⟩
abbrev main_call36_cst : Ref sig .tc := ⟨.hbm, 524, rfl⟩
abbrev main_call36_v0 : Ref sig .tc := ⟨.hbm, 525, rfl⟩
abbrev main_v446 : Ref sig .tc := ⟨.hbm, 526, rfl⟩
abbrev main_v447 : Ref sig .tc := ⟨.hbm, 527, rfl⟩
abbrev main_v448 : Ref sig .tc := ⟨.hbm, 528, rfl⟩
abbrev main_v449 : Ref sig .tc := ⟨.hbm, 529, rfl⟩
abbrev main_v450 : Ref sig .tc := ⟨.hbm, 530, rfl⟩
abbrev main_v451 : Ref sig .tc := ⟨.hbm, 531, rfl⟩
abbrev main_v452 : Ref sig .tc := ⟨.hbm, 532, rfl⟩
abbrev main_v453 : Ref sig .tc := ⟨.hbm, 533, rfl⟩
abbrev main_v454 : Ref sig .tc := ⟨.hbm, 534, rfl⟩
abbrev main_v455 : Ref sig .tc := ⟨.hbm, 535, rfl⟩
abbrev main_call37_cst : Ref sig .tc := ⟨.hbm, 536, rfl⟩
abbrev main_call37_v0 : Ref sig .tc := ⟨.hbm, 537, rfl⟩
abbrev main_v456 : Ref sig .tc := ⟨.hbm, 538, rfl⟩
abbrev main_v457 : Ref sig .tc := ⟨.hbm, 539, rfl⟩
abbrev main_v458 : Ref sig .tc := ⟨.hbm, 540, rfl⟩
abbrev main_v459 : Ref sig .tc := ⟨.hbm, 541, rfl⟩
abbrev main_v460 : Ref sig .tc := ⟨.hbm, 542, rfl⟩
abbrev main_v461 : Ref sig .tc := ⟨.hbm, 543, rfl⟩
abbrev main_v462 : Ref sig .tc := ⟨.hbm, 544, rfl⟩
abbrev main_v463 : Ref sig .tc := ⟨.hbm, 545, rfl⟩
abbrev main_v464 : Ref sig .tc := ⟨.hbm, 546, rfl⟩
abbrev main_v465 : Ref sig .tc := ⟨.hbm, 547, rfl⟩
abbrev main_v466 : Ref sig .tc := ⟨.hbm, 548, rfl⟩
abbrev main_v467 : Ref sig .tc := ⟨.hbm, 549, rfl⟩
abbrev main_v468 : Ref sig .tc := ⟨.hbm, 550, rfl⟩
abbrev main_v469 : Ref sig .tc := ⟨.hbm, 551, rfl⟩
abbrev main_call38_cst : Ref sig .tc := ⟨.hbm, 552, rfl⟩
abbrev main_call38_v0 : Ref sig .tc := ⟨.hbm, 553, rfl⟩
abbrev main_v470 : Ref sig .tc := ⟨.hbm, 554, rfl⟩
abbrev main_v471 : Ref sig .tc := ⟨.hbm, 555, rfl⟩
abbrev main_v472 : Ref sig .tc := ⟨.hbm, 556, rfl⟩
abbrev main_v473 : Ref sig .tc := ⟨.hbm, 557, rfl⟩
abbrev main_v474 : Ref sig .tc := ⟨.hbm, 558, rfl⟩
abbrev main_v475 : Ref sig .tc := ⟨.hbm, 559, rfl⟩
abbrev main_v476 : Ref sig .tc := ⟨.hbm, 560, rfl⟩
abbrev main_v477 : Ref sig .tc := ⟨.hbm, 561, rfl⟩
abbrev main_v478 : Ref sig .tc := ⟨.hbm, 562, rfl⟩
abbrev main_v479 : Ref sig .tc := ⟨.hbm, 563, rfl⟩
abbrev main_call39_cst : Ref sig .tc := ⟨.hbm, 564, rfl⟩
abbrev main_call39_v0 : Ref sig .tc := ⟨.hbm, 565, rfl⟩
abbrev main_v480 : Ref sig .tc := ⟨.hbm, 566, rfl⟩
abbrev main_v481 : Ref sig .tc := ⟨.hbm, 567, rfl⟩
abbrev main_v482 : Ref sig .tc := ⟨.hbm, 568, rfl⟩
abbrev main_v483 : Ref sig .tc := ⟨.hbm, 569, rfl⟩
abbrev main_v484 : Ref sig .tc := ⟨.hbm, 570, rfl⟩
abbrev main_v485 : Ref sig .tc := ⟨.hbm, 571, rfl⟩
abbrev main_v486 : Ref sig .tc := ⟨.hbm, 572, rfl⟩
abbrev main_v487 : Ref sig .tc := ⟨.hbm, 573, rfl⟩
abbrev main_v488 : Ref sig .tc := ⟨.hbm, 574, rfl⟩
abbrev main_v489 : Ref sig .tc := ⟨.hbm, 575, rfl⟩
abbrev main_v490 : Ref sig .tc := ⟨.hbm, 576, rfl⟩
abbrev main_v491 : Ref sig .tc := ⟨.hbm, 577, rfl⟩
abbrev main_v492 : Ref sig .tc := ⟨.hbm, 578, rfl⟩
abbrev main_v493 : Ref sig .tc := ⟨.hbm, 579, rfl⟩
abbrev main_call40_cst : Ref sig .tc := ⟨.hbm, 580, rfl⟩
abbrev main_call40_v0 : Ref sig .tc := ⟨.hbm, 581, rfl⟩
abbrev main_v494 : Ref sig .tc := ⟨.hbm, 582, rfl⟩
abbrev main_v495 : Ref sig .tc := ⟨.hbm, 583, rfl⟩
abbrev main_v496 : Ref sig .tc := ⟨.hbm, 584, rfl⟩
abbrev main_v497 : Ref sig .tc := ⟨.hbm, 585, rfl⟩
abbrev main_v498 : Ref sig .tc := ⟨.hbm, 586, rfl⟩
abbrev main_v499 : Ref sig .tc := ⟨.hbm, 587, rfl⟩
abbrev main_v500 : Ref sig .tc := ⟨.hbm, 588, rfl⟩
abbrev main_v501 : Ref sig .tc := ⟨.hbm, 589, rfl⟩
abbrev main_v502 : Ref sig .tc := ⟨.hbm, 590, rfl⟩
abbrev main_v503 : Ref sig .tc := ⟨.hbm, 591, rfl⟩
abbrev main_call41_cst : Ref sig .tc := ⟨.hbm, 592, rfl⟩
abbrev main_call41_v0 : Ref sig .tc := ⟨.hbm, 593, rfl⟩
abbrev main_v504 : Ref sig .tc := ⟨.hbm, 594, rfl⟩
abbrev main_v505 : Ref sig .tc := ⟨.hbm, 595, rfl⟩
abbrev main_v506 : Ref sig .tc := ⟨.hbm, 596, rfl⟩
abbrev main_v507 : Ref sig .tc := ⟨.hbm, 597, rfl⟩
abbrev main_v508 : Ref sig .tc := ⟨.hbm, 598, rfl⟩
abbrev main_v509 : Ref sig .tc := ⟨.hbm, 599, rfl⟩
abbrev main_v510 : Ref sig .tc := ⟨.hbm, 600, rfl⟩
abbrev main_v511 : Ref sig .tc := ⟨.hbm, 601, rfl⟩
abbrev main_v512 : Ref sig .tc := ⟨.hbm, 602, rfl⟩
abbrev main_v513 : Ref sig .tc := ⟨.hbm, 603, rfl⟩
abbrev main_v514 : Ref sig .tc := ⟨.hbm, 604, rfl⟩
abbrev main_v515 : Ref sig .tc := ⟨.hbm, 605, rfl⟩
abbrev main_v516 : Ref sig .tc := ⟨.hbm, 606, rfl⟩
abbrev main_v517 : Ref sig .tc := ⟨.hbm, 607, rfl⟩
abbrev main_call42_cst : Ref sig .tc := ⟨.hbm, 608, rfl⟩
abbrev main_call42_v0 : Ref sig .tc := ⟨.hbm, 609, rfl⟩
abbrev main_v518 : Ref sig .tc := ⟨.hbm, 610, rfl⟩
abbrev main_v519 : Ref sig .tc := ⟨.hbm, 611, rfl⟩
abbrev main_v520 : Ref sig .tc := ⟨.hbm, 612, rfl⟩
abbrev main_v521 : Ref sig .tc := ⟨.hbm, 613, rfl⟩
abbrev main_v522 : Ref sig .tc := ⟨.hbm, 614, rfl⟩
abbrev main_v523 : Ref sig .tc := ⟨.hbm, 615, rfl⟩
abbrev main_v524 : Ref sig .tc := ⟨.hbm, 616, rfl⟩
abbrev main_v525 : Ref sig .tc := ⟨.hbm, 617, rfl⟩
abbrev main_v526 : Ref sig .tc := ⟨.hbm, 618, rfl⟩
abbrev main_v527 : Ref sig .tc := ⟨.hbm, 619, rfl⟩
abbrev main_call43_cst : Ref sig .tc := ⟨.hbm, 620, rfl⟩
abbrev main_call43_v0 : Ref sig .tc := ⟨.hbm, 621, rfl⟩
abbrev main_v528 : Ref sig .tc := ⟨.hbm, 622, rfl⟩
abbrev main_v529 : Ref sig .tc := ⟨.hbm, 623, rfl⟩
abbrev main_v530 : Ref sig .tc := ⟨.hbm, 624, rfl⟩
abbrev main_v531 : Ref sig .tc := ⟨.hbm, 625, rfl⟩
abbrev main_v532 : Ref sig .tc := ⟨.hbm, 626, rfl⟩
abbrev main_v533 : Ref sig .tc := ⟨.hbm, 627, rfl⟩
abbrev main_v534 : Ref sig .tc := ⟨.hbm, 628, rfl⟩
abbrev main_v535 : Ref sig .tc := ⟨.hbm, 629, rfl⟩
abbrev main_v536 : Ref sig .tc := ⟨.hbm, 630, rfl⟩
abbrev main_v537 : Ref sig .tc := ⟨.hbm, 631, rfl⟩
abbrev main_v538 : Ref sig .tc := ⟨.hbm, 632, rfl⟩
abbrev main_v539 : Ref sig .tc := ⟨.hbm, 633, rfl⟩
abbrev main_v540 : Ref sig .tc := ⟨.hbm, 634, rfl⟩
abbrev main_v541 : Ref sig .tc := ⟨.hbm, 635, rfl⟩
abbrev main_call44_cst : Ref sig .tc := ⟨.hbm, 636, rfl⟩
abbrev main_call44_v0 : Ref sig .tc := ⟨.hbm, 637, rfl⟩
abbrev main_v542 : Ref sig .tc := ⟨.hbm, 638, rfl⟩
abbrev main_v543 : Ref sig .tc := ⟨.hbm, 639, rfl⟩
abbrev main_v544 : Ref sig .tc := ⟨.hbm, 640, rfl⟩
abbrev main_v545 : Ref sig .tc := ⟨.hbm, 641, rfl⟩
abbrev main_v546 : Ref sig .tc := ⟨.hbm, 642, rfl⟩
abbrev main_v547 : Ref sig .tc := ⟨.hbm, 643, rfl⟩
abbrev main_v548 : Ref sig .tc := ⟨.hbm, 644, rfl⟩
abbrev main_v549 : Ref sig .tc := ⟨.hbm, 645, rfl⟩
abbrev main_v550 : Ref sig .tc := ⟨.hbm, 646, rfl⟩
abbrev main_v551 : Ref sig .tc := ⟨.hbm, 647, rfl⟩
abbrev main_call45_cst : Ref sig .tc := ⟨.hbm, 648, rfl⟩
abbrev main_call45_v0 : Ref sig .tc := ⟨.hbm, 649, rfl⟩
abbrev main_v552 : Ref sig .tc := ⟨.hbm, 650, rfl⟩
abbrev main_v553 : Ref sig .tc := ⟨.hbm, 651, rfl⟩
abbrev main_v554 : Ref sig .tc := ⟨.hbm, 652, rfl⟩
abbrev main_v555 : Ref sig .tc := ⟨.hbm, 653, rfl⟩
abbrev main_v556 : Ref sig .tc := ⟨.hbm, 654, rfl⟩
abbrev main_v557 : Ref sig .tc := ⟨.hbm, 655, rfl⟩
abbrev main_v558 : Ref sig .tc := ⟨.hbm, 656, rfl⟩
abbrev main_v559 : Ref sig .tc := ⟨.hbm, 657, rfl⟩
abbrev main_v560 : Ref sig .tc := ⟨.hbm, 658, rfl⟩
abbrev main_v561 : Ref sig .tc := ⟨.hbm, 659, rfl⟩
abbrev main_v562 : Ref sig .tc := ⟨.hbm, 660, rfl⟩
abbrev main_v563 : Ref sig .tc := ⟨.hbm, 661, rfl⟩
abbrev main_v564 : Ref sig .tc := ⟨.hbm, 662, rfl⟩
abbrev main_v565 : Ref sig .tc := ⟨.hbm, 663, rfl⟩
abbrev main_call46_cst : Ref sig .tc := ⟨.hbm, 664, rfl⟩
abbrev main_call46_v0 : Ref sig .tc := ⟨.hbm, 665, rfl⟩
abbrev main_v566 : Ref sig .tc := ⟨.hbm, 666, rfl⟩
abbrev main_v567 : Ref sig .tc := ⟨.hbm, 667, rfl⟩
abbrev main_v568 : Ref sig .tc := ⟨.hbm, 668, rfl⟩
abbrev main_v569 : Ref sig .tc := ⟨.hbm, 669, rfl⟩
abbrev main_v570 : Ref sig .tc := ⟨.hbm, 670, rfl⟩
abbrev main_v571 : Ref sig .tc := ⟨.hbm, 671, rfl⟩
abbrev main_v572 : Ref sig .tc := ⟨.hbm, 672, rfl⟩
abbrev main_v573 : Ref sig .tc := ⟨.hbm, 673, rfl⟩
abbrev main_v574 : Ref sig .tc := ⟨.hbm, 674, rfl⟩
abbrev main_v575 : Ref sig .tc := ⟨.hbm, 675, rfl⟩
abbrev main_call47_cst : Ref sig .tc := ⟨.hbm, 676, rfl⟩
abbrev main_call47_v0 : Ref sig .tc := ⟨.hbm, 677, rfl⟩
abbrev main_v576 : Ref sig .tc := ⟨.hbm, 678, rfl⟩
abbrev main_v577 : Ref sig .tc := ⟨.hbm, 679, rfl⟩
abbrev main_v578 : Ref sig .tc := ⟨.hbm, 680, rfl⟩
abbrev main_v579 : Ref sig .tc := ⟨.hbm, 681, rfl⟩

abbrev nD : Nat := 1
abbrev τ : Topo := Topo.v7x

variable {F : FTy → Type} [FloatOps F]

class Facts₀ : Prop where
  bcast_S_S500000x6 : S_.BroadcastsInDim S500000x6 (![] : Fin 0 → Fin S500000x6.rank)
  slices_S500000x24_S500000x1_0_0 : S500000x24.Slices ![0, 0] S500000x1
  shapeCasts_S500000x1_S500000 : S500000x1.ShapeCasts S500000
  bcast_S500000_S500000x1_0 : S500000.BroadcastsInDim S500000x1 (![0] : Fin 1 → Fin S500000x1.rank)
  concatenates_S500000x1_S500000x6_S500000x7_d1 : Shape.Concatenates [S500000x1, S500000x6] S500000x7 1
  slices_S24x7x7_S1x7x7_0_0_0 : S24x7x7.Slices ![0, 0, 0] S1x7x7
  shapeCasts_S1x7x7_S7x7 : S1x7x7.ShapeCasts S7x7
  transposes_S7x7_S7x7_1_0 : S7x7.Transposes [1, 0] S7x7
  slices_S24x7_S1x7_0_0 : S24x7.Slices ![0, 0] S1x7
  shapeCasts_S1x7_S7 : S1x7.ShapeCasts S7
  bcast_S7_S1x7_1 : S7.BroadcastsInDim S1x7 (![1] : Fin 1 → Fin S1x7.rank)
  bcast_S1x7_S500000x7_0_1 : S1x7.BroadcastsInDim S500000x7 (![0, 1] : Fin 2 → Fin S500000x7.rank)
  bcast_S_S500000x7 : S_.BroadcastsInDim S500000x7 (![] : Fin 0 → Fin S500000x7.rank)
  slices_S24x6x7_S1x6x7_0_0_0 : S24x6x7.Slices ![0, 0, 0] S1x6x7
  shapeCasts_S1x6x7_S6x7 : S1x6x7.ShapeCasts S6x7
  transposes_S6x7_S7x6_1_0 : S6x7.Transposes [1, 0] S7x6
  slices_S24x6_S1x6_0_0 : S24x6.Slices ![0, 0] S1x6
  shapeCasts_S1x6_S6 : S1x6.ShapeCasts S6
  bcast_S6_S1x6_1 : S6.BroadcastsInDim S1x6 (![1] : Fin 1 → Fin S1x6.rank)
  bcast_S1x6_S500000x6_0_1 : S1x6.BroadcastsInDim S500000x6 (![0, 1] : Fin 2 → Fin S500000x6.rank)
  slices_S500000x24_S500000x1_0_1 : S500000x24.Slices ![0, 1] S500000x1
  slices_S24x7x7_S1x7x7_1_0_0 : S24x7x7.Slices ![1, 0, 0] S1x7x7
  slices_S24x7_S1x7_1_0 : S24x7.Slices ![1, 0] S1x7
  slices_S24x6x7_S1x6x7_1_0_0 : S24x6x7.Slices ![1, 0, 0] S1x6x7
  slices_S24x6_S1x6_1_0 : S24x6.Slices ![1, 0] S1x6
  slices_S500000x24_S500000x1_0_2 : S500000x24.Slices ![0, 2] S500000x1
  slices_S24x7x7_S1x7x7_2_0_0 : S24x7x7.Slices ![2, 0, 0] S1x7x7
  slices_S24x7_S1x7_2_0 : S24x7.Slices ![2, 0] S1x7
  slices_S24x6x7_S1x6x7_2_0_0 : S24x6x7.Slices ![2, 0, 0] S1x6x7
  slices_S24x6_S1x6_2_0 : S24x6.Slices ![2, 0] S1x6
  slices_S500000x24_S500000x1_0_3 : S500000x24.Slices ![0, 3] S500000x1
  slices_S24x7x7_S1x7x7_3_0_0 : S24x7x7.Slices ![3, 0, 0] S1x7x7
  slices_S24x7_S1x7_3_0 : S24x7.Slices ![3, 0] S1x7
  slices_S24x6x7_S1x6x7_3_0_0 : S24x6x7.Slices ![3, 0, 0] S1x6x7
  slices_S24x6_S1x6_3_0 : S24x6.Slices ![3, 0] S1x6
  slices_S500000x24_S500000x1_0_4 : S500000x24.Slices ![0, 4] S500000x1
  slices_S24x7x7_S1x7x7_4_0_0 : S24x7x7.Slices ![4, 0, 0] S1x7x7
  slices_S24x7_S1x7_4_0 : S24x7.Slices ![4, 0] S1x7
  slices_S24x6x7_S1x6x7_4_0_0 : S24x6x7.Slices ![4, 0, 0] S1x6x7
  slices_S24x6_S1x6_4_0 : S24x6.Slices ![4, 0] S1x6
  slices_S500000x24_S500000x1_0_5 : S500000x24.Slices ![0, 5] S500000x1
  slices_S24x7x7_S1x7x7_5_0_0 : S24x7x7.Slices ![5, 0, 0] S1x7x7
  slices_S24x7_S1x7_5_0 : S24x7.Slices ![5, 0] S1x7
  slices_S24x6x7_S1x6x7_5_0_0 : S24x6x7.Slices ![5, 0, 0] S1x6x7
  slices_S24x6_S1x6_5_0 : S24x6.Slices ![5, 0] S1x6
  slices_S500000x24_S500000x1_0_6 : S500000x24.Slices ![0, 6] S500000x1
  slices_S24x7x7_S1x7x7_6_0_0 : S24x7x7.Slices ![6, 0, 0] S1x7x7
  slices_S24x7_S1x7_6_0 : S24x7.Slices ![6, 0] S1x7
  slices_S24x6x7_S1x6x7_6_0_0 : S24x6x7.Slices ![6, 0, 0] S1x6x7
  slices_S24x6_S1x6_6_0 : S24x6.Slices ![6, 0] S1x6
  slices_S500000x24_S500000x1_0_7 : S500000x24.Slices ![0, 7] S500000x1
  slices_S24x7x7_S1x7x7_7_0_0 : S24x7x7.Slices ![7, 0, 0] S1x7x7
  slices_S24x7_S1x7_7_0 : S24x7.Slices ![7, 0] S1x7
  slices_S24x6x7_S1x6x7_7_0_0 : S24x6x7.Slices ![7, 0, 0] S1x6x7
  slices_S24x6_S1x6_7_0 : S24x6.Slices ![7, 0] S1x6
  slices_S500000x24_S500000x1_0_8 : S500000x24.Slices ![0, 8] S500000x1
  slices_S24x7x7_S1x7x7_8_0_0 : S24x7x7.Slices ![8, 0, 0] S1x7x7
  slices_S24x7_S1x7_8_0 : S24x7.Slices ![8, 0] S1x7
  slices_S24x6x7_S1x6x7_8_0_0 : S24x6x7.Slices ![8, 0, 0] S1x6x7
  slices_S24x6_S1x6_8_0 : S24x6.Slices ![8, 0] S1x6
  slices_S500000x24_S500000x1_0_9 : S500000x24.Slices ![0, 9] S500000x1
  slices_S24x7x7_S1x7x7_9_0_0 : S24x7x7.Slices ![9, 0, 0] S1x7x7
  slices_S24x7_S1x7_9_0 : S24x7.Slices ![9, 0] S1x7
  slices_S24x6x7_S1x6x7_9_0_0 : S24x6x7.Slices ![9, 0, 0] S1x6x7
  slices_S24x6_S1x6_9_0 : S24x6.Slices ![9, 0] S1x6
  slices_S500000x24_S500000x1_0_10 : S500000x24.Slices ![0, 10] S500000x1
  slices_S24x7x7_S1x7x7_10_0_0 : S24x7x7.Slices ![10, 0, 0] S1x7x7
  slices_S24x7_S1x7_10_0 : S24x7.Slices ![10, 0] S1x7
  slices_S24x6x7_S1x6x7_10_0_0 : S24x6x7.Slices ![10, 0, 0] S1x6x7
  slices_S24x6_S1x6_10_0 : S24x6.Slices ![10, 0] S1x6
  slices_S500000x24_S500000x1_0_11 : S500000x24.Slices ![0, 11] S500000x1
  slices_S24x7x7_S1x7x7_11_0_0 : S24x7x7.Slices ![11, 0, 0] S1x7x7
  slices_S24x7_S1x7_11_0 : S24x7.Slices ![11, 0] S1x7
  slices_S24x6x7_S1x6x7_11_0_0 : S24x6x7.Slices ![11, 0, 0] S1x6x7
  slices_S24x6_S1x6_11_0 : S24x6.Slices ![11, 0] S1x6
  slices_S500000x24_S500000x1_0_12 : S500000x24.Slices ![0, 12] S500000x1
  slices_S24x7x7_S1x7x7_12_0_0 : S24x7x7.Slices ![12, 0, 0] S1x7x7
  slices_S24x7_S1x7_12_0 : S24x7.Slices ![12, 0] S1x7
  slices_S24x6x7_S1x6x7_12_0_0 : S24x6x7.Slices ![12, 0, 0] S1x6x7
  slices_S24x6_S1x6_12_0 : S24x6.Slices ![12, 0] S1x6
  slices_S500000x24_S500000x1_0_13 : S500000x24.Slices ![0, 13] S500000x1
  slices_S24x7x7_S1x7x7_13_0_0 : S24x7x7.Slices ![13, 0, 0] S1x7x7
  slices_S24x7_S1x7_13_0 : S24x7.Slices ![13, 0] S1x7
  slices_S24x6x7_S1x6x7_13_0_0 : S24x6x7.Slices ![13, 0, 0] S1x6x7
  slices_S24x6_S1x6_13_0 : S24x6.Slices ![13, 0] S1x6
  slices_S500000x24_S500000x1_0_14 : S500000x24.Slices ![0, 14] S500000x1
  slices_S24x7x7_S1x7x7_14_0_0 : S24x7x7.Slices ![14, 0, 0] S1x7x7
  slices_S24x7_S1x7_14_0 : S24x7.Slices ![14, 0] S1x7
  slices_S24x6x7_S1x6x7_14_0_0 : S24x6x7.Slices ![14, 0, 0] S1x6x7
  slices_S24x6_S1x6_14_0 : S24x6.Slices ![14, 0] S1x6
  slices_S500000x24_S500000x1_0_15 : S500000x24.Slices ![0, 15] S500000x1
  slices_S24x7x7_S1x7x7_15_0_0 : S24x7x7.Slices ![15, 0, 0] S1x7x7
  slices_S24x7_S1x7_15_0 : S24x7.Slices ![15, 0] S1x7
  slices_S24x6x7_S1x6x7_15_0_0 : S24x6x7.Slices ![15, 0, 0] S1x6x7
  slices_S24x6_S1x6_15_0 : S24x6.Slices ![15, 0] S1x6
  slices_S500000x24_S500000x1_0_16 : S500000x24.Slices ![0, 16] S500000x1
  slices_S24x7x7_S1x7x7_16_0_0 : S24x7x7.Slices ![16, 0, 0] S1x7x7
  slices_S24x7_S1x7_16_0 : S24x7.Slices ![16, 0] S1x7
  slices_S24x6x7_S1x6x7_16_0_0 : S24x6x7.Slices ![16, 0, 0] S1x6x7
  slices_S24x6_S1x6_16_0 : S24x6.Slices ![16, 0] S1x6
  slices_S500000x24_S500000x1_0_17 : S500000x24.Slices ![0, 17] S500000x1
  slices_S24x7x7_S1x7x7_17_0_0 : S24x7x7.Slices ![17, 0, 0] S1x7x7
  slices_S24x7_S1x7_17_0 : S24x7.Slices ![17, 0] S1x7
  slices_S24x6x7_S1x6x7_17_0_0 : S24x6x7.Slices ![17, 0, 0] S1x6x7
  slices_S24x6_S1x6_17_0 : S24x6.Slices ![17, 0] S1x6
  slices_S500000x24_S500000x1_0_18 : S500000x24.Slices ![0, 18] S500000x1
  slices_S24x7x7_S1x7x7_18_0_0 : S24x7x7.Slices ![18, 0, 0] S1x7x7
  slices_S24x7_S1x7_18_0 : S24x7.Slices ![18, 0] S1x7
  slices_S24x6x7_S1x6x7_18_0_0 : S24x6x7.Slices ![18, 0, 0] S1x6x7
  slices_S24x6_S1x6_18_0 : S24x6.Slices ![18, 0] S1x6
  slices_S500000x24_S500000x1_0_19 : S500000x24.Slices ![0, 19] S500000x1
  slices_S24x7x7_S1x7x7_19_0_0 : S24x7x7.Slices ![19, 0, 0] S1x7x7
  slices_S24x7_S1x7_19_0 : S24x7.Slices ![19, 0] S1x7
  slices_S24x6x7_S1x6x7_19_0_0 : S24x6x7.Slices ![19, 0, 0] S1x6x7
  slices_S24x6_S1x6_19_0 : S24x6.Slices ![19, 0] S1x6
  slices_S500000x24_S500000x1_0_20 : S500000x24.Slices ![0, 20] S500000x1
  slices_S24x7x7_S1x7x7_20_0_0 : S24x7x7.Slices ![20, 0, 0] S1x7x7
  slices_S24x7_S1x7_20_0 : S24x7.Slices ![20, 0] S1x7
  slices_S24x6x7_S1x6x7_20_0_0 : S24x6x7.Slices ![20, 0, 0] S1x6x7
  slices_S24x6_S1x6_20_0 : S24x6.Slices ![20, 0] S1x6
  slices_S500000x24_S500000x1_0_21 : S500000x24.Slices ![0, 21] S500000x1
  slices_S24x7x7_S1x7x7_21_0_0 : S24x7x7.Slices ![21, 0, 0] S1x7x7
  slices_S24x7_S1x7_21_0 : S24x7.Slices ![21, 0] S1x7
  slices_S24x6x7_S1x6x7_21_0_0 : S24x6x7.Slices ![21, 0, 0] S1x6x7
  slices_S24x6_S1x6_21_0 : S24x6.Slices ![21, 0] S1x6
  slices_S500000x24_S500000x1_0_22 : S500000x24.Slices ![0, 22] S500000x1
  slices_S24x7x7_S1x7x7_22_0_0 : S24x7x7.Slices ![22, 0, 0] S1x7x7
  slices_S24x7_S1x7_22_0 : S24x7.Slices ![22, 0] S1x7
  slices_S24x6x7_S1x6x7_22_0_0 : S24x6x7.Slices ![22, 0, 0] S1x6x7
  slices_S24x6_S1x6_22_0 : S24x6.Slices ![22, 0] S1x6
  slices_S500000x24_S500000x1_0_23 : S500000x24.Slices ![0, 23] S500000x1
  slices_S24x7x7_S1x7x7_23_0_0 : S24x7x7.Slices ![23, 0, 0] S1x7x7
  slices_S24x7_S1x7_23_0 : S24x7.Slices ![23, 0] S1x7
  slices_S24x6x7_S1x6x7_23_0_0 : S24x6x7.Slices ![23, 0, 0] S1x6x7
  slices_S24x6_S1x6_23_0 : S24x6.Slices ![23, 0] S1x6
  concatenates_S500000x6_S500000x6_S500000x6_S500000x6_S500000x6_S500000x6_S500000x6_S500000x6_S500000x6_S500000x6_S500000x6_S500000x6_S500000x6_S500000x6_S500000x6_S500000x6_S500000x96_d1 : Shape.Concatenates [S500000x6, S500000x6, S500000x6, S500000x6, S500000x6, S500000x6, S500000x6, S500000x6, S500000x6, S500000x6, S500000x6, S500000x6, S500000x6, S500000x6, S500000x6, S500000x6] S500000x96 1
  concatenates_S500000x6_S500000x6_S500000x6_S500000x6_S500000x6_S500000x6_S500000x6_S500000x6_S500000x48_d1 : Shape.Concatenates [S500000x6, S500000x6, S500000x6, S500000x6, S500000x6, S500000x6, S500000x6, S500000x6] S500000x48 1
  concatenates_S500000x96_S500000x48_S500000x144_d1 : Shape.Concatenates [S500000x96, S500000x48] S500000x144 1
  dot_S500000x7_S7x7_S500000x7_1_0_0_1_n_n_wf : DotDims.WF S500000x7 S7x7 S500000x7 [1] [0] [0] [1] [] []
  dot_S500000x7_S7x6_S500000x6_1_0_0_1_n_n_wf : DotDims.WF S500000x7 S7x6 S500000x6 [1] [0] [0] [1] [] []

variable [Facts₀]

def dot_S500000x7_S7x7_S500000x7_1_0_0_1_n_n : DotDims S500000x7 S7x7 S500000x7 where
  lhsContracting := [1]
  rhsContracting := [0]
  lhsNonContracting := [0]
  rhsNonContracting := [1]
  lhsBatch := []
  rhsBatch := []
  wf := dot_S500000x7_S7x7_S500000x7_1_0_0_1_n_n_wf
def dot_S500000x7_S7x6_S500000x6_1_0_0_1_n_n : DotDims S500000x7 S7x6 S500000x6 where
  lhsContracting := [1]
  rhsContracting := [0]
  lhsNonContracting := [0]
  rhsNonContracting := [1]
  lhsBatch := []
  rhsBatch := []
  wf := dot_S500000x7_S7x6_S500000x6_1_0_0_1_n_n_wf

class Facts : Prop extends Facts₀ where

variable [Facts]
-- ==== Proof.TreeSpec.lean ====
/-
  The specification: a two-layer perceptron per joint of a kinematic tree, on the extended reals.

  For one batch row, joint `j` reads the row's entry `x j` and, unless it is the root, the six features of its parent,
  and computes
      hidden k = max (W1 j k 0 · x j + Σ_l W1 j k (l+1) · parent l + b1 j k) 0      (the root: no sum),
      feature r = max (Σ_k W2 j r k · hidden k + b2 j r) 0.
  The 144 results of a row are the 24 joints' features side by side.  The second half of the file states the same
  hidden layer in the other arrangement: the entry and the parent's features joined into one vector of seven and
  contracted with a row of `W1 j` — with zeros in the parent's place for the root — and shows the two equal.
-/
import Idealize.ShloMosaic.PureOps.Ideal
import Idealize.ShloMosaic.Lib.ValueIdx

noncomputable section

open scoped BigOperators

namespace Cert.TreeSpec

/-- The hidden layer of a joint with a parent. -/
def hidC (w1 : Fin 7 → Fin 7 → EReal) (b1 : Fin 7 → EReal) (x : EReal) (pf : Fin 6 → EReal) (k : Fin 7) : EReal :=
  max (w1 k 0 * x + ∑ l : Fin 6, w1 k l.succ * pf l + b1 k) 0

/-- The hidden layer of the root. -/
def hidR (w1 : Fin 7 → Fin 7 → EReal) (b1 : Fin 7 → EReal) (x : EReal) (k : Fin 7) : EReal :=
  max (w1 k 0 * x + b1 k) 0

/-- The output layer. -/
def outL (w2 : Fin 6 → Fin 7 → EReal) (b2 : Fin 6 → EReal) (h : Fin 7 → EReal) (r : Fin 6) : EReal :=
  max (∑ k : Fin 7, w2 r k * h k + b2 r) 0

/-- The entry and the parent's features joined into one vector of seven. -/
def joined (x : EReal) (pf : Fin 6 → EReal) : Fin 7 → EReal := Fin.cons x pf

/-- The hidden layer in the joined arrangement: the vector of seven contracted with row `k` of the weights. -/
def hidJ (w1 : Fin 7 → Fin 7 → EReal) (b1 : Fin 7 → EReal) (v : Fin 7 → EReal) (k : Fin 7) : EReal :=
  max (∑ l : Fin 7, v l * w1 k l + b1 k) 0

/-- The output layer with each product written the other way round. -/
def outJ (w2 : Fin 6 → Fin 7 → EReal) (b2 : Fin 6 → EReal) (h : Fin 7 → EReal) (r : Fin 6) : EReal :=
  max (∑ k : Fin 7, h k * w2 r k + b2 r) 0

/-- The joined arrangement of a joint with a parent is its hidden layer: the sum of seven products is the first
    plus the other six, and each product commutes. -/
theorem hidJ_joined (w1 : Fin 7 → Fin 7 → EReal) (b1 : Fin 7 → EReal) (x : EReal) (pf : Fin 6 → EReal) :
    hidJ w1 b1 (joined x pf) = hidC w1 b1 x pf := by
  funext k
  unfold hidJ hidC joined
  rw [Fin.sum_univ_succ]
  simp only [Fin.cons_zero, Fin.cons_succ]
  rw [mul_comm x (w1 k 0)]
  congr 2
  congr 1
  exact Finset.sum_congr rfl fun l _ => mul_comm _ _

/-- With zeros in the parent's place the six other products vanish: the root's hidden layer. -/
theorem hidJ_root (w1 : Fin 7 → Fin 7 → EReal) (b1 : Fin 7 → EReal) (x : EReal) :
    hidJ w1 b1 (joined x fun _ => 0) = hidR w1 b1 x := by
  funext k
  unfold hidJ hidR joined
  rw [Fin.sum_univ_succ]
  simp only [Fin.cons_zero, Fin.cons_succ, zero_mul, Finset.sum_const_zero, add_zero]
  rw [mul_comm]

theorem outJ_eq (w2 : Fin 6 → Fin 7 → EReal) (b2 : Fin 6 → EReal) (h : Fin 7 → EReal) : outJ w2 b2 h = outL w2 b2 h := by
  funext r
  unfold outJ outL
  congr 2
  exact Finset.sum_congr rfl fun k _ => mul_comm _ _

/-! ## The tree -/

/-- One batch row's data: its 24 entries and the four parameter tables. -/
structure Row where
  x : Fin 24 → EReal
  w1 : Fin 24 → Fin 7 → Fin 7 → EReal
  b1 : Fin 24 → Fin 7 → EReal
  w2 : Fin 24 → Fin 6 → Fin 7 → EReal
  b2 : Fin 24 → Fin 6 → EReal

/-- The features of a joint without a parent. -/
def Row.root (R : Row) (j : Fin 24) : Fin 6 → EReal := outL (R.w2 j) (R.b2 j) (hidR (R.w1 j) (R.b1 j) (R.x j))

/-- The features of a joint from its parent's. -/
def Row.child (R : Row) (j : Fin 24) (pf : Fin 6 → EReal) : Fin 6 → EReal :=
  outL (R.w2 j) (R.b2 j) (hidC (R.w1 j) (R.b1 j) (R.x j) pf)

/-! The 24 joints in topological order; joint 0 is the root, and the parents are
    0 0 0 1 2 3 4 5 6 7 8 9 9 9 12 13 14 16 17 18 19 20 21 for joints 1 to 23. -/
def Row.f0 (R : Row) : Fin 6 → EReal := R.root 0
def Row.f1 (R : Row) : Fin 6 → EReal := R.child 1 R.f0
def Row.f2 (R : Row) : Fin 6 → EReal := R.child 2 R.f0
def Row.f3 (R : Row) : Fin 6 → EReal := R.child 3 R.f0
def Row.f4 (R : Row) : Fin 6 → EReal := R.child 4 R.f1
def Row.f5 (R : Row) : Fin 6 → EReal := R.child 5 R.f2
def Row.f6 (R : Row) : Fin 6 → EReal := R.child 6 R.f3
def Row.f7 (R : Row) : Fin 6 → EReal := R.child 7 R.f4
def Row.f8 (R : Row) : Fin 6 → EReal := R.child 8 R.f5
def Row.f9 (R : Row) : Fin 6 → EReal := R.child 9 R.f6
def Row.f10 (R : Row) : Fin 6 → EReal := R.child 10 R.f7
def Row.f11 (R : Row) : Fin 6 → EReal := R.child 11 R.f8
def Row.f12 (R : Row) : Fin 6 → EReal := R.child 12 R.f9
def Row.f13 (R : Row) : Fin 6 → EReal := R.child 13 R.f9
def Row.f14 (R : Row) : Fin 6 → EReal := R.child 14 R.f9
def Row.f15 (R : Row) : Fin 6 → EReal := R.child 15 R.f12
def Row.f16 (R : Row) : Fin 6 → EReal := R.child 16 R.f13
def Row.f17 (R : Row) : Fin 6 → EReal := R.child 17 R.f14
def Row.f18 (R : Row) : Fin 6 → EReal := R.child 18 R.f16
def Row.f19 (R : Row) : Fin 6 → EReal := R.child 19 R.f17
def Row.f20 (R : Row) : Fin 6 → EReal := R.child 20 R.f18
def Row.f21 (R : Row) : Fin 6 → EReal := R.child 21 R.f19
def Row.f22 (R : Row) : Fin 6 → EReal := R.child 22 R.f20
def Row.f23 (R : Row) : Fin 6 → EReal := R.child 23 R.f21

/-- Joint `j`'s features. -/
def Row.feat (R : Row) : Fin 24 → Fin 6 → EReal :=
  ![R.f0, R.f1, R.f2, R.f3, R.f4, R.f5, R.f6, R.f7, R.f8, R.f9, R.f10, R.f11, R.f12, R.f13, R.f14, R.f15, R.f16, R.f17, R.f18, R.f19, R.f20, R.f21, R.f22, R.f23]

/-- The row's 144 results: joint `n / 6`'s feature `n % 6`. -/
def Row.out (R : Row) (n : Fin 144) : EReal :=
  R.feat ⟨n.val / 6, by have := n.isLt; omega⟩ ⟨n.val % 6, Nat.mod_lt _ (by decide)⟩

end Cert.TreeSpec

end
-- ==== Proof.LibStackOps.lean ====
/-
  A stack of matrices cut at one member, and a matrix's column or row repeated, read at an entry.

  * A `[n, a, b]` stack sliced at position `o` of its leading axis and viewed as an `[a, b]` matrix reads, at
    `(i, j)`, the stack at `(o, i, j)` (`member_apply`).
  * One row `o` of an `[n, T]` matrix repeated down `a` rows reads, at `(k, q)`, the matrix at `(o, q)`
    (`rowSpread_apply`).
  * One column `o` of an `[a, n]` matrix repeated along `T` lanes reads, at `(k, q)`, the matrix at `(k, o)`
    (`colSpread_apply`).
-/
import Idealize.ShloMosaic.Lib.ValueIdx
import Idealize.ShloMosaic.Lib.ValueLayout
import Idealize.ShloMosaic.Lib.Pipeline.Value

noncomputable section

namespace Cert.Lib.StackOps

open Idealize.ShloMosaic Idealize.ShloMosaic.ValueIdx

variable {α : Type}

/-- The slab at position `o` of a stack, read at `(0, i, j)`. -/
theorem slab_apply {n a b : Nat} (o : Nat) (X : (⟨3, ![n, a, b]⟩ : Shape).Idx → α)
    (h : (⟨3, ![n, a, b]⟩ : Shape).Slices ![o, 0, 0] ⟨3, ![1, a, b]⟩) (i : Fin a) (j : Fin b) (k : Fin n)
    (hk : k.val = o) :
    extractStridedSlice ⟨3, ![1, a, b]⟩ ![o, 0, 0] X h (ix3 (0 : Fin 1) i j) = X (ix3 k i j) :=
  extractStridedSlice_apply _ _ _ _ _ (fun ax => by
    match ax with
    | ⟨0, _⟩ => show k.val = o + 0; omega
    | ⟨1, _⟩ => exact (Nat.zero_add _).symm
    | ⟨2, _⟩ => exact (Nat.zero_add _).symm)

/-- The member at position `o` of a stack as a matrix, read at `(i, j)`. -/
theorem member_apply {n a b : Nat} (o : Nat) (X : (⟨3, ![n, a, b]⟩ : Shape).Idx → α)
    (h : (⟨3, ![n, a, b]⟩ : Shape).Slices ![o, 0, 0] ⟨3, ![1, a, b]⟩)
    (hc : (⟨3, ![1, a, b]⟩ : Shape).ShapeCasts ⟨2, ![a, b]⟩) (i : Fin a) (j : Fin b) (k : Fin n) (hk : k.val = o) :
    shapeCast ⟨2, ![a, b]⟩ (extractStridedSlice ⟨3, ![1, a, b]⟩ ![o, 0, 0] X h) hc (ix2 i j) = X (ix3 k i j) := by
  rw [shapeCast_1ab_ab_apply]
  exact slab_apply o X h i j k hk

/-- Row `o` of a matrix repeated down `a` rows. -/
theorem rowSpread_apply {n T a : Nat} (o : Nat) (X : (⟨2, ![n, T]⟩ : Shape).Idx → α)
    (h : (⟨2, ![n, T]⟩ : Shape).Slices ![o, 0] ⟨2, ![1, T]⟩)
    (hb : (⟨2, ![1, T]⟩ : Shape).Broadcasts ⟨2, ![a, T]⟩) (k : Fin a) (q : Fin T) (p : Fin n) (hp : p.val = o) :
    broadcastTo ⟨2, ![a, T]⟩ (extractStridedSlice ⟨2, ![1, T]⟩ ![o, 0] X h) hb (ix2 k q) = X (ix2 p q) := by
  rw [broadcastTo_1b_ab_apply]
  exact slice2_axis0_apply o X h (0 : Fin 1) q p (by show p.val = o + 0; omega)

/-- An `[a, 1]` column repeated along `T` lanes reads, at `(k, q)`, the column at `(k, 0)`. -/
theorem lanes_apply {a T : Nat} (v : (⟨2, ![a, 1]⟩ : Shape).Idx → α)
    (hb : (⟨2, ![a, 1]⟩ : Shape).Broadcasts ⟨2, ![a, T]⟩) (k : Fin a) (q : Fin T) :
    broadcastTo ⟨2, ![a, T]⟩ v hb (ix2 k q) = v (ix2 k (0 : Fin 1)) := by
  refine broadcastTo_apply _ hb (ix2 k q) (ix2 k (0 : Fin 1)) (fun ax => ?_)
  match ax with
  | ⟨0, _⟩ =>
    show k.val = if a = 1 then 0 else k.val
    split
    · have := k.isLt; omega
    · rfl
  | ⟨1, _⟩ => exact (if_pos rfl).symm

/-- Column `o` of a matrix repeated along `T` lanes. -/
theorem colSpread_apply {a n T : Nat} (o : Nat) (X : (⟨2, ![a, n]⟩ : Shape).Idx → α)
    (h : (⟨2, ![a, n]⟩ : Shape).Slices ![0, o] ⟨2, ![a, 1]⟩)
    (hb : (⟨2, ![a, 1]⟩ : Shape).Broadcasts ⟨2, ![a, T]⟩) (k : Fin a) (q : Fin T) (p : Fin n) (hp : p.val = o) :
    broadcastTo ⟨2, ![a, T]⟩ (extractStridedSlice ⟨2, ![a, 1]⟩ ![0, o] X h) hb (ix2 k q) = X (ix2 k p) := by
  rw [lanes_apply]
  exact slice2_axis1_apply o X h k (0 : Fin 1) p (by show p.val = o + 0; omega)

end Cert.Lib.StackOps

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.JointBlock.lean ====
/-
  One joint's two layers on a block of `T` batch rows, as the vector unit spells them, read at an entry.

  The block is kept feature-major: the batch rows run along the lanes.  `v1` is the block of inputs transposed
  (`24 × T`), `v2` the stack of first-layer weights (`24 × 7 × 7`), `v4` the first-layer biases transposed
  (`7 × 24`), `v5` the stack of second-layer weights (`24 × 6 × 7`), `v7` the second-layer biases transposed
  (`6 × 24`), and `pf` the parent's features (`6 × T`).  Joint `j` computes, lane by lane,
      hidden = max (W1[j][:, 0] · x[j] + W1[j][:, 1:] · pf + b1[:, j]) 0      (no product for the root),
      out    = max (W2[j] · hidden + b2[:, j]) 0,
  and at lane `q` these are the specification's layers of the row `q`.
-/
import Idealize.ShloMosaic.Lib.ValueIdx
import Idealize.ShloMosaic.Lib.ValueLayout
import Idealize.ShloMosaic.Lib.Pipeline.Value
import Idealize.ShloMosaic.PureOps.Ideal.Laws
import proofs.«172863_j7009386627271_2_alg».proof.Proof.TreeSpec
import proofs.«172863_j7009386627271_2_alg».proof.Proof.LibStackOps
import proofs.«172863_j7009386627271_2_alg».proof.Proof.LibPlainDot

noncomputable section

open scoped BigOperators

namespace Cert.JointBlock

open Idealize.ShloMosaic Idealize.ShloMosaic.ValueIdx Cert.TreeSpec Cert.Lib.StackOps

variable {T : Nat}

/-- The first term of the hidden layer: column 0 of `W1[j]` along the lanes times row `j` of the inputs down the rows. -/
def term0 (j : Nat) (v1 : FVec Ideal ⟨2, ![24, T]⟩ .f32) (v2 : FVec Ideal ⟨3, ![24, 7, 7]⟩ .f32)
    (hx : (⟨2, ![24, T]⟩ : Shape).Slices ![j, 0] ⟨2, ![1, T]⟩) (hbx : (⟨2, ![1, T]⟩ : Shape).Broadcasts ⟨2, ![7, T]⟩)
    (hw : (⟨3, ![24, 7, 7]⟩ : Shape).Slices ![j, 0, 0] ⟨3, ![1, 7, 7]⟩)
    (hc : (⟨3, ![1, 7, 7]⟩ : Shape).ShapeCasts ⟨2, ![7, 7]⟩)
    (h0 : (⟨2, ![7, 7]⟩ : Shape).Slices ![0, 0] ⟨2, ![7, 1]⟩) (hb7 : (⟨2, ![7, 1]⟩ : Shape).Broadcasts ⟨2, ![7, T]⟩) :
    FVec Ideal ⟨2, ![7, T]⟩ .f32 :=
  mulf (broadcastTo ⟨2, ![7, T]⟩ (extractStridedSlice ⟨2, ![7, 1]⟩ ![0, 0]
      (shapeCast ⟨2, ![7, 7]⟩ (extractStridedSlice ⟨3, ![1, 7, 7]⟩ ![j, 0, 0] v2 hw) hc) h0) hb7)
    (broadcastTo ⟨2, ![7, T]⟩ (extractStridedSlice ⟨2, ![1, T]⟩ ![j, 0] v1 hx) hbx)

theorem term0_apply (j : Nat) (hj : j < 24) (v1 : FVec Ideal ⟨2, ![24, T]⟩ .f32) (v2 : FVec Ideal ⟨3, ![24, 7, 7]⟩ .f32)
    (hx hbx hw hc h0 hb7) (k : Fin 7) (q : Fin T) :
    term0 j v1 v2 hx hbx hw hc h0 hb7 (ix2 k q) = v2 (ix3 ⟨j, hj⟩ k 0) * v1 (ix2 ⟨j, hj⟩ q) := by
  unfold term0
  rw [mulf_apply, rowSpread_apply j v1 hx hbx k q ⟨j, hj⟩ rfl, lanes_apply,
    slice2_axis1_apply 0 _ h0 k (0 : Fin 1) (0 : Fin 7) rfl, member_apply j v2 hw hc k 0 ⟨j, hj⟩ rfl]

/-- The parent's term: columns 1 to 6 of `W1[j]` times the parent's features. -/
def pterm (j : Nat) (v2 : FVec Ideal ⟨3, ![24, 7, 7]⟩ .f32)
    (hw : (⟨3, ![24, 7, 7]⟩ : Shape).Slices ![j, 0, 0] ⟨3, ![1, 7, 7]⟩)
    (hc : (⟨3, ![1, 7, 7]⟩ : Shape).ShapeCasts ⟨2, ![7, 7]⟩)
    (hr : (⟨2, ![7, 7]⟩ : Shape).Slices ![0, 1] ⟨2, ![7, 6]⟩)
    (D1 : DotDims ⟨2, ![7, 6]⟩ ⟨2, ![6, T]⟩ ⟨2, ![7, T]⟩) (pf : FVec Ideal ⟨2, ![6, T]⟩ .f32) :
    FVec Ideal ⟨2, ![7, T]⟩ .f32 :=
  matmul D1 (some .fp32) (extractStridedSlice ⟨2, ![7, 6]⟩ ![0, 1]
      (shapeCast ⟨2, ![7, 7]⟩ (extractStridedSlice ⟨3, ![1, 7, 7]⟩ ![j, 0, 0] v2 hw) hc) hr) pf
    (constant ⟨2, ![7, T]⟩ .f32 0x00000000#32)

theorem pterm_apply (j : Nat) (hj : j < 24) (v2 : FVec Ideal ⟨3, ![24, 7, 7]⟩ .f32) (hw hc hr)
    (D1 : DotDims ⟨2, ![7, 6]⟩ ⟨2, ![6, T]⟩ ⟨2, ![7, T]⟩) (hD : D1 = DotDims.plain 7 6 T)
    (pf : FVec Ideal ⟨2, ![6, T]⟩ .f32) (k : Fin 7) (q : Fin T) :
    pterm j v2 hw hc hr D1 pf (ix2 k q) = ∑ l : Fin 6, v2 (ix3 ⟨j, hj⟩ k l.succ) * pf (ix2 l q) := by
  subst hD
  unfold pterm
  show FloatOps.matmul (DotDims.plain 7 6 T) _ _ _ _ (ix2 k q) = _
  rw [Cert.Lib.PlainDot.matmul_zero_apply]
  refine Finset.sum_congr rfl fun l _ => ?_
  rw [slice2_axis1_apply 1 _ hr k l l.succ (by show l.val + 1 = 1 + l.val; omega), member_apply j v2 hw hc k l.succ ⟨j, hj⟩ rfl]

/-- A bias column `j` along the lanes. -/
def bcol {a : Nat} (j : Nat) (v : FVec Ideal ⟨2, ![a, 24]⟩ .f32)
    (hs : (⟨2, ![a, 24]⟩ : Shape).Slices ![0, j] ⟨2, ![a, 1]⟩) (hb : (⟨2, ![a, 1]⟩ : Shape).Broadcasts ⟨2, ![a, T]⟩) :
    FVec Ideal ⟨2, ![a, T]⟩ .f32 :=
  broadcastTo ⟨2, ![a, T]⟩ (extractStridedSlice ⟨2, ![a, 1]⟩ ![0, j] v hs) hb

theorem bcol_apply {a : Nat} (j : Nat) (hj : j < 24) (v : FVec Ideal ⟨2, ![a, 24]⟩ .f32) (hs hb) (k : Fin a) (q : Fin T) :
    bcol (T := T) j v hs hb (ix2 k q) = v (ix2 k ⟨j, hj⟩) := by
  unfold bcol
  exact colSpread_apply j v hs hb k q ⟨j, hj⟩ rfl

/-- The positive part. -/
def relu {a : Nat} (z : FVec Ideal ⟨2, ![a, T]⟩ .f32) : FVec Ideal ⟨2, ![a, T]⟩ .f32 :=
  maximumf z (broadcast ⟨2, ![a, T]⟩ (Scalar.ofBits .f32 0x00000000#32))

theorem relu_apply {a : Nat} (z : FVec Ideal ⟨2, ![a, T]⟩ .f32) (i : (⟨2, ![a, T]⟩ : Shape).Idx) :
    relu z i = max (z i) 0 := by
  unfold relu
  rw [maximumf_apply, broadcast_apply]
  show max (z i) (Ideal.ofBits .f32 0x00000000#32) = _
  rw [Ideal.ofBits_zero_f32]

/-- The second layer: `W2[j]` times the hidden layer, plus the bias column, positive part. -/
def outK (j : Nat) (v5 : FVec Ideal ⟨3, ![24, 6, 7]⟩ .f32) (v7 : FVec Ideal ⟨2, ![6, 24]⟩ .f32)
    (hw : (⟨3, ![24, 6, 7]⟩ : Shape).Slices ![j, 0, 0] ⟨3, ![1, 6, 7]⟩)
    (hc : (⟨3, ![1, 6, 7]⟩ : Shape).ShapeCasts ⟨2, ![6, 7]⟩)
    (hs : (⟨2, ![6, 24]⟩ : Shape).Slices ![0, j] ⟨2, ![6, 1]⟩) (hb : (⟨2, ![6, 1]⟩ : Shape).Broadcasts ⟨2, ![6, T]⟩)
    (D2 : DotDims ⟨2, ![6, 7]⟩ ⟨2, ![7, T]⟩ ⟨2, ![6, T]⟩) (h : FVec Ideal ⟨2, ![7, T]⟩ .f32) :
    FVec Ideal ⟨2, ![6, T]⟩ .f32 :=
  relu (addf (matmul D2 (some .fp32) (shapeCast ⟨2, ![6, 7]⟩ (extractStridedSlice ⟨3, ![1, 6, 7]⟩ ![j, 0, 0] v5 hw) hc) h
      (constant ⟨2, ![6, T]⟩ .f32 0x00000000#32)) (bcol j v7 hs hb))

theorem outK_apply (j : Nat) (hj : j < 24) (v5 : FVec Ideal ⟨3, ![24, 6, 7]⟩ .f32) (v7 : FVec Ideal ⟨2, ![6, 24]⟩ .f32)
    (hw hc hs hb) (D2 : DotDims ⟨2, ![6, 7]⟩ ⟨2, ![7, T]⟩ ⟨2, ![6, T]⟩) (hD : D2 = DotDims.plain 6 7 T)
    (h : FVec Ideal ⟨2, ![7, T]⟩ .f32) (r : Fin 6) (q : Fin T) :
    outK j v5 v7 hw hc hs hb D2 h (ix2 r q)
      = outL (fun r k => v5 (ix3 ⟨j, hj⟩ r k)) (fun r => v7 (ix2 r ⟨j, hj⟩)) (fun k => h (ix2 k q)) r := by
  subst hD
  unfold outK outL
  rw [relu_apply, addf_apply, bcol_apply j hj]
  show max (FloatOps.matmul (DotDims.plain 6 7 T) _ _ _ _ (ix2 r q) + _) 0 = _
  rw [Cert.Lib.PlainDot.matmul_zero_apply]
  congr 2
  refine Finset.sum_congr rfl fun k _ => ?_
  rw [member_apply j v5 hw hc r k ⟨j, hj⟩ rfl]

/-- The root's hidden layer. -/
def hidRK (j : Nat) (v1 : FVec Ideal ⟨2, ![24, T]⟩ .f32) (v2 : FVec Ideal ⟨3, ![24, 7, 7]⟩ .f32)
    (v4 : FVec Ideal ⟨2, ![7, 24]⟩ .f32) (hx : (⟨2, ![24, T]⟩ : Shape).Slices ![j, 0] ⟨2, ![1, T]⟩) (hbx : (⟨2, ![1, T]⟩ : Shape).Broadcasts ⟨2, ![7, T]⟩)
    (hw : (⟨3, ![24, 7, 7]⟩ : Shape).Slices ![j, 0, 0] ⟨3, ![1, 7, 7]⟩)
    (hc : (⟨3, ![1, 7, 7]⟩ : Shape).ShapeCasts ⟨2, ![7, 7]⟩)
    (h0 : (⟨2, ![7, 7]⟩ : Shape).Slices ![0, 0] ⟨2, ![7, 1]⟩) (hb7 : (⟨2, ![7, 1]⟩ : Shape).Broadcasts ⟨2, ![7, T]⟩)
    (hs : (⟨2, ![7, 24]⟩ : Shape).Slices ![0, j] ⟨2, ![7, 1]⟩) : FVec Ideal ⟨2, ![7, T]⟩ .f32 :=
  relu (addf (term0 j v1 v2 hx hbx hw hc h0 hb7) (bcol j v4 hs hb7))

theorem hidRK_apply (j : Nat) (hj : j < 24) (v1 : FVec Ideal ⟨2, ![24, T]⟩ .f32) (v2 : FVec Ideal ⟨3, ![24, 7, 7]⟩ .f32)
    (v4 : FVec Ideal ⟨2, ![7, 24]⟩ .f32) (hx hbx hw hc h0 hb7 hs) (k : Fin 7) (q : Fin T) :
    hidRK j v1 v2 v4 hx hbx hw hc h0 hb7 hs (ix2 k q)
      = hidR (fun k l => v2 (ix3 ⟨j, hj⟩ k l)) (fun k => v4 (ix2 k ⟨j, hj⟩)) (v1 (ix2 ⟨j, hj⟩ q)) k := by
  unfold hidRK hidR
  rw [relu_apply, addf_apply, term0_apply j hj, bcol_apply j hj]

/-- The hidden layer of a joint with a parent. -/
def hidCK (j : Nat) (v1 : FVec Ideal ⟨2, ![24, T]⟩ .f32) (v2 : FVec Ideal ⟨3, ![24, 7, 7]⟩ .f32)
    (v4 : FVec Ideal ⟨2, ![7, 24]⟩ .f32) (hx : (⟨2, ![24, T]⟩ : Shape).Slices ![j, 0] ⟨2, ![1, T]⟩) (hbx : (⟨2, ![1, T]⟩ : Shape).Broadcasts ⟨2, ![7, T]⟩)
    (hw : (⟨3, ![24, 7, 7]⟩ : Shape).Slices ![j, 0, 0] ⟨3, ![1, 7, 7]⟩)
    (hc : (⟨3, ![1, 7, 7]⟩ : Shape).ShapeCasts ⟨2, ![7, 7]⟩)
    (h0 : (⟨2, ![7, 7]⟩ : Shape).Slices ![0, 0] ⟨2, ![7, 1]⟩) (hb7 : (⟨2, ![7, 1]⟩ : Shape).Broadcasts ⟨2, ![7, T]⟩)
    (hr : (⟨2, ![7, 7]⟩ : Shape).Slices ![0, 1] ⟨2, ![7, 6]⟩)
    (D1 : DotDims ⟨2, ![7, 6]⟩ ⟨2, ![6, T]⟩ ⟨2, ![7, T]⟩)
    (hs : (⟨2, ![7, 24]⟩ : Shape).Slices ![0, j] ⟨2, ![7, 1]⟩) (pf : FVec Ideal ⟨2, ![6, T]⟩ .f32) :
    FVec Ideal ⟨2, ![7, T]⟩ .f32 :=
  relu (addf (addf (term0 j v1 v2 hx hbx hw hc h0 hb7) (pterm j v2 hw hc hr D1 pf)) (bcol j v4 hs hb7))

theorem hidCK_apply (j : Nat) (hj : j < 24) (v1 : FVec Ideal ⟨2, ![24, T]⟩ .f32) (v2 : FVec Ideal ⟨3, ![24, 7, 7]⟩ .f32)
    (v4 : FVec Ideal ⟨2, ![7, 24]⟩ .f32) (hx hbx hw hc h0 hb7 hr)
    (D1 : DotDims ⟨2, ![7, 6]⟩ ⟨2, ![6, T]⟩ ⟨2, ![7, T]⟩) (hD : D1 = DotDims.plain 7 6 T) (hs)
    (pf : FVec Ideal ⟨2, ![6, T]⟩ .f32) (k : Fin 7) (q : Fin T) :
    hidCK j v1 v2 v4 hx hbx hw hc h0 hb7 hr D1 hs pf (ix2 k q)
      = hidC (fun k l => v2 (ix3 ⟨j, hj⟩ k l)) (fun k => v4 (ix2 k ⟨j, hj⟩)) (v1 (ix2 ⟨j, hj⟩ q))
          (fun l => pf (ix2 l q)) k := by
  unfold hidCK hidC
  rw [relu_apply, addf_apply, addf_apply, term0_apply j hj, pterm_apply j hj v2 hw hc hr D1 hD, bcol_apply j hj]

end Cert.JointBlock

end
-- ==== Proof.KernelTree.lean ====
/-
  The kernel body's 24 joints on a block of 5000 batch rows, each read at an entry.

  The body keeps the block feature-major (`v1`, the inputs transposed) and computes the joints in topological
  order, each from its parent's features.  `kF j` is joint `j`'s `6 × 5000` array of features as the body spells
  it, and at lane `q` it is the specification's `f j` of the row made of column `q` of the inputs and the parameter
  tables as the block holds them (the two bias tables transposed).
-/
import proofs.«172863_j7009386627271_2_alg».proof.Proof.Gen.KernelIdeal
import proofs.«172863_j7009386627271_2_alg».proof.Proof.JointBlock

noncomputable section

namespace Cert.KernelIdeal.Tree

open Cert.KernelIdeal Cert.KernelIdeal.Gen Idealize.ShloMosaic Idealize.ShloMosaic.ValueIdx Cert.TreeSpec

variable (v1 : FVec Ideal S24x5000 .f32) (v2 : Vec Ideal S24x7x7 .f32) (v4 : FVec Ideal S7x24 .f32)
  (v5 : Vec Ideal S24x6x7 .f32) (v7 : FVec Ideal S6x24 .f32)

/-- The row of the specification that lane `q` of the block holds. -/
def rowK (q : Fin 5000) : Row where
  x j := v1 (ix2 j q)
  w1 j k l := v2 (ix3 j k l)
  b1 j k := v4 (ix2 k j)
  w2 j r k := v5 (ix3 j r k)
  b2 j r := v7 (ix2 r j)

/-- A joint without a parent, as the body spells it. -/
def kRoot (j : Nat) (hx : S24x5000.Slices ![j, 0] S1x5000) (hw : S24x7x7.Slices ![j, 0, 0] S1x7x7)
    (hs1 : S7x24.Slices ![0, j] S7x1) (hw2 : S24x6x7.Slices ![j, 0, 0] S1x6x7) (hs2 : S6x24.Slices ![0, j] S6x1) :
    FVec Ideal S6x5000 .f32 :=
  Cert.JointBlock.outK j v5 v7 hw2 shapeCasts_S1x6x7_S6x7 hs2 broadcasts_S6x1_S6x5000 dot_S6x7_S7x5000_S6x5000_1_0_0_1_n_n
    (Cert.JointBlock.hidRK j v1 v2 v4 hx broadcasts_S1x5000_S7x5000 hw shapeCasts_S1x7x7_S7x7 slices_S7x7_o0_0_S7x1
      broadcasts_S7x1_S7x5000 hs1)

/-- A joint with a parent, as the body spells it. -/
def kChild (j : Nat) (hx : S24x5000.Slices ![j, 0] S1x5000) (hw : S24x7x7.Slices ![j, 0, 0] S1x7x7)
    (hs1 : S7x24.Slices ![0, j] S7x1) (hw2 : S24x6x7.Slices ![j, 0, 0] S1x6x7) (hs2 : S6x24.Slices ![0, j] S6x1)
    (pf : FVec Ideal S6x5000 .f32) : FVec Ideal S6x5000 .f32 :=
  Cert.JointBlock.outK j v5 v7 hw2 shapeCasts_S1x6x7_S6x7 hs2 broadcasts_S6x1_S6x5000 dot_S6x7_S7x5000_S6x5000_1_0_0_1_n_n
    (Cert.JointBlock.hidCK j v1 v2 v4 hx broadcasts_S1x5000_S7x5000 hw shapeCasts_S1x7x7_S7x7 slices_S7x7_o0_0_S7x1
      broadcasts_S7x1_S7x5000 slices_S7x7_o0_1_S7x6 dot_S7x6_S6x5000_S7x5000_1_0_0_1_n_n hs1 pf)

theorem kRoot_apply (j : Nat) (hj : j < 24) (hx hw hs1 hw2 hs2) (r : Fin 6) (q : Fin 5000) :
    kRoot v1 v2 v4 v5 v7 j hx hw hs1 hw2 hs2 (ix2 r q) = (rowK v1 v2 v4 v5 v7 q).root ⟨j, hj⟩ r := by
  unfold kRoot Row.root
  refine (Cert.JointBlock.outK_apply j hj v5 v7 hw2 _ hs2 _ dot_S6x7_S7x5000_S6x5000_1_0_0_1_n_n rfl _ r q).trans ?_
  refine congrArg (fun h => outL _ _ h r) (funext fun k => ?_)
  exact Cert.JointBlock.hidRK_apply j hj v1 v2 v4 hx _ hw _ _ _ hs1 k q

theorem kChild_apply (j : Nat) (hj : j < 24) (hx hw hs1 hw2 hs2) (pf : FVec Ideal S6x5000 .f32)
    (P : Fin 5000 → Fin 6 → EReal) (hpf : ∀ l q, pf (ix2 l q) = P q l) (r : Fin 6) (q : Fin 5000) :
    kChild v1 v2 v4 v5 v7 j hx hw hs1 hw2 hs2 pf (ix2 r q) = (rowK v1 v2 v4 v5 v7 q).child ⟨j, hj⟩ (P q) r := by
  unfold kChild Row.child
  refine (Cert.JointBlock.outK_apply j hj v5 v7 hw2 _ hs2 _ dot_S6x7_S7x5000_S6x5000_1_0_0_1_n_n rfl _ r q).trans ?_
  refine congrArg (fun h => outL _ _ h r) (funext fun k => ?_)
  refine (Cert.JointBlock.hidCK_apply j hj v1 v2 v4 hx _ hw _ _ _ _ dot_S7x6_S6x5000_S7x5000_1_0_0_1_n_n rfl hs1 pf k q).trans ?_
  exact congrArg (fun g => hidC _ _ _ g k) (funext fun l => hpf l q)

/-! The 24 joints, each from its parent's array. -/
def kF0 : FVec Ideal S6x5000 .f32 := kRoot v1 v2 v4 v5 v7 0 slices_S24x5000_o0_0_S1x5000 slices_S24x7x7_o0_0_0_S1x7x7 slices_S7x24_o0_0_S7x1 slices_S24x6x7_o0_0_0_S1x6x7 slices_S6x24_o0_0_S6x1
def kF1 : FVec Ideal S6x5000 .f32 := kChild v1 v2 v4 v5 v7 1 slices_S24x5000_o1_0_S1x5000 slices_S24x7x7_o1_0_0_S1x7x7 slices_S7x24_o0_1_S7x1 slices_S24x6x7_o1_0_0_S1x6x7 slices_S6x24_o0_1_S6x1 (kF0 v1 v2 v4 v5 v7)
def kF2 : FVec Ideal S6x5000 .f32 := kChild v1 v2 v4 v5 v7 2 slices_S24x5000_o2_0_S1x5000 slices_S24x7x7_o2_0_0_S1x7x7 slices_S7x24_o0_2_S7x1 slices_S24x6x7_o2_0_0_S1x6x7 slices_S6x24_o0_2_S6x1 (kF0 v1 v2 v4 v5 v7)
def kF3 : FVec Ideal S6x5000 .f32 := kChild v1 v2 v4 v5 v7 3 slices_S24x5000_o3_0_S1x5000 slices_S24x7x7_o3_0_0_S1x7x7 slices_S7x24_o0_3_S7x1 slices_S24x6x7_o3_0_0_S1x6x7 slices_S6x24_o0_3_S6x1 (kF0 v1 v2 v4 v5 v7)
def kF4 : FVec Ideal S6x5000 .f32 := kChild v1 v2 v4 v5 v7 4 slices_S24x5000_o4_0_S1x5000 slices_S24x7x7_o4_0_0_S1x7x7 slices_S7x24_o0_4_S7x1 slices_S24x6x7_o4_0_0_S1x6x7 slices_S6x24_o0_4_S6x1 (kF1 v1 v2 v4 v5 v7)
def kF5 : FVec Ideal S6x5000 .f32 := kChild v1 v2 v4 v5 v7 5 slices_S24x5000_o5_0_S1x5000 slices_S24x7x7_o5_0_0_S1x7x7 slices_S7x24_o0_5_S7x1 slices_S24x6x7_o5_0_0_S1x6x7 slices_S6x24_o0_5_S6x1 (kF2 v1 v2 v4 v5 v7)
def kF6 : FVec Ideal S6x5000 .f32 := kChild v1 v2 v4 v5 v7 6 slices_S24x5000_o6_0_S1x5000 slices_S24x7x7_o6_0_0_S1x7x7 slices_S7x24_o0_6_S7x1 slices_S24x6x7_o6_0_0_S1x6x7 slices_S6x24_o0_6_S6x1 (kF3 v1 v2 v4 v5 v7)
def kF7 : FVec Ideal S6x5000 .f32 := kChild v1 v2 v4 v5 v7 7 slices_S24x5000_o7_0_S1x5000 slices_S24x7x7_o7_0_0_S1x7x7 slices_S7x24_o0_7_S7x1 slices_S24x6x7_o7_0_0_S1x6x7 slices_S6x24_o0_7_S6x1 (kF4 v1 v2 v4 v5 v7)
def kF8 : FVec Ideal S6x5000 .f32 := kChild v1 v2 v4 v5 v7 8 slices_S24x5000_o8_0_S1x5000 slices_S24x7x7_o8_0_0_S1x7x7 slices_S7x24_o0_8_S7x1 slices_S24x6x7_o8_0_0_S1x6x7 slices_S6x24_o0_8_S6x1 (kF5 v1 v2 v4 v5 v7)
def kF9 : FVec Ideal S6x5000 .f32 := kChild v1 v2 v4 v5 v7 9 slices_S24x5000_o9_0_S1x5000 slices_S24x7x7_o9_0_0_S1x7x7 slices_S7x24_o0_9_S7x1 slices_S24x6x7_o9_0_0_S1x6x7 slices_S6x24_o0_9_S6x1 (kF6 v1 v2 v4 v5 v7)
def kF10 : FVec Ideal S6x5000 .f32 := kChild v1 v2 v4 v5 v7 10 slices_S24x5000_o10_0_S1x5000 slices_S24x7x7_o10_0_0_S1x7x7 slices_S7x24_o0_10_S7x1 slices_S24x6x7_o10_0_0_S1x6x7 slices_S6x24_o0_10_S6x1 (kF7 v1 v2 v4 v5 v7)
def kF11 : FVec Ideal S6x5000 .f32 := kChild v1 v2 v4 v5 v7 11 slices_S24x5000_o11_0_S1x5000 slices_S24x7x7_o11_0_0_S1x7x7 slices_S7x24_o0_11_S7x1 slices_S24x6x7_o11_0_0_S1x6x7 slices_S6x24_o0_11_S6x1 (kF8 v1 v2 v4 v5 v7)
def kF12 : FVec Ideal S6x5000 .f32 := kChild v1 v2 v4 v5 v7 12 slices_S24x5000_o12_0_S1x5000 slices_S24x7x7_o12_0_0_S1x7x7 slices_S7x24_o0_12_S7x1 slices_S24x6x7_o12_0_0_S1x6x7 slices_S6x24_o0_12_S6x1 (kF9 v1 v2 v4 v5 v7)
def kF13 : FVec Ideal S6x5000 .f32 := kChild v1 v2 v4 v5 v7 13 slices_S24x5000_o13_0_S1x5000 slices_S24x7x7_o13_0_0_S1x7x7 slices_S7x24_o0_13_S7x1 slices_S24x6x7_o13_0_0_S1x6x7 slices_S6x24_o0_13_S6x1 (kF9 v1 v2 v4 v5 v7)
def kF14 : FVec Ideal S6x5000 .f32 := kChild v1 v2 v4 v5 v7 14 slices_S24x5000_o14_0_S1x5000 slices_S24x7x7_o14_0_0_S1x7x7 slices_S7x24_o0_14_S7x1 slices_S24x6x7_o14_0_0_S1x6x7 slices_S6x24_o0_14_S6x1 (kF9 v1 v2 v4 v5 v7)
def kF15 : FVec Ideal S6x5000 .f32 := kChild v1 v2 v4 v5 v7 15 slices_S24x5000_o15_0_S1x5000 slices_S24x7x7_o15_0_0_S1x7x7 slices_S7x24_o0_15_S7x1 slices_S24x6x7_o15_0_0_S1x6x7 slices_S6x24_o0_15_S6x1 (kF12 v1 v2 v4 v5 v7)
def kF16 : FVec Ideal S6x5000 .f32 := kChild v1 v2 v4 v5 v7 16 slices_S24x5000_o16_0_S1x5000 slices_S24x7x7_o16_0_0_S1x7x7 slices_S7x24_o0_16_S7x1 slices_S24x6x7_o16_0_0_S1x6x7 slices_S6x24_o0_16_S6x1 (kF13 v1 v2 v4 v5 v7)
def kF17 : FVec Ideal S6x5000 .f32 := kChild v1 v2 v4 v5 v7 17 slices_S24x5000_o17_0_S1x5000 slices_S24x7x7_o17_0_0_S1x7x7 slices_S7x24_o0_17_S7x1 slices_S24x6x7_o17_0_0_S1x6x7 slices_S6x24_o0_17_S6x1 (kF14 v1 v2 v4 v5 v7)
def kF18 : FVec Ideal S6x5000 .f32 := kChild v1 v2 v4 v5 v7 18 slices_S24x5000_o18_0_S1x5000 slices_S24x7x7_o18_0_0_S1x7x7 slices_S7x24_o0_18_S7x1 slices_S24x6x7_o18_0_0_S1x6x7 slices_S6x24_o0_18_S6x1 (kF16 v1 v2 v4 v5 v7)
def kF19 : FVec Ideal S6x5000 .f32 := kChild v1 v2 v4 v5 v7 19 slices_S24x5000_o19_0_S1x5000 slices_S24x7x7_o19_0_0_S1x7x7 slices_S7x24_o0_19_S7x1 slices_S24x6x7_o19_0_0_S1x6x7 slices_S6x24_o0_19_S6x1 (kF17 v1 v2 v4 v5 v7)
def kF20 : FVec Ideal S6x5000 .f32 := kChild v1 v2 v4 v5 v7 20 slices_S24x5000_o20_0_S1x5000 slices_S24x7x7_o20_0_0_S1x7x7 slices_S7x24_o0_20_S7x1 slices_S24x6x7_o20_0_0_S1x6x7 slices_S6x24_o0_20_S6x1 (kF18 v1 v2 v4 v5 v7)
def kF21 : FVec Ideal S6x5000 .f32 := kChild v1 v2 v4 v5 v7 21 slices_S24x5000_o21_0_S1x5000 slices_S24x7x7_o21_0_0_S1x7x7 slices_S7x24_o0_21_S7x1 slices_S24x6x7_o21_0_0_S1x6x7 slices_S6x24_o0_21_S6x1 (kF19 v1 v2 v4 v5 v7)
def kF22 : FVec Ideal S6x5000 .f32 := kChild v1 v2 v4 v5 v7 22 slices_S24x5000_o22_0_S1x5000 slices_S24x7x7_o22_0_0_S1x7x7 slices_S7x24_o0_22_S7x1 slices_S24x6x7_o22_0_0_S1x6x7 slices_S6x24_o0_22_S6x1 (kF20 v1 v2 v4 v5 v7)
def kF23 : FVec Ideal S6x5000 .f32 := kChild v1 v2 v4 v5 v7 23 slices_S24x5000_o23_0_S1x5000 slices_S24x7x7_o23_0_0_S1x7x7 slices_S7x24_o0_23_S7x1 slices_S24x6x7_o23_0_0_S1x6x7 slices_S6x24_o0_23_S6x1 (kF21 v1 v2 v4 v5 v7)

theorem kF0_apply (r : Fin 6) (q : Fin 5000) : kF0 v1 v2 v4 v5 v7 (ix2 r q) = (rowK v1 v2 v4 v5 v7 q).f0 r :=
  kRoot_apply v1 v2 v4 v5 v7 0 (by decide) _ _ _ _ _ r q
theorem kF1_apply (r : Fin 6) (q : Fin 5000) : kF1 v1 v2 v4 v5 v7 (ix2 r q) = (rowK v1 v2 v4 v5 v7 q).f1 r :=
  kChild_apply v1 v2 v4 v5 v7 1 (by decide) _ _ _ _ _ _ (fun q => (rowK v1 v2 v4 v5 v7 q).f0) (kF0_apply v1 v2 v4 v5 v7) r q
theorem kF2_apply (r : Fin 6) (q : Fin 5000) : kF2 v1 v2 v4 v5 v7 (ix2 r q) = (rowK v1 v2 v4 v5 v7 q).f2 r :=
  kChild_apply v1 v2 v4 v5 v7 2 (by decide) _ _ _ _ _ _ (fun q => (rowK v1 v2 v4 v5 v7 q).f0) (kF0_apply v1 v2 v4 v5 v7) r q
theorem kF3_apply (r : Fin 6) (q : Fin 5000) : kF3 v1 v2 v4 v5 v7 (ix2 r q) = (rowK v1 v2 v4 v5 v7 q).f3 r :=
  kChild_apply v1 v2 v4 v5 v7 3 (by decide) _ _ _ _ _ _ (fun q => (rowK v1 v2 v4 v5 v7 q).f0) (kF0_apply v1 v2 v4 v5 v7) r q
theorem kF4_apply (r : Fin 6) (q : Fin 5000) : kF4 v1 v2 v4 v5 v7 (ix2 r q) = (rowK v1 v2 v4 v5 v7 q).f4 r :=
  kChild_apply v1 v2 v4 v5 v7 4 (by decide) _ _ _ _ _ _ (fun q => (rowK v1 v2 v4 v5 v7 q).f1) (kF1_apply v1 v2 v4 v5 v7) r q
theorem kF5_apply (r : Fin 6) (q : Fin 5000) : kF5 v1 v2 v4 v5 v7 (ix2 r q) = (rowK v1 v2 v4 v5 v7 q).f5 r :=
  kChild_apply v1 v2 v4 v5 v7 5 (by decide) _ _ _ _ _ _ (fun q => (rowK v1 v2 v4 v5 v7 q).f2) (kF2_apply v1 v2 v4 v5 v7) r q
theorem kF6_apply (r : Fin 6) (q : Fin 5000) : kF6 v1 v2 v4 v5 v7 (ix2 r q) = (rowK v1 v2 v4 v5 v7 q).f6 r :=
  kChild_apply v1 v2 v4 v5 v7 6 (by decide) _ _ _ _ _ _ (fun q => (rowK v1 v2 v4 v5 v7 q).f3) (kF3_apply v1 v2 v4 v5 v7) r q
theorem kF7_apply (r : Fin 6) (q : Fin 5000) : kF7 v1 v2 v4 v5 v7 (ix2 r q) = (rowK v1 v2 v4 v5 v7 q).f7 r :=
  kChild_apply v1 v2 v4 v5 v7 7 (by decide) _ _ _ _ _ _ (fun q => (rowK v1 v2 v4 v5 v7 q).f4) (kF4_apply v1 v2 v4 v5 v7) r q
theorem kF8_apply (r : Fin 6) (q : Fin 5000) : kF8 v1 v2 v4 v5 v7 (ix2 r q) = (rowK v1 v2 v4 v5 v7 q).f8 r :=
  kChild_apply v1 v2 v4 v5 v7 8 (by decide) _ _ _ _ _ _ (fun q => (rowK v1 v2 v4 v5 v7 q).f5) (kF5_apply v1 v2 v4 v5 v7) r q
theorem kF9_apply (r : Fin 6) (q : Fin 5000) : kF9 v1 v2 v4 v5 v7 (ix2 r q) = (rowK v1 v2 v4 v5 v7 q).f9 r :=
  kChild_apply v1 v2 v4 v5 v7 9 (by decide) _ _ _ _ _ _ (fun q => (rowK v1 v2 v4 v5 v7 q).f6) (kF6_apply v1 v2 v4 v5 v7) r q
theorem kF10_apply (r : Fin 6) (q : Fin 5000) : kF10 v1 v2 v4 v5 v7 (ix2 r q) = (rowK v1 v2 v4 v5 v7 q).f10 r :=
  kChild_apply v1 v2 v4 v5 v7 10 (by decide) _ _ _ _ _ _ (fun q => (rowK v1 v2 v4 v5 v7 q).f7) (kF7_apply v1 v2 v4 v5 v7) r q
theorem kF11_apply (r : Fin 6) (q : Fin 5000) : kF11 v1 v2 v4 v5 v7 (ix2 r q) = (rowK v1 v2 v4 v5 v7 q).f11 r :=
  kChild_apply v1 v2 v4 v5 v7 11 (by decide) _ _ _ _ _ _ (fun q => (rowK v1 v2 v4 v5 v7 q).f8) (kF8_apply v1 v2 v4 v5 v7) r q
theorem kF12_apply (r : Fin 6) (q : Fin 5000) : kF12 v1 v2 v4 v5 v7 (ix2 r q) = (rowK v1 v2 v4 v5 v7 q).f12 r :=
  kChild_apply v1 v2 v4 v5 v7 12 (by decide) _ _ _ _ _ _ (fun q => (rowK v1 v2 v4 v5 v7 q).f9) (kF9_apply v1 v2 v4 v5 v7) r q
theorem kF13_apply (r : Fin 6) (q : Fin 5000) : kF13 v1 v2 v4 v5 v7 (ix2 r q) = (rowK v1 v2 v4 v5 v7 q).f13 r :=
  kChild_apply v1 v2 v4 v5 v7 13 (by decide) _ _ _ _ _ _ (fun q => (rowK v1 v2 v4 v5 v7 q).f9) (kF9_apply v1 v2 v4 v5 v7) r q
theorem kF14_apply (r : Fin 6) (q : Fin 5000) : kF14 v1 v2 v4 v5 v7 (ix2 r q) = (rowK v1 v2 v4 v5 v7 q).f14 r :=
  kChild_apply v1 v2 v4 v5 v7 14 (by decide) _ _ _ _ _ _ (fun q => (rowK v1 v2 v4 v5 v7 q).f9) (kF9_apply v1 v2 v4 v5 v7) r q
theorem kF15_apply (r : Fin 6) (q : Fin 5000) : kF15 v1 v2 v4 v5 v7 (ix2 r q) = (rowK v1 v2 v4 v5 v7 q).f15 r :=
  kChild_apply v1 v2 v4 v5 v7 15 (by decide) _ _ _ _ _ _ (fun q => (rowK v1 v2 v4 v5 v7 q).f12) (kF12_apply v1 v2 v4 v5 v7) r q
theorem kF16_apply (r : Fin 6) (q : Fin 5000) : kF16 v1 v2 v4 v5 v7 (ix2 r q) = (rowK v1 v2 v4 v5 v7 q).f16 r :=
  kChild_apply v1 v2 v4 v5 v7 16 (by decide) _ _ _ _ _ _ (fun q => (rowK v1 v2 v4 v5 v7 q).f13) (kF13_apply v1 v2 v4 v5 v7) r q
theorem kF17_apply (r : Fin 6) (q : Fin 5000) : kF17 v1 v2 v4 v5 v7 (ix2 r q) = (rowK v1 v2 v4 v5 v7 q).f17 r :=
  kChild_apply v1 v2 v4 v5 v7 17 (by decide) _ _ _ _ _ _ (fun q => (rowK v1 v2 v4 v5 v7 q).f14) (kF14_apply v1 v2 v4 v5 v7) r q
theorem kF18_apply (r : Fin 6) (q : Fin 5000) : kF18 v1 v2 v4 v5 v7 (ix2 r q) = (rowK v1 v2 v4 v5 v7 q).f18 r :=
  kChild_apply v1 v2 v4 v5 v7 18 (by decide) _ _ _ _ _ _ (fun q => (rowK v1 v2 v4 v5 v7 q).f16) (kF16_apply v1 v2 v4 v5 v7) r q
theorem kF19_apply (r : Fin 6) (q : Fin 5000) : kF19 v1 v2 v4 v5 v7 (ix2 r q) = (rowK v1 v2 v4 v5 v7 q).f19 r :=
  kChild_apply v1 v2 v4 v5 v7 19 (by decide) _ _ _ _ _ _ (fun q => (rowK v1 v2 v4 v5 v7 q).f17) (kF17_apply v1 v2 v4 v5 v7) r q
theorem kF20_apply (r : Fin 6) (q : Fin 5000) : kF20 v1 v2 v4 v5 v7 (ix2 r q) = (rowK v1 v2 v4 v5 v7 q).f20 r :=
  kChild_apply v1 v2 v4 v5 v7 20 (by decide) _ _ _ _ _ _ (fun q => (rowK v1 v2 v4 v5 v7 q).f18) (kF18_apply v1 v2 v4 v5 v7) r q
theorem kF21_apply (r : Fin 6) (q : Fin 5000) : kF21 v1 v2 v4 v5 v7 (ix2 r q) = (rowK v1 v2 v4 v5 v7 q).f21 r :=
  kChild_apply v1 v2 v4 v5 v7 21 (by decide) _ _ _ _ _ _ (fun q => (rowK v1 v2 v4 v5 v7 q).f19) (kF19_apply v1 v2 v4 v5 v7) r q
theorem kF22_apply (r : Fin 6) (q : Fin 5000) : kF22 v1 v2 v4 v5 v7 (ix2 r q) = (rowK v1 v2 v4 v5 v7 q).f22 r :=
  kChild_apply v1 v2 v4 v5 v7 22 (by decide) _ _ _ _ _ _ (fun q => (rowK v1 v2 v4 v5 v7 q).f20) (kF20_apply v1 v2 v4 v5 v7) r q
theorem kF23_apply (r : Fin 6) (q : Fin 5000) : kF23 v1 v2 v4 v5 v7 (ix2 r q) = (rowK v1 v2 v4 v5 v7 q).f23 r :=
  kChild_apply v1 v2 v4 v5 v7 23 (by decide) _ _ _ _ _ _ (fun q => (rowK v1 v2 v4 v5 v7 q).f21) (kF21_apply v1 v2 v4 v5 v7) r q

end Cert.KernelIdeal.Tree

end
-- ==== Proof.LibBands.lean ====
/-
  A buffer of `N` rows filled band by band, read at an entry.

  The contents a list of stores leaves (the last store first) are read at an index by walking the list: a store
  through a band of `h` whole rows from row `o` gives its payload at the rows `o ≤ n < o + h` and leaves every
  other row to the stores before it.
-/
import Idealize.ShloMosaic.Lib.ValueIdx
import Idealize.ShloMosaic.Lib.Pipeline.FrameBody

noncomputable section

namespace Cert.Lib.Bands

open Idealize.ShloMosaic Idealize.ShloMosaic.ValueIdx

variable {Val : EltTy → Type} [∀ e, Nonempty (Val e)] {e : EltTy} {N T : Nat}

/-- A row inside the last store's band reads that store's payload at the row's position in the band. -/
theorem canon_band_hit (o h : Nat) (inb : ∀ a, (![o, 0] : Fin 2 → Nat) a + (![h, T] : Fin 2 → Nat) a ≤ (⟨2, ![N, T]⟩ : Shape).size a)
    (w : (Rect.unit (s := ⟨2, ![N, T]⟩) ![o, 0] ![h, T] inb).shape.Idx → Val e)
    (L : List (View.Piece Val ⟨2, ![N, T]⟩ e)) (n : Fin N) (q : Fin T) (r : Fin h) (hn : n.val = o + r.val) :
    View.canon (⟨Rect.unit (s := ⟨2, ![N, T]⟩) ![o, 0] ![h, T] inb, w⟩ :: L) (ix2 n q) = w (ix2 r q) := by
  have e1 := View.canon_cons_emb (Rect.unit (s := ⟨2, ![N, T]⟩) ![o, 0] ![h, T] inb) w L (ix2 r q)
  have e2 : (Rect.unit (s := ⟨2, ![N, T]⟩) ![o, 0] ![h, T] inb).emb (ix2 r q) = ix2 n q := by
    funext a
    apply Fin.ext
    match a with
    | ⟨0, _⟩ => show o + 1 * r.val = n.val; omega
    | ⟨1, _⟩ => show 0 + 1 * q.val = q.val; omega
  rw [e2] at e1
  exact e1

/-- A row outside the last store's band is left to the earlier stores. -/
theorem canon_band_miss (o h : Nat) (inb : ∀ a, (![o, 0] : Fin 2 → Nat) a + (![h, T] : Fin 2 → Nat) a ≤ (⟨2, ![N, T]⟩ : Shape).size a)
    (w : (Rect.unit (s := ⟨2, ![N, T]⟩) ![o, 0] ![h, T] inb).shape.Idx → Val e)
    (L : List (View.Piece Val ⟨2, ![N, T]⟩ e)) (n : Fin N) (q : Fin T) (hn : n.val < o ∨ o + h ≤ n.val) :
    View.canon (⟨Rect.unit (s := ⟨2, ![N, T]⟩) ![o, 0] ![h, T] inb, w⟩ :: L) (ix2 n q) = View.canon L (ix2 n q) := by
  refine View.canon_cons_of_not_mem _ L (fun hmem => ?_)
  have hmem' : ix2 n q ∈ (Rect.unit (s := ⟨2, ![N, T]⟩) ![o, 0] ![h, T] inb).set := hmem
  rw [Rect.mem_set_unit] at hmem'
  have h0 : o ≤ n.val ∧ n.val < o + h := hmem' 0
  omega

end Cert.Lib.Bands

end
-- ==== Proof.TreeRow.lean ====
/-
  The whole result array as one function of the five argument arrays, and
  a row's result `n` is feature `n % 6` of joint `n / 6`: stated with the joint and the feature given.
-/
import proofs.«172863_j7009386627271_2_alg».proof.Proof.TreeSpec
import Idealize.ShloMosaic.Lib.ValueIdx

noncomputable section

namespace Cert.TreeSpec

theorem Row.out_eq (R : Row) (j : Fin 24) (r : Fin 6) (n : Fin 144) (h : n.val = 6 * j.val + r.val) :
    R.out n = R.feat j r := by
  unfold Row.out
  have hj : n.val / 6 = j.val := by have := r.isLt; omega
  have hr : n.val % 6 = r.val := by have := r.isLt; omega
  exact congrArg₂ R.feat (Fin.ext hj) (Fin.ext hr)

open Idealize.ShloMosaic Idealize.ShloMosaic.ValueIdx

/-- Batch row `p` of the argument arrays: its 24 inputs and the parameter tables as the arguments hold them. -/
def rowA (X : FVec Ideal ⟨2, ![500000, 24]⟩ .f32) (W1 : FVec Ideal ⟨3, ![24, 7, 7]⟩ .f32) (B1 : FVec Ideal ⟨2, ![24, 7]⟩ .f32)
    (W2 : FVec Ideal ⟨3, ![24, 6, 7]⟩ .f32) (B2 : FVec Ideal ⟨2, ![24, 6]⟩ .f32) (p : Fin 500000) : Row where
  x j := X (ix2 p j)
  w1 j k l := W1 (ix3 j k l)
  b1 j k := B1 (ix2 j k)
  w2 j r k := W2 (ix3 j r k)
  b2 j r := B2 (ix2 j r)

/-- The result array: entry `(p, n)` is result `n` of batch row `p`. -/
def G (X : FVec Ideal ⟨2, ![500000, 24]⟩ .f32) (W1 : FVec Ideal ⟨3, ![24, 7, 7]⟩ .f32) (B1 : FVec Ideal ⟨2, ![24, 7]⟩ .f32)
    (W2 : FVec Ideal ⟨3, ![24, 6, 7]⟩ .f32) (B2 : FVec Ideal ⟨2, ![24, 6]⟩ .f32) :
    FVec Ideal ⟨2, ![500000, 144]⟩ .f32 :=
  fun i => (rowA X W1 B1 W2 B2 (i 0)).out (i 1)

end Cert.TreeSpec

end
-- ==== Proof.KernelOut.lean ====
/-
  What one run of the kernel body leaves in the output block.

  The body writes the 24 joints' features into a 144 × 5000 buffer, six rows per joint, then reads the buffer whole,
  transposes it and stores the 5000 × 144 result.  So the block's entry (q, n) is the buffer's entry (n, q): feature
  n % 6 of joint n / 6 at lane q, which is the specification's result n of the row that lane q holds.
-/
import proofs.«172863_j7009386627271_2_alg».proof.Proof.Gen.KernelIdeal.Value
import proofs.«172863_j7009386627271_2_alg».proof.Proof.KernelTree
import proofs.«172863_j7009386627271_2_alg».proof.Proof.LibBands
import proofs.«172863_j7009386627271_2_alg».proof.Proof.TreeRow

set_option maxRecDepth 16384

noncomputable section

namespace Cert.KernelIdeal.Tree

open Cert.KernelIdeal Cert.KernelIdeal.Gen Idealize.ShloMosaic Idealize.ShloMosaic.TcCoe Idealize.ShloMosaic.ValueIdx
open Idealize.ShloMosaic.Tactic Idealize.SL Idealize.SL.Sem Cert.TreeSpec

variable (v1 : FVec Ideal S24x5000 .f32) (v2 : Vec Ideal S24x7x7 .f32) (v4 : FVec Ideal S7x24 .f32)
  (v5 : Vec Ideal S24x6x7 .f32) (v7 : FVec Ideal S6x24 .f32)

/-- The 24 stores into the buffer, the last first: joint `j`'s features through rows `6 j` to `6 j + 5`. -/
def bands : List (View.Piece (Elt Ideal) S144x5000 .f32) :=
  [⟨Rect.unit (s := S144x5000) ![138, 0] S6x5000.size inb_S144x5000_S6x5000_138_0, shapeCast S6x5000 (kF23 v1 v2 v4 v5 v7) shapeCasts_S6x5000_S6x5000⟩,
   ⟨Rect.unit (s := S144x5000) ![132, 0] S6x5000.size inb_S144x5000_S6x5000_132_0, shapeCast S6x5000 (kF22 v1 v2 v4 v5 v7) shapeCasts_S6x5000_S6x5000⟩,
   ⟨Rect.unit (s := S144x5000) ![126, 0] S6x5000.size inb_S144x5000_S6x5000_126_0, shapeCast S6x5000 (kF21 v1 v2 v4 v5 v7) shapeCasts_S6x5000_S6x5000⟩,
   ⟨Rect.unit (s := S144x5000) ![120, 0] S6x5000.size inb_S144x5000_S6x5000_120_0, shapeCast S6x5000 (kF20 v1 v2 v4 v5 v7) shapeCasts_S6x5000_S6x5000⟩,
   ⟨Rect.unit (s := S144x5000) ![114, 0] S6x5000.size inb_S144x5000_S6x5000_114_0, shapeCast S6x5000 (kF19 v1 v2 v4 v5 v7) shapeCasts_S6x5000_S6x5000⟩,
   ⟨Rect.unit (s := S144x5000) ![108, 0] S6x5000.size inb_S144x5000_S6x5000_108_0, shapeCast S6x5000 (kF18 v1 v2 v4 v5 v7) shapeCasts_S6x5000_S6x5000⟩,
   ⟨Rect.unit (s := S144x5000) ![102, 0] S6x5000.size inb_S144x5000_S6x5000_102_0, shapeCast S6x5000 (kF17 v1 v2 v4 v5 v7) shapeCasts_S6x5000_S6x5000⟩,
   ⟨Rect.unit (s := S144x5000) ![96, 0] S6x5000.size inb_S144x5000_S6x5000_96_0, shapeCast S6x5000 (kF16 v1 v2 v4 v5 v7) shapeCasts_S6x5000_S6x5000⟩,
   ⟨Rect.unit (s := S144x5000) ![90, 0] S6x5000.size inb_S144x5000_S6x5000_90_0, shapeCast S6x5000 (kF15 v1 v2 v4 v5 v7) shapeCasts_S6x5000_S6x5000⟩,
   ⟨Rect.unit (s := S144x5000) ![84, 0] S6x5000.size inb_S144x5000_S6x5000_84_0, shapeCast S6x5000 (kF14 v1 v2 v4 v5 v7) shapeCasts_S6x5000_S6x5000⟩,
   ⟨Rect.unit (s := S144x5000) ![78, 0] S6x5000.size inb_S144x5000_S6x5000_78_0, shapeCast S6x5000 (kF13 v1 v2 v4 v5 v7) shapeCasts_S6x5000_S6x5000⟩,
   ⟨Rect.unit (s := S144x5000) ![72, 0] S6x5000.size inb_S144x5000_S6x5000_72_0, shapeCast S6x5000 (kF12 v1 v2 v4 v5 v7) shapeCasts_S6x5000_S6x5000⟩,
   ⟨Rect.unit (s := S144x5000) ![66, 0] S6x5000.size inb_S144x5000_S6x5000_66_0, shapeCast S6x5000 (kF11 v1 v2 v4 v5 v7) shapeCasts_S6x5000_S6x5000⟩,
   ⟨Rect.unit (s := S144x5000) ![60, 0] S6x5000.size inb_S144x5000_S6x5000_60_0, shapeCast S6x5000 (kF10 v1 v2 v4 v5 v7) shapeCasts_S6x5000_S6x5000⟩,
   ⟨Rect.unit (s := S144x5000) ![54, 0] S6x5000.size inb_S144x5000_S6x5000_54_0, shapeCast S6x5000 (kF9 v1 v2 v4 v5 v7) shapeCasts_S6x5000_S6x5000⟩,
   ⟨Rect.unit (s := S144x5000) ![48, 0] S6x5000.size inb_S144x5000_S6x5000_48_0, shapeCast S6x5000 (kF8 v1 v2 v4 v5 v7) shapeCasts_S6x5000_S6x5000⟩,
   ⟨Rect.unit (s := S144x5000) ![42, 0] S6x5000.size inb_S144x5000_S6x5000_42_0, shapeCast S6x5000 (kF7 v1 v2 v4 v5 v7) shapeCasts_S6x5000_S6x5000⟩,
   ⟨Rect.unit (s := S144x5000) ![36, 0] S6x5000.size inb_S144x5000_S6x5000_36_0, shapeCast S6x5000 (kF6 v1 v2 v4 v5 v7) shapeCasts_S6x5000_S6x5000⟩,
   ⟨Rect.unit (s := S144x5000) ![30, 0] S6x5000.size inb_S144x5000_S6x5000_30_0, shapeCast S6x5000 (kF5 v1 v2 v4 v5 v7) shapeCasts_S6x5000_S6x5000⟩,
   ⟨Rect.unit (s := S144x5000) ![24, 0] S6x5000.size inb_S144x5000_S6x5000_24_0, shapeCast S6x5000 (kF4 v1 v2 v4 v5 v7) shapeCasts_S6x5000_S6x5000⟩,
   ⟨Rect.unit (s := S144x5000) ![18, 0] S6x5000.size inb_S144x5000_S6x5000_18_0, shapeCast S6x5000 (kF3 v1 v2 v4 v5 v7) shapeCasts_S6x5000_S6x5000⟩,
   ⟨Rect.unit (s := S144x5000) ![12, 0] S6x5000.size inb_S144x5000_S6x5000_12_0, shapeCast S6x5000 (kF2 v1 v2 v4 v5 v7) shapeCasts_S6x5000_S6x5000⟩,
   ⟨Rect.unit (s := S144x5000) ![6, 0] S6x5000.size inb_S144x5000_S6x5000_6_0, shapeCast S6x5000 (kF1 v1 v2 v4 v5 v7) shapeCasts_S6x5000_S6x5000⟩,
   ⟨Rect.unit (s := S144x5000) ![0, 0] S6x5000.size inb_S144x5000_S6x5000_0_0, shapeCast S6x5000 (kF0 v1 v2 v4 v5 v7) shapeCasts_S6x5000_S6x5000⟩]

theorem hz2 : (![0, 0] : Fin 2 → Nat) = fun _ => 0 := by
  funext a; match a with | ⟨0, _⟩ => rfl | ⟨1, _⟩ => rfl

theorem hz3 : (![0, 0, 0] : Fin 3 → Nat) = fun _ => 0 := by
  funext a; match a with | ⟨0, _⟩ => rfl | ⟨1, _⟩ => rfl | ⟨2, _⟩ => rfl

/-- The block the body leaves: the transpose of the buffer the 24 stores filled. -/
theorem out_eq (c : Dev nD) (i : grid0.Coords) (arg1 : Memref sig .tc .vmem S5000x24 .f32) (harg1 : arg1.IsWhole) (arg2 : Memref sig .tc .vmem S24x7x7 .f32) (harg2 : arg2.IsWhole) (arg3 : Memref sig .tc .vmem S7x24 .f32) (harg3 : arg3.IsWhole) (arg4 : Memref sig .tc .vmem S24x6x7 .f32) (harg4 : arg4.IsWhole) (arg5 : Memref sig .tc .vmem S6x24 .f32) (harg5 : arg5.IsWhole) (arg6 : Memref sig .tc .vmem S5000x144 .f32) (harg6 : arg6.IsWhole) (arg7 : Memref sig .tc .vmem S144x5000 .f32) (harg7 : arg7.IsWhole)
    (x0 : Vec Ideal S5000x24 .f32) (x1 : Vec Ideal S24x7x7 .f32) (x2 : Vec Ideal S7x24 .f32) (x3 : Vec Ideal S24x6x7 .f32) (x4 : Vec Ideal S6x24 .f32) :
    out0_A_5 c i arg1 harg1 arg2 harg2 arg3 harg3 arg4 harg4 arg5 harg5 arg6 harg6 arg7 harg7 x0 x1 x2 x3 x4
      = k0_pay2 (fun y => View.canon (bands (k0_pay3 x0) x1 (k0_pay4 x2) x3 (k0_pay5 x4))
          ((Rect.unit (s := S144x5000) ![0, 0] S144x5000.size inb_S144x5000_S144x5000_0_0).toLoadRect.idx y)) := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero hz2]
  simp only [View.readAt_eq_ld, harg1.read_unread, harg2.read_unread, harg3.read_unread, harg4.read_unread, harg5.read_unread,
    View.ld_unit_zero (S := S5000x24) hz2, View.ld_unit_zero (S := S24x7x7) hz3, View.ld_unit_zero (S := S7x24) hz2,
    View.ld_unit_zero (S := S24x6x7) hz3, View.ld_unit_zero (S := S6x24) hz2]
  rw [View.readCov_eq_canon']
  rfl

/-! ## The buffer read at a row: walk the stores, the last first, to the joint whose six rows hold it -/

theorem band_read_0 (r : Fin 6) (q : Fin 5000) (n : Fin 144) (hn : n.val = 0 + r.val) :
    View.canon (bands v1 v2 v4 v5 v7) (ix2 n q) = kF0 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_1 (r : Fin 6) (q : Fin 5000) (n : Fin 144) (hn : n.val = 6 + r.val) :
    View.canon (bands v1 v2 v4 v5 v7) (ix2 n q) = kF1 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_2 (r : Fin 6) (q : Fin 5000) (n : Fin 144) (hn : n.val = 12 + r.val) :
    View.canon (bands v1 v2 v4 v5 v7) (ix2 n q) = kF2 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_3 (r : Fin 6) (q : Fin 5000) (n : Fin 144) (hn : n.val = 18 + r.val) :
    View.canon (bands v1 v2 v4 v5 v7) (ix2 n q) = kF3 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_4 (r : Fin 6) (q : Fin 5000) (n : Fin 144) (hn : n.val = 24 + r.val) :
    View.canon (bands v1 v2 v4 v5 v7) (ix2 n q) = kF4 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_5 (r : Fin 6) (q : Fin 5000) (n : Fin 144) (hn : n.val = 30 + r.val) :
    View.canon (bands v1 v2 v4 v5 v7) (ix2 n q) = kF5 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_6 (r : Fin 6) (q : Fin 5000) (n : Fin 144) (hn : n.val = 36 + r.val) :
    View.canon (bands v1 v2 v4 v5 v7) (ix2 n q) = kF6 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_7 (r : Fin 6) (q : Fin 5000) (n : Fin 144) (hn : n.val = 42 + r.val) :
    View.canon (bands v1 v2 v4 v5 v7) (ix2 n q) = kF7 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_8 (r : Fin 6) (q : Fin 5000) (n : Fin 144) (hn : n.val = 48 + r.val) :
    View.canon (bands v1 v2 v4 v5 v7) (ix2 n q) = kF8 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_9 (r : Fin 6) (q : Fin 5000) (n : Fin 144) (hn : n.val = 54 + r.val) :
    View.canon (bands v1 v2 v4 v5 v7) (ix2 n q) = kF9 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_10 (r : Fin 6) (q : Fin 5000) (n : Fin 144) (hn : n.val = 60 + r.val) :
    View.canon (bands v1 v2 v4 v5 v7) (ix2 n q) = kF10 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_11 (r : Fin 6) (q : Fin 5000) (n : Fin 144) (hn : n.val = 66 + r.val) :
    View.canon (bands v1 v2 v4 v5 v7) (ix2 n q) = kF11 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_12 (r : Fin 6) (q : Fin 5000) (n : Fin 144) (hn : n.val = 72 + r.val) :
    View.canon (bands v1 v2 v4 v5 v7) (ix2 n q) = kF12 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_13 (r : Fin 6) (q : Fin 5000) (n : Fin 144) (hn : n.val = 78 + r.val) :
    View.canon (bands v1 v2 v4 v5 v7) (ix2 n q) = kF13 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_14 (r : Fin 6) (q : Fin 5000) (n : Fin 144) (hn : n.val = 84 + r.val) :
    View.canon (bands v1 v2 v4 v5 v7) (ix2 n q) = kF14 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_15 (r : Fin 6) (q : Fin 5000) (n : Fin 144) (hn : n.val = 90 + r.val) :
    View.canon (bands v1 v2 v4 v5 v7) (ix2 n q) = kF15 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_16 (r : Fin 6) (q : Fin 5000) (n : Fin 144) (hn : n.val = 96 + r.val) :
    View.canon (bands v1 v2 v4 v5 v7) (ix2 n q) = kF16 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_17 (r : Fin 6) (q : Fin 5000) (n : Fin 144) (hn : n.val = 102 + r.val) :
    View.canon (bands v1 v2 v4 v5 v7) (ix2 n q) = kF17 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_18 (r : Fin 6) (q : Fin 5000) (n : Fin 144) (hn : n.val = 108 + r.val) :
    View.canon (bands v1 v2 v4 v5 v7) (ix2 n q) = kF18 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_19 (r : Fin 6) (q : Fin 5000) (n : Fin 144) (hn : n.val = 114 + r.val) :
    View.canon (bands v1 v2 v4 v5 v7) (ix2 n q) = kF19 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_20 (r : Fin 6) (q : Fin 5000) (n : Fin 144) (hn : n.val = 120 + r.val) :
    View.canon (bands v1 v2 v4 v5 v7) (ix2 n q) = kF20 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_21 (r : Fin 6) (q : Fin 5000) (n : Fin 144) (hn : n.val = 126 + r.val) :
    View.canon (bands v1 v2 v4 v5 v7) (ix2 n q) = kF21 v1 v2 v4 v5 v7 (ix2 r q) := by
  have hr := r.isLt
  unfold bands
  refine (Cert.Lib.Bands.canon_band_miss _ _ _ _ _ n q (by omega)).trans ?_
  refine (Cert.Lib.Bands.canon_band_miss _ _ _ _ _ n q (by omega)).trans ?_
  exact (Cert.Lib.Bands.canon_band_hit _ _ _ _ _ n q r hn).trans (congrFun (shapeCast_self _ _) _)

theorem band_read_22 (r : Fin 6) (q : Fin 5000) (n : Fin 144) (hn : n.val = 132 + r.val) :
    View.canon (bands v1 v2 v4 v5 v7) (ix2 n q) = kF22 v1 v2 v4 v5 v7 (ix2 r q) := by
  have hr := r.isLt
  unfold bands
  refine (Cert.Lib.Bands.canon_band_miss _ _ _ _ _ n q (by omega)).trans ?_
  exact (Cert.Lib.Bands.canon_band_hit _ _ _ _ _ n q r hn).trans (congrFun (shapeCast_self _ _) _)

theorem band_read_23 (r : Fin 6) (q : Fin 5000) (n : Fin 144) (hn : n.val = 138 + r.val) :
    View.canon (bands v1 v2 v4 v5 v7) (ix2 n q) = kF23 v1 v2 v4 v5 v7 (ix2 r q) := by
  have hr := r.isLt
  unfold bands

  exact (Cert.Lib.Bands.canon_band_hit _ _ _ _ _ n q r hn).trans (congrFun (shapeCast_self _ _) _)

/-- The buffer's entry `(n, q)` is the result `n` of the row that lane `q` holds. -/
theorem bands_read (q : Fin 5000) (n : Fin 144) :
    View.canon (bands v1 v2 v4 v5 v7) (ix2 n q) = (rowK v1 v2 v4 v5 v7 q).out n := by
  have key : ∀ (j : Fin 24) (r : Fin 6), n.val = 6 * j.val + r.val →
      View.canon (bands v1 v2 v4 v5 v7) (ix2 n q) = (rowK v1 v2 v4 v5 v7 q).feat j r := by
    intro j r h
    match j with
    | ⟨0, _⟩ => exact (band_read_0 v1 v2 v4 v5 v7 r q n (by have h' : n.val = 6 * 0 + r.val := h; omega)).trans (kF0_apply v1 v2 v4 v5 v7 r q)
    | ⟨1, _⟩ => exact (band_read_1 v1 v2 v4 v5 v7 r q n (by have h' : n.val = 6 * 1 + r.val := h; omega)).trans (kF1_apply v1 v2 v4 v5 v7 r q)
    | ⟨2, _⟩ => exact (band_read_2 v1 v2 v4 v5 v7 r q n (by have h' : n.val = 6 * 2 + r.val := h; omega)).trans (kF2_apply v1 v2 v4 v5 v7 r q)
    | ⟨3, _⟩ => exact (band_read_3 v1 v2 v4 v5 v7 r q n (by have h' : n.val = 6 * 3 + r.val := h; omega)).trans (kF3_apply v1 v2 v4 v5 v7 r q)
    | ⟨4, _⟩ => exact (band_read_4 v1 v2 v4 v5 v7 r q n (by have h' : n.val = 6 * 4 + r.val := h; omega)).trans (kF4_apply v1 v2 v4 v5 v7 r q)
    | ⟨5, _⟩ => exact (band_read_5 v1 v2 v4 v5 v7 r q n (by have h' : n.val = 6 * 5 + r.val := h; omega)).trans (kF5_apply v1 v2 v4 v5 v7 r q)
    | ⟨6, _⟩ => exact (band_read_6 v1 v2 v4 v5 v7 r q n (by have h' : n.val = 6 * 6 + r.val := h; omega)).trans (kF6_apply v1 v2 v4 v5 v7 r q)
    | ⟨7, _⟩ => exact (band_read_7 v1 v2 v4 v5 v7 r q n (by have h' : n.val = 6 * 7 + r.val := h; omega)).trans (kF7_apply v1 v2 v4 v5 v7 r q)
    | ⟨8, _⟩ => exact (band_read_8 v1 v2 v4 v5 v7 r q n (by have h' : n.val = 6 * 8 + r.val := h; omega)).trans (kF8_apply v1 v2 v4 v5 v7 r q)
    | ⟨9, _⟩ => exact (band_read_9 v1 v2 v4 v5 v7 r q n (by have h' : n.val = 6 * 9 + r.val := h; omega)).trans (kF9_apply v1 v2 v4 v5 v7 r q)
    | ⟨10, _⟩ => exact (band_read_10 v1 v2 v4 v5 v7 r q n (by have h' : n.val = 6 * 10 + r.val := h; omega)).trans (kF10_apply v1 v2 v4 v5 v7 r q)
    | ⟨11, _⟩ => exact (band_read_11 v1 v2 v4 v5 v7 r q n (by have h' : n.val = 6 * 11 + r.val := h; omega)).trans (kF11_apply v1 v2 v4 v5 v7 r q)
    | ⟨12, _⟩ => exact (band_read_12 v1 v2 v4 v5 v7 r q n (by have h' : n.val = 6 * 12 + r.val := h; omega)).trans (kF12_apply v1 v2 v4 v5 v7 r q)
    | ⟨13, _⟩ => exact (band_read_13 v1 v2 v4 v5 v7 r q n (by have h' : n.val = 6 * 13 + r.val := h; omega)).trans (kF13_apply v1 v2 v4 v5 v7 r q)
    | ⟨14, _⟩ => exact (band_read_14 v1 v2 v4 v5 v7 r q n (by have h' : n.val = 6 * 14 + r.val := h; omega)).trans (kF14_apply v1 v2 v4 v5 v7 r q)
    | ⟨15, _⟩ => exact (band_read_15 v1 v2 v4 v5 v7 r q n (by have h' : n.val = 6 * 15 + r.val := h; omega)).trans (kF15_apply v1 v2 v4 v5 v7 r q)
    | ⟨16, _⟩ => exact (band_read_16 v1 v2 v4 v5 v7 r q n (by have h' : n.val = 6 * 16 + r.val := h; omega)).trans (kF16_apply v1 v2 v4 v5 v7 r q)
    | ⟨17, _⟩ => exact (band_read_17 v1 v2 v4 v5 v7 r q n (by have h' : n.val = 6 * 17 + r.val := h; omega)).trans (kF17_apply v1 v2 v4 v5 v7 r q)
    | ⟨18, _⟩ => exact (band_read_18 v1 v2 v4 v5 v7 r q n (by have h' : n.val = 6 * 18 + r.val := h; omega)).trans (kF18_apply v1 v2 v4 v5 v7 r q)
    | ⟨19, _⟩ => exact (band_read_19 v1 v2 v4 v5 v7 r q n (by have h' : n.val = 6 * 19 + r.val := h; omega)).trans (kF19_apply v1 v2 v4 v5 v7 r q)
    | ⟨20, _⟩ => exact (band_read_20 v1 v2 v4 v5 v7 r q n (by have h' : n.val = 6 * 20 + r.val := h; omega)).trans (kF20_apply v1 v2 v4 v5 v7 r q)
    | ⟨21, _⟩ => exact (band_read_21 v1 v2 v4 v5 v7 r q n (by have h' : n.val = 6 * 21 + r.val := h; omega)).trans (kF21_apply v1 v2 v4 v5 v7 r q)
    | ⟨22, _⟩ => exact (band_read_22 v1 v2 v4 v5 v7 r q n (by have h' : n.val = 6 * 22 + r.val := h; omega)).trans (kF22_apply v1 v2 v4 v5 v7 r q)
    | ⟨23, _⟩ => exact (band_read_23 v1 v2 v4 v5 v7 r q n (by have h' : n.val = 6 * 23 + r.val := h; omega)).trans (kF23_apply v1 v2 v4 v5 v7 r q)
    | ⟨k + 24, hk⟩ => exact absurd hk (by omega)
  have hn := n.isLt
  have h := key ⟨n.val / 6, by omega⟩ ⟨n.val % 6, Nat.mod_lt _ (by decide)⟩ (by show n.val = 6 * (n.val / 6) + n.val % 6; omega)
  rw [h]
  exact ((rowK v1 v2 v4 v5 v7 q).out_eq _ _ n (by show n.val = 6 * (n.val / 6) + n.val % 6; omega)).symm

/-- The output block's entry `(q, n)`. -/
theorem out_apply (c : Dev nD) (i : grid0.Coords) (arg1 : Memref sig .tc .vmem S5000x24 .f32) (harg1 : arg1.IsWhole) (arg2 : Memref sig .tc .vmem S24x7x7 .f32) (harg2 : arg2.IsWhole) (arg3 : Memref sig .tc .vmem S7x24 .f32) (harg3 : arg3.IsWhole) (arg4 : Memref sig .tc .vmem S24x6x7 .f32) (harg4 : arg4.IsWhole) (arg5 : Memref sig .tc .vmem S6x24 .f32) (harg5 : arg5.IsWhole) (arg6 : Memref sig .tc .vmem S5000x144 .f32) (harg6 : arg6.IsWhole) (arg7 : Memref sig .tc .vmem S144x5000 .f32) (harg7 : arg7.IsWhole)
    (x0 : Vec Ideal S5000x24 .f32) (x1 : Vec Ideal S24x7x7 .f32) (x2 : Vec Ideal S7x24 .f32) (x3 : Vec Ideal S24x6x7 .f32) (x4 : Vec Ideal S6x24 .f32)
    (q : Fin 5000) (n : Fin 144) :
    out0_A_5 c i arg1 harg1 arg2 harg2 arg3 harg3 arg4 harg4 arg5 harg5 arg6 harg6 arg7 harg7 x0 x1 x2 x3 x4 (ix2 q n)
      = (rowK (k0_pay3 x0) x1 (k0_pay4 x2) x3 (k0_pay5 x4) q).out n := by
  rw [out_eq]
  unfold k0_pay2
  rw [transpose_ix2_apply]
  have hidx : (Rect.unit (s := S144x5000) ![0, 0] S144x5000.size inb_S144x5000_S144x5000_0_0).toLoadRect.idx (ix2 n q) = ix2 n q := by
    funext a
    apply Fin.ext
    match a with
    | ⟨0, _⟩ => show 0 + 1 * n.val = n.val; omega
    | ⟨1, _⟩ => show 0 + 1 * q.val = q.val; omega
  show View.canon _ ((Rect.unit (s := S144x5000) ![0, 0] S144x5000.size inb_S144x5000_S144x5000_0_0).toLoadRect.idx (ix2 n q)) = _
  rw [hidx]
  exact bands_read _ _ _ _ _ q n

end Cert.KernelIdeal.Tree

end
-- ==== Proof.KernelValue.lean ====
/-
  From the blocks to the array: what the idealized kernel leaves in its result.

  Grid point `t` stages rows `5000 t` to `5000 t + 4999` of the inputs and the four parameter tables whole (the two
  bias tables transposed by the host before the call), and writes back rows `5000 t …` of the result.  The block it
  writes is the block of `G` of the arguments, and the 100 blocks cover the result: the array ends at `G`.
-/
import proofs.«172863_j7009386627271_2_alg».proof.Proof.Gen.KernelIdeal.Value
import proofs.«172863_j7009386627271_2_alg».proof.Proof.KernelOut
import Idealize.ShloMosaic.Lib.StableHlo.Run

set_option maxRecDepth 16384

noncomputable section

namespace Cert.KernelIdeal.TreeValue

open Cert.KernelIdeal Cert.KernelIdeal.Gen Cert.KernelIdeal.Tree Idealize.ShloMosaic Idealize.ShloMosaic.TcCoe
open Idealize.ShloMosaic.ValueIdx Idealize.SL.Sem Cert.TreeSpec Idealize.ShloMosaic.StableHlo
open Idealize.ShloMosaic.Pipeline (Dat)

variable (m : (ℓ : Loc nD τ sig) → Buf (Elt Ideal) ℓ) (ρ : Dev nD → PrngReg)

/-- The output block's entry at any index of the block. -/
theorem out_at (c : Dev nD) (i : grid0.Coords) (arg1 : Memref sig .tc .vmem S5000x24 .f32) (harg1 : arg1.IsWhole) (arg2 : Memref sig .tc .vmem S24x7x7 .f32) (harg2 : arg2.IsWhole) (arg3 : Memref sig .tc .vmem S7x24 .f32) (harg3 : arg3.IsWhole) (arg4 : Memref sig .tc .vmem S24x6x7 .f32) (harg4 : arg4.IsWhole) (arg5 : Memref sig .tc .vmem S6x24 .f32) (harg5 : arg5.IsWhole) (arg6 : Memref sig .tc .vmem S5000x144 .f32) (harg6 : arg6.IsWhole) (arg7 : Memref sig .tc .vmem S144x5000 .f32) (harg7 : arg7.IsWhole)
    (x0 : Vec Ideal S5000x24 .f32) (x1 : Vec Ideal S24x7x7 .f32) (x2 : Vec Ideal S7x24 .f32) (x3 : Vec Ideal S24x6x7 .f32) (x4 : Vec Ideal S6x24 .f32)
    (y : S5000x144.Idx) :
    out0_A_5 c i arg1 harg1 arg2 harg2 arg3 harg3 arg4 harg4 arg5 harg5 arg6 harg6 arg7 harg7 x0 x1 x2 x3 x4 y
      = (rowK (k0_pay3 x0) x1 (k0_pay4 x2) x3 (k0_pay5 x4) (y 0)).out (y 1) := by
  have hy : y = ix2 (y 0) (y 1) := eq_ix2 y
  rw [hy]
  exact out_apply c i arg1 harg1 arg2 harg2 arg3 harg3 arg4 harg4 arg5 harg5 arg6 harg6 arg7 harg7 x0 x1 x2 x3 x4 (y 0) (y 1)

/-- The row a lane of the block holds is the batch row of the arguments it was staged from. -/
theorem rowK_eq_rowA (X : FVec Ideal ⟨2, ![500000, 24]⟩ .f32) (W1 : FVec Ideal ⟨3, ![24, 7, 7]⟩ .f32) (B1 : FVec Ideal ⟨2, ![24, 7]⟩ .f32)
    (W2 : FVec Ideal ⟨3, ![24, 6, 7]⟩ .f32) (B2 : FVec Ideal ⟨2, ![24, 6]⟩ .f32)
    (x0 : Vec Ideal S5000x24 .f32) (x1 : Vec Ideal S24x7x7 .f32) (x2 : Vec Ideal S7x24 .f32) (x3 : Vec Ideal S24x6x7 .f32) (x4 : Vec Ideal S6x24 .f32)
    (p : Fin 500000) (q : Fin 5000)
    (h0 : ∀ j : Fin 24, x0 (ix2 q j) = X (ix2 p j)) (h1 : ∀ (j : Fin 24) (k l : Fin 7), x1 (ix3 j k l) = W1 (ix3 j k l))
    (h2 : ∀ (k : Fin 7) (j : Fin 24), x2 (ix2 k j) = B1 (ix2 j k))
    (h3 : ∀ (j : Fin 24) (r : Fin 6) (k : Fin 7), x3 (ix3 j r k) = W2 (ix3 j r k))
    (h4 : ∀ (r : Fin 6) (j : Fin 24), x4 (ix2 r j) = B2 (ix2 j r)) :
    rowK (k0_pay3 x0) x1 (k0_pay4 x2) x3 (k0_pay5 x4) q = rowA X W1 B1 W2 B2 p := by
  unfold rowK rowA
  rw [Row.mk.injEq]
  refine ⟨?_, ?_, ?_, ?_, ?_⟩
  · funext j
    unfold k0_pay3
    rw [transpose_ix2_apply]
    exact h0 j
  · funext j k l
    exact h1 j k l
  · funext j k
    unfold k0_pay4
    rw [shapeCast_self]
    exact h2 k j
  · funext j r k
    exact h3 j r k
  · funext j r
    unfold k0_pay5
    rw [shapeCast_self]
    exact h4 r j

/-- The printed index maps, decided over the grid: the inputs' and the result's blocks move down the rows with the
    point, the parameter tables are staged whole. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The host transposes the first-layer biases before the call. -/
theorem V_v0 (c : Dev nD) : (V m c main_v0 : FVec Ideal S7x24 .f32)
    = transpose S7x24 [1, 0] (m ((c : Thread nD τ).loc main_arg2)) transposes_S24x7_S7x24_1_0 := by
  dsimp only [Gen.V, Gen.hostOps0]; after_results

/-- … and the second-layer biases. -/
theorem V_v1 (c : Dev nD) : (V m c main_v1 : FVec Ideal S6x24 .f32)
    = transpose S6x24 [1, 0] (m ((c : Thread nD τ).loc main_arg4)) transposes_S24x6_S6x24_1_0 := by
  dsimp only [Gen.V, Gen.hostOps0]; after_results

/-- What point `t` writes back is block `t` of `G` of the arguments. -/
theorem flushed_eq (c : Dev nD) (t : Fin cfg0.N) :
    (dats m 0 c).flushed 5 t = ((cfg0.win 5).blk t).view.read (Elt Ideal)
      (G (V m c main_arg0) (V m c main_arg1) (m ((c : Thread nD τ).loc main_arg2)) (V m c main_arg3)
        (m ((c : Thread nD τ).loc main_arg4))) := by
  rw [Cert.KernelIdeal.Value.flushed5_A]
  obtain ⟨e00, e01, e10, e11, e12, e20, e21, e30, e31, e32, e40, e41, e50, e51⟩ := idx_facts t
  funext y
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) y
    = G (V m c main_arg0) (V m c main_arg1) (m ((c : Thread nD τ).loc main_arg2)) (V m c main_arg3)
        (m ((c : Thread nD τ).loc main_arg4)) (((cfg0.win 5).blk t).view.emb y)
  refine (out_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) y).trans ?_
  unfold G
  have hy0 : (y 0).val < 5000 := (y 0).isLt
  have hcol : (((cfg0.win 5).blk t).view.emb y) 1 = y 1 :=
    Fin.ext (by show win0_5.index t (1 : Fin 2) * 144 + 1 * (y 1).val = (y 1).val; omega)
  have hrow : rowK (k0_pay3 (iblk m c 0 t)) (iblk m c 1 t) (k0_pay4 (iblk m c 2 t)) (iblk m c 3 t) (k0_pay5 (iblk m c 4 t)) (y 0)
      = rowA (V m c main_arg0) (V m c main_arg1) (m ((c : Thread nD τ).loc main_arg2)) (V m c main_arg3)
          (m ((c : Thread nD τ).loc main_arg4)) ((((cfg0.win 5).blk t).view.emb y) 0) := by
    refine rowK_eq_rowA _ _ _ _ _ (iblk m c 0 t) (iblk m c 1 t) (iblk m c 2 t) (iblk m c 3 t) (iblk m c 4 t) _ (y 0) ?_ ?_ ?_ ?_ ?_
    · intro j
      show V m c main_arg0 (((cfg0.win 0).blk t).view.emb (ix2 (y 0) j)) = V m c main_arg0 (ix2 ((((cfg0.win 5).blk t).view.emb y) 0) j)
      refine congrArg (V m c main_arg0) (funext fun a => Fin.ext ?_)
      match a with
      | ⟨0, _⟩ => show win0_0.index t (0 : Fin 2) * 5000 + 1 * (y 0).val = win0_5.index t (0 : Fin 2) * 5000 + 1 * (y 0).val; omega
      | ⟨1, _⟩ => show win0_0.index t (1 : Fin 2) * 24 + 1 * j.val = j.val; omega
    · intro j k l
      show V m c main_arg1 (((cfg0.win 1).blk t).view.emb (ix3 j k l)) = V m c main_arg1 (ix3 j k l)
      refine congrArg (V m c main_arg1) (funext fun a => Fin.ext ?_)
      match a with
      | ⟨0, _⟩ => show win0_1.index t (0 : Fin 3) * 24 + 1 * j.val = j.val; omega
      | ⟨1, _⟩ => show win0_1.index t (1 : Fin 3) * 7 + 1 * k.val = k.val; omega
      | ⟨2, _⟩ => show win0_1.index t (2 : Fin 3) * 7 + 1 * l.val = l.val; omega
    · intro k j
      show V m c main_v0 (((cfg0.win 2).blk t).view.emb (ix2 k j)) = m ((c : Thread nD τ).loc main_arg2) (ix2 j k)
      have e : ((cfg0.win 2).blk t).view.emb (ix2 k j) = ix2 k j := funext fun a => Fin.ext (by
        match a with
        | ⟨0, _⟩ => show win0_2.index t (0 : Fin 2) * 7 + 1 * k.val = k.val; omega
        | ⟨1, _⟩ => show win0_2.index t (1 : Fin 2) * 24 + 1 * j.val = j.val; omega)
      rw [e, V_v0 m c, transpose_ix2_apply]
    · intro j r k
      show V m c main_arg3 (((cfg0.win 3).blk t).view.emb (ix3 j r k)) = V m c main_arg3 (ix3 j r k)
      refine congrArg (V m c main_arg3) (funext fun a => Fin.ext ?_)
      match a with
      | ⟨0, _⟩ => show win0_3.index t (0 : Fin 3) * 24 + 1 * j.val = j.val; omega
      | ⟨1, _⟩ => show win0_3.index t (1 : Fin 3) * 6 + 1 * r.val = r.val; omega
      | ⟨2, _⟩ => show win0_3.index t (2 : Fin 3) * 7 + 1 * k.val = k.val; omega
    · intro r j
      show V m c main_v1 (((cfg0.win 4).blk t).view.emb (ix2 r j)) = m ((c : Thread nD τ).loc main_arg4) (ix2 j r)
      have e : ((cfg0.win 4).blk t).view.emb (ix2 r j) = ix2 r j := funext fun a => Fin.ext (by
        match a with
        | ⟨0, _⟩ => show win0_4.index t (0 : Fin 2) * 6 + 1 * r.val = r.val; omega
        | ⟨1, _⟩ => show win0_4.index t (1 : Fin 2) * 24 + 1 * j.val = j.val; omega)
      rw [e, V_v1 m c, transpose_ix2_apply]
  exact congrArg₂ Row.out hrow hcol.symm

/-- An index of the result is in point `t`'s block iff each coordinate is in the block's range on its axis. -/
theorem mem_blk (t : Fin cfg0.N) (i : S500000x144.Idx) :
    i ∈ ((cfg0.win 5).blk t).view.set ↔ ∀ a : Fin 2, win0_5.index t a * S5000x144.size a ≤ (i a).val
      ∧ (i a).val < win0_5.index t a * S5000x144.size a + S5000x144.size a := by
  show i ∈ ((View.whole main_v2).slice (win0_5.rect t)).set ↔ _
  rw [View.set_slice_whole, Rect.mem_set_unit]
  exact Iff.rfl

/-- Row `p` of the result is in the block of point `p / 5000`. -/
theorem cover (i : S500000x144.Idx) :
    ∃ t : Fin cfg0.N, (cfg0.win 5).flush t = true ∧ i ∈ ((cfg0.win 5).blk t).view.set := by
  have hi0 : (i 0).val < 500000 := (i 0).isLt
  have hi1 : (i 1).val < 144 := (i 1).isLt
  refine ⟨⟨(i 0).val / 5000, by show (i 0).val / 5000 < 100; omega⟩, flush0_5 _, ?_⟩
  rw [mem_blk]
  obtain ⟨-, -, -, -, -, -, -, -, -, -, -, -, e50, e51⟩ := idx_facts ⟨(i 0).val / 5000, by show (i 0).val / 5000 < 100; omega⟩
  have e50' : win0_5.index ⟨(i 0).val / 5000, by show (i 0).val / 5000 < 100; omega⟩ (0 : Fin 2) = (i 0).val / 5000 := e50
  intro a
  match a with
  | ⟨0, _⟩ =>
    show win0_5.index _ (0 : Fin 2) * 5000 ≤ (i 0).val ∧ (i 0).val < win0_5.index _ (0 : Fin 2) * 5000 + 5000
    rw [e50']; omega
  | ⟨1, _⟩ =>
    show win0_5.index _ (1 : Fin 2) * 144 ≤ (i 1).val ∧ (i 1).val < win0_5.index _ (1 : Fin 2) * 144 + 144
    rw [e51]; omega

/-- The result array after the run is `G` of the arguments. -/
theorem final (c : Dev nD) :
    (dats m 0 c).arrAt 5 cfg0.N = G (m ((c : Thread nD τ).loc main_arg0)) (m ((c : Thread nD τ).loc main_arg1))
      (m ((c : Thread nD τ).loc main_arg2)) (m ((c : Thread nD τ).loc main_arg3)) (m ((c : Thread nD τ).loc main_arg4)) := by
  have h := (dats m 0 c).arrAt_eq_of_cover 5 _ (fun t _ => flushed_eq m c t) cover
  rw [V_main_arg0, V_main_arg1, V_main_arg3] at h
  exact h

/-- The idealized kernel's run: the result at `G` of the arguments, the arguments unchanged. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.TreeValue

end
-- ==== Proof.RefOps.lean ====
/-
  The host reference's @main as a line of operations, cut at the joints.

  @main is 677 host operations: two that make an array of zeros, 28 for each of the 24 joints in topological order, and
  three that put the 24 feature arrays side by side.  The line is stated piece by piece — `pre`, `J0` … `J23`, `tail` —
  and @main is the run of their concatenation; every weakly fair execution of it terminates with each buffer at the fold
  of the operations over the launch contents.
-/
import proofs.«172863_j7009386627271_2_alg».proof.Proof.Gen.ReferenceIdeal
import Idealize.ShloMosaic.Lib.StableHlo.Run
import Idealize.ShloMosaic.Lib.Tactic

noncomputable section

namespace Cert.ReferenceIdeal.Ops

open Cert.ReferenceIdeal Cert.ReferenceIdeal.Gen Idealize.ShloMosaic Idealize.ShloMosaic.TcCoe Idealize.SL.Sem Idealize.ShloMosaic.StableHlo
open Idealize.ShloMosaic.Tactic

variable {F : FTy → Type} [FloatOps F]

/-- The array of zeros that stands in the root's parent's place. -/
def pre : List (HloOp τ sig (Elt F)) :=
  [ nullary main_cst (constant S_ .f32 0x00000000#32),
    unary main_cst main_v0 (broadcastInDim S500000x6 ![] bcast_S_S500000x6 : (⟨S_, .f32⟩ : BufTy).Contents (Elt F) → (⟨S500000x6, .f32⟩ : BufTy).Contents (Elt F)) ]

/-- Joint 0. -/
def J0 : List (HloOp τ sig (Elt F)) :=
  [ unary main_arg0 main_v1 ((extractStridedSlice S500000x1 ![0, 0] · slices_S500000x24_S500000x1_0_0) : (⟨S500000x24, .f32⟩ : BufTy).Contents (Elt F) → (⟨S500000x1, .f32⟩ : BufTy).Contents (Elt F)),
    reshape main_v1 main_v2 rfl shapeCasts_S500000x1_S500000,
    unary main_v2 main_v3 (broadcastInDim S500000x1 ![0] bcast_S500000_S500000x1_0 : (⟨S500000, .f32⟩ : BufTy).Contents (Elt F) → (⟨S500000x1, .f32⟩ : BufTy).Contents (Elt F)),
    binary main_v3 main_v0 main_v4 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v5 ((extractStridedSlice S1x7x7 ![0, 0, 0] · slices_S24x7x7_S1x7x7_0_0_0) : (⟨S24x7x7, .f32⟩ : BufTy).Contents (Elt F) → (⟨S1x7x7, .f32⟩ : BufTy).Contents (Elt F)),
    reshape main_v5 main_v6 rfl shapeCasts_S1x7x7_S7x7,
    unary main_v6 main_v7 ((transpose S7x7 [1, 0] · transposes_S7x7_S7x7_1_0) : (⟨S7x7, .f32⟩ : BufTy).Contents (Elt F) → (⟨S7x7, .f32⟩ : BufTy).Contents (Elt F)),
    binary main_v4 main_v7 main_v8 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v9 ((extractStridedSlice S1x7 ![0, 0] · slices_S24x7_S1x7_0_0) : (⟨S24x7, .f32⟩ : BufTy).Contents (Elt F) → (⟨S1x7, .f32⟩ : BufTy).Contents (Elt F)),
    reshape main_v9 main_v10 rfl shapeCasts_S1x7_S7,
    unary main_v10 main_v11 (broadcastInDim S1x7 ![1] bcast_S7_S1x7_1 : (⟨S7, .f32⟩ : BufTy).Contents (Elt F) → (⟨S1x7, .f32⟩ : BufTy).Contents (Elt F)),
    unary main_v11 main_v12 (broadcastInDim S500000x7 ![0, 1] bcast_S1x7_S500000x7_0_1 : (⟨S1x7, .f32⟩ : BufTy).Contents (Elt F) → (⟨S500000x7, .f32⟩ : BufTy).Contents (Elt F)),
    binary main_v8 main_v12 main_v13 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S500000x7, .f32⟩) main_call0_v0) (broadcastInDim S500000x7 ![] bcast_S_S500000x7),
    TRef.binary (TRef.of (T := ⟨S500000x7, .f32⟩) main_v13) (TRef.of (T := ⟨S500000x7, .f32⟩) main_call0_v0) (TRef.of (T := ⟨S500000x7, .f32⟩) main_v14) maximumf,
    unary main_arg3 main_v15 ((extractStridedSlice S1x6x7 ![0, 0, 0] · slices_S24x6x7_S1x6x7_0_0_0) : (⟨S24x6x7, .f32⟩ : BufTy).Contents (Elt F) → (⟨S1x6x7, .f32⟩ : BufTy).Contents (Elt F)),
    reshape main_v15 main_v16 rfl shapeCasts_S1x6x7_S6x7,
    unary main_v16 main_v17 ((transpose S7x6 [1, 0] · transposes_S6x7_S7x6_1_0) : (⟨S6x7, .f32⟩ : BufTy).Contents (Elt F) → (⟨S7x6, .f32⟩ : BufTy).Contents (Elt F)),
    binary main_v14 main_v17 main_v18 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v19 ((extractStridedSlice S1x6 ![0, 0] · slices_S24x6_S1x6_0_0) : (⟨S24x6, .f32⟩ : BufTy).Contents (Elt F) → (⟨S1x6, .f32⟩ : BufTy).Contents (Elt F)),
    reshape main_v19 main_v20 rfl shapeCasts_S1x6_S6,
    unary main_v20 main_v21 (broadcastInDim S1x6 ![1] bcast_S6_S1x6_1 : (⟨S6, .f32⟩ : BufTy).Contents (Elt F) → (⟨S1x6, .f32⟩ : BufTy).Contents (Elt F)),
    unary main_v21 main_v22 (broadcastInDim S500000x6 ![0, 1] bcast_S1x6_S500000x6_0_1 : (⟨S1x6, .f32⟩ : BufTy).Contents (Elt F) → (⟨S500000x6, .f32⟩ : BufTy).Contents (Elt F)),
    binary main_v18 main_v22 main_v23 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S500000x6, .f32⟩) main_call1_v0) (broadcastInDim S500000x6 ![] bcast_S_S500000x6),
    TRef.binary (TRef.of (T := ⟨S500000x6, .f32⟩) main_v23) (TRef.of (T := ⟨S500000x6, .f32⟩) main_call1_v0) (TRef.of (T := ⟨S500000x6, .f32⟩) main_v24) maximumf ]

/-- Joint 1. -/
def J1 : List (HloOp τ sig (Elt F)) :=
  [ unary main_arg0 main_v25 ((extractStridedSlice S500000x1 ![0, 1] · slices_S500000x24_S500000x1_0_1) : (⟨S500000x24, .f32⟩ : BufTy).Contents (Elt F) → (⟨S500000x1, .f32⟩ : BufTy).Contents (Elt F)),
    reshape main_v25 main_v26 rfl shapeCasts_S500000x1_S500000,
    unary main_v26 main_v27 (broadcastInDim S500000x1 ![0] bcast_S500000_S500000x1_0 : (⟨S500000, .f32⟩ : BufTy).Contents (Elt F) → (⟨S500000x1, .f32⟩ : BufTy).Contents (Elt F)),
    binary main_v27 main_v24 main_v28 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v29 ((extractStridedSlice S1x7x7 ![1, 0, 0] · slices_S24x7x7_S1x7x7_1_0_0) : (⟨S24x7x7, .f32⟩ : BufTy).Contents (Elt F) → (⟨S1x7x7, .f32⟩ : BufTy).Contents (Elt F)),
    reshape main_v29 main_v30 rfl shapeCasts_S1x7x7_S7x7,
    unary main_v30 main_v31 ((transpose S7x7 [1, 0] · transposes_S7x7_S7x7_1_0) : (⟨S7x7, .f32⟩ : BufTy).Contents (Elt F) → (⟨S7x7, .f32⟩ : BufTy).Contents (Elt F)),
    binary main_v28 main_v31 main_v32 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v33 ((extractStridedSlice S1x7 ![1, 0] · slices_S24x7_S1x7_1_0) : (⟨S24x7, .f32⟩ : BufTy).Contents (Elt F) → (⟨S1x7, .f32⟩ : BufTy).Contents (Elt F)),
    reshape main_v33 main_v34 rfl shapeCasts_S1x7_S7,
    unary main_v34 main_v35 (broadcastInDim S1x7 ![1] bcast_S7_S1x7_1 : (⟨S7, .f32⟩ : BufTy).Contents (Elt F) → (⟨S1x7, .f32⟩ : BufTy).Contents (Elt F)),
    unary main_v35 main_v36 (broadcastInDim S500000x7 ![0, 1] bcast_S1x7_S500000x7_0_1 : (⟨S1x7, .f32⟩ : BufTy).Contents (Elt F) → (⟨S500000x7, .f32⟩ : BufTy).Contents (Elt F)),
    binary main_v32 main_v36 main_v37 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S500000x7, .f32⟩) main_call2_v0) (broadcastInDim S500000x7 ![] bcast_S_S500000x7),
    TRef.binary (TRef.of (T := ⟨S500000x7, .f32⟩) main_v37) (TRef.of (T := ⟨S500000x7, .f32⟩) main_call2_v0) (TRef.of (T := ⟨S500000x7, .f32⟩) main_v38) maximumf,
    unary main_arg3 main_v39 ((extractStridedSlice S1x6x7 ![1, 0, 0] · slices_S24x6x7_S1x6x7_1_0_0) : (⟨S24x6x7, .f32⟩ : BufTy).Contents (Elt F) → (⟨S1x6x7, .f32⟩ : BufTy).Contents (Elt F)),
    reshape main_v39 main_v40 rfl shapeCasts_S1x6x7_S6x7,
    unary main_v40 main_v41 ((transpose S7x6 [1, 0] · transposes_S6x7_S7x6_1_0) : (⟨S6x7, .f32⟩ : BufTy).Contents (Elt F) → (⟨S7x6, .f32⟩ : BufTy).Contents (Elt F)),
    binary main_v38 main_v41 main_v42 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v43 ((extractStridedSlice S1x6 ![1, 0] · slices_S24x6_S1x6_1_0) : (⟨S24x6, .f32⟩ : BufTy).Contents (Elt F) → (⟨S1x6, .f32⟩ : BufTy).Contents (Elt F)),
    reshape main_v43 main_v44 rfl shapeCasts_S1x6_S6,
    unary main_v44 main_v45 (broadcastInDim S1x6 ![1] bcast_S6_S1x6_1 : (⟨S6, .f32⟩ : BufTy).Contents (Elt F) → (⟨S1x6, .f32⟩ : BufTy).Contents (Elt F)),
    unary main_v45 main_v46 (broadcastInDim S500000x6 ![0, 1] bcast_S1x6_S500000x6_0_1 : (⟨S1x6, .f32⟩ : BufTy).Contents (Elt F) → (⟨S500000x6, .f32⟩ : BufTy).Contents (Elt F)),
    binary main_v42 main_v46 main_v47 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S500000x6, .f32⟩) main_call3_v0) (broadcastInDim S500000x6 ![] bcast_S_S500000x6),
    TRef.binary (TRef.of (T := ⟨S500000x6, .f32⟩) main_v47) (TRef.of (T := ⟨S500000x6, .f32⟩) main_call3_v0) (TRef.of (T := ⟨S500000x6, .f32⟩) main_v48) maximumf ]

/-- Joint 2. -/
def J2 : List (HloOp τ sig (Elt F)) :=
  [ unary main_arg0 main_v49 ((extractStridedSlice S500000x1 ![0, 2] · slices_S500000x24_S500000x1_0_2) : (⟨S500000x24, .f32⟩ : BufTy).Contents (Elt F) → (⟨S500000x1, .f32⟩ : BufTy).Contents (Elt F)),
    reshape main_v49 main_v50 rfl shapeCasts_S500000x1_S500000,
    unary main_v50 main_v51 (broadcastInDim S500000x1 ![0] bcast_S500000_S500000x1_0 : (⟨S500000, .f32⟩ : BufTy).Contents (Elt F) → (⟨S500000x1, .f32⟩ : BufTy).Contents (Elt F)),
    binary main_v51 main_v24 main_v52 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v53 ((extractStridedSlice S1x7x7 ![2, 0, 0] · slices_S24x7x7_S1x7x7_2_0_0) : (⟨S24x7x7, .f32⟩ : BufTy).Contents (Elt F) → (⟨S1x7x7, .f32⟩ : BufTy).Contents (Elt F)),
    reshape main_v53 main_v54 rfl shapeCasts_S1x7x7_S7x7,
    unary main_v54 main_v55 ((transpose S7x7 [1, 0] · transposes_S7x7_S7x7_1_0) : (⟨S7x7, .f32⟩ : BufTy).Contents (Elt F) → (⟨S7x7, .f32⟩ : BufTy).Contents (Elt F)),
    binary main_v52 main_v55 main_v56 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v57 ((extractStridedSlice S1x7 ![2, 0] · slices_S24x7_S1x7_2_0) : (⟨S24x7, .f32⟩ : BufTy).Contents (Elt F) → (⟨S1x7, .f32⟩ : BufTy).Contents (Elt F)),
    reshape main_v57 main_v58 rfl shapeCasts_S1x7_S7,
    unary main_v58 main_v59 (broadcastInDim S1x7 ![1] bcast_S7_S1x7_1 : (⟨S7, .f32⟩ : BufTy).Contents (Elt F) → (⟨S1x7, .f32⟩ : BufTy).Contents (Elt F)),
    unary main_v59 main_v60 (broadcastInDim S500000x7 ![0, 1] bcast_S1x7_S500000x7_0_1 : (⟨S1x7, .f32⟩ : BufTy).Contents (Elt F) → (⟨S500000x7, .f32⟩ : BufTy).Contents (Elt F)),
    binary main_v56 main_v60 main_v61 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S500000x7, .f32⟩) main_call4_v0) (broadcastInDim S500000x7 ![] bcast_S_S500000x7),
    TRef.binary (TRef.of (T := ⟨S500000x7, .f32⟩) main_v61) (TRef.of (T := ⟨S500000x7, .f32⟩) main_call4_v0) (TRef.of (T := ⟨S500000x7, .f32⟩) main_v62) maximumf,
    unary main_arg3 main_v63 ((extractStridedSlice S1x6x7 ![2, 0, 0] · slices_S24x6x7_S1x6x7_2_0_0) : (⟨S24x6x7, .f32⟩ : BufTy).Contents (Elt F) → (⟨S1x6x7, .f32⟩ : BufTy).Contents (Elt F)),
    reshape main_v63 main_v64 rfl shapeCasts_S1x6x7_S6x7,
    unary main_v64 main_v65 ((transpose S7x6 [1, 0] · transposes_S6x7_S7x6_1_0) : (⟨S6x7, .f32⟩ : BufTy).Contents (Elt F) → (⟨S7x6, .f32⟩ : BufTy).Contents (Elt F)),
    binary main_v62 main_v65 main_v66 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v67 ((extractStridedSlice S1x6 ![2, 0] · slices_S24x6_S1x6_2_0) : (⟨S24x6, .f32⟩ : BufTy).Contents (Elt F) → (⟨S1x6, .f32⟩ : BufTy).Contents (Elt F)),
    reshape main_v67 main_v68 rfl shapeCasts_S1x6_S6,
    unary main_v68 main_v69 (broadcastInDim S1x6 ![1] bcast_S6_S1x6_1 : (⟨S6, .f32⟩ : BufTy).Contents (Elt F) → (⟨S1x6, .f32⟩ : BufTy).Contents (Elt F)),
    unary main_v69 main_v70 (broadcastInDim S500000x6 ![0, 1] bcast_S1x6_S500000x6_0_1 : (⟨S1x6, .f32⟩ : BufTy).Contents (Elt F) → (⟨S500000x6, .f32⟩ : BufTy).Contents (Elt F)),
    binary main_v66 main_v70 main_v71 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S500000x6, .f32⟩) main_call5_v0) (broadcastInDim S500000x6 ![] bcast_S_S500000x6),
    TRef.binary (TRef.of (T := ⟨S500000x6, .f32⟩) main_v71) (TRef.of (T := ⟨S500000x6, .f32⟩) main_call5_v0) (TRef.of (T := ⟨S500000x6, .f32⟩) main_v72) maximumf ]

/-- Joint 3. -/
def J3 : List (HloOp τ sig (Elt F)) :=
  [ unary main_arg0 main_v73 ((extractStridedSlice S500000x1 ![0, 3] · slices_S500000x24_S500000x1_0_3) : (⟨S500000x24, .f32⟩ : BufTy).Contents (Elt F) → (⟨S500000x1, .f32⟩ : BufTy).Contents (Elt F)),
    reshape main_v73 main_v74 rfl shapeCasts_S500000x1_S500000,
    unary main_v74 main_v75 (broadcastInDim S500000x1 ![0] bcast_S500000_S500000x1_0 : (⟨S500000, .f32⟩ : BufTy).Contents (Elt F) → (⟨S500000x1, .f32⟩ : BufTy).Contents (Elt F)),
    binary main_v75 main_v24 main_v76 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v77 ((extractStridedSlice S1x7x7 ![3, 0, 0] · slices_S24x7x7_S1x7x7_3_0_0) : (⟨S24x7x7, .f32⟩ : BufTy).Contents (Elt F) → (⟨S1x7x7, .f32⟩ : BufTy).Contents (Elt F)),
    reshape main_v77 main_v78 rfl shapeCasts_S1x7x7_S7x7,
    unary main_v78 main_v79 ((transpose S7x7 [1, 0] · transposes_S7x7_S7x7_1_0) : (⟨S7x7, .f32⟩ : BufTy).Contents (Elt F) → (⟨S7x7, .f32⟩ : BufTy).Contents (Elt F)),
    binary main_v76 main_v79 main_v80 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v81 ((extractStridedSlice S1x7 ![3, 0] · slices_S24x7_S1x7_3_0) : (⟨S24x7, .f32⟩ : BufTy).Contents (Elt F) → (⟨S1x7, .f32⟩ : BufTy).Contents (Elt F)),
    reshape main_v81 main_v82 rfl shapeCasts_S1x7_S7,
    unary main_v82 main_v83 (broadcastInDim S1x7 ![1] bcast_S7_S1x7_1 : (⟨S7, .f32⟩ : BufTy).Contents (Elt F) → (⟨S1x7, .f32⟩ : BufTy).Contents (Elt F)),
    unary main_v83 main_v84 (broadcastInDim S500000x7 ![0, 1] bcast_S1x7_S500000x7_0_1 : (⟨S1x7, .f32⟩ : BufTy).Contents (Elt F) → (⟨S500000x7, .f32⟩ : BufTy).Contents (Elt F)),
    binary main_v80 main_v84 main_v85 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S500000x7, .f32⟩) main_call6_v0) (broadcastInDim S500000x7 ![] bcast_S_S500000x7),
    TRef.binary (TRef.of (T := ⟨S500000x7, .f32⟩) main_v85) (TRef.of (T := ⟨S500000x7, .f32⟩) main_call6_v0) (TRef.of (T := ⟨S500000x7, .f32⟩) main_v86) maximumf,
    unary main_arg3 main_v87 ((extractStridedSlice S1x6x7 ![3, 0, 0] · slices_S24x6x7_S1x6x7_3_0_0) : (⟨S24x6x7, .f32⟩ : BufTy).Contents (Elt F) → (⟨S1x6x7, .f32⟩ : BufTy).Contents (Elt F)),
    reshape main_v87 main_v88 rfl shapeCasts_S1x6x7_S6x7,
    unary main_v88 main_v89 ((transpose S7x6 [1, 0] · transposes_S6x7_S7x6_1_0) : (⟨S6x7, .f32⟩ : BufTy).Contents (Elt F) → (⟨S7x6, .f32⟩ : BufTy).Contents (Elt F)),
    binary main_v86 main_v89 main_v90 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v91 ((extractStridedSlice S1x6 ![3, 0] · slices_S24x6_S1x6_3_0) : (⟨S24x6, .f32⟩ : BufTy).Contents (Elt F) → (⟨S1x6, .f32⟩ : BufTy).Contents (Elt F)),
    reshape main_v91 main_v92 rfl shapeCasts_S1x6_S6,
    unary main_v92 main_v93 (broadcastInDim S1x6 ![1] bcast_S6_S1x6_1 : (⟨S6, .f32⟩ : BufTy).Contents (Elt F) → (⟨S1x6, .f32⟩ : BufTy).Contents (Elt F)),
    unary main_v93 main_v94 (broadcastInDim S500000x6 ![0, 1] bcast_S1x6_S500000x6_0_1 : (⟨S1x6, .f32⟩ : BufTy).Contents (Elt F) → (⟨S500000x6, .f32⟩ : BufTy).Contents (Elt F)),
    binary main_v90 main_v94 main_v95 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S500000x6, .f32⟩) main_call7_v0) (broadcastInDim S500000x6 ![] bcast_S_S500000x6),
    TRef.binary (TRef.of (T := ⟨S500000x6, .f32⟩) main_v95) (TRef.of (T := ⟨S500000x6, .f32⟩) main_call7_v0) (TRef.of (T := ⟨S500000x6, .f32⟩) main_v96) maximumf ]

/-- Joint 4. -/
def J4 : List (HloOp τ sig (Elt F)) :=
  [ unary main_arg0 main_v97 ((extractStridedSlice S500000x1 ![0, 4] · slices_S500000x24_S500000x1_0_4) : (⟨S500000x24, .f32⟩ : BufTy).Contents (Elt F) → (⟨S500000x1, .f32⟩ : BufTy).Contents (Elt F)),
    reshape main_v97 main_v98 rfl shapeCasts_S500000x1_S500000,
    unary main_v98 main_v99 (broadcastInDim S500000x1 ![0] bcast_S500000_S500000x1_0 : (⟨S500000, .f32⟩ : BufTy).Contents (Elt F) → (⟨S500000x1, .f32⟩ : BufTy).Contents (Elt F)),
    binary main_v99 main_v48 main_v100 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v101 ((extractStridedSlice S1x7x7 ![4, 0, 0] · slices_S24x7x7_S1x7x7_4_0_0) : (⟨S24x7x7, .f32⟩ : BufTy).Contents (Elt F) → (⟨S1x7x7, .f32⟩ : BufTy).Contents (Elt F)),
    reshape main_v101 main_v102 rfl shapeCasts_S1x7x7_S7x7,
    unary main_v102 main_v103 ((transpose S7x7 [1, 0] · transposes_S7x7_S7x7_1_0) : (⟨S7x7, .f32⟩ : BufTy).Contents (Elt F) → (⟨S7x7, .f32⟩ : BufTy).Contents (Elt F)),
    binary main_v100 main_v103 main_v104 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v105 ((extractStridedSlice S1x7 ![4, 0] · slices_S24x7_S1x7_4_0) : (⟨S24x7, .f32⟩ : BufTy).Contents (Elt F) → (⟨S1x7, .f32⟩ : BufTy).Contents (Elt F)),
    reshape main_v105 main_v106 rfl shapeCasts_S1x7_S7,
    unary main_v106 main_v107 (broadcastInDim S1x7 ![1] bcast_S7_S1x7_1 : (⟨S7, .f32⟩ : BufTy).Contents (Elt F) → (⟨S1x7, .f32⟩ : BufTy).Contents (Elt F)),
    unary main_v107 main_v108 (broadcastInDim S500000x7 ![0, 1] bcast_S1x7_S500000x7_0_1 : (⟨S1x7, .f32⟩ : BufTy).Contents (Elt F) → (⟨S500000x7, .f32⟩ : BufTy).Contents (Elt F)),
    binary main_v104 main_v108 main_v109 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S500000x7, .f32⟩) main_call8_v0) (broadcastInDim S500000x7 ![] bcast_S_S500000x7),
    TRef.binary (TRef.of (T := ⟨S500000x7, .f32⟩) main_v109) (TRef.of (T := ⟨S500000x7, .f32⟩) main_call8_v0) (TRef.of (T := ⟨S500000x7, .f32⟩) main_v110) maximumf,
    unary main_arg3 main_v111 ((extractStridedSlice S1x6x7 ![4, 0, 0] · slices_S24x6x7_S1x6x7_4_0_0) : (⟨S24x6x7, .f32⟩ : BufTy).Contents (Elt F) → (⟨S1x6x7, .f32⟩ : BufTy).Contents (Elt F)),
    reshape main_v111 main_v112 rfl shapeCasts_S1x6x7_S6x7,
    unary main_v112 main_v113 ((transpose S7x6 [1, 0] · transposes_S6x7_S7x6_1_0) : (⟨S6x7, .f32⟩ : BufTy).Contents (Elt F) → (⟨S7x6, .f32⟩ : BufTy).Contents (Elt F)),
    binary main_v110 main_v113 main_v114 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v115 ((extractStridedSlice S1x6 ![4, 0] · slices_S24x6_S1x6_4_0) : (⟨S24x6, .f32⟩ : BufTy).Contents (Elt F) → (⟨S1x6, .f32⟩ : BufTy).Contents (Elt F)),
    reshape main_v115 main_v116 rfl shapeCasts_S1x6_S6,
    unary main_v116 main_v117 (broadcastInDim S1x6 ![1] bcast_S6_S1x6_1 : (⟨S6, .f32⟩ : BufTy).Contents (Elt F) → (⟨S1x6, .f32⟩ : BufTy).Contents (Elt F)),
    unary main_v117 main_v118 (broadcastInDim S500000x6 ![0, 1] bcast_S1x6_S500000x6_0_1 : (⟨S1x6, .f32⟩ : BufTy).Contents (Elt F) → (⟨S500000x6, .f32⟩ : BufTy).Contents (Elt F)),
    binary main_v114 main_v118 main_v119 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S500000x6, .f32⟩) main_call9_v0) (broadcastInDim S500000x6 ![] bcast_S_S500000x6),
    TRef.binary (TRef.of (T := ⟨S500000x6, .f32⟩) main_v119) (TRef.of (T := ⟨S500000x6, .f32⟩) main_call9_v0) (TRef.of (T := ⟨S500000x6, .f32⟩) main_v120) maximumf ]

/-- Joint 5. -/
def J5 : List (HloOp τ sig (Elt F)) :=
  [ unary main_arg0 main_v121 ((extractStridedSlice S500000x1 ![0, 5] · slices_S500000x24_S500000x1_0_5) : (⟨S500000x24, .f32⟩ : BufTy).Contents (Elt F) → (⟨S500000x1, .f32⟩ : BufTy).Contents (Elt F)),
    reshape main_v121 main_v122 rfl shapeCasts_S500000x1_S500000,
    unary main_v122 main_v123 (broadcastInDim S500000x1 ![0] bcast_S500000_S500000x1_0 : (⟨S500000, .f32⟩ : BufTy).Contents (Elt F) → (⟨S500000x1, .f32⟩ : BufTy).Contents (Elt F)),
    binary main_v123 main_v72 main_v124 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v125 ((extractStridedSlice S1x7x7 ![5, 0, 0] · slices_S24x7x7_S1x7x7_5_0_0) : (⟨S24x7x7, .f32⟩ : BufTy).Contents (Elt F) → (⟨S1x7x7, .f32⟩ : BufTy).Contents (Elt F)),
    reshape main_v125 main_v126 rfl shapeCasts_S1x7x7_S7x7,
    unary main_v126 main_v127 ((transpose S7x7 [1, 0] · transposes_S7x7_S7x7_1_0) : (⟨S7x7, .f32⟩ : BufTy).Contents (Elt F) → (⟨S7x7, .f32⟩ : BufTy).Contents (Elt F)),
    binary main_v124 main_v127 main_v128 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v129 ((extractStridedSlice S1x7 ![5, 0] · slices_S24x7_S1x7_5_0) : (⟨S24x7, .f32⟩ : BufTy).Contents (Elt F) → (⟨S1x7, .f32⟩ : BufTy).Contents (Elt F)),
    reshape main_v129 main_v130 rfl shapeCasts_S1x7_S7,
    unary main_v130 main_v131 (broadcastInDim S1x7 ![1] bcast_S7_S1x7_1 : (⟨S7, .f32⟩ : BufTy).Contents (Elt F) → (⟨S1x7, .f32⟩ : BufTy).Contents (Elt F)),
    unary main_v131 main_v132 (broadcastInDim S500000x7 ![0, 1] bcast_S1x7_S500000x7_0_1 : (⟨S1x7, .f32⟩ : BufTy).Contents (Elt F) → (⟨S500000x7, .f32⟩ : BufTy).Contents (Elt F)),
    binary main_v128 main_v132 main_v133 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S500000x7, .f32⟩) main_call10_v0) (broadcastInDim S500000x7 ![] bcast_S_S500000x7),
    TRef.binary (TRef.of (T := ⟨S500000x7, .f32⟩) main_v133) (TRef.of (T := ⟨S500000x7, .f32⟩) main_call10_v0) (TRef.of (T := ⟨S500000x7, .f32⟩) main_v134) maximumf,
    unary main_arg3 main_v135 ((extractStridedSlice S1x6x7 ![5, 0, 0] · slices_S24x6x7_S1x6x7_5_0_0) : (⟨S24x6x7, .f32⟩ : BufTy).Contents (Elt F) → (⟨S1x6x7, .f32⟩ : BufTy).Contents (Elt F)),
    reshape main_v135 main_v136 rfl shapeCasts_S1x6x7_S6x7,
    unary main_v136 main_v137 ((transpose S7x6 [1, 0] · transposes_S6x7_S7x6_1_0) : (⟨S6x7, .f32⟩ : BufTy).Contents (Elt F) → (⟨S7x6, .f32⟩ : BufTy).Contents (Elt F)),
    binary main_v134 main_v137 main_v138 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v139 ((extractStridedSlice S1x6 ![5, 0] · slices_S24x6_S1x6_5_0) : (⟨S24x6, .f32⟩ : BufTy).Contents (Elt F) → (⟨S1x6, .f32⟩ : BufTy).Contents (Elt F)),
    reshape main_v139 main_v140 rfl shapeCasts_S1x6_S6,
    unary main_v140 main_v141 (broadcastInDim S1x6 ![1] bcast_S6_S1x6_1 : (⟨S6, .f32⟩ : BufTy).Contents (Elt F) → (⟨S1x6, .f32⟩ : BufTy).Contents (Elt F)),
    unary main_v141 main_v142 (broadcastInDim S500000x6 ![0, 1] bcast_S1x6_S500000x6_0_1 : (⟨S1x6, .f32⟩ : BufTy).Contents (Elt F) → (⟨S500000x6, .f32⟩ : BufTy).Contents (Elt F)),
    binary main_v138 main_v142 main_v143 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S500000x6, .f32⟩) main_call11_v0) (broadcastInDim S500000x6 ![] bcast_S_S500000x6),
    TRef.binary (TRef.of (T := ⟨S500000x6, .f32⟩) main_v143) (TRef.of (T := ⟨S500000x6, .f32⟩) main_call11_v0) (TRef.of (T := ⟨S500000x6, .f32⟩) main_v144) maximumf ]

/-- Joint 6. -/
def J6 : List (HloOp τ sig (Elt F)) :=
  [ unary main_arg0 main_v145 ((extractStridedSlice S500000x1 ![0, 6] · slices_S500000x24_S500000x1_0_6) : (⟨S500000x24, .f32⟩ : BufTy).Contents (Elt F) → (⟨S500000x1, .f32⟩ : BufTy).Contents (Elt F)),
    reshape main_v145 main_v146 rfl shapeCasts_S500000x1_S500000,
    unary main_v146 main_v147 (broadcastInDim S500000x1 ![0] bcast_S500000_S500000x1_0 : (⟨S500000, .f32⟩ : BufTy).Contents (Elt F) → (⟨S500000x1, .f32⟩ : BufTy).Contents (Elt F)),
    binary main_v147 main_v96 main_v148 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v149 ((extractStridedSlice S1x7x7 ![6, 0, 0] · slices_S24x7x7_S1x7x7_6_0_0) : (⟨S24x7x7, .f32⟩ : BufTy).Contents (Elt F) → (⟨S1x7x7, .f32⟩ : BufTy).Contents (Elt F)),
    reshape main_v149 main_v150 rfl shapeCasts_S1x7x7_S7x7,
    unary main_v150 main_v151 ((transpose S7x7 [1, 0] · transposes_S7x7_S7x7_1_0) : (⟨S7x7, .f32⟩ : BufTy).Contents (Elt F) → (⟨S7x7, .f32⟩ : BufTy).Contents (Elt F)),
    binary main_v148 main_v151 main_v152 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v153 ((extractStridedSlice S1x7 ![6, 0] · slices_S24x7_S1x7_6_0) : (⟨S24x7, .f32⟩ : BufTy).Contents (Elt F) → (⟨S1x7, .f32⟩ : BufTy).Contents (Elt F)),
    reshape main_v153 main_v154 rfl shapeCasts_S1x7_S7,
    unary main_v154 main_v155 (broadcastInDim S1x7 ![1] bcast_S7_S1x7_1 : (⟨S7, .f32⟩ : BufTy).Contents (Elt F) → (⟨S1x7, .f32⟩ : BufTy).Contents (Elt F)),
    unary main_v155 main_v156 (broadcastInDim S500000x7 ![0, 1] bcast_S1x7_S500000x7_0_1 : (⟨S1x7, .f32⟩ : BufTy).Contents (Elt F) → (⟨S500000x7, .f32⟩ : BufTy).Contents (Elt F)),
    binary main_v152 main_v156 main_v157 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S500000x7, .f32⟩) main_call12_v0) (broadcastInDim S500000x7 ![] bcast_S_S500000x7),
    TRef.binary (TRef.of (T := ⟨S500000x7, .f32⟩) main_v157) (TRef.of (T := ⟨S500000x7, .f32⟩) main_call12_v0) (TRef.of (T := ⟨S500000x7, .f32⟩) main_v158) maximumf,
    unary main_arg3 main_v159 ((extractStridedSlice S1x6x7 ![6, 0, 0] · slices_S24x6x7_S1x6x7_6_0_0) : (⟨S24x6x7, .f32⟩ : BufTy).Contents (Elt F) → (⟨S1x6x7, .f32⟩ : BufTy).Contents (Elt F)),
    reshape main_v159 main_v160 rfl shapeCasts_S1x6x7_S6x7,
    unary main_v160 main_v161 ((transpose S7x6 [1, 0] · transposes_S6x7_S7x6_1_0) : (⟨S6x7, .f32⟩ : BufTy).Contents (Elt F) → (⟨S7x6, .f32⟩ : BufTy).Contents (Elt F)),
    binary main_v158 main_v161 main_v162 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v163 ((extractStridedSlice S1x6 ![6, 0] · slices_S24x6_S1x6_6_0) : (⟨S24x6, .f32⟩ : BufTy).Contents (Elt F) → (⟨S1x6, .f32⟩ : BufTy).Contents (Elt F)),
    reshape main_v163 main_v164 rfl shapeCasts_S1x6_S6,
    unary main_v164 main_v165 (broadcastInDim S1x6 ![1] bcast_S6_S1x6_1 : (⟨S6, .f32⟩ : BufTy).Contents (Elt F) → (⟨S1x6, .f32⟩ : BufTy).Contents (Elt F)),
    unary main_v165 main_v166 (broadcastInDim S500000x6 ![0, 1] bcast_S1x6_S500000x6_0_1 : (⟨S1x6, .f32⟩ : BufTy).Contents (Elt F) → (⟨S500000x6, .f32⟩ : BufTy).Contents (Elt F)),
    binary main_v162 main_v166 main_v167 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S500000x6, .f32⟩) main_call13_v0) (broadcastInDim S500000x6 ![] bcast_S_S500000x6),
    TRef.binary (TRef.of (T := ⟨S500000x6, .f32⟩) main_v167) (TRef.of (T := ⟨S500000x6, .f32⟩) main_call13_v0) (TRef.of (T := ⟨S500000x6, .f32⟩) main_v168) maximumf ]

/-- Joint 7. -/
def J7 : List (HloOp τ sig (Elt F)) :=
  [ unary main_arg0 main_v169 ((extractStridedSlice S500000x1 ![0, 7] · slices_S500000x24_S500000x1_0_7) : (⟨S500000x24, .f32⟩ : BufTy).Contents (Elt F) → (⟨S500000x1, .f32⟩ : BufTy).Contents (Elt F)),
    reshape main_v169 main_v170 rfl shapeCasts_S500000x1_S500000,
    unary main_v170 main_v171 (broadcastInDim S500000x1 ![0] bcast_S500000_S500000x1_0 : (⟨S500000, .f32⟩ : BufTy).Contents (Elt F) → (⟨S500000x1, .f32⟩ : BufTy).Contents (Elt F)),
    binary main_v171 main_v120 main_v172 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v173 ((extractStridedSlice S1x7x7 ![7, 0, 0] · slices_S24x7x7_S1x7x7_7_0_0) : (⟨S24x7x7, .f32⟩ : BufTy).Contents (Elt F) → (⟨S1x7x7, .f32⟩ : BufTy).Contents (Elt F)),
    reshape main_v173 main_v174 rfl shapeCasts_S1x7x7_S7x7,
    unary main_v174 main_v175 ((transpose S7x7 [1, 0] · transposes_S7x7_S7x7_1_0) : (⟨S7x7, .f32⟩ : BufTy).Contents (Elt F) → (⟨S7x7, .f32⟩ : BufTy).Contents (Elt F)),
    binary main_v172 main_v175 main_v176 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v177 ((extractStridedSlice S1x7 ![7, 0] · slices_S24x7_S1x7_7_0) : (⟨S24x7, .f32⟩ : BufTy).Contents (Elt F) → (⟨S1x7, .f32⟩ : BufTy).Contents (Elt F)),
    reshape main_v177 main_v178 rfl shapeCasts_S1x7_S7,
    unary main_v178 main_v179 (broadcastInDim S1x7 ![1] bcast_S7_S1x7_1 : (⟨S7, .f32⟩ : BufTy).Contents (Elt F) → (⟨S1x7, .f32⟩ : BufTy).Contents (Elt F)),
    unary main_v179 main_v180 (broadcastInDim S500000x7 ![0, 1] bcast_S1x7_S500000x7_0_1 : (⟨S1x7, .f32⟩ : BufTy).Contents (Elt F) → (⟨S500000x7, .f32⟩ : BufTy).Contents (Elt F)),
    binary main_v176 main_v180 main_v181 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S500000x7, .f32⟩) main_call14_v0) (broadcastInDim S500000x7 ![] bcast_S_S500000x7),
    TRef.binary (TRef.of (T := ⟨S500000x7, .f32⟩) main_v181) (TRef.of (T := ⟨S500000x7, .f32⟩) main_call14_v0) (TRef.of (T := ⟨S500000x7, .f32⟩) main_v182) maximumf,
    unary main_arg3 main_v183 ((extractStridedSlice S1x6x7 ![7, 0, 0] · slices_S24x6x7_S1x6x7_7_0_0) : (⟨S24x6x7, .f32⟩ : BufTy).Contents (Elt F) → (⟨S1x6x7, .f32⟩ : BufTy).Contents (Elt F)),
    reshape main_v183 main_v184 rfl shapeCasts_S1x6x7_S6x7,
    unary main_v184 main_v185 ((transpose S7x6 [1, 0] · transposes_S6x7_S7x6_1_0) : (⟨S6x7, .f32⟩ : BufTy).Contents (Elt F) → (⟨S7x6, .f32⟩ : BufTy).Contents (Elt F)),
    binary main_v182 main_v185 main_v186 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v187 ((extractStridedSlice S1x6 ![7, 0] · slices_S24x6_S1x6_7_0) : (⟨S24x6, .f32⟩ : BufTy).Contents (Elt F) → (⟨S1x6, .f32⟩ : BufTy).Contents (Elt F)),
    reshape main_v187 main_v188 rfl shapeCasts_S1x6_S6,
    unary main_v188 main_v189 (broadcastInDim S1x6 ![1] bcast_S6_S1x6_1 : (⟨S6, .f32⟩ : BufTy).Contents (Elt F) → (⟨S1x6, .f32⟩ : BufTy).Contents (Elt F)),
    unary main_v189 main_v190 (broadcastInDim S500000x6 ![0, 1] bcast_S1x6_S500000x6_0_1 : (⟨S1x6, .f32⟩ : BufTy).Contents (Elt F) → (⟨S500000x6, .f32⟩ : BufTy).Contents (Elt F)),
    binary main_v186 main_v190 main_v191 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S500000x6, .f32⟩) main_call15_v0) (broadcastInDim S500000x6 ![] bcast_S_S500000x6),
    TRef.binary (TRef.of (T := ⟨S500000x6, .f32⟩) main_v191) (TRef.of (T := ⟨S500000x6, .f32⟩) main_call15_v0) (TRef.of (T := ⟨S500000x6, .f32⟩) main_v192) maximumf ]

/-- Joint 8. -/
def J8 : List (HloOp τ sig (Elt F)) :=
  [ unary main_arg0 main_v193 ((extractStridedSlice S500000x1 ![0, 8] · slices_S500000x24_S500000x1_0_8) : (⟨S500000x24, .f32⟩ : BufTy).Contents (Elt F) → (⟨S500000x1, .f32⟩ : BufTy).Contents (Elt F)),
    reshape main_v193 main_v194 rfl shapeCasts_S500000x1_S500000,
    unary main_v194 main_v195 (broadcastInDim S500000x1 ![0] bcast_S500000_S500000x1_0 : (⟨S500000, .f32⟩ : BufTy).Contents (Elt F) → (⟨S500000x1, .f32⟩ : BufTy).Contents (Elt F)),
    binary main_v195 main_v144 main_v196 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v197 ((extractStridedSlice S1x7x7 ![8, 0, 0] · slices_S24x7x7_S1x7x7_8_0_0) : (⟨S24x7x7, .f32⟩ : BufTy).Contents (Elt F) → (⟨S1x7x7, .f32⟩ : BufTy).Contents (Elt F)),
    reshape main_v197 main_v198 rfl shapeCasts_S1x7x7_S7x7,
    unary main_v198 main_v199 ((transpose S7x7 [1, 0] · transposes_S7x7_S7x7_1_0) : (⟨S7x7, .f32⟩ : BufTy).Contents (Elt F) → (⟨S7x7, .f32⟩ : BufTy).Contents (Elt F)),
    binary main_v196 main_v199 main_v200 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v201 ((extractStridedSlice S1x7 ![8, 0] · slices_S24x7_S1x7_8_0) : (⟨S24x7, .f32⟩ : BufTy).Contents (Elt F) → (⟨S1x7, .f32⟩ : BufTy).Contents (Elt F)),
    reshape main_v201 main_v202 rfl shapeCasts_S1x7_S7,
    unary main_v202 main_v203 (broadcastInDim S1x7 ![1] bcast_S7_S1x7_1 : (⟨S7, .f32⟩ : BufTy).Contents (Elt F) → (⟨S1x7, .f32⟩ : BufTy).Contents (Elt F)),
    unary main_v203 main_v204 (broadcastInDim S500000x7 ![0, 1] bcast_S1x7_S500000x7_0_1 : (⟨S1x7, .f32⟩ : BufTy).Contents (Elt F) → (⟨S500000x7, .f32⟩ : BufTy).Contents (Elt F)),
    binary main_v200 main_v204 main_v205 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S500000x7, .f32⟩) main_call16_v0) (broadcastInDim S500000x7 ![] bcast_S_S500000x7),
    TRef.binary (TRef.of (T := ⟨S500000x7, .f32⟩) main_v205) (TRef.of (T := ⟨S500000x7, .f32⟩) main_call16_v0) (TRef.of (T := ⟨S500000x7, .f32⟩) main_v206) maximumf,
    unary main_arg3 main_v207 ((extractStridedSlice S1x6x7 ![8, 0, 0] · slices_S24x6x7_S1x6x7_8_0_0) : (⟨S24x6x7, .f32⟩ : BufTy).Contents (Elt F) → (⟨S1x6x7, .f32⟩ : BufTy).Contents (Elt F)),
    reshape main_v207 main_v208 rfl shapeCasts_S1x6x7_S6x7,
    unary main_v208 main_v209 ((transpose S7x6 [1, 0] · transposes_S6x7_S7x6_1_0) : (⟨S6x7, .f32⟩ : BufTy).Contents (Elt F) → (⟨S7x6, .f32⟩ : BufTy).Contents (Elt F)),
    binary main_v206 main_v209 main_v210 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v211 ((extractStridedSlice S1x6 ![8, 0] · slices_S24x6_S1x6_8_0) : (⟨S24x6, .f32⟩ : BufTy).Contents (Elt F) → (⟨S1x6, .f32⟩ : BufTy).Contents (Elt F)),
    reshape main_v211 main_v212 rfl shapeCasts_S1x6_S6,
    unary main_v212 main_v213 (broadcastInDim S1x6 ![1] bcast_S6_S1x6_1 : (⟨S6, .f32⟩ : BufTy).Contents (Elt F) → (⟨S1x6, .f32⟩ : BufTy).Contents (Elt F)),
    unary main_v213 main_v214 (broadcastInDim S500000x6 ![0, 1] bcast_S1x6_S500000x6_0_1 : (⟨S1x6, .f32⟩ : BufTy).Contents (Elt F) → (⟨S500000x6, .f32⟩ : BufTy).Contents (Elt F)),
    binary main_v210 main_v214 main_v215 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S500000x6, .f32⟩) main_call17_v0) (broadcastInDim S500000x6 ![] bcast_S_S500000x6),
    TRef.binary (TRef.of (T := ⟨S500000x6, .f32⟩) main_v215) (TRef.of (T := ⟨S500000x6, .f32⟩) main_call17_v0) (TRef.of (T := ⟨S500000x6, .f32⟩) main_v216) maximumf ]

/-- Joint 9. -/
def J9 : List (HloOp τ sig (Elt F)) :=
  [ unary main_arg0 main_v217 ((extractStridedSlice S500000x1 ![0, 9] · slices_S500000x24_S500000x1_0_9) : (⟨S500000x24, .f32⟩ : BufTy).Contents (Elt F) → (⟨S500000x1, .f32⟩ : BufTy).Contents (Elt F)),
    reshape main_v217 main_v218 rfl shapeCasts_S500000x1_S500000,
    unary main_v218 main_v219 (broadcastInDim S500000x1 ![0] bcast_S500000_S500000x1_0 : (⟨S500000, .f32⟩ : BufTy).Contents (Elt F) → (⟨S500000x1, .f32⟩ : BufTy).Contents (Elt F)),
    binary main_v219 main_v168 main_v220 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v221 ((extractStridedSlice S1x7x7 ![9, 0, 0] · slices_S24x7x7_S1x7x7_9_0_0) : (⟨S24x7x7, .f32⟩ : BufTy).Contents (Elt F) → (⟨S1x7x7, .f32⟩ : BufTy).Contents (Elt F)),
    reshape main_v221 main_v222 rfl shapeCasts_S1x7x7_S7x7,
    unary main_v222 main_v223 ((transpose S7x7 [1, 0] · transposes_S7x7_S7x7_1_0) : (⟨S7x7, .f32⟩ : BufTy).Contents (Elt F) → (⟨S7x7, .f32⟩ : BufTy).Contents (Elt F)),
    binary main_v220 main_v223 main_v224 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v225 ((extractStridedSlice S1x7 ![9, 0] · slices_S24x7_S1x7_9_0) : (⟨S24x7, .f32⟩ : BufTy).Contents (Elt F) → (⟨S1x7, .f32⟩ : BufTy).Contents (Elt F)),
    reshape main_v225 main_v226 rfl shapeCasts_S1x7_S7,
    unary main_v226 main_v227 (broadcastInDim S1x7 ![1] bcast_S7_S1x7_1 : (⟨S7, .f32⟩ : BufTy).Contents (Elt F) → (⟨S1x7, .f32⟩ : BufTy).Contents (Elt F)),
    unary main_v227 main_v228 (broadcastInDim S500000x7 ![0, 1] bcast_S1x7_S500000x7_0_1 : (⟨S1x7, .f32⟩ : BufTy).Contents (Elt F) → (⟨S500000x7, .f32⟩ : BufTy).Contents (Elt F)),
    binary main_v224 main_v228 main_v229 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S500000x7, .f32⟩) main_call18_v0) (broadcastInDim S500000x7 ![] bcast_S_S500000x7),
    TRef.binary (TRef.of (T := ⟨S500000x7, .f32⟩) main_v229) (TRef.of (T := ⟨S500000x7, .f32⟩) main_call18_v0) (TRef.of (T := ⟨S500000x7, .f32⟩) main_v230) maximumf,
    unary main_arg3 main_v231 ((extractStridedSlice S1x6x7 ![9, 0, 0] · slices_S24x6x7_S1x6x7_9_0_0) : (⟨S24x6x7, .f32⟩ : BufTy).Contents (Elt F) → (⟨S1x6x7, .f32⟩ : BufTy).Contents (Elt F)),
    reshape main_v231 main_v232 rfl shapeCasts_S1x6x7_S6x7,
    unary main_v232 main_v233 ((transpose S7x6 [1, 0] · transposes_S6x7_S7x6_1_0) : (⟨S6x7, .f32⟩ : BufTy).Contents (Elt F) → (⟨S7x6, .f32⟩ : BufTy).Contents (Elt F)),
    binary main_v230 main_v233 main_v234 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v235 ((extractStridedSlice S1x6 ![9, 0] · slices_S24x6_S1x6_9_0) : (⟨S24x6, .f32⟩ : BufTy).Contents (Elt F) → (⟨S1x6, .f32⟩ : BufTy).Contents (Elt F)),
    reshape main_v235 main_v236 rfl shapeCasts_S1x6_S6,
    unary main_v236 main_v237 (broadcastInDim S1x6 ![1] bcast_S6_S1x6_1 : (⟨S6, .f32⟩ : BufTy).Contents (Elt F) → (⟨S1x6, .f32⟩ : BufTy).Contents (Elt F)),
    unary main_v237 main_v238 (broadcastInDim S500000x6 ![0, 1] bcast_S1x6_S500000x6_0_1 : (⟨S1x6, .f32⟩ : BufTy).Contents (Elt F) → (⟨S500000x6, .f32⟩ : BufTy).Contents (Elt F)),
    binary main_v234 main_v238 main_v239 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S500000x6, .f32⟩) main_call19_v0) (broadcastInDim S500000x6 ![] bcast_S_S500000x6),
    TRef.binary (TRef.of (T := ⟨S500000x6, .f32⟩) main_v239) (TRef.of (T := ⟨S500000x6, .f32⟩) main_call19_v0) (TRef.of (T := ⟨S500000x6, .f32⟩) main_v240) maximumf ]

/-- Joint 10. -/
def J10 : List (HloOp τ sig (Elt F)) :=
  [ unary main_arg0 main_v241 ((extractStridedSlice S500000x1 ![0, 10] · slices_S500000x24_S500000x1_0_10) : (⟨S500000x24, .f32⟩ : BufTy).Contents (Elt F) → (⟨S500000x1, .f32⟩ : BufTy).Contents (Elt F)),
    reshape main_v241 main_v242 rfl shapeCasts_S500000x1_S500000,
    unary main_v242 main_v243 (broadcastInDim S500000x1 ![0] bcast_S500000_S500000x1_0 : (⟨S500000, .f32⟩ : BufTy).Contents (Elt F) → (⟨S500000x1, .f32⟩ : BufTy).Contents (Elt F)),
    binary main_v243 main_v192 main_v244 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v245 ((extractStridedSlice S1x7x7 ![10, 0, 0] · slices_S24x7x7_S1x7x7_10_0_0) : (⟨S24x7x7, .f32⟩ : BufTy).Contents (Elt F) → (⟨S1x7x7, .f32⟩ : BufTy).Contents (Elt F)),
    reshape main_v245 main_v246 rfl shapeCasts_S1x7x7_S7x7,
    unary main_v246 main_v247 ((transpose S7x7 [1, 0] · transposes_S7x7_S7x7_1_0) : (⟨S7x7, .f32⟩ : BufTy).Contents (Elt F) → (⟨S7x7, .f32⟩ : BufTy).Contents (Elt F)),
    binary main_v244 main_v247 main_v248 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v249 ((extractStridedSlice S1x7 ![10, 0] · slices_S24x7_S1x7_10_0) : (⟨S24x7, .f32⟩ : BufTy).Contents (Elt F) → (⟨S1x7, .f32⟩ : BufTy).Contents (Elt F)),
    reshape main_v249 main_v250 rfl shapeCasts_S1x7_S7,
    unary main_v250 main_v251 (broadcastInDim S1x7 ![1] bcast_S7_S1x7_1 : (⟨S7, .f32⟩ : BufTy).Contents (Elt F) → (⟨S1x7, .f32⟩ : BufTy).Contents (Elt F)),
    unary main_v251 main_v252 (broadcastInDim S500000x7 ![0, 1] bcast_S1x7_S500000x7_0_1 : (⟨S1x7, .f32⟩ : BufTy).Contents (Elt F) → (⟨S500000x7, .f32⟩ : BufTy).Contents (Elt F)),
    binary main_v248 main_v252 main_v253 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S500000x7, .f32⟩) main_call20_v0) (broadcastInDim S500000x7 ![] bcast_S_S500000x7),
    TRef.binary (TRef.of (T := ⟨S500000x7, .f32⟩) main_v253) (TRef.of (T := ⟨S500000x7, .f32⟩) main_call20_v0) (TRef.of (T := ⟨S500000x7, .f32⟩) main_v254) maximumf,
    unary main_arg3 main_v255 ((extractStridedSlice S1x6x7 ![10, 0, 0] · slices_S24x6x7_S1x6x7_10_0_0) : (⟨S24x6x7, .f32⟩ : BufTy).Contents (Elt F) → (⟨S1x6x7, .f32⟩ : BufTy).Contents (Elt F)),
    reshape main_v255 main_v256 rfl shapeCasts_S1x6x7_S6x7,
    unary main_v256 main_v257 ((transpose S7x6 [1, 0] · transposes_S6x7_S7x6_1_0) : (⟨S6x7, .f32⟩ : BufTy).Contents (Elt F) → (⟨S7x6, .f32⟩ : BufTy).Contents (Elt F)),
    binary main_v254 main_v257 main_v258 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v259 ((extractStridedSlice S1x6 ![10, 0] · slices_S24x6_S1x6_10_0) : (⟨S24x6, .f32⟩ : BufTy).Contents (Elt F) → (⟨S1x6, .f32⟩ : BufTy).Contents (Elt F)),
    reshape main_v259 main_v260 rfl shapeCasts_S1x6_S6,
    unary main_v260 main_v261 (broadcastInDim S1x6 ![1] bcast_S6_S1x6_1 : (⟨S6, .f32⟩ : BufTy).Contents (Elt F) → (⟨S1x6, .f32⟩ : BufTy).Contents (Elt F)),
    unary main_v261 main_v262 (broadcastInDim S500000x6 ![0, 1] bcast_S1x6_S500000x6_0_1 : (⟨S1x6, .f32⟩ : BufTy).Contents (Elt F) → (⟨S500000x6, .f32⟩ : BufTy).Contents (Elt F)),
    binary main_v258 main_v262 main_v263 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S500000x6, .f32⟩) main_call21_v0) (broadcastInDim S500000x6 ![] bcast_S_S500000x6),
    TRef.binary (TRef.of (T := ⟨S500000x6, .f32⟩) main_v263) (TRef.of (T := ⟨S500000x6, .f32⟩) main_call21_v0) (TRef.of (T := ⟨S500000x6, .f32⟩) main_v264) maximumf ]

/-- Joint 11. -/
def J11 : List (HloOp τ sig (Elt F)) :=
  [ unary main_arg0 main_v265 ((extractStridedSlice S500000x1 ![0, 11] · slices_S500000x24_S500000x1_0_11) : (⟨S500000x24, .f32⟩ : BufTy).Contents (Elt F) → (⟨S500000x1, .f32⟩ : BufTy).Contents (Elt F)),
    reshape main_v265 main_v266 rfl shapeCasts_S500000x1_S500000,
    unary main_v266 main_v267 (broadcastInDim S500000x1 ![0] bcast_S500000_S500000x1_0 : (⟨S500000, .f32⟩ : BufTy).Contents (Elt F) → (⟨S500000x1, .f32⟩ : BufTy).Contents (Elt F)),
    binary main_v267 main_v216 main_v268 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v269 ((extractStridedSlice S1x7x7 ![11, 0, 0] · slices_S24x7x7_S1x7x7_11_0_0) : (⟨S24x7x7, .f32⟩ : BufTy).Contents (Elt F) → (⟨S1x7x7, .f32⟩ : BufTy).Contents (Elt F)),
    reshape main_v269 main_v270 rfl shapeCasts_S1x7x7_S7x7,
    unary main_v270 main_v271 ((transpose S7x7 [1, 0] · transposes_S7x7_S7x7_1_0) : (⟨S7x7, .f32⟩ : BufTy).Contents (Elt F) → (⟨S7x7, .f32⟩ : BufTy).Contents (Elt F)),
    binary main_v268 main_v271 main_v272 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v273 ((extractStridedSlice S1x7 ![11, 0] · slices_S24x7_S1x7_11_0) : (⟨S24x7, .f32⟩ : BufTy).Contents (Elt F) → (⟨S1x7, .f32⟩ : BufTy).Contents (Elt F)),
    reshape main_v273 main_v274 rfl shapeCasts_S1x7_S7,
    unary main_v274 main_v275 (broadcastInDim S1x7 ![1] bcast_S7_S1x7_1 : (⟨S7, .f32⟩ : BufTy).Contents (Elt F) → (⟨S1x7, .f32⟩ : BufTy).Contents (Elt F)),
    unary main_v275 main_v276 (broadcastInDim S500000x7 ![0, 1] bcast_S1x7_S500000x7_0_1 : (⟨S1x7, .f32⟩ : BufTy).Contents (Elt F) → (⟨S500000x7, .f32⟩ : BufTy).Contents (Elt F)),
    binary main_v272 main_v276 main_v277 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call22_cst) (constant S_ .f32 0x00000000#32),
    TRef.unary (TRef.of (T := ⟨S_, .f32⟩) main_call22_cst) (TRef.of (T := ⟨S500000x7, .f32⟩) main_call22_v0) (broadcastInDim S500000x7 ![] bcast_S_S500000x7),
    TRef.binary (TRef.of (T := ⟨S500000x7, .f32⟩) main_v277) (TRef.of (T := ⟨S500000x7, .f32⟩) main_call22_v0) (TRef.of (T := ⟨S500000x7, .f32⟩) main_v278) maximumf,
    unary main_arg3 main_v279 ((extractStridedSlice S1x6x7 ![11, 0, 0] · slices_S24x6x7_S1x6x7_11_0_0) : (⟨S24x6x7, .f32⟩ : BufTy).Contents (Elt F) → (⟨S1x6x7, .f32⟩ : BufTy).Contents (Elt F)),
    reshape main_v279 main_v280 rfl shapeCasts_S1x6x7_S6x7,
    unary main_v280 main_v281 ((transpose S7x6 [1, 0] · transposes_S6x7_S7x6_1_0) : (⟨S6x7, .f32⟩ : BufTy).Contents (Elt F) → (⟨S7x6, .f32⟩ : BufTy).Contents (Elt F)),
    binary main_v278 main_v281 main_v282 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v283 ((extractStridedSlice S1x6 ![11, 0] · slices_S24x6_S1x6_11_0) : (⟨S24x6, .f32⟩ : BufTy).Contents (Elt F) → (⟨S1x6, .f32⟩ : BufTy).Contents (Elt F)),
    reshape main_v283 main_v284 rfl shapeCasts_S1x6_S6,
    unary main_v284 main_v285 (broadcastInDim S1x6 ![1] bcast_S6_S1x6_1 : (⟨S6, .f32⟩ : BufTy).Contents (Elt F) → (⟨S1x6, .f32⟩ : BufTy).Contents (Elt F)),
    unary main_v285 main_v286 (broadcastInDim S500000x6 ![0, 1] bcast_S1x6_S500000x6_0_1 : (⟨S1x6, .f32⟩ : BufTy).Contents (Elt F) → (⟨S500000x6, .f32⟩ : BufTy).Contents (Elt F)),
    binary main_v282 main_v286 main_v287 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call23_cst) (constant S_ .f32 0x00000000#32),
    TRef.unary (TRef.of (T := ⟨S_, .f32⟩) main_call23_cst) (TRef.of (T := ⟨S500000x6, .f32⟩) main_call23_v0) (broadcastInDim S500000x6 ![] bcast_S_S500000x6),
    TRef.binary (TRef.of (T := ⟨S500000x6, .f32⟩) main_v287) (TRef.of (T := ⟨S500000x6, .f32⟩) main_call23_v0) (TRef.of (T := ⟨S500000x6, .f32⟩) main_v288) maximumf ]

/-- Joint 12. -/
def J12 : List (HloOp τ sig (Elt F)) :=
  [ unary main_arg0 main_v289 ((extractStridedSlice S500000x1 ![0, 12] · slices_S500000x24_S500000x1_0_12) : (⟨S500000x24, .f32⟩ : BufTy).Contents (Elt F) → (⟨S500000x1, .f32⟩ : BufTy).Contents (Elt F)),
    reshape main_v289 main_v290 rfl shapeCasts_S500000x1_S500000,
    unary main_v290 main_v291 (broadcastInDim S500000x1 ![0] bcast_S500000_S500000x1_0 : (⟨S500000, .f32⟩ : BufTy).Contents (Elt F) → (⟨S500000x1, .f32⟩ : BufTy).Contents (Elt F)),
    binary main_v291 main_v240 main_v292 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v293 ((extractStridedSlice S1x7x7 ![12, 0, 0] · slices_S24x7x7_S1x7x7_12_0_0) : (⟨S24x7x7, .f32⟩ : BufTy).Contents (Elt F) → (⟨S1x7x7, .f32⟩ : BufTy).Contents (Elt F)),
    reshape main_v293 main_v294 rfl shapeCasts_S1x7x7_S7x7,
    unary main_v294 main_v295 ((transpose S7x7 [1, 0] · transposes_S7x7_S7x7_1_0) : (⟨S7x7, .f32⟩ : BufTy).Contents (Elt F) → (⟨S7x7, .f32⟩ : BufTy).Contents (Elt F)),
    binary main_v292 main_v295 main_v296 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v297 ((extractStridedSlice S1x7 ![12, 0] · slices_S24x7_S1x7_12_0) : (⟨S24x7, .f32⟩ : BufTy).Contents (Elt F) → (⟨S1x7, .f32⟩ : BufTy).Contents (Elt F)),
    reshape main_v297 main_v298 rfl shapeCasts_S1x7_S7,
    unary main_v298 main_v299 (broadcastInDim S1x7 ![1] bcast_S7_S1x7_1 : (⟨S7, .f32⟩ : BufTy).Contents (Elt F) → (⟨S1x7, .f32⟩ : BufTy).Contents (Elt F)),
    unary main_v299 main_v300 (broadcastInDim S500000x7 ![0, 1] bcast_S1x7_S500000x7_0_1 : (⟨S1x7, .f32⟩ : BufTy).Contents (Elt F) → (⟨S500000x7, .f32⟩ : BufTy).Contents (Elt F)),
    binary main_v296 main_v300 main_v301 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call24_cst) (constant S_ .f32 0x00000000#32),
    TRef.unary (TRef.of (T := ⟨S_, .f32⟩) main_call24_cst) (TRef.of (T := ⟨S500000x7, .f32⟩) main_call24_v0) (broadcastInDim S500000x7 ![] bcast_S_S500000x7),
    TRef.binary (TRef.of (T := ⟨S500000x7, .f32⟩) main_v301) (TRef.of (T := ⟨S500000x7, .f32⟩) main_call24_v0) (TRef.of (T := ⟨S500000x7, .f32⟩) main_v302) maximumf,
    unary main_arg3 main_v303 ((extractStridedSlice S1x6x7 ![12, 0, 0] · slices_S24x6x7_S1x6x7_12_0_0) : (⟨S24x6x7, .f32⟩ : BufTy).Contents (Elt F) → (⟨S1x6x7, .f32⟩ : BufTy).Contents (Elt F)),
    reshape main_v303 main_v304 rfl shapeCasts_S1x6x7_S6x7,
    unary main_v304 main_v305 ((transpose S7x6 [1, 0] · transposes_S6x7_S7x6_1_0) : (⟨S6x7, .f32⟩ : BufTy).Contents (Elt F) → (⟨S7x6, .f32⟩ : BufTy).Contents (Elt F)),
    binary main_v302 main_v305 main_v306 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v307 ((extractStridedSlice S1x6 ![12, 0] · slices_S24x6_S1x6_12_0) : (⟨S24x6, .f32⟩ : BufTy).Contents (Elt F) → (⟨S1x6, .f32⟩ : BufTy).Contents (Elt F)),
    reshape main_v307 main_v308 rfl shapeCasts_S1x6_S6,
    unary main_v308 main_v309 (broadcastInDim S1x6 ![1] bcast_S6_S1x6_1 : (⟨S6, .f32⟩ : BufTy).Contents (Elt F) → (⟨S1x6, .f32⟩ : BufTy).Contents (Elt F)),
    unary main_v309 main_v310 (broadcastInDim S500000x6 ![0, 1] bcast_S1x6_S500000x6_0_1 : (⟨S1x6, .f32⟩ : BufTy).Contents (Elt F) → (⟨S500000x6, .f32⟩ : BufTy).Contents (Elt F)),
    binary main_v306 main_v310 main_v311 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call25_cst) (constant S_ .f32 0x00000000#32),
    TRef.unary (TRef.of (T := ⟨S_, .f32⟩) main_call25_cst) (TRef.of (T := ⟨S500000x6, .f32⟩) main_call25_v0) (broadcastInDim S500000x6 ![] bcast_S_S500000x6),
    TRef.binary (TRef.of (T := ⟨S500000x6, .f32⟩) main_v311) (TRef.of (T := ⟨S500000x6, .f32⟩) main_call25_v0) (TRef.of (T := ⟨S500000x6, .f32⟩) main_v312) maximumf ]

/-- Joint 13. -/
def J13 : List (HloOp τ sig (Elt F)) :=
  [ unary main_arg0 main_v313 ((extractStridedSlice S500000x1 ![0, 13] · slices_S500000x24_S500000x1_0_13) : (⟨S500000x24, .f32⟩ : BufTy).Contents (Elt F) → (⟨S500000x1, .f32⟩ : BufTy).Contents (Elt F)),
    reshape main_v313 main_v314 rfl shapeCasts_S500000x1_S500000,
    unary main_v314 main_v315 (broadcastInDim S500000x1 ![0] bcast_S500000_S500000x1_0 : (⟨S500000, .f32⟩ : BufTy).Contents (Elt F) → (⟨S500000x1, .f32⟩ : BufTy).Contents (Elt F)),
    binary main_v315 main_v240 main_v316 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v317 ((extractStridedSlice S1x7x7 ![13, 0, 0] · slices_S24x7x7_S1x7x7_13_0_0) : (⟨S24x7x7, .f32⟩ : BufTy).Contents (Elt F) → (⟨S1x7x7, .f32⟩ : BufTy).Contents (Elt F)),
    reshape main_v317 main_v318 rfl shapeCasts_S1x7x7_S7x7,
    unary main_v318 main_v319 ((transpose S7x7 [1, 0] · transposes_S7x7_S7x7_1_0) : (⟨S7x7, .f32⟩ : BufTy).Contents (Elt F) → (⟨S7x7, .f32⟩ : BufTy).Contents (Elt F)),
    binary main_v316 main_v319 main_v320 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v321 ((extractStridedSlice S1x7 ![13, 0] · slices_S24x7_S1x7_13_0) : (⟨S24x7, .f32⟩ : BufTy).Contents (Elt F) → (⟨S1x7, .f32⟩ : BufTy).Contents (Elt F)),
    reshape main_v321 main_v322 rfl shapeCasts_S1x7_S7,
    unary main_v322 main_v323 (broadcastInDim S1x7 ![1] bcast_S7_S1x7_1 : (⟨S7, .f32⟩ : BufTy).Contents (Elt F) → (⟨S1x7, .f32⟩ : BufTy).Contents (Elt F)),
    unary main_v323 main_v324 (broadcastInDim S500000x7 ![0, 1] bcast_S1x7_S500000x7_0_1 : (⟨S1x7, .f32⟩ : BufTy).Contents (Elt F) → (⟨S500000x7, .f32⟩ : BufTy).Contents (Elt F)),
    binary main_v320 main_v324 main_v325 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call26_cst) (constant S_ .f32 0x00000000#32),
    TRef.unary (TRef.of (T := ⟨S_, .f32⟩) main_call26_cst) (TRef.of (T := ⟨S500000x7, .f32⟩) main_call26_v0) (broadcastInDim S500000x7 ![] bcast_S_S500000x7),
    TRef.binary (TRef.of (T := ⟨S500000x7, .f32⟩) main_v325) (TRef.of (T := ⟨S500000x7, .f32⟩) main_call26_v0) (TRef.of (T := ⟨S500000x7, .f32⟩) main_v326) maximumf,
    unary main_arg3 main_v327 ((extractStridedSlice S1x6x7 ![13, 0, 0] · slices_S24x6x7_S1x6x7_13_0_0) : (⟨S24x6x7, .f32⟩ : BufTy).Contents (Elt F) → (⟨S1x6x7, .f32⟩ : BufTy).Contents (Elt F)),
    reshape main_v327 main_v328 rfl shapeCasts_S1x6x7_S6x7,
    unary main_v328 main_v329 ((transpose S7x6 [1, 0] · transposes_S6x7_S7x6_1_0) : (⟨S6x7, .f32⟩ : BufTy).Contents (Elt F) → (⟨S7x6, .f32⟩ : BufTy).Contents (Elt F)),
    binary main_v326 main_v329 main_v330 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v331 ((extractStridedSlice S1x6 ![13, 0] · slices_S24x6_S1x6_13_0) : (⟨S24x6, .f32⟩ : BufTy).Contents (Elt F) → (⟨S1x6, .f32⟩ : BufTy).Contents (Elt F)),
    reshape main_v331 main_v332 rfl shapeCasts_S1x6_S6,
    unary main_v332 main_v333 (broadcastInDim S1x6 ![1] bcast_S6_S1x6_1 : (⟨S6, .f32⟩ : BufTy).Contents (Elt F) → (⟨S1x6, .f32⟩ : BufTy).Contents (Elt F)),
    unary main_v333 main_v334 (broadcastInDim S500000x6 ![0, 1] bcast_S1x6_S500000x6_0_1 : (⟨S1x6, .f32⟩ : BufTy).Contents (Elt F) → (⟨S500000x6, .f32⟩ : BufTy).Contents (Elt F)),
    binary main_v330 main_v334 main_v335 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call27_cst) (constant S_ .f32 0x00000000#32),
    TRef.unary (TRef.of (T := ⟨S_, .f32⟩) main_call27_cst) (TRef.of (T := ⟨S500000x6, .f32⟩) main_call27_v0) (broadcastInDim S500000x6 ![] bcast_S_S500000x6),
    TRef.binary (TRef.of (T := ⟨S500000x6, .f32⟩) main_v335) (TRef.of (T := ⟨S500000x6, .f32⟩) main_call27_v0) (TRef.of (T := ⟨S500000x6, .f32⟩) main_v336) maximumf ]

/-- Joint 14. -/
def J14 : List (HloOp τ sig (Elt F)) :=
  [ unary main_arg0 main_v337 ((extractStridedSlice S500000x1 ![0, 14] · slices_S500000x24_S500000x1_0_14) : (⟨S500000x24, .f32⟩ : BufTy).Contents (Elt F) → (⟨S500000x1, .f32⟩ : BufTy).Contents (Elt F)),
    reshape main_v337 main_v338 rfl shapeCasts_S500000x1_S500000,
    unary main_v338 main_v339 (broadcastInDim S500000x1 ![0] bcast_S500000_S500000x1_0 : (⟨S500000, .f32⟩ : BufTy).Contents (Elt F) → (⟨S500000x1, .f32⟩ : BufTy).Contents (Elt F)),
    binary main_v339 main_v240 main_v340 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v341 ((extractStridedSlice S1x7x7 ![14, 0, 0] · slices_S24x7x7_S1x7x7_14_0_0) : (⟨S24x7x7, .f32⟩ : BufTy).Contents (Elt F) → (⟨S1x7x7, .f32⟩ : BufTy).Contents (Elt F)),
    reshape main_v341 main_v342 rfl shapeCasts_S1x7x7_S7x7,
    unary main_v342 main_v343 ((transpose S7x7 [1, 0] · transposes_S7x7_S7x7_1_0) : (⟨S7x7, .f32⟩ : BufTy).Contents (Elt F) → (⟨S7x7, .f32⟩ : BufTy).Contents (Elt F)),
    binary main_v340 main_v343 main_v344 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v345 ((extractStridedSlice S1x7 ![14, 0] · slices_S24x7_S1x7_14_0) : (⟨S24x7, .f32⟩ : BufTy).Contents (Elt F) → (⟨S1x7, .f32⟩ : BufTy).Contents (Elt F)),
    reshape main_v345 main_v346 rfl shapeCasts_S1x7_S7,
    unary main_v346 main_v347 (broadcastInDim S1x7 ![1] bcast_S7_S1x7_1 : (⟨S7, .f32⟩ : BufTy).Contents (Elt F) → (⟨S1x7, .f32⟩ : BufTy).Contents (Elt F)),
    unary main_v347 main_v348 (broadcastInDim S500000x7 ![0, 1] bcast_S1x7_S500000x7_0_1 : (⟨S1x7, .f32⟩ : BufTy).Contents (Elt F) → (⟨S500000x7, .f32⟩ : BufTy).Contents (Elt F)),
    binary main_v344 main_v348 main_v349 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call28_cst) (constant S_ .f32 0x00000000#32),
    TRef.unary (TRef.of (T := ⟨S_, .f32⟩) main_call28_cst) (TRef.of (T := ⟨S500000x7, .f32⟩) main_call28_v0) (broadcastInDim S500000x7 ![] bcast_S_S500000x7),
    TRef.binary (TRef.of (T := ⟨S500000x7, .f32⟩) main_v349) (TRef.of (T := ⟨S500000x7, .f32⟩) main_call28_v0) (TRef.of (T := ⟨S500000x7, .f32⟩) main_v350) maximumf,
    unary main_arg3 main_v351 ((extractStridedSlice S1x6x7 ![14, 0, 0] · slices_S24x6x7_S1x6x7_14_0_0) : (⟨S24x6x7, .f32⟩ : BufTy).Contents (Elt F) → (⟨S1x6x7, .f32⟩ : BufTy).Contents (Elt F)),
    reshape main_v351 main_v352 rfl shapeCasts_S1x6x7_S6x7,
    unary main_v352 main_v353 ((transpose S7x6 [1, 0] · transposes_S6x7_S7x6_1_0) : (⟨S6x7, .f32⟩ : BufTy).Contents (Elt F) → (⟨S7x6, .f32⟩ : BufTy).Contents (Elt F)),
    binary main_v350 main_v353 main_v354 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v355 ((extractStridedSlice S1x6 ![14, 0] · slices_S24x6_S1x6_14_0) : (⟨S24x6, .f32⟩ : BufTy).Contents (Elt F) → (⟨S1x6, .f32⟩ : BufTy).Contents (Elt F)),
    reshape main_v355 main_v356 rfl shapeCasts_S1x6_S6,
    unary main_v356 main_v357 (broadcastInDim S1x6 ![1] bcast_S6_S1x6_1 : (⟨S6, .f32⟩ : BufTy).Contents (Elt F) → (⟨S1x6, .f32⟩ : BufTy).Contents (Elt F)),
    unary main_v357 main_v358 (broadcastInDim S500000x6 ![0, 1] bcast_S1x6_S500000x6_0_1 : (⟨S1x6, .f32⟩ : BufTy).Contents (Elt F) → (⟨S500000x6, .f32⟩ : BufTy).Contents (Elt F)),
    binary main_v354 main_v358 main_v359 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call29_cst) (constant S_ .f32 0x00000000#32),
    TRef.unary (TRef.of (T := ⟨S_, .f32⟩) main_call29_cst) (TRef.of (T := ⟨S500000x6, .f32⟩) main_call29_v0) (broadcastInDim S500000x6 ![] bcast_S_S500000x6),
    TRef.binary (TRef.of (T := ⟨S500000x6, .f32⟩) main_v359) (TRef.of (T := ⟨S500000x6, .f32⟩) main_call29_v0) (TRef.of (T := ⟨S500000x6, .f32⟩) main_v360) maximumf ]

/-- Joint 15. -/
def J15 : List (HloOp τ sig (Elt F)) :=
  [ unary main_arg0 main_v361 ((extractStridedSlice S500000x1 ![0, 15] · slices_S500000x24_S500000x1_0_15) : (⟨S500000x24, .f32⟩ : BufTy).Contents (Elt F) → (⟨S500000x1, .f32⟩ : BufTy).Contents (Elt F)),
    reshape main_v361 main_v362 rfl shapeCasts_S500000x1_S500000,
    unary main_v362 main_v363 (broadcastInDim S500000x1 ![0] bcast_S500000_S500000x1_0 : (⟨S500000, .f32⟩ : BufTy).Contents (Elt F) → (⟨S500000x1, .f32⟩ : BufTy).Contents (Elt F)),
    binary main_v363 main_v312 main_v364 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v365 ((extractStridedSlice S1x7x7 ![15, 0, 0] · slices_S24x7x7_S1x7x7_15_0_0) : (⟨S24x7x7, .f32⟩ : BufTy).Contents (Elt F) → (⟨S1x7x7, .f32⟩ : BufTy).Contents (Elt F)),
    reshape main_v365 main_v366 rfl shapeCasts_S1x7x7_S7x7,
    unary main_v366 main_v367 ((transpose S7x7 [1, 0] · transposes_S7x7_S7x7_1_0) : (⟨S7x7, .f32⟩ : BufTy).Contents (Elt F) → (⟨S7x7, .f32⟩ : BufTy).Contents (Elt F)),
    binary main_v364 main_v367 main_v368 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v369 ((extractStridedSlice S1x7 ![15, 0] · slices_S24x7_S1x7_15_0) : (⟨S24x7, .f32⟩ : BufTy).Contents (Elt F) → (⟨S1x7, .f32⟩ : BufTy).Contents (Elt F)),
    reshape main_v369 main_v370 rfl shapeCasts_S1x7_S7,
    unary main_v370 main_v371 (broadcastInDim S1x7 ![1] bcast_S7_S1x7_1 : (⟨S7, .f32⟩ : BufTy).Contents (Elt F) → (⟨S1x7, .f32⟩ : BufTy).Contents (Elt F)),
    unary main_v371 main_v372 (broadcastInDim S500000x7 ![0, 1] bcast_S1x7_S500000x7_0_1 : (⟨S1x7, .f32⟩ : BufTy).Contents (Elt F) → (⟨S500000x7, .f32⟩ : BufTy).Contents (Elt F)),
    binary main_v368 main_v372 main_v373 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call30_cst) (constant S_ .f32 0x00000000#32),
    TRef.unary (TRef.of (T := ⟨S_, .f32⟩) main_call30_cst) (TRef.of (T := ⟨S500000x7, .f32⟩) main_call30_v0) (broadcastInDim S500000x7 ![] bcast_S_S500000x7),
    TRef.binary (TRef.of (T := ⟨S500000x7, .f32⟩) main_v373) (TRef.of (T := ⟨S500000x7, .f32⟩) main_call30_v0) (TRef.of (T := ⟨S500000x7, .f32⟩) main_v374) maximumf,
    unary main_arg3 main_v375 ((extractStridedSlice S1x6x7 ![15, 0, 0] · slices_S24x6x7_S1x6x7_15_0_0) : (⟨S24x6x7, .f32⟩ : BufTy).Contents (Elt F) → (⟨S1x6x7, .f32⟩ : BufTy).Contents (Elt F)),
    reshape main_v375 main_v376 rfl shapeCasts_S1x6x7_S6x7,
    unary main_v376 main_v377 ((transpose S7x6 [1, 0] · transposes_S6x7_S7x6_1_0) : (⟨S6x7, .f32⟩ : BufTy).Contents (Elt F) → (⟨S7x6, .f32⟩ : BufTy).Contents (Elt F)),
    binary main_v374 main_v377 main_v378 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v379 ((extractStridedSlice S1x6 ![15, 0] · slices_S24x6_S1x6_15_0) : (⟨S24x6, .f32⟩ : BufTy).Contents (Elt F) → (⟨S1x6, .f32⟩ : BufTy).Contents (Elt F)),
    reshape main_v379 main_v380 rfl shapeCasts_S1x6_S6,
    unary main_v380 main_v381 (broadcastInDim S1x6 ![1] bcast_S6_S1x6_1 : (⟨S6, .f32⟩ : BufTy).Contents (Elt F) → (⟨S1x6, .f32⟩ : BufTy).Contents (Elt F)),
    unary main_v381 main_v382 (broadcastInDim S500000x6 ![0, 1] bcast_S1x6_S500000x6_0_1 : (⟨S1x6, .f32⟩ : BufTy).Contents (Elt F) → (⟨S500000x6, .f32⟩ : BufTy).Contents (Elt F)),
    binary main_v378 main_v382 main_v383 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call31_cst) (constant S_ .f32 0x00000000#32),
    TRef.unary (TRef.of (T := ⟨S_, .f32⟩) main_call31_cst) (TRef.of (T := ⟨S500000x6, .f32⟩) main_call31_v0) (broadcastInDim S500000x6 ![] bcast_S_S500000x6),
    TRef.binary (TRef.of (T := ⟨S500000x6, .f32⟩) main_v383) (TRef.of (T := ⟨S500000x6, .f32⟩) main_call31_v0) (TRef.of (T := ⟨S500000x6, .f32⟩) main_v384) maximumf ]

/-- Joint 16. -/
def J16 : List (HloOp τ sig (Elt F)) :=
  [ unary main_arg0 main_v385 ((extractStridedSlice S500000x1 ![0, 16] · slices_S500000x24_S500000x1_0_16) : (⟨S500000x24, .f32⟩ : BufTy).Contents (Elt F) → (⟨S500000x1, .f32⟩ : BufTy).Contents (Elt F)),
    reshape main_v385 main_v386 rfl shapeCasts_S500000x1_S500000,
    unary main_v386 main_v387 (broadcastInDim S500000x1 ![0] bcast_S500000_S500000x1_0 : (⟨S500000, .f32⟩ : BufTy).Contents (Elt F) → (⟨S500000x1, .f32⟩ : BufTy).Contents (Elt F)),
    binary main_v387 main_v336 main_v388 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v389 ((extractStridedSlice S1x7x7 ![16, 0, 0] · slices_S24x7x7_S1x7x7_16_0_0) : (⟨S24x7x7, .f32⟩ : BufTy).Contents (Elt F) → (⟨S1x7x7, .f32⟩ : BufTy).Contents (Elt F)),
    reshape main_v389 main_v390 rfl shapeCasts_S1x7x7_S7x7,
    unary main_v390 main_v391 ((transpose S7x7 [1, 0] · transposes_S7x7_S7x7_1_0) : (⟨S7x7, .f32⟩ : BufTy).Contents (Elt F) → (⟨S7x7, .f32⟩ : BufTy).Contents (Elt F)),
    binary main_v388 main_v391 main_v392 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v393 ((extractStridedSlice S1x7 ![16, 0] · slices_S24x7_S1x7_16_0) : (⟨S24x7, .f32⟩ : BufTy).Contents (Elt F) → (⟨S1x7, .f32⟩ : BufTy).Contents (Elt F)),
    reshape main_v393 main_v394 rfl shapeCasts_S1x7_S7,
    unary main_v394 main_v395 (broadcastInDim S1x7 ![1] bcast_S7_S1x7_1 : (⟨S7, .f32⟩ : BufTy).Contents (Elt F) → (⟨S1x7, .f32⟩ : BufTy).Contents (Elt F)),
    unary main_v395 main_v396 (broadcastInDim S500000x7 ![0, 1] bcast_S1x7_S500000x7_0_1 : (⟨S1x7, .f32⟩ : BufTy).Contents (Elt F) → (⟨S500000x7, .f32⟩ : BufTy).Contents (Elt F)),
    binary main_v392 main_v396 main_v397 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call32_cst) (constant S_ .f32 0x00000000#32),
    TRef.unary (TRef.of (T := ⟨S_, .f32⟩) main_call32_cst) (TRef.of (T := ⟨S500000x7, .f32⟩) main_call32_v0) (broadcastInDim S500000x7 ![] bcast_S_S500000x7),
    TRef.binary (TRef.of (T := ⟨S500000x7, .f32⟩) main_v397) (TRef.of (T := ⟨S500000x7, .f32⟩) main_call32_v0) (TRef.of (T := ⟨S500000x7, .f32⟩) main_v398) maximumf,
    unary main_arg3 main_v399 ((extractStridedSlice S1x6x7 ![16, 0, 0] · slices_S24x6x7_S1x6x7_16_0_0) : (⟨S24x6x7, .f32⟩ : BufTy).Contents (Elt F) → (⟨S1x6x7, .f32⟩ : BufTy).Contents (Elt F)),
    reshape main_v399 main_v400 rfl shapeCasts_S1x6x7_S6x7,
    unary main_v400 main_v401 ((transpose S7x6 [1, 0] · transposes_S6x7_S7x6_1_0) : (⟨S6x7, .f32⟩ : BufTy).Contents (Elt F) → (⟨S7x6, .f32⟩ : BufTy).Contents (Elt F)),
    binary main_v398 main_v401 main_v402 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v403 ((extractStridedSlice S1x6 ![16, 0] · slices_S24x6_S1x6_16_0) : (⟨S24x6, .f32⟩ : BufTy).Contents (Elt F) → (⟨S1x6, .f32⟩ : BufTy).Contents (Elt F)),
    reshape main_v403 main_v404 rfl shapeCasts_S1x6_S6,
    unary main_v404 main_v405 (broadcastInDim S1x6 ![1] bcast_S6_S1x6_1 : (⟨S6, .f32⟩ : BufTy).Contents (Elt F) → (⟨S1x6, .f32⟩ : BufTy).Contents (Elt F)),
    unary main_v405 main_v406 (broadcastInDim S500000x6 ![0, 1] bcast_S1x6_S500000x6_0_1 : (⟨S1x6, .f32⟩ : BufTy).Contents (Elt F) → (⟨S500000x6, .f32⟩ : BufTy).Contents (Elt F)),
    binary main_v402 main_v406 main_v407 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call33_cst) (constant S_ .f32 0x00000000#32),
    TRef.unary (TRef.of (T := ⟨S_, .f32⟩) main_call33_cst) (TRef.of (T := ⟨S500000x6, .f32⟩) main_call33_v0) (broadcastInDim S500000x6 ![] bcast_S_S500000x6),
    TRef.binary (TRef.of (T := ⟨S500000x6, .f32⟩) main_v407) (TRef.of (T := ⟨S500000x6, .f32⟩) main_call33_v0) (TRef.of (T := ⟨S500000x6, .f32⟩) main_v408) maximumf ]

/-- Joint 17. -/
def J17 : List (HloOp τ sig (Elt F)) :=
  [ unary main_arg0 main_v409 ((extractStridedSlice S500000x1 ![0, 17] · slices_S500000x24_S500000x1_0_17) : (⟨S500000x24, .f32⟩ : BufTy).Contents (Elt F) → (⟨S500000x1, .f32⟩ : BufTy).Contents (Elt F)),
    reshape main_v409 main_v410 rfl shapeCasts_S500000x1_S500000,
    unary main_v410 main_v411 (broadcastInDim S500000x1 ![0] bcast_S500000_S500000x1_0 : (⟨S500000, .f32⟩ : BufTy).Contents (Elt F) → (⟨S500000x1, .f32⟩ : BufTy).Contents (Elt F)),
    binary main_v411 main_v360 main_v412 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v413 ((extractStridedSlice S1x7x7 ![17, 0, 0] · slices_S24x7x7_S1x7x7_17_0_0) : (⟨S24x7x7, .f32⟩ : BufTy).Contents (Elt F) → (⟨S1x7x7, .f32⟩ : BufTy).Contents (Elt F)),
    reshape main_v413 main_v414 rfl shapeCasts_S1x7x7_S7x7,
    unary main_v414 main_v415 ((transpose S7x7 [1, 0] · transposes_S7x7_S7x7_1_0) : (⟨S7x7, .f32⟩ : BufTy).Contents (Elt F) → (⟨S7x7, .f32⟩ : BufTy).Contents (Elt F)),
    binary main_v412 main_v415 main_v416 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v417 ((extractStridedSlice S1x7 ![17, 0] · slices_S24x7_S1x7_17_0) : (⟨S24x7, .f32⟩ : BufTy).Contents (Elt F) → (⟨S1x7, .f32⟩ : BufTy).Contents (Elt F)),
    reshape main_v417 main_v418 rfl shapeCasts_S1x7_S7,
    unary main_v418 main_v419 (broadcastInDim S1x7 ![1] bcast_S7_S1x7_1 : (⟨S7, .f32⟩ : BufTy).Contents (Elt F) → (⟨S1x7, .f32⟩ : BufTy).Contents (Elt F)),
    unary main_v419 main_v420 (broadcastInDim S500000x7 ![0, 1] bcast_S1x7_S500000x7_0_1 : (⟨S1x7, .f32⟩ : BufTy).Contents (Elt F) → (⟨S500000x7, .f32⟩ : BufTy).Contents (Elt F)),
    binary main_v416 main_v420 main_v421 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call34_cst) (constant S_ .f32 0x00000000#32),
    TRef.unary (TRef.of (T := ⟨S_, .f32⟩) main_call34_cst) (TRef.of (T := ⟨S500000x7, .f32⟩) main_call34_v0) (broadcastInDim S500000x7 ![] bcast_S_S500000x7),
    TRef.binary (TRef.of (T := ⟨S500000x7, .f32⟩) main_v421) (TRef.of (T := ⟨S500000x7, .f32⟩) main_call34_v0) (TRef.of (T := ⟨S500000x7, .f32⟩) main_v422) maximumf,
    unary main_arg3 main_v423 ((extractStridedSlice S1x6x7 ![17, 0, 0] · slices_S24x6x7_S1x6x7_17_0_0) : (⟨S24x6x7, .f32⟩ : BufTy).Contents (Elt F) → (⟨S1x6x7, .f32⟩ : BufTy).Contents (Elt F)),
    reshape main_v423 main_v424 rfl shapeCasts_S1x6x7_S6x7,
    unary main_v424 main_v425 ((transpose S7x6 [1, 0] · transposes_S6x7_S7x6_1_0) : (⟨S6x7, .f32⟩ : BufTy).Contents (Elt F) → (⟨S7x6, .f32⟩ : BufTy).Contents (Elt F)),
    binary main_v422 main_v425 main_v426 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v427 ((extractStridedSlice S1x6 ![17, 0] · slices_S24x6_S1x6_17_0) : (⟨S24x6, .f32⟩ : BufTy).Contents (Elt F) → (⟨S1x6, .f32⟩ : BufTy).Contents (Elt F)),
    reshape main_v427 main_v428 rfl shapeCasts_S1x6_S6,
    unary main_v428 main_v429 (broadcastInDim S1x6 ![1] bcast_S6_S1x6_1 : (⟨S6, .f32⟩ : BufTy).Contents (Elt F) → (⟨S1x6, .f32⟩ : BufTy).Contents (Elt F)),
    unary main_v429 main_v430 (broadcastInDim S500000x6 ![0, 1] bcast_S1x6_S500000x6_0_1 : (⟨S1x6, .f32⟩ : BufTy).Contents (Elt F) → (⟨S500000x6, .f32⟩ : BufTy).Contents (Elt F)),
    binary main_v426 main_v430 main_v431 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call35_cst) (constant S_ .f32 0x00000000#32),
    TRef.unary (TRef.of (T := ⟨S_, .f32⟩) main_call35_cst) (TRef.of (T := ⟨S500000x6, .f32⟩) main_call35_v0) (broadcastInDim S500000x6 ![] bcast_S_S500000x6),
    TRef.binary (TRef.of (T := ⟨S500000x6, .f32⟩) main_v431) (TRef.of (T := ⟨S500000x6, .f32⟩) main_call35_v0) (TRef.of (T := ⟨S500000x6, .f32⟩) main_v432) maximumf ]

/-- Joint 18. -/
def J18 : List (HloOp τ sig (Elt F)) :=
  [ unary main_arg0 main_v433 ((extractStridedSlice S500000x1 ![0, 18] · slices_S500000x24_S500000x1_0_18) : (⟨S500000x24, .f32⟩ : BufTy).Contents (Elt F) → (⟨S500000x1, .f32⟩ : BufTy).Contents (Elt F)),
    reshape main_v433 main_v434 rfl shapeCasts_S500000x1_S500000,
    unary main_v434 main_v435 (broadcastInDim S500000x1 ![0] bcast_S500000_S500000x1_0 : (⟨S500000, .f32⟩ : BufTy).Contents (Elt F) → (⟨S500000x1, .f32⟩ : BufTy).Contents (Elt F)),
    binary main_v435 main_v408 main_v436 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v437 ((extractStridedSlice S1x7x7 ![18, 0, 0] · slices_S24x7x7_S1x7x7_18_0_0) : (⟨S24x7x7, .f32⟩ : BufTy).Contents (Elt F) → (⟨S1x7x7, .f32⟩ : BufTy).Contents (Elt F)),
    reshape main_v437 main_v438 rfl shapeCasts_S1x7x7_S7x7,
    unary main_v438 main_v439 ((transpose S7x7 [1, 0] · transposes_S7x7_S7x7_1_0) : (⟨S7x7, .f32⟩ : BufTy).Contents (Elt F) → (⟨S7x7, .f32⟩ : BufTy).Contents (Elt F)),
    binary main_v436 main_v439 main_v440 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v441 ((extractStridedSlice S1x7 ![18, 0] · slices_S24x7_S1x7_18_0) : (⟨S24x7, .f32⟩ : BufTy).Contents (Elt F) → (⟨S1x7, .f32⟩ : BufTy).Contents (Elt F)),
    reshape main_v441 main_v442 rfl shapeCasts_S1x7_S7,
    unary main_v442 main_v443 (broadcastInDim S1x7 ![1] bcast_S7_S1x7_1 : (⟨S7, .f32⟩ : BufTy).Contents (Elt F) → (⟨S1x7, .f32⟩ : BufTy).Contents (Elt F)),
    unary main_v443 main_v444 (broadcastInDim S500000x7 ![0, 1] bcast_S1x7_S500000x7_0_1 : (⟨S1x7, .f32⟩ : BufTy).Contents (Elt F) → (⟨S500000x7, .f32⟩ : BufTy).Contents (Elt F)),
    binary main_v440 main_v444 main_v445 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call36_cst) (constant S_ .f32 0x00000000#32),
    TRef.unary (TRef.of (T := ⟨S_, .f32⟩) main_call36_cst) (TRef.of (T := ⟨S500000x7, .f32⟩) main_call36_v0) (broadcastInDim S500000x7 ![] bcast_S_S500000x7),
    TRef.binary (TRef.of (T := ⟨S500000x7, .f32⟩) main_v445) (TRef.of (T := ⟨S500000x7, .f32⟩) main_call36_v0) (TRef.of (T := ⟨S500000x7, .f32⟩) main_v446) maximumf,
    unary main_arg3 main_v447 ((extractStridedSlice S1x6x7 ![18, 0, 0] · slices_S24x6x7_S1x6x7_18_0_0) : (⟨S24x6x7, .f32⟩ : BufTy).Contents (Elt F) → (⟨S1x6x7, .f32⟩ : BufTy).Contents (Elt F)),
    reshape main_v447 main_v448 rfl shapeCasts_S1x6x7_S6x7,
    unary main_v448 main_v449 ((transpose S7x6 [1, 0] · transposes_S6x7_S7x6_1_0) : (⟨S6x7, .f32⟩ : BufTy).Contents (Elt F) → (⟨S7x6, .f32⟩ : BufTy).Contents (Elt F)),
    binary main_v446 main_v449 main_v450 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v451 ((extractStridedSlice S1x6 ![18, 0] · slices_S24x6_S1x6_18_0) : (⟨S24x6, .f32⟩ : BufTy).Contents (Elt F) → (⟨S1x6, .f32⟩ : BufTy).Contents (Elt F)),
    reshape main_v451 main_v452 rfl shapeCasts_S1x6_S6,
    unary main_v452 main_v453 (broadcastInDim S1x6 ![1] bcast_S6_S1x6_1 : (⟨S6, .f32⟩ : BufTy).Contents (Elt F) → (⟨S1x6, .f32⟩ : BufTy).Contents (Elt F)),
    unary main_v453 main_v454 (broadcastInDim S500000x6 ![0, 1] bcast_S1x6_S500000x6_0_1 : (⟨S1x6, .f32⟩ : BufTy).Contents (Elt F) → (⟨S500000x6, .f32⟩ : BufTy).Contents (Elt F)),
    binary main_v450 main_v454 main_v455 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call37_cst) (constant S_ .f32 0x00000000#32),
    TRef.unary (TRef.of (T := ⟨S_, .f32⟩) main_call37_cst) (TRef.of (T := ⟨S500000x6, .f32⟩) main_call37_v0) (broadcastInDim S500000x6 ![] bcast_S_S500000x6),
    TRef.binary (TRef.of (T := ⟨S500000x6, .f32⟩) main_v455) (TRef.of (T := ⟨S500000x6, .f32⟩) main_call37_v0) (TRef.of (T := ⟨S500000x6, .f32⟩) main_v456) maximumf ]

/-- Joint 19. -/
def J19 : List (HloOp τ sig (Elt F)) :=
  [ unary main_arg0 main_v457 ((extractStridedSlice S500000x1 ![0, 19] · slices_S500000x24_S500000x1_0_19) : (⟨S500000x24, .f32⟩ : BufTy).Contents (Elt F) → (⟨S500000x1, .f32⟩ : BufTy).Contents (Elt F)),
    reshape main_v457 main_v458 rfl shapeCasts_S500000x1_S500000,
    unary main_v458 main_v459 (broadcastInDim S500000x1 ![0] bcast_S500000_S500000x1_0 : (⟨S500000, .f32⟩ : BufTy).Contents (Elt F) → (⟨S500000x1, .f32⟩ : BufTy).Contents (Elt F)),
    binary main_v459 main_v432 main_v460 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v461 ((extractStridedSlice S1x7x7 ![19, 0, 0] · slices_S24x7x7_S1x7x7_19_0_0) : (⟨S24x7x7, .f32⟩ : BufTy).Contents (Elt F) → (⟨S1x7x7, .f32⟩ : BufTy).Contents (Elt F)),
    reshape main_v461 main_v462 rfl shapeCasts_S1x7x7_S7x7,
    unary main_v462 main_v463 ((transpose S7x7 [1, 0] · transposes_S7x7_S7x7_1_0) : (⟨S7x7, .f32⟩ : BufTy).Contents (Elt F) → (⟨S7x7, .f32⟩ : BufTy).Contents (Elt F)),
    binary main_v460 main_v463 main_v464 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v465 ((extractStridedSlice S1x7 ![19, 0] · slices_S24x7_S1x7_19_0) : (⟨S24x7, .f32⟩ : BufTy).Contents (Elt F) → (⟨S1x7, .f32⟩ : BufTy).Contents (Elt F)),
    reshape main_v465 main_v466 rfl shapeCasts_S1x7_S7,
    unary main_v466 main_v467 (broadcastInDim S1x7 ![1] bcast_S7_S1x7_1 : (⟨S7, .f32⟩ : BufTy).Contents (Elt F) → (⟨S1x7, .f32⟩ : BufTy).Contents (Elt F)),
    unary main_v467 main_v468 (broadcastInDim S500000x7 ![0, 1] bcast_S1x7_S500000x7_0_1 : (⟨S1x7, .f32⟩ : BufTy).Contents (Elt F) → (⟨S500000x7, .f32⟩ : BufTy).Contents (Elt F)),
    binary main_v464 main_v468 main_v469 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call38_cst) (constant S_ .f32 0x00000000#32),
    TRef.unary (TRef.of (T := ⟨S_, .f32⟩) main_call38_cst) (TRef.of (T := ⟨S500000x7, .f32⟩) main_call38_v0) (broadcastInDim S500000x7 ![] bcast_S_S500000x7),
    TRef.binary (TRef.of (T := ⟨S500000x7, .f32⟩) main_v469) (TRef.of (T := ⟨S500000x7, .f32⟩) main_call38_v0) (TRef.of (T := ⟨S500000x7, .f32⟩) main_v470) maximumf,
    unary main_arg3 main_v471 ((extractStridedSlice S1x6x7 ![19, 0, 0] · slices_S24x6x7_S1x6x7_19_0_0) : (⟨S24x6x7, .f32⟩ : BufTy).Contents (Elt F) → (⟨S1x6x7, .f32⟩ : BufTy).Contents (Elt F)),
    reshape main_v471 main_v472 rfl shapeCasts_S1x6x7_S6x7,
    unary main_v472 main_v473 ((transpose S7x6 [1, 0] · transposes_S6x7_S7x6_1_0) : (⟨S6x7, .f32⟩ : BufTy).Contents (Elt F) → (⟨S7x6, .f32⟩ : BufTy).Contents (Elt F)),
    binary main_v470 main_v473 main_v474 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v475 ((extractStridedSlice S1x6 ![19, 0] · slices_S24x6_S1x6_19_0) : (⟨S24x6, .f32⟩ : BufTy).Contents (Elt F) → (⟨S1x6, .f32⟩ : BufTy).Contents (Elt F)),
    reshape main_v475 main_v476 rfl shapeCasts_S1x6_S6,
    unary main_v476 main_v477 (broadcastInDim S1x6 ![1] bcast_S6_S1x6_1 : (⟨S6, .f32⟩ : BufTy).Contents (Elt F) → (⟨S1x6, .f32⟩ : BufTy).Contents (Elt F)),
    unary main_v477 main_v478 (broadcastInDim S500000x6 ![0, 1] bcast_S1x6_S500000x6_0_1 : (⟨S1x6, .f32⟩ : BufTy).Contents (Elt F) → (⟨S500000x6, .f32⟩ : BufTy).Contents (Elt F)),
    binary main_v474 main_v478 main_v479 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call39_cst) (constant S_ .f32 0x00000000#32),
    TRef.unary (TRef.of (T := ⟨S_, .f32⟩) main_call39_cst) (TRef.of (T := ⟨S500000x6, .f32⟩) main_call39_v0) (broadcastInDim S500000x6 ![] bcast_S_S500000x6),
    TRef.binary (TRef.of (T := ⟨S500000x6, .f32⟩) main_v479) (TRef.of (T := ⟨S500000x6, .f32⟩) main_call39_v0) (TRef.of (T := ⟨S500000x6, .f32⟩) main_v480) maximumf ]

/-- Joint 20. -/
def J20 : List (HloOp τ sig (Elt F)) :=
  [ unary main_arg0 main_v481 ((extractStridedSlice S500000x1 ![0, 20] · slices_S500000x24_S500000x1_0_20) : (⟨S500000x24, .f32⟩ : BufTy).Contents (Elt F) → (⟨S500000x1, .f32⟩ : BufTy).Contents (Elt F)),
    reshape main_v481 main_v482 rfl shapeCasts_S500000x1_S500000,
    unary main_v482 main_v483 (broadcastInDim S500000x1 ![0] bcast_S500000_S500000x1_0 : (⟨S500000, .f32⟩ : BufTy).Contents (Elt F) → (⟨S500000x1, .f32⟩ : BufTy).Contents (Elt F)),
    binary main_v483 main_v456 main_v484 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v485 ((extractStridedSlice S1x7x7 ![20, 0, 0] · slices_S24x7x7_S1x7x7_20_0_0) : (⟨S24x7x7, .f32⟩ : BufTy).Contents (Elt F) → (⟨S1x7x7, .f32⟩ : BufTy).Contents (Elt F)),
    reshape main_v485 main_v486 rfl shapeCasts_S1x7x7_S7x7,
    unary main_v486 main_v487 ((transpose S7x7 [1, 0] · transposes_S7x7_S7x7_1_0) : (⟨S7x7, .f32⟩ : BufTy).Contents (Elt F) → (⟨S7x7, .f32⟩ : BufTy).Contents (Elt F)),
    binary main_v484 main_v487 main_v488 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v489 ((extractStridedSlice S1x7 ![20, 0] · slices_S24x7_S1x7_20_0) : (⟨S24x7, .f32⟩ : BufTy).Contents (Elt F) → (⟨S1x7, .f32⟩ : BufTy).Contents (Elt F)),
    reshape main_v489 main_v490 rfl shapeCasts_S1x7_S7,
    unary main_v490 main_v491 (broadcastInDim S1x7 ![1] bcast_S7_S1x7_1 : (⟨S7, .f32⟩ : BufTy).Contents (Elt F) → (⟨S1x7, .f32⟩ : BufTy).Contents (Elt F)),
    unary main_v491 main_v492 (broadcastInDim S500000x7 ![0, 1] bcast_S1x7_S500000x7_0_1 : (⟨S1x7, .f32⟩ : BufTy).Contents (Elt F) → (⟨S500000x7, .f32⟩ : BufTy).Contents (Elt F)),
    binary main_v488 main_v492 main_v493 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call40_cst) (constant S_ .f32 0x00000000#32),
    TRef.unary (TRef.of (T := ⟨S_, .f32⟩) main_call40_cst) (TRef.of (T := ⟨S500000x7, .f32⟩) main_call40_v0) (broadcastInDim S500000x7 ![] bcast_S_S500000x7),
    TRef.binary (TRef.of (T := ⟨S500000x7, .f32⟩) main_v493) (TRef.of (T := ⟨S500000x7, .f32⟩) main_call40_v0) (TRef.of (T := ⟨S500000x7, .f32⟩) main_v494) maximumf,
    unary main_arg3 main_v495 ((extractStridedSlice S1x6x7 ![20, 0, 0] · slices_S24x6x7_S1x6x7_20_0_0) : (⟨S24x6x7, .f32⟩ : BufTy).Contents (Elt F) → (⟨S1x6x7, .f32⟩ : BufTy).Contents (Elt F)),
    reshape main_v495 main_v496 rfl shapeCasts_S1x6x7_S6x7,
    unary main_v496 main_v497 ((transpose S7x6 [1, 0] · transposes_S6x7_S7x6_1_0) : (⟨S6x7, .f32⟩ : BufTy).Contents (Elt F) → (⟨S7x6, .f32⟩ : BufTy).Contents (Elt F)),
    binary main_v494 main_v497 main_v498 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v499 ((extractStridedSlice S1x6 ![20, 0] · slices_S24x6_S1x6_20_0) : (⟨S24x6, .f32⟩ : BufTy).Contents (Elt F) → (⟨S1x6, .f32⟩ : BufTy).Contents (Elt F)),
    reshape main_v499 main_v500 rfl shapeCasts_S1x6_S6,
    unary main_v500 main_v501 (broadcastInDim S1x6 ![1] bcast_S6_S1x6_1 : (⟨S6, .f32⟩ : BufTy).Contents (Elt F) → (⟨S1x6, .f32⟩ : BufTy).Contents (Elt F)),
    unary main_v501 main_v502 (broadcastInDim S500000x6 ![0, 1] bcast_S1x6_S500000x6_0_1 : (⟨S1x6, .f32⟩ : BufTy).Contents (Elt F) → (⟨S500000x6, .f32⟩ : BufTy).Contents (Elt F)),
    binary main_v498 main_v502 main_v503 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call41_cst) (constant S_ .f32 0x00000000#32),
    TRef.unary (TRef.of (T := ⟨S_, .f32⟩) main_call41_cst) (TRef.of (T := ⟨S500000x6, .f32⟩) main_call41_v0) (broadcastInDim S500000x6 ![] bcast_S_S500000x6),
    TRef.binary (TRef.of (T := ⟨S500000x6, .f32⟩) main_v503) (TRef.of (T := ⟨S500000x6, .f32⟩) main_call41_v0) (TRef.of (T := ⟨S500000x6, .f32⟩) main_v504) maximumf ]

/-- Joint 21. -/
def J21 : List (HloOp τ sig (Elt F)) :=
  [ unary main_arg0 main_v505 ((extractStridedSlice S500000x1 ![0, 21] · slices_S500000x24_S500000x1_0_21) : (⟨S500000x24, .f32⟩ : BufTy).Contents (Elt F) → (⟨S500000x1, .f32⟩ : BufTy).Contents (Elt F)),
    reshape main_v505 main_v506 rfl shapeCasts_S500000x1_S500000,
    unary main_v506 main_v507 (broadcastInDim S500000x1 ![0] bcast_S500000_S500000x1_0 : (⟨S500000, .f32⟩ : BufTy).Contents (Elt F) → (⟨S500000x1, .f32⟩ : BufTy).Contents (Elt F)),
    binary main_v507 main_v480 main_v508 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v509 ((extractStridedSlice S1x7x7 ![21, 0, 0] · slices_S24x7x7_S1x7x7_21_0_0) : (⟨S24x7x7, .f32⟩ : BufTy).Contents (Elt F) → (⟨S1x7x7, .f32⟩ : BufTy).Contents (Elt F)),
    reshape main_v509 main_v510 rfl shapeCasts_S1x7x7_S7x7,
    unary main_v510 main_v511 ((transpose S7x7 [1, 0] · transposes_S7x7_S7x7_1_0) : (⟨S7x7, .f32⟩ : BufTy).Contents (Elt F) → (⟨S7x7, .f32⟩ : BufTy).Contents (Elt F)),
    binary main_v508 main_v511 main_v512 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v513 ((extractStridedSlice S1x7 ![21, 0] · slices_S24x7_S1x7_21_0) : (⟨S24x7, .f32⟩ : BufTy).Contents (Elt F) → (⟨S1x7, .f32⟩ : BufTy).Contents (Elt F)),
    reshape main_v513 main_v514 rfl shapeCasts_S1x7_S7,
    unary main_v514 main_v515 (broadcastInDim S1x7 ![1] bcast_S7_S1x7_1 : (⟨S7, .f32⟩ : BufTy).Contents (Elt F) → (⟨S1x7, .f32⟩ : BufTy).Contents (Elt F)),
    unary main_v515 main_v516 (broadcastInDim S500000x7 ![0, 1] bcast_S1x7_S500000x7_0_1 : (⟨S1x7, .f32⟩ : BufTy).Contents (Elt F) → (⟨S500000x7, .f32⟩ : BufTy).Contents (Elt F)),
    binary main_v512 main_v516 main_v517 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call42_cst) (constant S_ .f32 0x00000000#32),
    TRef.unary (TRef.of (T := ⟨S_, .f32⟩) main_call42_cst) (TRef.of (T := ⟨S500000x7, .f32⟩) main_call42_v0) (broadcastInDim S500000x7 ![] bcast_S_S500000x7),
    TRef.binary (TRef.of (T := ⟨S500000x7, .f32⟩) main_v517) (TRef.of (T := ⟨S500000x7, .f32⟩) main_call42_v0) (TRef.of (T := ⟨S500000x7, .f32⟩) main_v518) maximumf,
    unary main_arg3 main_v519 ((extractStridedSlice S1x6x7 ![21, 0, 0] · slices_S24x6x7_S1x6x7_21_0_0) : (⟨S24x6x7, .f32⟩ : BufTy).Contents (Elt F) → (⟨S1x6x7, .f32⟩ : BufTy).Contents (Elt F)),
    reshape main_v519 main_v520 rfl shapeCasts_S1x6x7_S6x7,
    unary main_v520 main_v521 ((transpose S7x6 [1, 0] · transposes_S6x7_S7x6_1_0) : (⟨S6x7, .f32⟩ : BufTy).Contents (Elt F) → (⟨S7x6, .f32⟩ : BufTy).Contents (Elt F)),
    binary main_v518 main_v521 main_v522 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v523 ((extractStridedSlice S1x6 ![21, 0] · slices_S24x6_S1x6_21_0) : (⟨S24x6, .f32⟩ : BufTy).Contents (Elt F) → (⟨S1x6, .f32⟩ : BufTy).Contents (Elt F)),
    reshape main_v523 main_v524 rfl shapeCasts_S1x6_S6,
    unary main_v524 main_v525 (broadcastInDim S1x6 ![1] bcast_S6_S1x6_1 : (⟨S6, .f32⟩ : BufTy).Contents (Elt F) → (⟨S1x6, .f32⟩ : BufTy).Contents (Elt F)),
    unary main_v525 main_v526 (broadcastInDim S500000x6 ![0, 1] bcast_S1x6_S500000x6_0_1 : (⟨S1x6, .f32⟩ : BufTy).Contents (Elt F) → (⟨S500000x6, .f32⟩ : BufTy).Contents (Elt F)),
    binary main_v522 main_v526 main_v527 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call43_cst) (constant S_ .f32 0x00000000#32),
    TRef.unary (TRef.of (T := ⟨S_, .f32⟩) main_call43_cst) (TRef.of (T := ⟨S500000x6, .f32⟩) main_call43_v0) (broadcastInDim S500000x6 ![] bcast_S_S500000x6),
    TRef.binary (TRef.of (T := ⟨S500000x6, .f32⟩) main_v527) (TRef.of (T := ⟨S500000x6, .f32⟩) main_call43_v0) (TRef.of (T := ⟨S500000x6, .f32⟩) main_v528) maximumf ]

/-- Joint 22. -/
def J22 : List (HloOp τ sig (Elt F)) :=
  [ unary main_arg0 main_v529 ((extractStridedSlice S500000x1 ![0, 22] · slices_S500000x24_S500000x1_0_22) : (⟨S500000x24, .f32⟩ : BufTy).Contents (Elt F) → (⟨S500000x1, .f32⟩ : BufTy).Contents (Elt F)),
    reshape main_v529 main_v530 rfl shapeCasts_S500000x1_S500000,
    unary main_v530 main_v531 (broadcastInDim S500000x1 ![0] bcast_S500000_S500000x1_0 : (⟨S500000, .f32⟩ : BufTy).Contents (Elt F) → (⟨S500000x1, .f32⟩ : BufTy).Contents (Elt F)),
    binary main_v531 main_v504 main_v532 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v533 ((extractStridedSlice S1x7x7 ![22, 0, 0] · slices_S24x7x7_S1x7x7_22_0_0) : (⟨S24x7x7, .f32⟩ : BufTy).Contents (Elt F) → (⟨S1x7x7, .f32⟩ : BufTy).Contents (Elt F)),
    reshape main_v533 main_v534 rfl shapeCasts_S1x7x7_S7x7,
    unary main_v534 main_v535 ((transpose S7x7 [1, 0] · transposes_S7x7_S7x7_1_0) : (⟨S7x7, .f32⟩ : BufTy).Contents (Elt F) → (⟨S7x7, .f32⟩ : BufTy).Contents (Elt F)),
    binary main_v532 main_v535 main_v536 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v537 ((extractStridedSlice S1x7 ![22, 0] · slices_S24x7_S1x7_22_0) : (⟨S24x7, .f32⟩ : BufTy).Contents (Elt F) → (⟨S1x7, .f32⟩ : BufTy).Contents (Elt F)),
    reshape main_v537 main_v538 rfl shapeCasts_S1x7_S7,
    unary main_v538 main_v539 (broadcastInDim S1x7 ![1] bcast_S7_S1x7_1 : (⟨S7, .f32⟩ : BufTy).Contents (Elt F) → (⟨S1x7, .f32⟩ : BufTy).Contents (Elt F)),
    unary main_v539 main_v540 (broadcastInDim S500000x7 ![0, 1] bcast_S1x7_S500000x7_0_1 : (⟨S1x7, .f32⟩ : BufTy).Contents (Elt F) → (⟨S500000x7, .f32⟩ : BufTy).Contents (Elt F)),
    binary main_v536 main_v540 main_v541 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call44_cst) (constant S_ .f32 0x00000000#32),
    TRef.unary (TRef.of (T := ⟨S_, .f32⟩) main_call44_cst) (TRef.of (T := ⟨S500000x7, .f32⟩) main_call44_v0) (broadcastInDim S500000x7 ![] bcast_S_S500000x7),
    TRef.binary (TRef.of (T := ⟨S500000x7, .f32⟩) main_v541) (TRef.of (T := ⟨S500000x7, .f32⟩) main_call44_v0) (TRef.of (T := ⟨S500000x7, .f32⟩) main_v542) maximumf,
    unary main_arg3 main_v543 ((extractStridedSlice S1x6x7 ![22, 0, 0] · slices_S24x6x7_S1x6x7_22_0_0) : (⟨S24x6x7, .f32⟩ : BufTy).Contents (Elt F) → (⟨S1x6x7, .f32⟩ : BufTy).Contents (Elt F)),
    reshape main_v543 main_v544 rfl shapeCasts_S1x6x7_S6x7,
    unary main_v544 main_v545 ((transpose S7x6 [1, 0] · transposes_S6x7_S7x6_1_0) : (⟨S6x7, .f32⟩ : BufTy).Contents (Elt F) → (⟨S7x6, .f32⟩ : BufTy).Contents (Elt F)),
    binary main_v542 main_v545 main_v546 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v547 ((extractStridedSlice S1x6 ![22, 0] · slices_S24x6_S1x6_22_0) : (⟨S24x6, .f32⟩ : BufTy).Contents (Elt F) → (⟨S1x6, .f32⟩ : BufTy).Contents (Elt F)),
    reshape main_v547 main_v548 rfl shapeCasts_S1x6_S6,
    unary main_v548 main_v549 (broadcastInDim S1x6 ![1] bcast_S6_S1x6_1 : (⟨S6, .f32⟩ : BufTy).Contents (Elt F) → (⟨S1x6, .f32⟩ : BufTy).Contents (Elt F)),
    unary main_v549 main_v550 (broadcastInDim S500000x6 ![0, 1] bcast_S1x6_S500000x6_0_1 : (⟨S1x6, .f32⟩ : BufTy).Contents (Elt F) → (⟨S500000x6, .f32⟩ : BufTy).Contents (Elt F)),
    binary main_v546 main_v550 main_v551 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call45_cst) (constant S_ .f32 0x00000000#32),
    TRef.unary (TRef.of (T := ⟨S_, .f32⟩) main_call45_cst) (TRef.of (T := ⟨S500000x6, .f32⟩) main_call45_v0) (broadcastInDim S500000x6 ![] bcast_S_S500000x6),
    TRef.binary (TRef.of (T := ⟨S500000x6, .f32⟩) main_v551) (TRef.of (T := ⟨S500000x6, .f32⟩) main_call45_v0) (TRef.of (T := ⟨S500000x6, .f32⟩) main_v552) maximumf ]

/-- Joint 23. -/
def J23 : List (HloOp τ sig (Elt F)) :=
  [ unary main_arg0 main_v553 ((extractStridedSlice S500000x1 ![0, 23] · slices_S500000x24_S500000x1_0_23) : (⟨S500000x24, .f32⟩ : BufTy).Contents (Elt F) → (⟨S500000x1, .f32⟩ : BufTy).Contents (Elt F)),
    reshape main_v553 main_v554 rfl shapeCasts_S500000x1_S500000,
    unary main_v554 main_v555 (broadcastInDim S500000x1 ![0] bcast_S500000_S500000x1_0 : (⟨S500000, .f32⟩ : BufTy).Contents (Elt F) → (⟨S500000x1, .f32⟩ : BufTy).Contents (Elt F)),
    binary main_v555 main_v528 main_v556 ((fun a b => concatenate S500000x7 1 [⟨S500000x1, a⟩, ⟨S500000x6, b⟩] concatenates_S500000x1_S500000x6_S500000x7_d1) : (⟨S500000x1, .f32⟩ : BufTy).Contents (Elt F) → (⟨S500000x6, .f32⟩ : BufTy).Contents (Elt F) → (⟨S500000x7, .f32⟩ : BufTy).Contents (Elt F)),
    unary main_arg1 main_v557 ((extractStridedSlice S1x7x7 ![23, 0, 0] · slices_S24x7x7_S1x7x7_23_0_0) : (⟨S24x7x7, .f32⟩ : BufTy).Contents (Elt F) → (⟨S1x7x7, .f32⟩ : BufTy).Contents (Elt F)),
    reshape main_v557 main_v558 rfl shapeCasts_S1x7x7_S7x7,
    unary main_v558 main_v559 ((transpose S7x7 [1, 0] · transposes_S7x7_S7x7_1_0) : (⟨S7x7, .f32⟩ : BufTy).Contents (Elt F) → (⟨S7x7, .f32⟩ : BufTy).Contents (Elt F)),
    binary main_v556 main_v559 main_v560 ((fun l r => Host.dotGeneral dot_S500000x7_S7x7_S500000x7_1_0_0_1_n_n none l r) : (⟨S500000x7, .f32⟩ : BufTy).Contents (Elt F) → (⟨S7x7, .f32⟩ : BufTy).Contents (Elt F) → (⟨S500000x7, .f32⟩ : BufTy).Contents (Elt F)),
    unary main_arg2 main_v561 ((extractStridedSlice S1x7 ![23, 0] · slices_S24x7_S1x7_23_0) : (⟨S24x7, .f32⟩ : BufTy).Contents (Elt F) → (⟨S1x7, .f32⟩ : BufTy).Contents (Elt F)),
    reshape main_v561 main_v562 rfl shapeCasts_S1x7_S7,
    unary main_v562 main_v563 (broadcastInDim S1x7 ![1] bcast_S7_S1x7_1 : (⟨S7, .f32⟩ : BufTy).Contents (Elt F) → (⟨S1x7, .f32⟩ : BufTy).Contents (Elt F)),
    unary main_v563 main_v564 (broadcastInDim S500000x7 ![0, 1] bcast_S1x7_S500000x7_0_1 : (⟨S1x7, .f32⟩ : BufTy).Contents (Elt F) → (⟨S500000x7, .f32⟩ : BufTy).Contents (Elt F)),
    binary main_v560 main_v564 main_v565 (addf : (⟨S500000x7, .f32⟩ : BufTy).Contents (Elt F) → (⟨S500000x7, .f32⟩ : BufTy).Contents (Elt F) → (⟨S500000x7, .f32⟩ : BufTy).Contents (Elt F)),
    TRef.nullary (TRef.of (T := ⟨S_, .f32⟩) main_call46_cst) (constant S_ .f32 0x00000000#32),
    TRef.unary (TRef.of (T := ⟨S_, .f32⟩) main_call46_cst) (TRef.of (T := ⟨S500000x7, .f32⟩) main_call46_v0) (broadcastInDim S500000x7 ![] bcast_S_S500000x7),
    TRef.binary (TRef.of (T := ⟨S500000x7, .f32⟩) main_v565) (TRef.of (T := ⟨S500000x7, .f32⟩) main_call46_v0) (TRef.of (T := ⟨S500000x7, .f32⟩) main_v566) maximumf,
    unary main_arg3 main_v567 ((extractStridedSlice S1x6x7 ![23, 0, 0] · slices_S24x6x7_S1x6x7_23_0_0) : (⟨S24x6x7, .f32⟩ : BufTy).Contents (Elt F) → (⟨S1x6x7, .f32⟩ : BufTy).Contents (Elt F)),
    reshape main_v567 main_v568 rfl shapeCasts_S1x6x7_S6x7,
    unary main_v568 main_v569 ((transpose S7x6 [1, 0] · transposes_S6x7_S7x6_1_0) : (⟨S6x7, .f32⟩ : BufTy).Contents (Elt F) → (⟨S7x6, .f32⟩ : BufTy).Contents (Elt F)),
    binary main_v566 main_v569 main_v570 ((fun l r => Host.dotGeneral dot_S500000x7_S7x6_S500000x6_1_0_0_1_n_n none l r) : (⟨S500000x7, .f32⟩ : BufTy).Contents (Elt F) → (⟨S7x6, .f32⟩ : BufTy).Contents (Elt F) → (⟨S500000x6, .f32⟩ : BufTy).Contents (Elt F)),
    unary main_arg4 main_v571 ((extractStridedSlice S1x6 ![23, 0] · slices_S24x6_S1x6_23_0) : (⟨S24x6, .f32⟩ : BufTy).Contents (Elt F) → (⟨S1x6, .f32⟩ : BufTy).Contents (Elt F)),
    reshape main_v571 main_v572 rfl shapeCasts_S1x6_S6,
    unary main_v572 main_v573 (broadcastInDim S1x6 ![1] bcast_S6_S1x6_1 : (⟨S6, .f32⟩ : BufTy).Contents (Elt F) → (⟨S1x6, .f32⟩ : BufTy).Contents (Elt F)),
    unary main_v573 main_v574 (broadcastInDim S500000x6 ![0, 1] bcast_S1x6_S500000x6_0_1 : (⟨S1x6, .f32⟩ : BufTy).Contents (Elt F) → (⟨S500000x6, .f32⟩ : BufTy).Contents (Elt F)),
    binary main_v570 main_v574 main_v575 (addf : (⟨S500000x6, .f32⟩ : BufTy).Contents (Elt F) → (⟨S500000x6, .f32⟩ : BufTy).Contents (Elt F) → (⟨S500000x6, .f32⟩ : BufTy).Contents (Elt F)),
    TRef.nullary (TRef.of (T := ⟨S_, .f32⟩) main_call47_cst) (constant S_ .f32 0x00000000#32),
    TRef.unary (TRef.of (T := ⟨S_, .f32⟩) main_call47_cst) (TRef.of (T := ⟨S500000x6, .f32⟩) main_call47_v0) (broadcastInDim S500000x6 ![] bcast_S_S500000x6),
    TRef.binary (TRef.of (T := ⟨S500000x6, .f32⟩) main_v575) (TRef.of (T := ⟨S500000x6, .f32⟩) main_call47_v0) (TRef.of (T := ⟨S500000x6, .f32⟩) main_v576) maximumf ]

/-- The 24 feature arrays side by side. -/
def tail : List (HloOp τ sig (Elt F)) :=
  [ nary ![main_v24, main_v48, main_v72, main_v96, main_v120, main_v144, main_v168, main_v192, main_v216, main_v240, main_v264, main_v288, main_v312, main_v336, main_v360, main_v384] main_v577 (fun u => concatenate S500000x96 1 [⟨S500000x6, u 0⟩, ⟨S500000x6, u 1⟩, ⟨S500000x6, u 2⟩, ⟨S500000x6, u 3⟩, ⟨S500000x6, u 4⟩, ⟨S500000x6, u 5⟩, ⟨S500000x6, u 6⟩, ⟨S500000x6, u 7⟩, ⟨S500000x6, u 8⟩, ⟨S500000x6, u 9⟩, ⟨S500000x6, u 10⟩, ⟨S500000x6, u 11⟩, ⟨S500000x6, u 12⟩, ⟨S500000x6, u 13⟩, ⟨S500000x6, u 14⟩, ⟨S500000x6, u 15⟩] concatenates_S500000x6_S500000x6_S500000x6_S500000x6_S500000x6_S500000x6_S500000x6_S500000x6_S500000x6_S500000x6_S500000x6_S500000x6_S500000x6_S500000x6_S500000x6_S500000x6_S500000x96_d1),
    nary ![main_v408, main_v432, main_v456, main_v480, main_v504, main_v528, main_v552, main_v576] main_v578 (fun u => concatenate S500000x48 1 [⟨S500000x6, u 0⟩, ⟨S500000x6, u 1⟩, ⟨S500000x6, u 2⟩, ⟨S500000x6, u 3⟩, ⟨S500000x6, u 4⟩, ⟨S500000x6, u 5⟩, ⟨S500000x6, u 6⟩, ⟨S500000x6, u 7⟩] concatenates_S500000x6_S500000x6_S500000x6_S500000x6_S500000x6_S500000x6_S500000x6_S500000x6_S500000x48_d1),
    binary main_v577 main_v578 main_v579 ((fun a b => concatenate S500000x144 1 [⟨S500000x96, a⟩, ⟨S500000x48, b⟩] concatenates_S500000x96_S500000x48_S500000x144_d1) : (⟨S500000x96, .f32⟩ : BufTy).Contents (Elt F) → (⟨S500000x48, .f32⟩ : BufTy).Contents (Elt F) → (⟨S500000x144, .f32⟩ : BufTy).Contents (Elt F)) ]

/-- @main's operations, in order. -/
def ops : List (HloOp τ sig (Elt F)) :=
  pre ++ J0 ++ J1 ++ J2 ++ J3 ++ J4 ++ J5 ++ J6 ++ J7 ++ J8 ++ J9 ++ J10 ++ J11 ++ J12 ++ J13 ++ J14 ++ J15 ++ J16 ++ J17 ++ J18 ++ J19 ++ J20 ++ J21 ++ J22 ++ J23 ++ tail

/-- @main is the run of that line: both sides unfold to the same sequence of steps. -/
theorem main_eq (c : Dev nD) : main (F := F) c = seq ops := by
  sl_kernel_rfl

theorem scopedRefs_eq : (Finset.univ.filter fun b : Ref sig .tc => b.isScoped) = ∅ := by decide
theorem scopedSems_eq : (Finset.univ.filter fun sm : SemLoc sig => sm.isScoped .tc) = ∅ := by decide

theorem pre_sub : (pre : List (HloOp τ sig (Elt F))).Forall fun op => op.bufs ⊆ tcRefs τ sig :=
  ⟨nullary_bufs_sub .., unary_bufs_sub ..⟩
theorem J0_sub : (J0 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J1_sub : (J1 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J2_sub : (J2 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J3_sub : (J3 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J4_sub : (J4 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J5_sub : (J5 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J6_sub : (J6 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J7_sub : (J7 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J8_sub : (J8 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J9_sub : (J9 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J10_sub : (J10 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J11_sub : (J11 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J12_sub : (J12 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J13_sub : (J13 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J14_sub : (J14 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J15_sub : (J15 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J16_sub : (J16 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J17_sub : (J17 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J18_sub : (J18 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J19_sub : (J19 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J20_sub : (J20 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J21_sub : (J21 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J22_sub : (J22 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem J23_sub : (J23 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem tail_sub : (tail : List (HloOp τ sig (Elt F))).Forall fun op => op.bufs ⊆ tcRefs τ sig :=
  ⟨nary_bufs_sub .., nary_bufs_sub .., binary_bufs_sub ..⟩

theorem sub_append {l₁ l₂ : List (HloOp τ sig (Elt F))} (h₁ : ∀ op ∈ l₁, op.bufs ⊆ tcRefs τ sig)
    (h₂ : ∀ op ∈ l₂, op.bufs ⊆ tcRefs τ sig) : ∀ op ∈ l₁ ++ l₂, op.bufs ⊆ tcRefs τ sig :=
  fun op h => (List.mem_append.mp h).elim (h₁ op) (h₂ op)

theorem ops_sub_mem : ∀ op ∈ (ops : List (HloOp τ sig (Elt F))), op.bufs ⊆ tcRefs τ sig := by
  unfold ops
  refine sub_append ?_ (List.forall_iff_forall_mem.mp tail_sub)
  refine sub_append ?_ (List.forall_iff_forall_mem.mp J23_sub)
  refine sub_append ?_ (List.forall_iff_forall_mem.mp J22_sub)
  refine sub_append ?_ (List.forall_iff_forall_mem.mp J21_sub)
  refine sub_append ?_ (List.forall_iff_forall_mem.mp J20_sub)
  refine sub_append ?_ (List.forall_iff_forall_mem.mp J19_sub)
  refine sub_append ?_ (List.forall_iff_forall_mem.mp J18_sub)
  refine sub_append ?_ (List.forall_iff_forall_mem.mp J17_sub)
  refine sub_append ?_ (List.forall_iff_forall_mem.mp J16_sub)
  refine sub_append ?_ (List.forall_iff_forall_mem.mp J15_sub)
  refine sub_append ?_ (List.forall_iff_forall_mem.mp J14_sub)
  refine sub_append ?_ (List.forall_iff_forall_mem.mp J13_sub)
  refine sub_append ?_ (List.forall_iff_forall_mem.mp J12_sub)
  refine sub_append ?_ (List.forall_iff_forall_mem.mp J11_sub)
  refine sub_append ?_ (List.forall_iff_forall_mem.mp J10_sub)
  refine sub_append ?_ (List.forall_iff_forall_mem.mp J9_sub)
  refine sub_append ?_ (List.forall_iff_forall_mem.mp J8_sub)
  refine sub_append ?_ (List.forall_iff_forall_mem.mp J7_sub)
  refine sub_append ?_ (List.forall_iff_forall_mem.mp J6_sub)
  refine sub_append ?_ (List.forall_iff_forall_mem.mp J5_sub)
  refine sub_append ?_ (List.forall_iff_forall_mem.mp J4_sub)
  refine sub_append ?_ (List.forall_iff_forall_mem.mp J3_sub)
  refine sub_append ?_ (List.forall_iff_forall_mem.mp J2_sub)
  refine sub_append ?_ (List.forall_iff_forall_mem.mp J1_sub)
  refine sub_append ?_ (List.forall_iff_forall_mem.mp J0_sub)
  exact List.forall_iff_forall_mem.mp pre_sub

-- From here on the line of operations is one object: its pieces are named, never looked into.
attribute [irreducible] ops

theorem ops_sub : (ops : List (HloOp τ sig (Elt F))).Forall fun op => op.bufs ⊆ tcRefs τ sig :=
  List.forall_iff_forall_mem.mpr ops_sub_mem

theorem pre_fresh : ∀ op ∈ (pre : List (HloOp τ sig (Elt F))), op.fresh = ∅ := by
  intro _ h; unfold pre at h; (repeat (cases h with | head => rfl | tail _ h => ?_)); exact nomatch h
theorem J0_fresh : ∀ op ∈ (J0 : List (HloOp τ sig (Elt F))), op.fresh = ∅ := by
  intro _ h; unfold J0 at h; (repeat (cases h with | head => rfl | tail _ h => ?_)); exact nomatch h
theorem J1_fresh : ∀ op ∈ (J1 : List (HloOp τ sig (Elt F))), op.fresh = ∅ := by
  intro _ h; unfold J1 at h; (repeat (cases h with | head => rfl | tail _ h => ?_)); exact nomatch h
theorem J2_fresh : ∀ op ∈ (J2 : List (HloOp τ sig (Elt F))), op.fresh = ∅ := by
  intro _ h; unfold J2 at h; (repeat (cases h with | head => rfl | tail _ h => ?_)); exact nomatch h
theorem J3_fresh : ∀ op ∈ (J3 : List (HloOp τ sig (Elt F))), op.fresh = ∅ := by
  intro _ h; unfold J3 at h; (repeat (cases h with | head => rfl | tail _ h => ?_)); exact nomatch h
theorem J4_fresh : ∀ op ∈ (J4 : List (HloOp τ sig (Elt F))), op.fresh = ∅ := by
  intro _ h; unfold J4 at h; (repeat (cases h with | head => rfl | tail _ h => ?_)); exact nomatch h
theorem J5_fresh : ∀ op ∈ (J5 : List (HloOp τ sig (Elt F))), op.fresh = ∅ := by
  intro _ h; unfold J5 at h; (repeat (cases h with | head => rfl | tail _ h => ?_)); exact nomatch h
theorem J6_fresh : ∀ op ∈ (J6 : List (HloOp τ sig (Elt F))), op.fresh = ∅ := by
  intro _ h; unfold J6 at h; (repeat (cases h with | head => rfl | tail _ h => ?_)); exact nomatch h
theorem J7_fresh : ∀ op ∈ (J7 : List (HloOp τ sig (Elt F))), op.fresh = ∅ := by
  intro _ h; unfold J7 at h; (repeat (cases h with | head => rfl | tail _ h => ?_)); exact nomatch h
theorem J8_fresh : ∀ op ∈ (J8 : List (HloOp τ sig (Elt F))), op.fresh = ∅ := by
  intro _ h; unfold J8 at h; (repeat (cases h with | head => rfl | tail _ h => ?_)); exact nomatch h
theorem J9_fresh : ∀ op ∈ (J9 : List (HloOp τ sig (Elt F))), op.fresh = ∅ := by
  intro _ h; unfold J9 at h; (repeat (cases h with | head => rfl | tail _ h => ?_)); exact nomatch h
theorem J10_fresh : ∀ op ∈ (J10 : List (HloOp τ sig (Elt F))), op.fresh = ∅ := by
  intro _ h; unfold J10 at h; (repeat (cases h with | head => rfl | tail _ h => ?_)); exact nomatch h
theorem J11_fresh : ∀ op ∈ (J11 : List (HloOp τ sig (Elt F))), op.fresh = ∅ := by
  intro _ h; unfold J11 at h; (repeat (cases h with | head => rfl | tail _ h => ?_)); exact nomatch h
theorem J12_fresh : ∀ op ∈ (J12 : List (HloOp τ sig (Elt F))), op.fresh = ∅ := by
  intro _ h; unfold J12 at h; (repeat (cases h with | head => rfl | tail _ h => ?_)); exact nomatch h
theorem J13_fresh : ∀ op ∈ (J13 : List (HloOp τ sig (Elt F))), op.fresh = ∅ := by
  intro _ h; unfold J13 at h; (repeat (cases h with | head => rfl | tail _ h => ?_)); exact nomatch h
theorem J14_fresh : ∀ op ∈ (J14 : List (HloOp τ sig (Elt F))), op.fresh = ∅ := by
  intro _ h; unfold J14 at h; (repeat (cases h with | head => rfl | tail _ h => ?_)); exact nomatch h
theorem J15_fresh : ∀ op ∈ (J15 : List (HloOp τ sig (Elt F))), op.fresh = ∅ := by
  intro _ h; unfold J15 at h; (repeat (cases h with | head => rfl | tail _ h => ?_)); exact nomatch h
theorem J16_fresh : ∀ op ∈ (J16 : List (HloOp τ sig (Elt F))), op.fresh = ∅ := by
  intro _ h; unfold J16 at h; (repeat (cases h with | head => rfl | tail _ h => ?_)); exact nomatch h
theorem J17_fresh : ∀ op ∈ (J17 : List (HloOp τ sig (Elt F))), op.fresh = ∅ := by
  intro _ h; unfold J17 at h; (repeat (cases h with | head => rfl | tail _ h => ?_)); exact nomatch h
theorem J18_fresh : ∀ op ∈ (J18 : List (HloOp τ sig (Elt F))), op.fresh = ∅ := by
  intro _ h; unfold J18 at h; (repeat (cases h with | head => rfl | tail _ h => ?_)); exact nomatch h
theorem J19_fresh : ∀ op ∈ (J19 : List (HloOp τ sig (Elt F))), op.fresh = ∅ := by
  intro _ h; unfold J19 at h; (repeat (cases h with | head => rfl | tail _ h => ?_)); exact nomatch h
theorem J20_fresh : ∀ op ∈ (J20 : List (HloOp τ sig (Elt F))), op.fresh = ∅ := by
  intro _ h; unfold J20 at h; (repeat (cases h with | head => rfl | tail _ h => ?_)); exact nomatch h
theorem J21_fresh : ∀ op ∈ (J21 : List (HloOp τ sig (Elt F))), op.fresh = ∅ := by
  intro _ h; unfold J21 at h; (repeat (cases h with | head => rfl | tail _ h => ?_)); exact nomatch h
theorem J22_fresh : ∀ op ∈ (J22 : List (HloOp τ sig (Elt F))), op.fresh = ∅ := by
  intro _ h; unfold J22 at h; (repeat (cases h with | head => rfl | tail _ h => ?_)); exact nomatch h
theorem J23_fresh : ∀ op ∈ (J23 : List (HloOp τ sig (Elt F))), op.fresh = ∅ := by
  intro _ h; unfold J23 at h; (repeat (cases h with | head => rfl | tail _ h => ?_)); exact nomatch h
theorem tail_fresh : ∀ op ∈ (tail : List (HloOp τ sig (Elt F))), op.fresh = ∅ := by
  intro _ h; unfold tail at h; (repeat (cases h with | head => rfl | tail _ h => ?_)); exact nomatch h

theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

theorem ops_fresh : ∀ op ∈ (ops : List (HloOp τ sig (Elt F))), op.fresh = ∅ := by
  unfold ops
  refine fresh_append ?_ tail_fresh
  refine fresh_append ?_ J23_fresh
  refine fresh_append ?_ J22_fresh
  refine fresh_append ?_ J21_fresh
  refine fresh_append ?_ J20_fresh
  refine fresh_append ?_ J19_fresh
  refine fresh_append ?_ J18_fresh
  refine fresh_append ?_ J17_fresh
  refine fresh_append ?_ J16_fresh
  refine fresh_append ?_ J15_fresh
  refine fresh_append ?_ J14_fresh
  refine fresh_append ?_ J13_fresh
  refine fresh_append ?_ J12_fresh
  refine fresh_append ?_ J11_fresh
  refine fresh_append ?_ J10_fresh
  refine fresh_append ?_ J9_fresh
  refine fresh_append ?_ J8_fresh
  refine fresh_append ?_ J7_fresh
  refine fresh_append ?_ J6_fresh
  refine fresh_append ?_ J5_fresh
  refine fresh_append ?_ J4_fresh
  refine fresh_append ?_ J3_fresh
  refine fresh_append ?_ J2_fresh
  refine fresh_append ?_ J1_fresh
  refine fresh_append ?_ J0_fresh
  exact pre_fresh

/-- Every weakly fair execution of @main terminates with each buffer at the fold of the operations over its launch
    contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Ops

end
-- ==== Proof.LibConcatRead.lean ====
/-
  Two-piece concatenations of small rank read at an entry.

  A concatenation of two arrays along an axis reads, at an index whose coordinate on that axis is below the first
  piece's extent, the first piece at the same coordinates; at or past it, the second piece with that coordinate lowered
  by the first extent. Stated here for the three forms a row- and lane-packing meets: two rank-2 arrays side by side
  (along the columns), two rank-2 arrays stacked (along the rows), and two rank-1 arrays end to end.
-/
import Idealize.ShloMosaic.Lib.ValueIdx
import Idealize.ShloMosaic.Lib.Pipeline.Value

noncomputable section

namespace Cert.Lib.ConcatRead

open Idealize.ShloMosaic Idealize.ShloMosaic.ValueIdx

variable {α : Type}

/-- Side by side, a column of the first piece. -/
theorem cols_left {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₁)
    (hq : q'.val = q.val) :
    concatenate ⟨2, ![a, n]⟩ 1 [⟨⟨2, ![a, b₁]⟩, x₁⟩, ⟨⟨2, ![a, b₂]⟩, x₂⟩] h (ix2 p q) = x₁ (ix2 p q') :=
  concatenate_pair_apply_left 1 x₁ x₂ h (ix2 p q) rfl (ix2 p q') fun b => by
    match b with
    | ⟨0, _⟩ => rfl
    | ⟨1, _⟩ => exact hq

/-- Side by side, a column of the second piece. -/
theorem cols_right {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₂)
    (hq : q'.val + b₁ = q.val) :
    concatenate ⟨2, ![a, n]⟩ 1 [⟨⟨2, ![a, b₁]⟩, x₁⟩, ⟨⟨2, ![a, b₂]⟩, x₂⟩] h (ix2 p q) = x₂ (ix2 p q') :=
  concatenate_pair_apply_right 1 x₁ x₂ h (ix2 p q) rfl rfl (ix2 p q') (fun b hb => by
    match b with
    | ⟨0, _⟩ => rfl
    | ⟨1, _⟩ => exact absurd rfl hb) hq

/-- Stacked, a row of the first piece. -/
theorem rows_left {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₁)
    (hp : p'.val = p.val) :
    concatenate ⟨2, ![n, b]⟩ 0 [⟨⟨2, ![a₁, b]⟩, x₁⟩, ⟨⟨2, ![a₂, b]⟩, x₂⟩] h (ix2 p q) = x₁ (ix2 p' q) :=
  concatenate_pair_apply_left 0 x₁ x₂ h (ix2 p q) rfl (ix2 p' q) fun b => by
    match b with
    | ⟨0, _⟩ => exact hp
    | ⟨1, _⟩ => rfl

/-- Stacked, a row of the second piece. -/
theorem rows_right {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₂)
    (hp : p'.val + a₁ = p.val) :
    concatenate ⟨2, ![n, b]⟩ 0 [⟨⟨2, ![a₁, b]⟩, x₁⟩, ⟨⟨2, ![a₂, b]⟩, x₂⟩] h (ix2 p q) = x₂ (ix2 p' q) :=
  concatenate_pair_apply_right 0 x₁ x₂ h (ix2 p q) rfl rfl (ix2 p' q) (fun b hb => by
    match b with
    | ⟨0, _⟩ => exact absurd rfl hb
    | ⟨1, _⟩ => rfl) hp

/-- End to end, an entry of the first piece. -/
theorem vec_left {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₁) (hp : p'.val = p.val) :
    concatenate ⟨1, ![n]⟩ 0 [⟨⟨1, ![a₁]⟩, x₁⟩, ⟨⟨1, ![a₂]⟩, x₂⟩] h (ix1 p) = x₁ (ix1 p') :=
  concatenate_pair_apply_left 0 x₁ x₂ h (ix1 p) rfl (ix1 p') fun b => by
    match b with
    | ⟨0, _⟩ => exact hp

/-- End to end, an entry of the second piece. -/
theorem vec_right {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₂) (hp : p'.val + a₁ = p.val) :
    concatenate ⟨1, ![n]⟩ 0 [⟨⟨1, ![a₁]⟩, x₁⟩, ⟨⟨1, ![a₂]⟩, x₂⟩] h (ix1 p) = x₂ (ix1 p') :=
  concatenate_pair_apply_right 0 x₁ x₂ h (ix1 p) rfl rfl (ix1 p') (fun b hb => by
    match b with
    | ⟨0, _⟩ => exact absurd rfl hb) hp

end Cert.Lib.ConcatRead

end
-- ==== Proof.RefJoint.lean ====
/-
  One joint's two layers over the whole batch, as the host program spells them, read at an entry.

  The host keeps the batch row-major (`B` rows).  Joint `j` takes column `j` of the inputs as a `B × 1` column, joins it
  with the parent's `B × 6` features (zeros for the root) into `B × 7`, multiplies by the transpose of `W1[j]`, adds
  row `j` of the first-layer biases to every row, takes the positive part, then the same with `W2[j]` and the
  second-layer biases.  At batch row `p` these are the specification's layers in the joined arrangement.
-/
import Idealize.ShloMosaic.Lib.ValueIdx
import Idealize.ShloMosaic.Lib.ValueLayout
import Idealize.ShloMosaic.Lib.Pipeline.Value
import Idealize.ShloMosaic.PureOps.Ideal.Laws
import proofs.«172863_j7009386627271_2_alg».proof.Proof.TreeSpec
import proofs.«172863_j7009386627271_2_alg».proof.Proof.LibStackOps
import proofs.«172863_j7009386627271_2_alg».proof.Proof.LibPlainDot
import proofs.«172863_j7009386627271_2_alg».proof.Proof.LibConcatRead

noncomputable section

open scoped BigOperators

namespace Cert.RefJoint

open Idealize.ShloMosaic Idealize.ShloMosaic.ValueIdx Cert.TreeSpec Cert.Lib.StackOps

variable {B : Nat}

/-- An array of zeros: the scalar zero spread over a shape. -/
def zeros (s : Shape) (hb : (⟨0, ![]⟩ : Shape).BroadcastsInDim s ![]) : FVec Ideal s .f32 :=
  broadcastInDim s ![] hb (constant (F := Ideal) ⟨0, ![]⟩ .f32 0x00000000#32)

theorem zeros_apply (s : Shape) (hb) (i : s.Idx) : zeros s hb i = 0 := by
  unfold zeros
  rw [broadcastInDim_apply ![] hb _ i ix0 (fun a => a.elim0), constant_apply, Ideal.ofBits_zero_f32]

/-- Column `j` of the inputs as a `B × 1` column. -/
def xcol (j : Nat) (x0 : FVec Ideal ⟨2, ![B, 24]⟩ .f32)
    (hs : (⟨2, ![B, 24]⟩ : Shape).Slices ![0, j] ⟨2, ![B, 1]⟩) (hc : (⟨2, ![B, 1]⟩ : Shape).ShapeCasts ⟨1, ![B]⟩)
    (hb : (⟨1, ![B]⟩ : Shape).BroadcastsInDim ⟨2, ![B, 1]⟩ ![0]) : FVec Ideal ⟨2, ![B, 1]⟩ .f32 :=
  broadcastInDim ⟨2, ![B, 1]⟩ ![0] hb (shapeCast ⟨1, ![B]⟩ (extractStridedSlice ⟨2, ![B, 1]⟩ ![0, j] x0 hs) hc)

theorem xcol_apply (j : Nat) (hj : j < 24) (x0 : FVec Ideal ⟨2, ![B, 24]⟩ .f32) (hs hc hb) (p : Fin B) :
    xcol j x0 hs hc hb (ix2 p (0 : Fin 1)) = x0 (ix2 p ⟨j, hj⟩) := by
  unfold xcol
  rw [broadcastInDim_apply ![0] hb _ (ix2 p (0 : Fin 1)) (ix1 p) (fun a => by
    match a with
    | ⟨0, _⟩ =>
      show p.val = if B = 1 then 0 else p.val
      split
      · have := p.isLt; omega
      · rfl)]
  rw [shapeCast_apply _ hc (ix1 p) (ix2 p (0 : Fin 1)) (by
    rw [Shape.rowMajor_val_two, Shape.rowMajor_val_one]
    show p.val * 1 + 0 = p.val
    omega)]
  exact slice2_axis1_apply j x0 hs p (0 : Fin 1) ⟨j, hj⟩ (by show j = j + 0; omega)

/-- The transpose of member `j` of a stack of `a × b` matrices. -/
def wT {a b : Nat} (j : Nat) (x : FVec Ideal ⟨3, ![24, a, b]⟩ .f32)
    (hs : (⟨3, ![24, a, b]⟩ : Shape).Slices ![j, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) : FVec Ideal ⟨2, ![b, a]⟩ .f32 :=
  transpose ⟨2, ![b, a]⟩ [1, 0] (shapeCast ⟨2, ![a, b]⟩ (extractStridedSlice ⟨3, ![1, a, b]⟩ ![j, 0, 0] x hs) hc) ht

theorem wT_apply {a b : Nat} (j : Nat) (hj : j < 24) (x : FVec Ideal ⟨3, ![24, a, b]⟩ .f32) (hs hc ht) (l : Fin b) (k : Fin a) :
    wT j x hs hc ht (ix2 l k) = x (ix3 ⟨j, hj⟩ k l) := by
  unfold wT
  rw [transpose_ix2_apply]
  exact member_apply j x hs hc k l ⟨j, hj⟩ rfl

/-- Row `j` of a bias table repeated down the `B` rows. -/
def brow {a : Nat} (j : Nat) (x : FVec Ideal ⟨2, ![24, a]⟩ .f32)
    (hs : (⟨2, ![24, a]⟩ : Shape).Slices ![j, 0] ⟨2, ![1, a]⟩) (hc : (⟨2, ![1, a]⟩ : Shape).ShapeCasts ⟨1, ![a]⟩)
    (h1 : (⟨1, ![a]⟩ : Shape).BroadcastsInDim ⟨2, ![1, a]⟩ ![1])
    (h2 : (⟨2, ![1, a]⟩ : Shape).BroadcastsInDim ⟨2, ![B, a]⟩ ![0, 1]) : FVec Ideal ⟨2, ![B, a]⟩ .f32 :=
  broadcastInDim ⟨2, ![B, a]⟩ ![0, 1] h2 (broadcastInDim ⟨2, ![1, a]⟩ ![1] h1
    (shapeCast ⟨1, ![a]⟩ (extractStridedSlice ⟨2, ![1, a]⟩ ![j, 0] x hs) hc))

theorem brow_apply {a : Nat} (j : Nat) (hj : j < 24) (x : FVec Ideal ⟨2, ![24, a]⟩ .f32) (hs hc h1 h2) (p : Fin B) (k : Fin a) :
    brow (B := B) j x hs hc h1 h2 (ix2 p k) = x (ix2 ⟨j, hj⟩ k) := by
  unfold brow
  rw [broadcastInDim_apply ![0, 1] h2 _ (ix2 p k) (ix2 (0 : Fin 1) k) (fun ax => by
    match ax with
    | ⟨0, _⟩ => exact (if_pos rfl).symm
    | ⟨1, _⟩ =>
      show k.val = if a = 1 then 0 else k.val
      split
      · have := k.isLt; omega
      · rfl)]
  rw [broadcastInDim_apply ![1] h1 _ (ix2 (0 : Fin 1) k) (ix1 k) (fun ax => by
    match ax with
    | ⟨0, _⟩ =>
      show k.val = if a = 1 then 0 else k.val
      split
      · have := k.isLt; omega
      · rfl)]
  rw [shapeCast_apply _ hc (ix1 k) (ix2 (0 : Fin 1) k) (by
    rw [Shape.rowMajor_val_two, Shape.rowMajor_val_one]
    show 0 * a + k.val = k.val
    omega)]
  exact slice2_axis0_apply j x hs (0 : Fin 1) k ⟨j, hj⟩ (by show j = j + 0; omega)

/-- The positive part, with the zeros spread from a scalar. -/
def reluH {a : Nat} (z : FVec Ideal ⟨2, ![B, a]⟩ .f32) (hb : (⟨0, ![]⟩ : Shape).BroadcastsInDim ⟨2, ![B, a]⟩ ![]) :
    FVec Ideal ⟨2, ![B, a]⟩ .f32 :=
  maximumf z (zeros ⟨2, ![B, a]⟩ hb)

theorem reluH_apply {a : Nat} (z : FVec Ideal ⟨2, ![B, a]⟩ .f32) (hb) (i : (⟨2, ![B, a]⟩ : Shape).Idx) :
    reluH z hb i = max (z i) 0 := by
  unfold reluH
  rw [maximumf_apply, zeros_apply]

/-- The hidden layer: the joined array times the transposed weights, plus the bias row, positive part. -/
def hidH (j : Nat) (x0 : FVec Ideal ⟨2, ![B, 24]⟩ .f32) (x1 : FVec Ideal ⟨3, ![24, 7, 7]⟩ .f32) (x2 : FVec Ideal ⟨2, ![24, 7]⟩ .f32)
    (hs0 : (⟨2, ![B, 24]⟩ : Shape).Slices ![0, j] ⟨2, ![B, 1]⟩) (hc0 : (⟨2, ![B, 1]⟩ : Shape).ShapeCasts ⟨1, ![B]⟩)
    (hb0 : (⟨1, ![B]⟩ : Shape).BroadcastsInDim ⟨2, ![B, 1]⟩ ![0])
    (hcat : Shape.Concatenates [⟨2, ![B, 1]⟩, ⟨2, ![B, 6]⟩] ⟨2, ![B, 7]⟩ 1)
    (hs1 : (⟨3, ![24, 7, 7]⟩ : Shape).Slices ![j, 0, 0] ⟨3, ![1, 7, 7]⟩) (hc1 : (⟨3, ![1, 7, 7]⟩ : Shape).ShapeCasts ⟨2, ![7, 7]⟩)
    (ht1 : (⟨2, ![7, 7]⟩ : Shape).Transposes [1, 0] ⟨2, ![7, 7]⟩)
    (D : DotDims ⟨2, ![B, 7]⟩ ⟨2, ![7, 7]⟩ ⟨2, ![B, 7]⟩)
    (hs2 : (⟨2, ![24, 7]⟩ : Shape).Slices ![j, 0] ⟨2, ![1, 7]⟩) (hc2 : (⟨2, ![1, 7]⟩ : Shape).ShapeCasts ⟨1, ![7]⟩)
    (h21 : (⟨1, ![7]⟩ : Shape).BroadcastsInDim ⟨2, ![1, 7]⟩ ![1]) (h22 : (⟨2, ![1, 7]⟩ : Shape).BroadcastsInDim ⟨2, ![B, 7]⟩ ![0, 1])
    (hz : (⟨0, ![]⟩ : Shape).BroadcastsInDim ⟨2, ![B, 7]⟩ ![])
    (pf : FVec Ideal ⟨2, ![B, 6]⟩ .f32) : FVec Ideal ⟨2, ![B, 7]⟩ .f32 :=
  reluH (addf (Host.dotGeneral D none
      (concatenate ⟨2, ![B, 7]⟩ 1 [⟨⟨2, ![B, 1]⟩, xcol j x0 hs0 hc0 hb0⟩, ⟨⟨2, ![B, 6]⟩, pf⟩] hcat)
      (wT j x1 hs1 hc1 ht1)) (brow j x2 hs2 hc2 h21 h22)) hz

theorem hidH_apply (j : Nat) (hj : j < 24) (x0 : FVec Ideal ⟨2, ![B, 24]⟩ .f32) (x1 : FVec Ideal ⟨3, ![24, 7, 7]⟩ .f32)
    (x2 : FVec Ideal ⟨2, ![24, 7]⟩ .f32) (hs0 hc0 hb0 hcat hs1 hc1 ht1)
    (D : DotDims ⟨2, ![B, 7]⟩ ⟨2, ![7, 7]⟩ ⟨2, ![B, 7]⟩) (hD : D = DotDims.plain B 7 7) (hs2 hc2 h21 h22 hz)
    (pf : FVec Ideal ⟨2, ![B, 6]⟩ .f32) (p : Fin B) (k : Fin 7) :
    hidH j x0 x1 x2 hs0 hc0 hb0 hcat hs1 hc1 ht1 D hs2 hc2 h21 h22 hz pf (ix2 p k)
      = hidJ (fun k l => x1 (ix3 ⟨j, hj⟩ k l)) (fun k => x2 (ix2 ⟨j, hj⟩ k))
          (joined (x0 (ix2 p ⟨j, hj⟩)) (fun l => pf (ix2 p l))) k := by
  subst hD
  unfold hidH hidJ
  rw [reluH_apply, addf_apply, brow_apply j hj]
  show max (FloatOps.dotGeneral (DotDims.plain B 7 7) _ _ _ _ (ix2 p k) + _) 0 = _
  rw [Cert.Lib.PlainDot.dotGeneral_apply]
  congr 2
  refine Finset.sum_congr rfl fun l _ => ?_
  rw [wT_apply j hj]
  congr 1
  refine Fin.cases ?_ (fun l' => ?_) l
  · rw [Cert.Lib.ConcatRead.cols_left _ _ hcat p (0 : Fin 7) (0 : Fin 1) rfl, xcol_apply j hj]
    rfl
  · rw [Cert.Lib.ConcatRead.cols_right _ _ hcat p l'.succ l' (by show l'.val + 1 = l'.val + 1; rfl)]
    rfl

/-- The second layer: the hidden layer times the transposed weights, plus the bias row, positive part. -/
def outH (j : Nat) (x3 : FVec Ideal ⟨3, ![24, 6, 7]⟩ .f32) (x4 : FVec Ideal ⟨2, ![24, 6]⟩ .f32)
    (hs3 : (⟨3, ![24, 6, 7]⟩ : Shape).Slices ![j, 0, 0] ⟨3, ![1, 6, 7]⟩) (hc3 : (⟨3, ![1, 6, 7]⟩ : Shape).ShapeCasts ⟨2, ![6, 7]⟩)
    (ht3 : (⟨2, ![6, 7]⟩ : Shape).Transposes [1, 0] ⟨2, ![7, 6]⟩)
    (D : DotDims ⟨2, ![B, 7]⟩ ⟨2, ![7, 6]⟩ ⟨2, ![B, 6]⟩)
    (hs4 : (⟨2, ![24, 6]⟩ : Shape).Slices ![j, 0] ⟨2, ![1, 6]⟩) (hc4 : (⟨2, ![1, 6]⟩ : Shape).ShapeCasts ⟨1, ![6]⟩)
    (h41 : (⟨1, ![6]⟩ : Shape).BroadcastsInDim ⟨2, ![1, 6]⟩ ![1]) (h42 : (⟨2, ![1, 6]⟩ : Shape).BroadcastsInDim ⟨2, ![B, 6]⟩ ![0, 1])
    (hz : (⟨0, ![]⟩ : Shape).BroadcastsInDim ⟨2, ![B, 6]⟩ ![])
    (h : FVec Ideal ⟨2, ![B, 7]⟩ .f32) : FVec Ideal ⟨2, ![B, 6]⟩ .f32 :=
  reluH (addf (Host.dotGeneral D none h (wT j x3 hs3 hc3 ht3)) (brow j x4 hs4 hc4 h41 h42)) hz

theorem outH_apply (j : Nat) (hj : j < 24) (x3 : FVec Ideal ⟨3, ![24, 6, 7]⟩ .f32) (x4 : FVec Ideal ⟨2, ![24, 6]⟩ .f32)
    (hs3 hc3 ht3) (D : DotDims ⟨2, ![B, 7]⟩ ⟨2, ![7, 6]⟩ ⟨2, ![B, 6]⟩) (hD : D = DotDims.plain B 7 6) (hs4 hc4 h41 h42 hz)
    (h : FVec Ideal ⟨2, ![B, 7]⟩ .f32) (p : Fin B) (r : Fin 6) :
    outH j x3 x4 hs3 hc3 ht3 D hs4 hc4 h41 h42 hz h (ix2 p r)
      = outJ (fun r k => x3 (ix3 ⟨j, hj⟩ r k)) (fun r => x4 (ix2 ⟨j, hj⟩ r)) (fun k => h (ix2 p k)) r := by
  subst hD
  unfold outH outJ
  rw [reluH_apply, addf_apply, brow_apply j hj]
  show max (FloatOps.dotGeneral (DotDims.plain B 7 6) _ _ _ _ (ix2 p r) + _) 0 = _
  rw [Cert.Lib.PlainDot.dotGeneral_apply]
  congr 2
  refine Finset.sum_congr rfl fun k _ => ?_
  rw [wT_apply j hj]

end Cert.RefJoint

end
-- ==== Proof.RefTree.lean ====
/-
  The host reference's 24 joints over the whole batch, each read at an entry, and the result array.

  `rF j` is joint `j`'s `500000 × 6` array of features as the host program spells it, from its parent's; at batch row `p`
  it is the specification's `f j` of row `p` of the arguments.  The result puts the 24 arrays side by side (sixteen, then
  eight, then the two halves), so its entry `(p, n)` is feature `n % 6` of joint `n / 6`: the function `G`.
-/
import proofs.«172863_j7009386627271_2_alg».proof.Proof.Gen.ReferenceIdeal
import proofs.«172863_j7009386627271_2_alg».proof.Proof.RefJoint
import proofs.«172863_j7009386627271_2_alg».proof.Proof.TreeRow

noncomputable section

namespace Cert.ReferenceIdeal.Tree

open Cert.ReferenceIdeal Cert.ReferenceIdeal.Gen Idealize.ShloMosaic Idealize.ShloMosaic.ValueIdx Cert.TreeSpec

variable (x0 : FVec Ideal S500000x24 .f32) (x1 : FVec Ideal S24x7x7 .f32) (x2 : FVec Ideal S24x7 .f32)
  (x3 : FVec Ideal S24x6x7 .f32) (x4 : FVec Ideal S24x6 .f32)

/-- A joint with a parent, as the host spells it. -/
def rChild (j : Nat) (hs0 : S500000x24.Slices ![0, j] S500000x1) (hs1 : S24x7x7.Slices ![j, 0, 0] S1x7x7)
    (hs2 : S24x7.Slices ![j, 0] S1x7) (hs3 : S24x6x7.Slices ![j, 0, 0] S1x6x7) (hs4 : S24x6.Slices ![j, 0] S1x6)
    (pf : FVec Ideal S500000x6 .f32) : FVec Ideal S500000x6 .f32 :=
  Cert.RefJoint.outH j x3 x4 hs3 shapeCasts_S1x6x7_S6x7 transposes_S6x7_S7x6_1_0 dot_S500000x7_S7x6_S500000x6_1_0_0_1_n_n
    hs4 shapeCasts_S1x6_S6 bcast_S6_S1x6_1 bcast_S1x6_S500000x6_0_1 bcast_S_S500000x6
    (Cert.RefJoint.hidH j x0 x1 x2 hs0 shapeCasts_S500000x1_S500000 bcast_S500000_S500000x1_0
      concatenates_S500000x1_S500000x6_S500000x7_d1 hs1 shapeCasts_S1x7x7_S7x7 transposes_S7x7_S7x7_1_0
      dot_S500000x7_S7x7_S500000x7_1_0_0_1_n_n hs2 shapeCasts_S1x7_S7 bcast_S7_S1x7_1 bcast_S1x7_S500000x7_0_1
      bcast_S_S500000x7 pf)

/-- The root: zeros in the parent's place. -/
def rRoot (j : Nat) (hs0 : S500000x24.Slices ![0, j] S500000x1) (hs1 : S24x7x7.Slices ![j, 0, 0] S1x7x7)
    (hs2 : S24x7.Slices ![j, 0] S1x7) (hs3 : S24x6x7.Slices ![j, 0, 0] S1x6x7) (hs4 : S24x6.Slices ![j, 0] S1x6) :
    FVec Ideal S500000x6 .f32 :=
  rChild x0 x1 x2 x3 x4 j hs0 hs1 hs2 hs3 hs4 (Cert.RefJoint.zeros S500000x6 bcast_S_S500000x6)

theorem rChild_apply (j : Nat) (hj : j < 24) (hs0 hs1 hs2 hs3 hs4) (pf : FVec Ideal S500000x6 .f32)
    (P : Fin 500000 → Fin 6 → EReal) (hpf : ∀ p l, pf (ix2 p l) = P p l) (p : Fin 500000) (r : Fin 6) :
    rChild x0 x1 x2 x3 x4 j hs0 hs1 hs2 hs3 hs4 pf (ix2 p r) = (rowA x0 x1 x2 x3 x4 p).child ⟨j, hj⟩ (P p) r := by
  unfold rChild Row.child
  refine (Cert.RefJoint.outH_apply j hj x3 x4 hs3 _ _ dot_S500000x7_S7x6_S500000x6_1_0_0_1_n_n rfl hs4 _ _ _ _ _ p r).trans ?_
  rw [outJ_eq]
  refine congrArg (fun h => outL _ _ h r) (funext fun k => ?_)
  refine (Cert.RefJoint.hidH_apply j hj x0 x1 x2 hs0 _ _ _ hs1 _ _ dot_S500000x7_S7x7_S500000x7_1_0_0_1_n_n rfl hs2 _ _ _ _ pf p k).trans ?_
  rw [hidJ_joined]
  exact congrArg (fun g => hidC _ _ _ g k) (funext fun l => hpf p l)

theorem rRoot_apply (j : Nat) (hj : j < 24) (hs0 hs1 hs2 hs3 hs4) (p : Fin 500000) (r : Fin 6) :
    rRoot x0 x1 x2 x3 x4 j hs0 hs1 hs2 hs3 hs4 (ix2 p r) = (rowA x0 x1 x2 x3 x4 p).root ⟨j, hj⟩ r := by
  unfold rRoot rChild Row.root
  refine (Cert.RefJoint.outH_apply j hj x3 x4 hs3 _ _ dot_S500000x7_S7x6_S500000x6_1_0_0_1_n_n rfl hs4 _ _ _ _ _ p r).trans ?_
  rw [outJ_eq]
  refine congrArg (fun h => outL _ _ h r) (funext fun k => ?_)
  refine (Cert.RefJoint.hidH_apply j hj x0 x1 x2 hs0 _ _ _ hs1 _ _ dot_S500000x7_S7x7_S500000x7_1_0_0_1_n_n rfl hs2 _ _ _ _ _ p k).trans ?_
  have hz : (fun l : Fin 6 => Cert.RefJoint.zeros S500000x6 bcast_S_S500000x6 (ix2 p l)) = fun _ => (0 : EReal) :=
    funext fun l => Cert.RefJoint.zeros_apply _ _ _
  rw [hz, hidJ_root]
  rfl

/-! The 24 joints, each from its parent's array. -/
def rF0 : FVec Ideal S500000x6 .f32 := rRoot x0 x1 x2 x3 x4 0 slices_S500000x24_S500000x1_0_0 slices_S24x7x7_S1x7x7_0_0_0 slices_S24x7_S1x7_0_0 slices_S24x6x7_S1x6x7_0_0_0 slices_S24x6_S1x6_0_0
def rF1 : FVec Ideal S500000x6 .f32 := rChild x0 x1 x2 x3 x4 1 slices_S500000x24_S500000x1_0_1 slices_S24x7x7_S1x7x7_1_0_0 slices_S24x7_S1x7_1_0 slices_S24x6x7_S1x6x7_1_0_0 slices_S24x6_S1x6_1_0 (rF0 x0 x1 x2 x3 x4)
def rF2 : FVec Ideal S500000x6 .f32 := rChild x0 x1 x2 x3 x4 2 slices_S500000x24_S500000x1_0_2 slices_S24x7x7_S1x7x7_2_0_0 slices_S24x7_S1x7_2_0 slices_S24x6x7_S1x6x7_2_0_0 slices_S24x6_S1x6_2_0 (rF0 x0 x1 x2 x3 x4)
def rF3 : FVec Ideal S500000x6 .f32 := rChild x0 x1 x2 x3 x4 3 slices_S500000x24_S500000x1_0_3 slices_S24x7x7_S1x7x7_3_0_0 slices_S24x7_S1x7_3_0 slices_S24x6x7_S1x6x7_3_0_0 slices_S24x6_S1x6_3_0 (rF0 x0 x1 x2 x3 x4)
def rF4 : FVec Ideal S500000x6 .f32 := rChild x0 x1 x2 x3 x4 4 slices_S500000x24_S500000x1_0_4 slices_S24x7x7_S1x7x7_4_0_0 slices_S24x7_S1x7_4_0 slices_S24x6x7_S1x6x7_4_0_0 slices_S24x6_S1x6_4_0 (rF1 x0 x1 x2 x3 x4)
def rF5 : FVec Ideal S500000x6 .f32 := rChild x0 x1 x2 x3 x4 5 slices_S500000x24_S500000x1_0_5 slices_S24x7x7_S1x7x7_5_0_0 slices_S24x7_S1x7_5_0 slices_S24x6x7_S1x6x7_5_0_0 slices_S24x6_S1x6_5_0 (rF2 x0 x1 x2 x3 x4)
def rF6 : FVec Ideal S500000x6 .f32 := rChild x0 x1 x2 x3 x4 6 slices_S500000x24_S500000x1_0_6 slices_S24x7x7_S1x7x7_6_0_0 slices_S24x7_S1x7_6_0 slices_S24x6x7_S1x6x7_6_0_0 slices_S24x6_S1x6_6_0 (rF3 x0 x1 x2 x3 x4)
def rF7 : FVec Ideal S500000x6 .f32 := rChild x0 x1 x2 x3 x4 7 slices_S500000x24_S500000x1_0_7 slices_S24x7x7_S1x7x7_7_0_0 slices_S24x7_S1x7_7_0 slices_S24x6x7_S1x6x7_7_0_0 slices_S24x6_S1x6_7_0 (rF4 x0 x1 x2 x3 x4)
def rF8 : FVec Ideal S500000x6 .f32 := rChild x0 x1 x2 x3 x4 8 slices_S500000x24_S500000x1_0_8 slices_S24x7x7_S1x7x7_8_0_0 slices_S24x7_S1x7_8_0 slices_S24x6x7_S1x6x7_8_0_0 slices_S24x6_S1x6_8_0 (rF5 x0 x1 x2 x3 x4)
def rF9 : FVec Ideal S500000x6 .f32 := rChild x0 x1 x2 x3 x4 9 slices_S500000x24_S500000x1_0_9 slices_S24x7x7_S1x7x7_9_0_0 slices_S24x7_S1x7_9_0 slices_S24x6x7_S1x6x7_9_0_0 slices_S24x6_S1x6_9_0 (rF6 x0 x1 x2 x3 x4)
def rF10 : FVec Ideal S500000x6 .f32 := rChild x0 x1 x2 x3 x4 10 slices_S500000x24_S500000x1_0_10 slices_S24x7x7_S1x7x7_10_0_0 slices_S24x7_S1x7_10_0 slices_S24x6x7_S1x6x7_10_0_0 slices_S24x6_S1x6_10_0 (rF7 x0 x1 x2 x3 x4)
def rF11 : FVec Ideal S500000x6 .f32 := rChild x0 x1 x2 x3 x4 11 slices_S500000x24_S500000x1_0_11 slices_S24x7x7_S1x7x7_11_0_0 slices_S24x7_S1x7_11_0 slices_S24x6x7_S1x6x7_11_0_0 slices_S24x6_S1x6_11_0 (rF8 x0 x1 x2 x3 x4)
def rF12 : FVec Ideal S500000x6 .f32 := rChild x0 x1 x2 x3 x4 12 slices_S500000x24_S500000x1_0_12 slices_S24x7x7_S1x7x7_12_0_0 slices_S24x7_S1x7_12_0 slices_S24x6x7_S1x6x7_12_0_0 slices_S24x6_S1x6_12_0 (rF9 x0 x1 x2 x3 x4)
def rF13 : FVec Ideal S500000x6 .f32 := rChild x0 x1 x2 x3 x4 13 slices_S500000x24_S500000x1_0_13 slices_S24x7x7_S1x7x7_13_0_0 slices_S24x7_S1x7_13_0 slices_S24x6x7_S1x6x7_13_0_0 slices_S24x6_S1x6_13_0 (rF9 x0 x1 x2 x3 x4)
def rF14 : FVec Ideal S500000x6 .f32 := rChild x0 x1 x2 x3 x4 14 slices_S500000x24_S500000x1_0_14 slices_S24x7x7_S1x7x7_14_0_0 slices_S24x7_S1x7_14_0 slices_S24x6x7_S1x6x7_14_0_0 slices_S24x6_S1x6_14_0 (rF9 x0 x1 x2 x3 x4)
def rF15 : FVec Ideal S500000x6 .f32 := rChild x0 x1 x2 x3 x4 15 slices_S500000x24_S500000x1_0_15 slices_S24x7x7_S1x7x7_15_0_0 slices_S24x7_S1x7_15_0 slices_S24x6x7_S1x6x7_15_0_0 slices_S24x6_S1x6_15_0 (rF12 x0 x1 x2 x3 x4)
def rF16 : FVec Ideal S500000x6 .f32 := rChild x0 x1 x2 x3 x4 16 slices_S500000x24_S500000x1_0_16 slices_S24x7x7_S1x7x7_16_0_0 slices_S24x7_S1x7_16_0 slices_S24x6x7_S1x6x7_16_0_0 slices_S24x6_S1x6_16_0 (rF13 x0 x1 x2 x3 x4)
def rF17 : FVec Ideal S500000x6 .f32 := rChild x0 x1 x2 x3 x4 17 slices_S500000x24_S500000x1_0_17 slices_S24x7x7_S1x7x7_17_0_0 slices_S24x7_S1x7_17_0 slices_S24x6x7_S1x6x7_17_0_0 slices_S24x6_S1x6_17_0 (rF14 x0 x1 x2 x3 x4)
def rF18 : FVec Ideal S500000x6 .f32 := rChild x0 x1 x2 x3 x4 18 slices_S500000x24_S500000x1_0_18 slices_S24x7x7_S1x7x7_18_0_0 slices_S24x7_S1x7_18_0 slices_S24x6x7_S1x6x7_18_0_0 slices_S24x6_S1x6_18_0 (rF16 x0 x1 x2 x3 x4)
def rF19 : FVec Ideal S500000x6 .f32 := rChild x0 x1 x2 x3 x4 19 slices_S500000x24_S500000x1_0_19 slices_S24x7x7_S1x7x7_19_0_0 slices_S24x7_S1x7_19_0 slices_S24x6x7_S1x6x7_19_0_0 slices_S24x6_S1x6_19_0 (rF17 x0 x1 x2 x3 x4)
def rF20 : FVec Ideal S500000x6 .f32 := rChild x0 x1 x2 x3 x4 20 slices_S500000x24_S500000x1_0_20 slices_S24x7x7_S1x7x7_20_0_0 slices_S24x7_S1x7_20_0 slices_S24x6x7_S1x6x7_20_0_0 slices_S24x6_S1x6_20_0 (rF18 x0 x1 x2 x3 x4)
def rF21 : FVec Ideal S500000x6 .f32 := rChild x0 x1 x2 x3 x4 21 slices_S500000x24_S500000x1_0_21 slices_S24x7x7_S1x7x7_21_0_0 slices_S24x7_S1x7_21_0 slices_S24x6x7_S1x6x7_21_0_0 slices_S24x6_S1x6_21_0 (rF19 x0 x1 x2 x3 x4)
def rF22 : FVec Ideal S500000x6 .f32 := rChild x0 x1 x2 x3 x4 22 slices_S500000x24_S500000x1_0_22 slices_S24x7x7_S1x7x7_22_0_0 slices_S24x7_S1x7_22_0 slices_S24x6x7_S1x6x7_22_0_0 slices_S24x6_S1x6_22_0 (rF20 x0 x1 x2 x3 x4)
def rF23 : FVec Ideal S500000x6 .f32 := rChild x0 x1 x2 x3 x4 23 slices_S500000x24_S500000x1_0_23 slices_S24x7x7_S1x7x7_23_0_0 slices_S24x7_S1x7_23_0 slices_S24x6x7_S1x6x7_23_0_0 slices_S24x6_S1x6_23_0 (rF21 x0 x1 x2 x3 x4)

theorem rF0_apply (p : Fin 500000) (r : Fin 6) : rF0 x0 x1 x2 x3 x4 (ix2 p r) = (rowA x0 x1 x2 x3 x4 p).f0 r :=
  rRoot_apply x0 x1 x2 x3 x4 0 (by decide) _ _ _ _ _ p r
theorem rF1_apply (p : Fin 500000) (r : Fin 6) : rF1 x0 x1 x2 x3 x4 (ix2 p r) = (rowA x0 x1 x2 x3 x4 p).f1 r :=
  rChild_apply x0 x1 x2 x3 x4 1 (by decide) _ _ _ _ _ _ (fun p => (rowA x0 x1 x2 x3 x4 p).f0) (rF0_apply x0 x1 x2 x3 x4) p r
theorem rF2_apply (p : Fin 500000) (r : Fin 6) : rF2 x0 x1 x2 x3 x4 (ix2 p r) = (rowA x0 x1 x2 x3 x4 p).f2 r :=
  rChild_apply x0 x1 x2 x3 x4 2 (by decide) _ _ _ _ _ _ (fun p => (rowA x0 x1 x2 x3 x4 p).f0) (rF0_apply x0 x1 x2 x3 x4) p r
theorem rF3_apply (p : Fin 500000) (r : Fin 6) : rF3 x0 x1 x2 x3 x4 (ix2 p r) = (rowA x0 x1 x2 x3 x4 p).f3 r :=
  rChild_apply x0 x1 x2 x3 x4 3 (by decide) _ _ _ _ _ _ (fun p => (rowA x0 x1 x2 x3 x4 p).f0) (rF0_apply x0 x1 x2 x3 x4) p r
theorem rF4_apply (p : Fin 500000) (r : Fin 6) : rF4 x0 x1 x2 x3 x4 (ix2 p r) = (rowA x0 x1 x2 x3 x4 p).f4 r :=
  rChild_apply x0 x1 x2 x3 x4 4 (by decide) _ _ _ _ _ _ (fun p => (rowA x0 x1 x2 x3 x4 p).f1) (rF1_apply x0 x1 x2 x3 x4) p r
theorem rF5_apply (p : Fin 500000) (r : Fin 6) : rF5 x0 x1 x2 x3 x4 (ix2 p r) = (rowA x0 x1 x2 x3 x4 p).f5 r :=
  rChild_apply x0 x1 x2 x3 x4 5 (by decide) _ _ _ _ _ _ (fun p => (rowA x0 x1 x2 x3 x4 p).f2) (rF2_apply x0 x1 x2 x3 x4) p r
theorem rF6_apply (p : Fin 500000) (r : Fin 6) : rF6 x0 x1 x2 x3 x4 (ix2 p r) = (rowA x0 x1 x2 x3 x4 p).f6 r :=
  rChild_apply x0 x1 x2 x3 x4 6 (by decide) _ _ _ _ _ _ (fun p => (rowA x0 x1 x2 x3 x4 p).f3) (rF3_apply x0 x1 x2 x3 x4) p r
theorem rF7_apply (p : Fin 500000) (r : Fin 6) : rF7 x0 x1 x2 x3 x4 (ix2 p r) = (rowA x0 x1 x2 x3 x4 p).f7 r :=
  rChild_apply x0 x1 x2 x3 x4 7 (by decide) _ _ _ _ _ _ (fun p => (rowA x0 x1 x2 x3 x4 p).f4) (rF4_apply x0 x1 x2 x3 x4) p r
theorem rF8_apply (p : Fin 500000) (r : Fin 6) : rF8 x0 x1 x2 x3 x4 (ix2 p r) = (rowA x0 x1 x2 x3 x4 p).f8 r :=
  rChild_apply x0 x1 x2 x3 x4 8 (by decide) _ _ _ _ _ _ (fun p => (rowA x0 x1 x2 x3 x4 p).f5) (rF5_apply x0 x1 x2 x3 x4) p r
theorem rF9_apply (p : Fin 500000) (r : Fin 6) : rF9 x0 x1 x2 x3 x4 (ix2 p r) = (rowA x0 x1 x2 x3 x4 p).f9 r :=
  rChild_apply x0 x1 x2 x3 x4 9 (by decide) _ _ _ _ _ _ (fun p => (rowA x0 x1 x2 x3 x4 p).f6) (rF6_apply x0 x1 x2 x3 x4) p r
theorem rF10_apply (p : Fin 500000) (r : Fin 6) : rF10 x0 x1 x2 x3 x4 (ix2 p r) = (rowA x0 x1 x2 x3 x4 p).f10 r :=
  rChild_apply x0 x1 x2 x3 x4 10 (by decide) _ _ _ _ _ _ (fun p => (rowA x0 x1 x2 x3 x4 p).f7) (rF7_apply x0 x1 x2 x3 x4) p r
theorem rF11_apply (p : Fin 500000) (r : Fin 6) : rF11 x0 x1 x2 x3 x4 (ix2 p r) = (rowA x0 x1 x2 x3 x4 p).f11 r :=
  rChild_apply x0 x1 x2 x3 x4 11 (by decide) _ _ _ _ _ _ (fun p => (rowA x0 x1 x2 x3 x4 p).f8) (rF8_apply x0 x1 x2 x3 x4) p r
theorem rF12_apply (p : Fin 500000) (r : Fin 6) : rF12 x0 x1 x2 x3 x4 (ix2 p r) = (rowA x0 x1 x2 x3 x4 p).f12 r :=
  rChild_apply x0 x1 x2 x3 x4 12 (by decide) _ _ _ _ _ _ (fun p => (rowA x0 x1 x2 x3 x4 p).f9) (rF9_apply x0 x1 x2 x3 x4) p r
theorem rF13_apply (p : Fin 500000) (r : Fin 6) : rF13 x0 x1 x2 x3 x4 (ix2 p r) = (rowA x0 x1 x2 x3 x4 p).f13 r :=
  rChild_apply x0 x1 x2 x3 x4 13 (by decide) _ _ _ _ _ _ (fun p => (rowA x0 x1 x2 x3 x4 p).f9) (rF9_apply x0 x1 x2 x3 x4) p r
theorem rF14_apply (p : Fin 500000) (r : Fin 6) : rF14 x0 x1 x2 x3 x4 (ix2 p r) = (rowA x0 x1 x2 x3 x4 p).f14 r :=
  rChild_apply x0 x1 x2 x3 x4 14 (by decide) _ _ _ _ _ _ (fun p => (rowA x0 x1 x2 x3 x4 p).f9) (rF9_apply x0 x1 x2 x3 x4) p r
theorem rF15_apply (p : Fin 500000) (r : Fin 6) : rF15 x0 x1 x2 x3 x4 (ix2 p r) = (rowA x0 x1 x2 x3 x4 p).f15 r :=
  rChild_apply x0 x1 x2 x3 x4 15 (by decide) _ _ _ _ _ _ (fun p => (rowA x0 x1 x2 x3 x4 p).f12) (rF12_apply x0 x1 x2 x3 x4) p r
theorem rF16_apply (p : Fin 500000) (r : Fin 6) : rF16 x0 x1 x2 x3 x4 (ix2 p r) = (rowA x0 x1 x2 x3 x4 p).f16 r :=
  rChild_apply x0 x1 x2 x3 x4 16 (by decide) _ _ _ _ _ _ (fun p => (rowA x0 x1 x2 x3 x4 p).f13) (rF13_apply x0 x1 x2 x3 x4) p r
theorem rF17_apply (p : Fin 500000) (r : Fin 6) : rF17 x0 x1 x2 x3 x4 (ix2 p r) = (rowA x0 x1 x2 x3 x4 p).f17 r :=
  rChild_apply x0 x1 x2 x3 x4 17 (by decide) _ _ _ _ _ _ (fun p => (rowA x0 x1 x2 x3 x4 p).f14) (rF14_apply x0 x1 x2 x3 x4) p r
theorem rF18_apply (p : Fin 500000) (r : Fin 6) : rF18 x0 x1 x2 x3 x4 (ix2 p r) = (rowA x0 x1 x2 x3 x4 p).f18 r :=
  rChild_apply x0 x1 x2 x3 x4 18 (by decide) _ _ _ _ _ _ (fun p => (rowA x0 x1 x2 x3 x4 p).f16) (rF16_apply x0 x1 x2 x3 x4) p r
theorem rF19_apply (p : Fin 500000) (r : Fin 6) : rF19 x0 x1 x2 x3 x4 (ix2 p r) = (rowA x0 x1 x2 x3 x4 p).f19 r :=
  rChild_apply x0 x1 x2 x3 x4 19 (by decide) _ _ _ _ _ _ (fun p => (rowA x0 x1 x2 x3 x4 p).f17) (rF17_apply x0 x1 x2 x3 x4) p r
theorem rF20_apply (p : Fin 500000) (r : Fin 6) : rF20 x0 x1 x2 x3 x4 (ix2 p r) = (rowA x0 x1 x2 x3 x4 p).f20 r :=
  rChild_apply x0 x1 x2 x3 x4 20 (by decide) _ _ _ _ _ _ (fun p => (rowA x0 x1 x2 x3 x4 p).f18) (rF18_apply x0 x1 x2 x3 x4) p r
theorem rF21_apply (p : Fin 500000) (r : Fin 6) : rF21 x0 x1 x2 x3 x4 (ix2 p r) = (rowA x0 x1 x2 x3 x4 p).f21 r :=
  rChild_apply x0 x1 x2 x3 x4 21 (by decide) _ _ _ _ _ _ (fun p => (rowA x0 x1 x2 x3 x4 p).f19) (rF19_apply x0 x1 x2 x3 x4) p r
theorem rF22_apply (p : Fin 500000) (r : Fin 6) : rF22 x0 x1 x2 x3 x4 (ix2 p r) = (rowA x0 x1 x2 x3 x4 p).f22 r :=
  rChild_apply x0 x1 x2 x3 x4 22 (by decide) _ _ _ _ _ _ (fun p => (rowA x0 x1 x2 x3 x4 p).f20) (rF20_apply x0 x1 x2 x3 x4) p r
theorem rF23_apply (p : Fin 500000) (r : Fin 6) : rF23 x0 x1 x2 x3 x4 (ix2 p r) = (rowA x0 x1 x2 x3 x4 p).f23 r :=
  rChild_apply x0 x1 x2 x3 x4 23 (by decide) _ _ _ _ _ _ (fun p => (rowA x0 x1 x2 x3 x4 p).f21) (rF21_apply x0 x1 x2 x3 x4) p r

/-- The first sixteen joints' arrays. -/
def feats16 : List ((s : Shape) × (s.Idx → Elt Ideal .f32)) :=
  [⟨S500000x6, rF0 x0 x1 x2 x3 x4⟩, ⟨S500000x6, rF1 x0 x1 x2 x3 x4⟩, ⟨S500000x6, rF2 x0 x1 x2 x3 x4⟩, ⟨S500000x6, rF3 x0 x1 x2 x3 x4⟩, ⟨S500000x6, rF4 x0 x1 x2 x3 x4⟩, ⟨S500000x6, rF5 x0 x1 x2 x3 x4⟩, ⟨S500000x6, rF6 x0 x1 x2 x3 x4⟩, ⟨S500000x6, rF7 x0 x1 x2 x3 x4⟩, ⟨S500000x6, rF8 x0 x1 x2 x3 x4⟩, ⟨S500000x6, rF9 x0 x1 x2 x3 x4⟩, ⟨S500000x6, rF10 x0 x1 x2 x3 x4⟩, ⟨S500000x6, rF11 x0 x1 x2 x3 x4⟩, ⟨S500000x6, rF12 x0 x1 x2 x3 x4⟩, ⟨S500000x6, rF13 x0 x1 x2 x3 x4⟩, ⟨S500000x6, rF14 x0 x1 x2 x3 x4⟩, ⟨S500000x6, rF15 x0 x1 x2 x3 x4⟩]

/-- The last eight joints' arrays. -/
def feats8 : List ((s : Shape) × (s.Idx → Elt Ideal .f32)) :=
  [⟨S500000x6, rF16 x0 x1 x2 x3 x4⟩, ⟨S500000x6, rF17 x0 x1 x2 x3 x4⟩, ⟨S500000x6, rF18 x0 x1 x2 x3 x4⟩, ⟨S500000x6, rF19 x0 x1 x2 x3 x4⟩, ⟨S500000x6, rF20 x0 x1 x2 x3 x4⟩, ⟨S500000x6, rF21 x0 x1 x2 x3 x4⟩, ⟨S500000x6, rF22 x0 x1 x2 x3 x4⟩, ⟨S500000x6, rF23 x0 x1 x2 x3 x4⟩]

/-- The result as the host spells it: the 24 arrays side by side. -/
def Gref : FVec Ideal S500000x144 .f32 :=
  concatenate S500000x144 1
    [⟨S500000x96, concatenate S500000x96 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1⟩,
     ⟨S500000x48, concatenate S500000x48 1 (feats8 x0 x1 x2 x3 x4) concatenates_S500000x6_S500000x6_S500000x6_S500000x6_S500000x6_S500000x6_S500000x6_S500000x6_S500000x48_d1⟩]
    concatenates_S500000x96_S500000x48_S500000x144_d1

/-! ## The result read at a column: the half, then the joint whose six columns hold it -/

set_option maxHeartbeats 1000000 in
theorem Gref_read_0 (p : Fin 500000) (n : Fin 144) (r : Fin 6) (hn : n.val = 0 + r.val) :
    Gref x0 x1 x2 x3 x4 (ix2 p n) = rF0 x0 x1 x2 x3 x4 (ix2 p r) := by
  have hr := r.isLt
  unfold Gref
  refine (Cert.Lib.ConcatRead.cols_left _ _ concatenates_S500000x96_S500000x48_S500000x144_d1 p n ⟨n.val, by omega⟩ rfl).trans ?_
  exact concatenate_apply_piece 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1 (ix2 p (⟨n.val, by omega⟩ : Fin 96)) 0 (by show 0 < 16; omega) S500000x6 (rF0 x0 x1 x2 x3 x4) rfl rfl 0 rfl (ix2 p r) (fun b hb => by
    match b with
    | ⟨0, _⟩ => rfl
    | ⟨1, _⟩ => exact absurd rfl hb) (by show 0 + r.val = n.val; omega)

set_option maxHeartbeats 1000000 in
theorem Gref_read_1 (p : Fin 500000) (n : Fin 144) (r : Fin 6) (hn : n.val = 6 + r.val) :
    Gref x0 x1 x2 x3 x4 (ix2 p n) = rF1 x0 x1 x2 x3 x4 (ix2 p r) := by
  have hr := r.isLt
  unfold Gref
  refine (Cert.Lib.ConcatRead.cols_left _ _ concatenates_S500000x96_S500000x48_S500000x144_d1 p n ⟨n.val, by omega⟩ rfl).trans ?_
  exact concatenate_apply_piece 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1 (ix2 p (⟨n.val, by omega⟩ : Fin 96)) 1 (by show 1 < 16; omega) S500000x6 (rF1 x0 x1 x2 x3 x4) rfl rfl 6 rfl (ix2 p r) (fun b hb => by
    match b with
    | ⟨0, _⟩ => rfl
    | ⟨1, _⟩ => exact absurd rfl hb) (by show 6 + r.val = n.val; omega)

set_option maxHeartbeats 1000000 in
theorem Gref_read_2 (p : Fin 500000) (n : Fin 144) (r : Fin 6) (hn : n.val = 12 + r.val) :
    Gref x0 x1 x2 x3 x4 (ix2 p n) = rF2 x0 x1 x2 x3 x4 (ix2 p r) := by
  have hr := r.isLt
  unfold Gref
  refine (Cert.Lib.ConcatRead.cols_left _ _ concatenates_S500000x96_S500000x48_S500000x144_d1 p n ⟨n.val, by omega⟩ rfl).trans ?_
  exact concatenate_apply_piece 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1 (ix2 p (⟨n.val, by omega⟩ : Fin 96)) 2 (by show 2 < 16; omega) S500000x6 (rF2 x0 x1 x2 x3 x4) rfl rfl 12 rfl (ix2 p r) (fun b hb => by
    match b with
    | ⟨0, _⟩ => rfl
    | ⟨1, _⟩ => exact absurd rfl hb) (by show 12 + r.val = n.val; omega)

set_option maxHeartbeats 1000000 in
theorem Gref_read_3 (p : Fin 500000) (n : Fin 144) (r : Fin 6) (hn : n.val = 18 + r.val) :
    Gref x0 x1 x2 x3 x4 (ix2 p n) = rF3 x0 x1 x2 x3 x4 (ix2 p r) := by
  have hr := r.isLt
  unfold Gref
  refine (Cert.Lib.ConcatRead.cols_left _ _ concatenates_S500000x96_S500000x48_S500000x144_d1 p n ⟨n.val, by omega⟩ rfl).trans ?_
  exact concatenate_apply_piece 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1 (ix2 p (⟨n.val, by omega⟩ : Fin 96)) 3 (by show 3 < 16; omega) S500000x6 (rF3 x0 x1 x2 x3 x4) rfl rfl 18 rfl (ix2 p r) (fun b hb => by
    match b with
    | ⟨0, _⟩ => rfl
    | ⟨1, _⟩ => exact absurd rfl hb) (by show 18 + r.val = n.val; omega)

set_option maxHeartbeats 1000000 in
theorem Gref_read_4 (p : Fin 500000) (n : Fin 144) (r : Fin 6) (hn : n.val = 24 + r.val) :
    Gref x0 x1 x2 x3 x4 (ix2 p n) = rF4 x0 x1 x2 x3 x4 (ix2 p r) := by
  have hr := r.isLt
  unfold Gref
  refine (Cert.Lib.ConcatRead.cols_left _ _ concatenates_S500000x96_S500000x48_S500000x144_d1 p n ⟨n.val, by omega⟩ rfl).trans ?_
  exact concatenate_apply_piece 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1 (ix2 p (⟨n.val, by omega⟩ : Fin 96)) 4 (by show 4 < 16; omega) S500000x6 (rF4 x0 x1 x2 x3 x4) rfl rfl 24 rfl (ix2 p r) (fun b hb => by
    match b with
    | ⟨0, _⟩ => rfl
    | ⟨1, _⟩ => exact absurd rfl hb) (by show 24 + r.val = n.val; omega)

set_option maxHeartbeats 1000000 in
theorem Gref_read_5 (p : Fin 500000) (n : Fin 144) (r : Fin 6) (hn : n.val = 30 + r.val) :
    Gref x0 x1 x2 x3 x4 (ix2 p n) = rF5 x0 x1 x2 x3 x4 (ix2 p r) := by
  have hr := r.isLt
  unfold Gref
  refine (Cert.Lib.ConcatRead.cols_left _ _ concatenates_S500000x96_S500000x48_S500000x144_d1 p n ⟨n.val, by omega⟩ rfl).trans ?_
  exact concatenate_apply_piece 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1 (ix2 p (⟨n.val, by omega⟩ : Fin 96)) 5 (by show 5 < 16; omega) S500000x6 (rF5 x0 x1 x2 x3 x4) rfl rfl 30 rfl (ix2 p r) (fun b hb => by
    match b with
    | ⟨0, _⟩ => rfl
    | ⟨1, _⟩ => exact absurd rfl hb) (by show 30 + r.val = n.val; omega)

set_option maxHeartbeats 1000000 in
theorem Gref_read_6 (p : Fin 500000) (n : Fin 144) (r : Fin 6) (hn : n.val = 36 + r.val) :
    Gref x0 x1 x2 x3 x4 (ix2 p n) = rF6 x0 x1 x2 x3 x4 (ix2 p r) := by
  have hr := r.isLt
  unfold Gref
  refine (Cert.Lib.ConcatRead.cols_left _ _ concatenates_S500000x96_S500000x48_S500000x144_d1 p n ⟨n.val, by omega⟩ rfl).trans ?_
  exact concatenate_apply_piece 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1 (ix2 p (⟨n.val, by omega⟩ : Fin 96)) 6 (by show 6 < 16; omega) S500000x6 (rF6 x0 x1 x2 x3 x4) rfl rfl 36 rfl (ix2 p r) (fun b hb => by
    match b with
    | ⟨0, _⟩ => rfl
    | ⟨1, _⟩ => exact absurd rfl hb) (by show 36 + r.val = n.val; omega)

set_option maxHeartbeats 1000000 in
theorem Gref_read_7 (p : Fin 500000) (n : Fin 144) (r : Fin 6) (hn : n.val = 42 + r.val) :
    Gref x0 x1 x2 x3 x4 (ix2 p n) = rF7 x0 x1 x2 x3 x4 (ix2 p r) := by
  have hr := r.isLt
  unfold Gref
  refine (Cert.Lib.ConcatRead.cols_left _ _ concatenates_S500000x96_S500000x48_S500000x144_d1 p n ⟨n.val, by omega⟩ rfl).trans ?_
  exact concatenate_apply_piece 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1 (ix2 p (⟨n.val, by omega⟩ : Fin 96)) 7 (by show 7 < 16; omega) S500000x6 (rF7 x0 x1 x2 x3 x4) rfl rfl 42 rfl (ix2 p r) (fun b hb => by
    match b with
    | ⟨0, _⟩ => rfl
    | ⟨1, _⟩ => exact absurd rfl hb) (by show 42 + r.val = n.val; omega)

set_option maxHeartbeats 1000000 in
theorem Gref_read_8 (p : Fin 500000) (n : Fin 144) (r : Fin 6) (hn : n.val = 48 + r.val) :
    Gref x0 x1 x2 x3 x4 (ix2 p n) = rF8 x0 x1 x2 x3 x4 (ix2 p r) := by
  have hr := r.isLt
  unfold Gref
  refine (Cert.Lib.ConcatRead.cols_left _ _ concatenates_S500000x96_S500000x48_S500000x144_d1 p n ⟨n.val, by omega⟩ rfl).trans ?_
  exact concatenate_apply_piece 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1 (ix2 p (⟨n.val, by omega⟩ : Fin 96)) 8 (by show 8 < 16; omega) S500000x6 (rF8 x0 x1 x2 x3 x4) rfl rfl 48 rfl (ix2 p r) (fun b hb => by
    match b with
    | ⟨0, _⟩ => rfl
    | ⟨1, _⟩ => exact absurd rfl hb) (by show 48 + r.val = n.val; omega)

set_option maxHeartbeats 1000000 in
theorem Gref_read_9 (p : Fin 500000) (n : Fin 144) (r : Fin 6) (hn : n.val = 54 + r.val) :
    Gref x0 x1 x2 x3 x4 (ix2 p n) = rF9 x0 x1 x2 x3 x4 (ix2 p r) := by
  have hr := r.isLt
  unfold Gref
  refine (Cert.Lib.ConcatRead.cols_left _ _ concatenates_S500000x96_S500000x48_S500000x144_d1 p n ⟨n.val, by omega⟩ rfl).trans ?_
  exact concatenate_apply_piece 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1 (ix2 p (⟨n.val, by omega⟩ : Fin 96)) 9 (by show 9 < 16; omega) S500000x6 (rF9 x0 x1 x2 x3 x4) rfl rfl 54 rfl (ix2 p r) (fun b hb => by
    match b with
    | ⟨0, _⟩ => rfl
    | ⟨1, _⟩ => exact absurd rfl hb) (by show 54 + r.val = n.val; omega)

set_option maxHeartbeats 1000000 in
theorem Gref_read_10 (p : Fin 500000) (n : Fin 144) (r : Fin 6) (hn : n.val = 60 + r.val) :
    Gref x0 x1 x2 x3 x4 (ix2 p n) = rF10 x0 x1 x2 x3 x4 (ix2 p r) := by
  have hr := r.isLt
  unfold Gref
  refine (Cert.Lib.ConcatRead.cols_left _ _ concatenates_S500000x96_S500000x48_S500000x144_d1 p n ⟨n.val, by omega⟩ rfl).trans ?_
  exact concatenate_apply_piece 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1 (ix2 p (⟨n.val, by omega⟩ : Fin 96)) 10 (by show 10 < 16; omega) S500000x6 (rF10 x0 x1 x2 x3 x4) rfl rfl 60 rfl (ix2 p r) (fun b hb => by
    match b with
    | ⟨0, _⟩ => rfl
    | ⟨1, _⟩ => exact absurd rfl hb) (by show 60 + r.val = n.val; omega)

set_option maxHeartbeats 1000000 in
theorem Gref_read_11 (p : Fin 500000) (n : Fin 144) (r : Fin 6) (hn : n.val = 66 + r.val) :
    Gref x0 x1 x2 x3 x4 (ix2 p n) = rF11 x0 x1 x2 x3 x4 (ix2 p r) := by
  have hr := r.isLt
  unfold Gref
  refine (Cert.Lib.ConcatRead.cols_left _ _ concatenates_S500000x96_S500000x48_S500000x144_d1 p n ⟨n.val, by omega⟩ rfl).trans ?_
  exact concatenate_apply_piece 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1 (ix2 p (⟨n.val, by omega⟩ : Fin 96)) 11 (by show 11 < 16; omega) S500000x6 (rF11 x0 x1 x2 x3 x4) rfl rfl 66 rfl (ix2 p r) (fun b hb => by
    match b with
    | ⟨0, _⟩ => rfl
    | ⟨1, _⟩ => exact absurd rfl hb) (by show 66 + r.val = n.val; omega)

set_option maxHeartbeats 1000000 in
theorem Gref_read_12 (p : Fin 500000) (n : Fin 144) (r : Fin 6) (hn : n.val = 72 + r.val) :
    Gref x0 x1 x2 x3 x4 (ix2 p n) = rF12 x0 x1 x2 x3 x4 (ix2 p r) := by
  have hr := r.isLt
  unfold Gref
  refine (Cert.Lib.ConcatRead.cols_left _ _ concatenates_S500000x96_S500000x48_S500000x144_d1 p n ⟨n.val, by omega⟩ rfl).trans ?_
  exact concatenate_apply_piece 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1 (ix2 p (⟨n.val, by omega⟩ : Fin 96)) 12 (by show 12 < 16; omega) S500000x6 (rF12 x0 x1 x2 x3 x4) rfl rfl 72 rfl (ix2 p r) (fun b hb => by
    match b with
    | ⟨0, _⟩ => rfl
    | ⟨1, _⟩ => exact absurd rfl hb) (by show 72 + r.val = n.val; omega)

set_option maxHeartbeats 1000000 in
theorem Gref_read_13 (p : Fin 500000) (n : Fin 144) (r : Fin 6) (hn : n.val = 78 + r.val) :
    Gref x0 x1 x2 x3 x4 (ix2 p n) = rF13 x0 x1 x2 x3 x4 (ix2 p r) := by
  have hr := r.isLt
  unfold Gref
  refine (Cert.Lib.ConcatRead.cols_left _ _ concatenates_S500000x96_S500000x48_S500000x144_d1 p n ⟨n.val, by omega⟩ rfl).trans ?_
  exact concatenate_apply_piece 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1 (ix2 p (⟨n.val, by omega⟩ : Fin 96)) 13 (by show 13 < 16; omega) S500000x6 (rF13 x0 x1 x2 x3 x4) rfl rfl 78 rfl (ix2 p r) (fun b hb => by
    match b with
    | ⟨0, _⟩ => rfl
    | ⟨1, _⟩ => exact absurd rfl hb) (by show 78 + r.val = n.val; omega)

set_option maxHeartbeats 1000000 in
theorem Gref_read_14 (p : Fin 500000) (n : Fin 144) (r : Fin 6) (hn : n.val = 84 + r.val) :
    Gref x0 x1 x2 x3 x4 (ix2 p n) = rF14 x0 x1 x2 x3 x4 (ix2 p r) := by
  have hr := r.isLt
  unfold Gref
  refine (Cert.Lib.ConcatRead.cols_left _ _ concatenates_S500000x96_S500000x48_S500000x144_d1 p n ⟨n.val, by omega⟩ rfl).trans ?_
  exact concatenate_apply_piece 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1 (ix2 p (⟨n.val, by omega⟩ : Fin 96)) 14 (by show 14 < 16; omega) S500000x6 (rF14 x0 x1 x2 x3 x4) rfl rfl 84 rfl (ix2 p r) (fun b hb => by
    match b with
    | ⟨0, _⟩ => rfl
    | ⟨1, _⟩ => exact absurd rfl hb) (by show 84 + r.val = n.val; omega)

set_option maxHeartbeats 1000000 in
theorem Gref_read_15 (p : Fin 500000) (n : Fin 144) (r : Fin 6) (hn : n.val = 90 + r.val) :
    Gref x0 x1 x2 x3 x4 (ix2 p n) = rF15 x0 x1 x2 x3 x4 (ix2 p r) := by
  have hr := r.isLt
  unfold Gref
  refine (Cert.Lib.ConcatRead.cols_left _ _ concatenates_S500000x96_S500000x48_S500000x144_d1 p n ⟨n.val, by omega⟩ rfl).trans ?_
  exact concatenate_apply_piece 1 (feats16 x0 x1 x2 x3 x4) concatenates_S500000x6_S500000x6_S500000x6_S500000x6_S500000x6_S500000x6_S500000x6_S500000x6_S500000x6_S500000x6_S500000x6_S500000x6_S500000x6_S500000x6_S500000x6_S500000x6_S500000x96_d1 (ix2 p (⟨n.val, by omega⟩ : Fin 96)) 15 (by show 15 < 16; omega) S500000x6 (rF15 x0 x1 x2 x3 x4) rfl rfl 90 rfl (ix2 p r) (fun b hb => by
    match b with
    | ⟨0, _⟩ => rfl
    | ⟨1, _⟩ => exact absurd rfl hb) (by show 90 + r.val = n.val; omega)

set_option maxHeartbeats 1000000 in
theorem Gref_read_16 (p : Fin 500000) (n : Fin 144) (r : Fin 6) (hn : n.val = 96 + r.val) :
    Gref x0 x1 x2 x3 x4 (ix2 p n) = rF16 x0 x1 x2 x3 x4 (ix2 p r) := by
  have hr := r.isLt
  unfold Gref
  refine (Cert.Lib.ConcatRead.cols_right _ _ concatenates_S500000x96_S500000x48_S500000x144_d1 p n ⟨n.val - 96, by omega⟩ (by show n.val - 96 + 96 = n.val; omega)).trans ?_
  exact concatenate_apply_piece 1 (feats8 x0 x1 x2 x3 x4) concatenates_S500000x6_S500000x6_S500000x6_S500000x6_S500000x6_S500000x6_S500000x6_S500000x6_S500000x48_d1 (ix2 p (⟨n.val - 96, by omega⟩ : Fin 48)) 0 (by show 0 < 8; omega) S500000x6 (rF16 x0 x1 x2 x3 x4) rfl rfl 0 rfl (ix2 p r) (fun b hb => by
    match b with
    | ⟨0, _⟩ => rfl
    | ⟨1, _⟩ => exact absurd rfl hb) (by show 0 + r.val = n.val - 96; omega)

set_option maxHeartbeats 1000000 in
theorem Gref_read_17 (p : Fin 500000) (n : Fin 144) (r : Fin 6) (hn : n.val = 102 + r.val) :
    Gref x0 x1 x2 x3 x4 (ix2 p n) = rF17 x0 x1 x2 x3 x4 (ix2 p r) := by
  have hr := r.isLt
  unfold Gref
  refine (Cert.Lib.ConcatRead.cols_right _ _ concatenates_S500000x96_S500000x48_S500000x144_d1 p n ⟨n.val - 96, by omega⟩ (by show n.val - 96 + 96 = n.val; omega)).trans ?_
  exact concatenate_apply_piece 1 (feats8 x0 x1 x2 x3 x4) concatenates_S500000x6_S500000x6_S500000x6_S500000x6_S500000x6_S500000x6_S500000x6_S500000x6_S500000x48_d1 (ix2 p (⟨n.val - 96, by omega⟩ : Fin 48)) 1 (by show 1 < 8; omega) S500000x6 (rF17 x0 x1 x2 x3 x4) rfl rfl 6 rfl (ix2 p r) (fun b hb => by
    match b with
    | ⟨0, _⟩ => rfl
    | ⟨1, _⟩ => exact absurd rfl hb) (by show 6 + r.val = n.val - 96; omega)

set_option maxHeartbeats 1000000 in
theorem Gref_read_18 (p : Fin 500000) (n : Fin 144) (r : Fin 6) (hn : n.val = 108 + r.val) :
    Gref x0 x1 x2 x3 x4 (ix2 p n) = rF18 x0 x1 x2 x3 x4 (ix2 p r) := by
  have hr := r.isLt
  unfold Gref
  refine (Cert.Lib.ConcatRead.cols_right _ _ concatenates_S500000x96_S500000x48_S500000x144_d1 p n ⟨n.val - 96, by omega⟩ (by show n.val - 96 + 96 = n.val; omega)).trans ?_
  exact concatenate_apply_piece 1 (feats8 x0 x1 x2 x3 x4) concatenates_S500000x6_S500000x6_S500000x6_S500000x6_S500000x6_S500000x6_S500000x6_S500000x6_S500000x48_d1 (ix2 p (⟨n.val - 96, by omega⟩ : Fin 48)) 2 (by show 2 < 8; omega) S500000x6 (rF18 x0 x1 x2 x3 x4) rfl rfl 12 rfl (ix2 p r) (fun b hb => by
    match b with
    | ⟨0, _⟩ => rfl
    | ⟨1, _⟩ => exact absurd rfl hb) (by show 12 + r.val = n.val - 96; omega)

set_option maxHeartbeats 1000000 in
theorem Gref_read_19 (p : Fin 500000) (n : Fin 144) (r : Fin 6) (hn : n.val = 114 + r.val) :
    Gref x0 x1 x2 x3 x4 (ix2 p n) = rF19 x0 x1 x2 x3 x4 (ix2 p r) := by
  have hr := r.isLt
  unfold Gref
  refine (Cert.Lib.ConcatRead.cols_right _ _ concatenates_S500000x96_S500000x48_S500000x144_d1 p n ⟨n.val - 96, by omega⟩ (by show n.val - 96 + 96 = n.val; omega)).trans ?_
  exact concatenate_apply_piece 1 (feats8 x0 x1 x2 x3 x4) concatenates_S500000x6_S500000x6_S500000x6_S500000x6_S500000x6_S500000x6_S500000x6_S500000x6_S500000x48_d1 (ix2 p (⟨n.val - 96, by omega⟩ : Fin 48)) 3 (by show 3 < 8; omega) S500000x6 (rF19 x0 x1 x2 x3 x4) rfl rfl 18 rfl (ix2 p r) (fun b hb => by
    match b with
    | ⟨0, _⟩ => rfl
    | ⟨1, _⟩ => exact absurd rfl hb) (by show 18 + r.val = n.val - 96; omega)

set_option maxHeartbeats 1000000 in
theorem Gref_read_20 (p : Fin 500000) (n : Fin 144) (r : Fin 6) (hn : n.val = 120 + r.val) :
    Gref x0 x1 x2 x3 x4 (ix2 p n) = rF20 x0 x1 x2 x3 x4 (ix2 p r) := by
  have hr := r.isLt
  unfold Gref
  refine (Cert.Lib.ConcatRead.cols_right _ _ concatenates_S500000x96_S500000x48_S500000x144_d1 p n ⟨n.val - 96, by omega⟩ (by show n.val - 96 + 96 = n.val; omega)).trans ?_
  exact concatenate_apply_piece 1 (feats8 x0 x1 x2 x3 x4) concatenates_S500000x6_S500000x6_S500000x6_S500000x6_S500000x6_S500000x6_S500000x6_S500000x6_S500000x48_d1 (ix2 p (⟨n.val - 96, by omega⟩ : Fin 48)) 4 (by show 4 < 8; omega) S500000x6 (rF20 x0 x1 x2 x3 x4) rfl rfl 24 rfl (ix2 p r) (fun b hb => by
    match b with
    | ⟨0, _⟩ => rfl
    | ⟨1, _⟩ => exact absurd rfl hb) (by show 24 + r.val = n.val - 96; omega)

set_option maxHeartbeats 1000000 in
theorem Gref_read_21 (p : Fin 500000) (n : Fin 144) (r : Fin 6) (hn : n.val = 126 + r.val) :
    Gref x0 x1 x2 x3 x4 (ix2 p n) = rF21 x0 x1 x2 x3 x4 (ix2 p r) := by
  have hr := r.isLt
  unfold Gref
  refine (Cert.Lib.ConcatRead.cols_right _ _ concatenates_S500000x96_S500000x48_S500000x144_d1 p n ⟨n.val - 96, by omega⟩ (by show n.val - 96 + 96 = n.val; omega)).trans ?_
  exact concatenate_apply_piece 1 (feats8 x0 x1 x2 x3 x4) concatenates_S500000x6_S500000x6_S500000x6_S500000x6_S500000x6_S500000x6_S500000x6_S500000x6_S500000x48_d1 (ix2 p (⟨n.val - 96, by omega⟩ : Fin 48)) 5 (by show 5 < 8; omega) S500000x6 (rF21 x0 x1 x2 x3 x4) rfl rfl 30 rfl (ix2 p r) (fun b hb => by
    match b with
    | ⟨0, _⟩ => rfl
    | ⟨1, _⟩ => exact absurd rfl hb) (by show 30 + r.val = n.val - 96; omega)

set_option maxHeartbeats 1000000 in
theorem Gref_read_22 (p : Fin 500000) (n : Fin 144) (r : Fin 6) (hn : n.val = 132 + r.val) :
    Gref x0 x1 x2 x3 x4 (ix2 p n) = rF22 x0 x1 x2 x3 x4 (ix2 p r) := by
  have hr := r.isLt
  unfold Gref
  refine (Cert.Lib.ConcatRead.cols_right _ _ concatenates_S500000x96_S500000x48_S500000x144_d1 p n ⟨n.val - 96, by omega⟩ (by show n.val - 96 + 96 = n.val; omega)).trans ?_
  exact concatenate_apply_piece 1 (feats8 x0 x1 x2 x3 x4) concatenates_S500000x6_S500000x6_S500000x6_S500000x6_S500000x6_S500000x6_S500000x6_S500000x6_S500000x48_d1 (ix2 p (⟨n.val - 96, by omega⟩ : Fin 48)) 6 (by show 6 < 8; omega) S500000x6 (rF22 x0 x1 x2 x3 x4) rfl rfl 36 rfl (ix2 p r) (fun b hb => by
    match b with
    | ⟨0, _⟩ => rfl
    | ⟨1, _⟩ => exact absurd rfl hb) (by show 36 + r.val = n.val - 96; omega)

set_option maxHeartbeats 1000000 in
theorem Gref_read_23 (p : Fin 500000) (n : Fin 144) (r : Fin 6) (hn : n.val = 138 + r.val) :
    Gref x0 x1 x2 x3 x4 (ix2 p n) = rF23 x0 x1 x2 x3 x4 (ix2 p r) := by
  have hr := r.isLt
  unfold Gref
  refine (Cert.Lib.ConcatRead.cols_right _ _ concatenates_S500000x96_S500000x48_S500000x144_d1 p n ⟨n.val - 96, by omega⟩ (by show n.val - 96 + 96 = n.val; omega)).trans ?_
  exact concatenate_apply_piece 1 (feats8 x0 x1 x2 x3 x4) concatenates_S500000x6_S500000x6_S500000x6_S500000x6_S500000x6_S500000x6_S500000x6_S500000x6_S500000x48_d1 (ix2 p (⟨n.val - 96, by omega⟩ : Fin 48)) 7 (by show 7 < 8; omega) S500000x6 (rF23 x0 x1 x2 x3 x4) rfl rfl 42 rfl (ix2 p r) (fun b hb => by
    match b with
    | ⟨0, _⟩ => rfl
    | ⟨1, _⟩ => exact absurd rfl hb) (by show 42 + r.val = n.val - 96; omega)

/-- Its entry `(p, n)` is result `n` of batch row `p`. -/
theorem Gref_apply (p : Fin 500000) (n : Fin 144) :
    Gref x0 x1 x2 x3 x4 (ix2 p n) = (rowA x0 x1 x2 x3 x4 p).out n := by
  have key : ∀ (j : Fin 24) (r : Fin 6), n.val = 6 * j.val + r.val →
      Gref x0 x1 x2 x3 x4 (ix2 p n) = (rowA x0 x1 x2 x3 x4 p).feat j r := by
    intro j r h
    match j with
    | ⟨0, _⟩ => exact (Gref_read_0 x0 x1 x2 x3 x4 p n r (by have h' : n.val = 6 * 0 + r.val := h; omega)).trans (rF0_apply x0 x1 x2 x3 x4 p r)
    | ⟨1, _⟩ => exact (Gref_read_1 x0 x1 x2 x3 x4 p n r (by have h' : n.val = 6 * 1 + r.val := h; omega)).trans (rF1_apply x0 x1 x2 x3 x4 p r)
    | ⟨2, _⟩ => exact (Gref_read_2 x0 x1 x2 x3 x4 p n r (by have h' : n.val = 6 * 2 + r.val := h; omega)).trans (rF2_apply x0 x1 x2 x3 x4 p r)
    | ⟨3, _⟩ => exact (Gref_read_3 x0 x1 x2 x3 x4 p n r (by have h' : n.val = 6 * 3 + r.val := h; omega)).trans (rF3_apply x0 x1 x2 x3 x4 p r)
    | ⟨4, _⟩ => exact (Gref_read_4 x0 x1 x2 x3 x4 p n r (by have h' : n.val = 6 * 4 + r.val := h; omega)).trans (rF4_apply x0 x1 x2 x3 x4 p r)
    | ⟨5, _⟩ => exact (Gref_read_5 x0 x1 x2 x3 x4 p n r (by have h' : n.val = 6 * 5 + r.val := h; omega)).trans (rF5_apply x0 x1 x2 x3 x4 p r)
    | ⟨6, _⟩ => exact (Gref_read_6 x0 x1 x2 x3 x4 p n r (by have h' : n.val = 6 * 6 + r.val := h; omega)).trans (rF6_apply x0 x1 x2 x3 x4 p r)
    | ⟨7, _⟩ => exact (Gref_read_7 x0 x1 x2 x3 x4 p n r (by have h' : n.val = 6 * 7 + r.val := h; omega)).trans (rF7_apply x0 x1 x2 x3 x4 p r)
    | ⟨8, _⟩ => exact (Gref_read_8 x0 x1 x2 x3 x4 p n r (by have h' : n.val = 6 * 8 + r.val := h; omega)).trans (rF8_apply x0 x1 x2 x3 x4 p r)
    | ⟨9, _⟩ => exact (Gref_read_9 x0 x1 x2 x3 x4 p n r (by have h' : n.val = 6 * 9 + r.val := h; omega)).trans (rF9_apply x0 x1 x2 x3 x4 p r)
    | ⟨10, _⟩ => exact (Gref_read_10 x0 x1 x2 x3 x4 p n r (by have h' : n.val = 6 * 10 + r.val := h; omega)).trans (rF10_apply x0 x1 x2 x3 x4 p r)
    | ⟨11, _⟩ => exact (Gref_read_11 x0 x1 x2 x3 x4 p n r (by have h' : n.val = 6 * 11 + r.val := h; omega)).trans (rF11_apply x0 x1 x2 x3 x4 p r)
    | ⟨12, _⟩ => exact (Gref_read_12 x0 x1 x2 x3 x4 p n r (by have h' : n.val = 6 * 12 + r.val := h; omega)).trans (rF12_apply x0 x1 x2 x3 x4 p r)
    | ⟨13, _⟩ => exact (Gref_read_13 x0 x1 x2 x3 x4 p n r (by have h' : n.val = 6 * 13 + r.val := h; omega)).trans (rF13_apply x0 x1 x2 x3 x4 p r)
    | ⟨14, _⟩ => exact (Gref_read_14 x0 x1 x2 x3 x4 p n r (by have h' : n.val = 6 * 14 + r.val := h; omega)).trans (rF14_apply x0 x1 x2 x3 x4 p r)
    | ⟨15, _⟩ => exact (Gref_read_15 x0 x1 x2 x3 x4 p n r (by have h' : n.val = 6 * 15 + r.val := h; omega)).trans (rF15_apply x0 x1 x2 x3 x4 p r)
    | ⟨16, _⟩ => exact (Gref_read_16 x0 x1 x2 x3 x4 p n r (by have h' : n.val = 6 * 16 + r.val := h; omega)).trans (rF16_apply x0 x1 x2 x3 x4 p r)
    | ⟨17, _⟩ => exact (Gref_read_17 x0 x1 x2 x3 x4 p n r (by have h' : n.val = 6 * 17 + r.val := h; omega)).trans (rF17_apply x0 x1 x2 x3 x4 p r)
    | ⟨18, _⟩ => exact (Gref_read_18 x0 x1 x2 x3 x4 p n r (by have h' : n.val = 6 * 18 + r.val := h; omega)).trans (rF18_apply x0 x1 x2 x3 x4 p r)
    | ⟨19, _⟩ => exact (Gref_read_19 x0 x1 x2 x3 x4 p n r (by have h' : n.val = 6 * 19 + r.val := h; omega)).trans (rF19_apply x0 x1 x2 x3 x4 p r)
    | ⟨20, _⟩ => exact (Gref_read_20 x0 x1 x2 x3 x4 p n r (by have h' : n.val = 6 * 20 + r.val := h; omega)).trans (rF20_apply x0 x1 x2 x3 x4 p r)
    | ⟨21, _⟩ => exact (Gref_read_21 x0 x1 x2 x3 x4 p n r (by have h' : n.val = 6 * 21 + r.val := h; omega)).trans (rF21_apply x0 x1 x2 x3 x4 p r)
    | ⟨22, _⟩ => exact (Gref_read_22 x0 x1 x2 x3 x4 p n r (by have h' : n.val = 6 * 22 + r.val := h; omega)).trans (rF22_apply x0 x1 x2 x3 x4 p r)
    | ⟨23, _⟩ => exact (Gref_read_23 x0 x1 x2 x3 x4 p n r (by have h' : n.val = 6 * 23 + r.val := h; omega)).trans (rF23_apply x0 x1 x2 x3 x4 p r)
    | ⟨k + 24, hk⟩ => exact absurd hk (by omega)
  have hn := n.isLt
  have h := key ⟨n.val / 6, by omega⟩ ⟨n.val % 6, Nat.mod_lt _ (by decide)⟩ (by show n.val = 6 * (n.val / 6) + n.val % 6; omega)
  rw [h]
  exact ((rowA x0 x1 x2 x3 x4 p).out_eq _ _ n (by show n.val = 6 * (n.val / 6) + n.val % 6; omega)).symm

/-- So the host's result is `G` of the arguments. -/
theorem Gref_eq : Gref x0 x1 x2 x3 x4 = G x0 x1 x2 x3 x4 := by
  funext i
  have hi : i = ix2 (i 0) (i 1) := eq_ix2 i
  rw [hi]
  exact Gref_apply x0 x1 x2 x3 x4 (i 0) (i 1)

end Cert.ReferenceIdeal.Tree

end
-- ==== Proof.RefPiecesA.lean ====
/-
  The host reference's line of operations, piece by piece: the zeros and joints 0 to 7.

  Each piece writes its own buffers and no others, so a buffer it does not write keeps what the pieces before left
  (`keep_…`), and joint `j`'s piece leaves in its features' buffer the host's spelling of the joint from the arguments'
  buffers and its parent's buffer (`res_J…`).
-/
import proofs.«172863_j7009386627271_2_alg».proof.Proof.RefOps
import proofs.«172863_j7009386627271_2_alg».proof.Proof.RefTree

noncomputable section

namespace Cert.ReferenceIdeal.Ops

open Cert.ReferenceIdeal Cert.ReferenceIdeal.Gen Idealize.ShloMosaic Idealize.ShloMosaic.TcCoe Idealize.SL.Sem Idealize.ShloMosaic.StableHlo
open Cert.TreeSpec

/-- The contents after `l₁ ++ l₂` are the contents after `l₂` from the contents after `l₁`. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

def wr_pre : List (Ref sig .tc) := [main_cst, main_v0]
theorem pre_writes : (pre : List (HloOp τ sig (Elt Ideal))).Forall fun op => op.writes ⊆ ((wr_pre.map (Proc.devRef (τ := τ) .tc)).toFinset) := by
  simp only [pre, wr_pre, List.Forall, nullary_writes, unary_writes, binary_writes, reshape_writes, nary_writes, Finset.singleton_subset_iff, List.mem_toFinset, List.mem_map]
  repeat' apply And.intro
  all_goals exact ⟨_, by decide, rfl⟩
theorem keep_pre (W : Valuation τ sig (Elt Ideal)) {r : Ref sig .tc} (hr : r ∉ wr_pre) :
    after pre W (no_index (Proc.devRef .tc r)) = W (Proc.devRef .tc r) :=
  after_of_writes_sub pre W pre_writes hr

theorem res_pre (W : Valuation τ sig (Elt Ideal)) :
    after pre W (no_index (Proc.devRef .tc main_v0)) = Cert.RefJoint.zeros S500000x6 bcast_S_S500000x6 := by
  unfold pre
  after_results_simp
  rfl

def wr_J0 : List (Ref sig .tc) := [main_v1, main_v2, main_v3, main_v4, main_v5, main_v6, main_v7, main_v8, main_v9, main_v10, main_v11, main_v12, main_v13, main_call0_cst, main_call0_v0, main_v14, main_v15, main_v16, main_v17, main_v18, main_v19, main_v20, main_v21, main_v22, main_v23, main_call1_cst, main_call1_v0, main_v24]
theorem J0_writes : (J0 : List (HloOp τ sig (Elt Ideal))).Forall fun op => op.writes ⊆ ((wr_J0.map (Proc.devRef (τ := τ) .tc)).toFinset) := by
  simp only [J0, wr_J0, List.Forall, nullary_writes, unary_writes, binary_writes, reshape_writes, nary_writes, Finset.singleton_subset_iff, List.mem_toFinset, List.mem_map]
  repeat' apply And.intro
  all_goals exact ⟨_, by decide, rfl⟩
theorem keep_J0 (W : Valuation τ sig (Elt Ideal)) {r : Ref sig .tc} (hr : r ∉ wr_J0) :
    after J0 W (no_index (Proc.devRef .tc r)) = W (Proc.devRef .tc r) :=
  after_of_writes_sub J0 W J0_writes hr
theorem res_J0 (W : Valuation τ sig (Elt Ideal)) :
    after J0 W (no_index (Proc.devRef .tc main_v24))
      = Tree.rChild (W (Proc.devRef .tc main_arg0)) (W (Proc.devRef .tc main_arg1)) (W (Proc.devRef .tc main_arg2)) (W (Proc.devRef .tc main_arg3)) (W (Proc.devRef .tc main_arg4)) 0 slices_S500000x24_S500000x1_0_0 slices_S24x7x7_S1x7x7_0_0_0 slices_S24x7_S1x7_0_0 slices_S24x6x7_S1x6x7_0_0_0 slices_S24x6_S1x6_0_0 (W (Proc.devRef .tc main_v0)) := by
  unfold J0
  after_results_simp
  rfl

def wr_J1 : List (Ref sig .tc) := [main_v25, main_v26, main_v27, main_v28, main_v29, main_v30, main_v31, main_v32, main_v33, main_v34, main_v35, main_v36, main_v37, main_call2_cst, main_call2_v0, main_v38, main_v39, main_v40, main_v41, main_v42, main_v43, main_v44, main_v45, main_v46, main_v47, main_call3_cst, main_call3_v0, main_v48]
theorem J1_writes : (J1 : List (HloOp τ sig (Elt Ideal))).Forall fun op => op.writes ⊆ ((wr_J1.map (Proc.devRef (τ := τ) .tc)).toFinset) := by
  simp only [J1, wr_J1, List.Forall, nullary_writes, unary_writes, binary_writes, reshape_writes, nary_writes, Finset.singleton_subset_iff, List.mem_toFinset, List.mem_map]
  repeat' apply And.intro
  all_goals exact ⟨_, by decide, rfl⟩
theorem keep_J1 (W : Valuation τ sig (Elt Ideal)) {r : Ref sig .tc} (hr : r ∉ wr_J1) :
    after J1 W (no_index (Proc.devRef .tc r)) = W (Proc.devRef .tc r) :=
  after_of_writes_sub J1 W J1_writes hr
theorem res_J1 (W : Valuation τ sig (Elt Ideal)) :
    after J1 W (no_index (Proc.devRef .tc main_v48))
      = Tree.rChild (W (Proc.devRef .tc main_arg0)) (W (Proc.devRef .tc main_arg1)) (W (Proc.devRef .tc main_arg2)) (W (Proc.devRef .tc main_arg3)) (W (Proc.devRef .tc main_arg4)) 1 slices_S500000x24_S500000x1_0_1 slices_S24x7x7_S1x7x7_1_0_0 slices_S24x7_S1x7_1_0 slices_S24x6x7_S1x6x7_1_0_0 slices_S24x6_S1x6_1_0 (W (Proc.devRef .tc main_v24)) := by
  unfold J1
  after_results_simp
  rfl

def wr_J2 : List (Ref sig .tc) := [main_v49, main_v50, main_v51, main_v52, main_v53, main_v54, main_v55, main_v56, main_v57, main_v58, main_v59, main_v60, main_v61, main_call4_cst, main_call4_v0, main_v62, main_v63, main_v64, main_v65, main_v66, main_v67, main_v68, main_v69, main_v70, main_v71, main_call5_cst, main_call5_v0, main_v72]
theorem J2_writes : (J2 : List (HloOp τ sig (Elt Ideal))).Forall fun op => op.writes ⊆ ((wr_J2.map (Proc.devRef (τ := τ) .tc)).toFinset) := by
  simp only [J2, wr_J2, List.Forall, nullary_writes, unary_writes, binary_writes, reshape_writes, nary_writes, Finset.singleton_subset_iff, List.mem_toFinset, List.mem_map]
  repeat' apply And.intro
  all_goals exact ⟨_, by decide, rfl⟩
theorem keep_J2 (W : Valuation τ sig (Elt Ideal)) {r : Ref sig .tc} (hr : r ∉ wr_J2) :
    after J2 W (no_index (Proc.devRef .tc r)) = W (Proc.devRef .tc r) :=
  after_of_writes_sub J2 W J2_writes hr
theorem res_J2 (W : Valuation τ sig (Elt Ideal)) :
    after J2 W (no_index (Proc.devRef .tc main_v72))
      = Tree.rChild (W (Proc.devRef .tc main_arg0)) (W (Proc.devRef .tc main_arg1)) (W (Proc.devRef .tc main_arg2)) (W (Proc.devRef .tc main_arg3)) (W (Proc.devRef .tc main_arg4)) 2 slices_S500000x24_S500000x1_0_2 slices_S24x7x7_S1x7x7_2_0_0 slices_S24x7_S1x7_2_0 slices_S24x6x7_S1x6x7_2_0_0 slices_S24x6_S1x6_2_0 (W (Proc.devRef .tc main_v24)) := by
  unfold J2
  after_results_simp
  rfl

def wr_J3 : List (Ref sig .tc) := [main_v73, main_v74, main_v75, main_v76, main_v77, main_v78, main_v79, main_v80, main_v81, main_v82, main_v83, main_v84, main_v85, main_call6_cst, main_call6_v0, main_v86, main_v87, main_v88, main_v89, main_v90, main_v91, main_v92, main_v93, main_v94, main_v95, main_call7_cst, main_call7_v0, main_v96]
theorem J3_writes : (J3 : List (HloOp τ sig (Elt Ideal))).Forall fun op => op.writes ⊆ ((wr_J3.map (Proc.devRef (τ := τ) .tc)).toFinset) := by
  simp only [J3, wr_J3, List.Forall, nullary_writes, unary_writes, binary_writes, reshape_writes, nary_writes, Finset.singleton_subset_iff, List.mem_toFinset, List.mem_map]
  repeat' apply And.intro
  all_goals exact ⟨_, by decide, rfl⟩
theorem keep_J3 (W : Valuation τ sig (Elt Ideal)) {r : Ref sig .tc} (hr : r ∉ wr_J3) :
    after J3 W (no_index (Proc.devRef .tc r)) = W (Proc.devRef .tc r) :=
  after_of_writes_sub J3 W J3_writes hr
theorem res_J3 (W : Valuation τ sig (Elt Ideal)) :
    after J3 W (no_index (Proc.devRef .tc main_v96))
      = Tree.rChild (W (Proc.devRef .tc main_arg0)) (W (Proc.devRef .tc main_arg1)) (W (Proc.devRef .tc main_arg2)) (W (Proc.devRef .tc main_arg3)) (W (Proc.devRef .tc main_arg4)) 3 slices_S500000x24_S500000x1_0_3 slices_S24x7x7_S1x7x7_3_0_0 slices_S24x7_S1x7_3_0 slices_S24x6x7_S1x6x7_3_0_0 slices_S24x6_S1x6_3_0 (W (Proc.devRef .tc main_v24)) := by
  unfold J3
  after_results_simp
  rfl

def wr_J4 : List (Ref sig .tc) := [main_v97, main_v98, main_v99, main_v100, main_v101, main_v102, main_v103, main_v104, main_v105, main_v106, main_v107, main_v108, main_v109, main_call8_cst, main_call8_v0, main_v110, main_v111, main_v112, main_v113, main_v114, main_v115, main_v116, main_v117, main_v118, main_v119, main_call9_cst, main_call9_v0, main_v120]
theorem J4_writes : (J4 : List (HloOp τ sig (Elt Ideal))).Forall fun op => op.writes ⊆ ((wr_J4.map (Proc.devRef (τ := τ) .tc)).toFinset) := by
  simp only [J4, wr_J4, List.Forall, nullary_writes, unary_writes, binary_writes, reshape_writes, nary_writes, Finset.singleton_subset_iff, List.mem_toFinset, List.mem_map]
  repeat' apply And.intro
  all_goals exact ⟨_, by decide, rfl⟩
theorem keep_J4 (W : Valuation τ sig (Elt Ideal)) {r : Ref sig .tc} (hr : r ∉ wr_J4) :
    after J4 W (no_index (Proc.devRef .tc r)) = W (Proc.devRef .tc r) :=
  after_of_writes_sub J4 W J4_writes hr
theorem res_J4 (W : Valuation τ sig (Elt Ideal)) :
    after J4 W (no_index (Proc.devRef .tc main_v120))
      = Tree.rChild (W (Proc.devRef .tc main_arg0)) (W (Proc.devRef .tc main_arg1)) (W (Proc.devRef .tc main_arg2)) (W (Proc.devRef .tc main_arg3)) (W (Proc.devRef .tc main_arg4)) 4 slices_S500000x24_S500000x1_0_4 slices_S24x7x7_S1x7x7_4_0_0 slices_S24x7_S1x7_4_0 slices_S24x6x7_S1x6x7_4_0_0 slices_S24x6_S1x6_4_0 (W (Proc.devRef .tc main_v48)) := by
  unfold J4
  after_results_simp
  rfl

def wr_J5 : List (Ref sig .tc) := [main_v121, main_v122, main_v123, main_v124, main_v125, main_v126, main_v127, main_v128, main_v129, main_v130, main_v131, main_v132, main_v133, main_call10_cst, main_call10_v0, main_v134, main_v135, main_v136, main_v137, main_v138, main_v139, main_v140, main_v141, main_v142, main_v143, main_call11_cst, main_call11_v0, main_v144]
theorem J5_writes : (J5 : List (HloOp τ sig (Elt Ideal))).Forall fun op => op.writes ⊆ ((wr_J5.map (Proc.devRef (τ := τ) .tc)).toFinset) := by
  simp only [J5, wr_J5, List.Forall, nullary_writes, unary_writes, binary_writes, reshape_writes, nary_writes, Finset.singleton_subset_iff, List.mem_toFinset, List.mem_map]
  repeat' apply And.intro
  all_goals exact ⟨_, by decide, rfl⟩
theorem keep_J5 (W : Valuation τ sig (Elt Ideal)) {r : Ref sig .tc} (hr : r ∉ wr_J5) :
    after J5 W (no_index (Proc.devRef .tc r)) = W (Proc.devRef .tc r) :=
  after_of_writes_sub J5 W J5_writes hr
theorem res_J5 (W : Valuation τ sig (Elt Ideal)) :
    after J5 W (no_index (Proc.devRef .tc main_v144))
      = Tree.rChild (W (Proc.devRef .tc main_arg0)) (W (Proc.devRef .tc main_arg1)) (W (Proc.devRef .tc main_arg2)) (W (Proc.devRef .tc main_arg3)) (W (Proc.devRef .tc main_arg4)) 5 slices_S500000x24_S500000x1_0_5 slices_S24x7x7_S1x7x7_5_0_0 slices_S24x7_S1x7_5_0 slices_S24x6x7_S1x6x7_5_0_0 slices_S24x6_S1x6_5_0 (W (Proc.devRef .tc main_v72)) := by
  unfold J5
  after_results_simp
  rfl

def wr_J6 : List (Ref sig .tc) := [main_v145, main_v146, main_v147, main_v148, main_v149, main_v150, main_v151, main_v152, main_v153, main_v154, main_v155, main_v156, main_v157, main_call12_cst, main_call12_v0, main_v158, main_v159, main_v160, main_v161, main_v162, main_v163, main_v164, main_v165, main_v166, main_v167, main_call13_cst, main_call13_v0, main_v168]
theorem J6_writes : (J6 : List (HloOp τ sig (Elt Ideal))).Forall fun op => op.writes ⊆ ((wr_J6.map (Proc.devRef (τ := τ) .tc)).toFinset) := by
  simp only [J6, wr_J6, List.Forall, nullary_writes, unary_writes, binary_writes, reshape_writes, nary_writes, Finset.singleton_subset_iff, List.mem_toFinset, List.mem_map]
  repeat' apply And.intro
  all_goals exact ⟨_, by decide, rfl⟩
theorem keep_J6 (W : Valuation τ sig (Elt Ideal)) {r : Ref sig .tc} (hr : r ∉ wr_J6) :
    after J6 W (no_index (Proc.devRef .tc r)) = W (Proc.devRef .tc r) :=
  after_of_writes_sub J6 W J6_writes hr
theorem res_J6 (W : Valuation τ sig (Elt Ideal)) :
    after J6 W (no_index (Proc.devRef .tc main_v168))
      = Tree.rChild (W (Proc.devRef .tc main_arg0)) (W (Proc.devRef .tc main_arg1)) (W (Proc.devRef .tc main_arg2)) (W (Proc.devRef .tc main_arg3)) (W (Proc.devRef .tc main_arg4)) 6 slices_S500000x24_S500000x1_0_6 slices_S24x7x7_S1x7x7_6_0_0 slices_S24x7_S1x7_6_0 slices_S24x6x7_S1x6x7_6_0_0 slices_S24x6_S1x6_6_0 (W (Proc.devRef .tc main_v96)) := by
  unfold J6
  after_results_simp
  rfl

def wr_J7 : List (Ref sig .tc) := [main_v169, main_v170, main_v171, main_v172, main_v173, main_v174, main_v175, main_v176, main_v177, main_v178, main_v179, main_v180, main_v181, main_call14_cst, main_call14_v0, main_v182, main_v183, main_v184, main_v185, main_v186, main_v187, main_v188, main_v189, main_v190, main_v191, main_call15_cst, main_call15_v0, main_v192]
theorem J7_writes : (J7 : List (HloOp τ sig (Elt Ideal))).Forall fun op => op.writes ⊆ ((wr_J7.map (Proc.devRef (τ := τ) .tc)).toFinset) := by
  simp only [J7, wr_J7, List.Forall, nullary_writes, unary_writes, binary_writes, reshape_writes, nary_writes, Finset.singleton_subset_iff, List.mem_toFinset, List.mem_map]
  repeat' apply And.intro
  all_goals exact ⟨_, by decide, rfl⟩
theorem keep_J7 (W : Valuation τ sig (Elt Ideal)) {r : Ref sig .tc} (hr : r ∉ wr_J7) :
    after J7 W (no_index (Proc.devRef .tc r)) = W (Proc.devRef .tc r) :=
  after_of_writes_sub J7 W J7_writes hr
theorem res_J7 (W : Valuation τ sig (Elt Ideal)) :
    after J7 W (no_index (Proc.devRef .tc main_v192))
      = Tree.rChild (W (Proc.devRef .tc main_arg0)) (W (Proc.devRef .tc main_arg1)) (W (Proc.devRef .tc main_arg2)) (W (Proc.devRef .tc main_arg3)) (W (Proc.devRef .tc main_arg4)) 7 slices_S500000x24_S500000x1_0_7 slices_S24x7x7_S1x7x7_7_0_0 slices_S24x7_S1x7_7_0 slices_S24x6x7_S1x6x7_7_0_0 slices_S24x6_S1x6_7_0 (W (Proc.devRef .tc main_v120)) := by
  unfold J7
  after_results_simp
  rfl

end Cert.ReferenceIdeal.Ops

end
-- ==== Proof.RefPiecesB.lean ====
/-
  The host reference's line of operations, piece by piece: joints 8 to 15.

  Each piece writes its own buffers and no others, so a buffer it does not write keeps what the pieces before left
  (`keep_…`), and joint `j`'s piece leaves in its features' buffer the host's spelling of the joint from the arguments'
  buffers and its parent's buffer (`res_J…`).
-/
import proofs.«172863_j7009386627271_2_alg».proof.Proof.RefOps
import proofs.«172863_j7009386627271_2_alg».proof.Proof.RefTree

noncomputable section

namespace Cert.ReferenceIdeal.Ops

open Cert.ReferenceIdeal Cert.ReferenceIdeal.Gen Idealize.ShloMosaic Idealize.ShloMosaic.TcCoe Idealize.SL.Sem Idealize.ShloMosaic.StableHlo
open Cert.TreeSpec

def wr_J8 : List (Ref sig .tc) := [main_v193, main_v194, main_v195, main_v196, main_v197, main_v198, main_v199, main_v200, main_v201, main_v202, main_v203, main_v204, main_v205, main_call16_cst, main_call16_v0, main_v206, main_v207, main_v208, main_v209, main_v210, main_v211, main_v212, main_v213, main_v214, main_v215, main_call17_cst, main_call17_v0, main_v216]
theorem J8_writes : (J8 : List (HloOp τ sig (Elt Ideal))).Forall fun op => op.writes ⊆ ((wr_J8.map (Proc.devRef (τ := τ) .tc)).toFinset) := by
  simp only [J8, wr_J8, List.Forall, nullary_writes, unary_writes, binary_writes, reshape_writes, nary_writes, Finset.singleton_subset_iff, List.mem_toFinset, List.mem_map]
  repeat' apply And.intro
  all_goals exact ⟨_, by decide, rfl⟩
theorem keep_J8 (W : Valuation τ sig (Elt Ideal)) {r : Ref sig .tc} (hr : r ∉ wr_J8) :
    after J8 W (no_index (Proc.devRef .tc r)) = W (Proc.devRef .tc r) :=
  after_of_writes_sub J8 W J8_writes hr
theorem res_J8 (W : Valuation τ sig (Elt Ideal)) :
    after J8 W (no_index (Proc.devRef .tc main_v216))
      = Tree.rChild (W (Proc.devRef .tc main_arg0)) (W (Proc.devRef .tc main_arg1)) (W (Proc.devRef .tc main_arg2)) (W (Proc.devRef .tc main_arg3)) (W (Proc.devRef .tc main_arg4)) 8 slices_S500000x24_S500000x1_0_8 slices_S24x7x7_S1x7x7_8_0_0 slices_S24x7_S1x7_8_0 slices_S24x6x7_S1x6x7_8_0_0 slices_S24x6_S1x6_8_0 (W (Proc.devRef .tc main_v144)) := by
  unfold J8
  after_results_simp
  rfl

def wr_J9 : List (Ref sig .tc) := [main_v217, main_v218, main_v219, main_v220, main_v221, main_v222, main_v223, main_v224, main_v225, main_v226, main_v227, main_v228, main_v229, main_call18_cst, main_call18_v0, main_v230, main_v231, main_v232, main_v233, main_v234, main_v235, main_v236, main_v237, main_v238, main_v239, main_call19_cst, main_call19_v0, main_v240]
theorem J9_writes : (J9 : List (HloOp τ sig (Elt Ideal))).Forall fun op => op.writes ⊆ ((wr_J9.map (Proc.devRef (τ := τ) .tc)).toFinset) := by
  simp only [J9, wr_J9, List.Forall, nullary_writes, unary_writes, binary_writes, reshape_writes, nary_writes, Finset.singleton_subset_iff, List.mem_toFinset, List.mem_map]
  repeat' apply And.intro
  all_goals exact ⟨_, by decide, rfl⟩
theorem keep_J9 (W : Valuation τ sig (Elt Ideal)) {r : Ref sig .tc} (hr : r ∉ wr_J9) :
    after J9 W (no_index (Proc.devRef .tc r)) = W (Proc.devRef .tc r) :=
  after_of_writes_sub J9 W J9_writes hr
theorem res_J9 (W : Valuation τ sig (Elt Ideal)) :
    after J9 W (no_index (Proc.devRef .tc main_v240))
      = Tree.rChild (W (Proc.devRef .tc main_arg0)) (W (Proc.devRef .tc main_arg1)) (W (Proc.devRef .tc main_arg2)) (W (Proc.devRef .tc main_arg3)) (W (Proc.devRef .tc main_arg4)) 9 slices_S500000x24_S500000x1_0_9 slices_S24x7x7_S1x7x7_9_0_0 slices_S24x7_S1x7_9_0 slices_S24x6x7_S1x6x7_9_0_0 slices_S24x6_S1x6_9_0 (W (Proc.devRef .tc main_v168)) := by
  unfold J9
  after_results_simp
  rfl

def wr_J10 : List (Ref sig .tc) := [main_v241, main_v242, main_v243, main_v244, main_v245, main_v246, main_v247, main_v248, main_v249, main_v250, main_v251, main_v252, main_v253, main_call20_cst, main_call20_v0, main_v254, main_v255, main_v256, main_v257, main_v258, main_v259, main_v260, main_v261, main_v262, main_v263, main_call21_cst, main_call21_v0, main_v264]
theorem J10_writes : (J10 : List (HloOp τ sig (Elt Ideal))).Forall fun op => op.writes ⊆ ((wr_J10.map (Proc.devRef (τ := τ) .tc)).toFinset) := by
  simp only [J10, wr_J10, List.Forall, nullary_writes, unary_writes, binary_writes, reshape_writes, nary_writes, Finset.singleton_subset_iff, List.mem_toFinset, List.mem_map]
  repeat' apply And.intro
  all_goals exact ⟨_, by decide, rfl⟩
theorem keep_J10 (W : Valuation τ sig (Elt Ideal)) {r : Ref sig .tc} (hr : r ∉ wr_J10) :
    after J10 W (no_index (Proc.devRef .tc r)) = W (Proc.devRef .tc r) :=
  after_of_writes_sub J10 W J10_writes hr
theorem res_J10 (W : Valuation τ sig (Elt Ideal)) :
    after J10 W (no_index (Proc.devRef .tc main_v264))
      = Tree.rChild (W (Proc.devRef .tc main_arg0)) (W (Proc.devRef .tc main_arg1)) (W (Proc.devRef .tc main_arg2)) (W (Proc.devRef .tc main_arg3)) (W (Proc.devRef .tc main_arg4)) 10 slices_S500000x24_S500000x1_0_10 slices_S24x7x7_S1x7x7_10_0_0 slices_S24x7_S1x7_10_0 slices_S24x6x7_S1x6x7_10_0_0 slices_S24x6_S1x6_10_0 (W (Proc.devRef .tc main_v192)) := by
  unfold J10
  after_results_simp
  rfl

def wr_J11 : List (Ref sig .tc) := [main_v265, main_v266, main_v267, main_v268, main_v269, main_v270, main_v271, main_v272, main_v273, main_v274, main_v275, main_v276, main_v277, main_call22_cst, main_call22_v0, main_v278, main_v279, main_v280, main_v281, main_v282, main_v283, main_v284, main_v285, main_v286, main_v287, main_call23_cst, main_call23_v0, main_v288]
theorem J11_writes : (J11 : List (HloOp τ sig (Elt Ideal))).Forall fun op => op.writes ⊆ ((wr_J11.map (Proc.devRef (τ := τ) .tc)).toFinset) := by
  simp only [J11, wr_J11, List.Forall, nullary_writes, unary_writes, binary_writes, reshape_writes, nary_writes, Finset.singleton_subset_iff, List.mem_toFinset, List.mem_map]
  repeat' apply And.intro
  all_goals exact ⟨_, by decide, rfl⟩
theorem keep_J11 (W : Valuation τ sig (Elt Ideal)) {r : Ref sig .tc} (hr : r ∉ wr_J11) :
    after J11 W (no_index (Proc.devRef .tc r)) = W (Proc.devRef .tc r) :=
  after_of_writes_sub J11 W J11_writes hr
theorem res_J11 (W : Valuation τ sig (Elt Ideal)) :
    after J11 W (no_index (Proc.devRef .tc main_v288))
      = Tree.rChild (W (Proc.devRef .tc main_arg0)) (W (Proc.devRef .tc main_arg1)) (W (Proc.devRef .tc main_arg2)) (W (Proc.devRef .tc main_arg3)) (W (Proc.devRef .tc main_arg4)) 11 slices_S500000x24_S500000x1_0_11 slices_S24x7x7_S1x7x7_11_0_0 slices_S24x7_S1x7_11_0 slices_S24x6x7_S1x6x7_11_0_0 slices_S24x6_S1x6_11_0 (W (Proc.devRef .tc main_v216)) := by
  unfold J11
  after_results_simp
  rfl

def wr_J12 : List (Ref sig .tc) := [main_v289, main_v290, main_v291, main_v292, main_v293, main_v294, main_v295, main_v296, main_v297, main_v298, main_v299, main_v300, main_v301, main_call24_cst, main_call24_v0, main_v302, main_v303, main_v304, main_v305, main_v306, main_v307, main_v308, main_v309, main_v310, main_v311, main_call25_cst, main_call25_v0, main_v312]
theorem J12_writes : (J12 : List (HloOp τ sig (Elt Ideal))).Forall fun op => op.writes ⊆ ((wr_J12.map (Proc.devRef (τ := τ) .tc)).toFinset) := by
  simp only [J12, wr_J12, List.Forall, nullary_writes, unary_writes, binary_writes, reshape_writes, nary_writes, Finset.singleton_subset_iff, List.mem_toFinset, List.mem_map]
  repeat' apply And.intro
  all_goals exact ⟨_, by decide, rfl⟩
theorem keep_J12 (W : Valuation τ sig (Elt Ideal)) {r : Ref sig .tc} (hr : r ∉ wr_J12) :
    after J12 W (no_index (Proc.devRef .tc r)) = W (Proc.devRef .tc r) :=
  after_of_writes_sub J12 W J12_writes hr
theorem res_J12 (W : Valuation τ sig (Elt Ideal)) :
    after J12 W (no_index (Proc.devRef .tc main_v312))
      = Tree.rChild (W (Proc.devRef .tc main_arg0)) (W (Proc.devRef .tc main_arg1)) (W (Proc.devRef .tc main_arg2)) (W (Proc.devRef .tc main_arg3)) (W (Proc.devRef .tc main_arg4)) 12 slices_S500000x24_S500000x1_0_12 slices_S24x7x7_S1x7x7_12_0_0 slices_S24x7_S1x7_12_0 slices_S24x6x7_S1x6x7_12_0_0 slices_S24x6_S1x6_12_0 (W (Proc.devRef .tc main_v240)) := by
  unfold J12
  after_results_simp
  rfl

def wr_J13 : List (Ref sig .tc) := [main_v313, main_v314, main_v315, main_v316, main_v317, main_v318, main_v319, main_v320, main_v321, main_v322, main_v323, main_v324, main_v325, main_call26_cst, main_call26_v0, main_v326, main_v327, main_v328, main_v329, main_v330, main_v331, main_v332, main_v333, main_v334, main_v335, main_call27_cst, main_call27_v0, main_v336]
theorem J13_writes : (J13 : List (HloOp τ sig (Elt Ideal))).Forall fun op => op.writes ⊆ ((wr_J13.map (Proc.devRef (τ := τ) .tc)).toFinset) := by
  simp only [J13, wr_J13, List.Forall, nullary_writes, unary_writes, binary_writes, reshape_writes, nary_writes, Finset.singleton_subset_iff, List.mem_toFinset, List.mem_map]
  repeat' apply And.intro
  all_goals exact ⟨_, by decide, rfl⟩
theorem keep_J13 (W : Valuation τ sig (Elt Ideal)) {r : Ref sig .tc} (hr : r ∉ wr_J13) :
    after J13 W (no_index (Proc.devRef .tc r)) = W (Proc.devRef .tc r) :=
  after_of_writes_sub J13 W J13_writes hr
theorem res_J13 (W : Valuation τ sig (Elt Ideal)) :
    after J13 W (no_index (Proc.devRef .tc main_v336))
      = Tree.rChild (W (Proc.devRef .tc main_arg0)) (W (Proc.devRef .tc main_arg1)) (W (Proc.devRef .tc main_arg2)) (W (Proc.devRef .tc main_arg3)) (W (Proc.devRef .tc main_arg4)) 13 slices_S500000x24_S500000x1_0_13 slices_S24x7x7_S1x7x7_13_0_0 slices_S24x7_S1x7_13_0 slices_S24x6x7_S1x6x7_13_0_0 slices_S24x6_S1x6_13_0 (W (Proc.devRef .tc main_v240)) := by
  unfold J13
  after_results_simp
  rfl

def wr_J14 : List (Ref sig .tc) := [main_v337, main_v338, main_v339, main_v340, main_v341, main_v342, main_v343, main_v344, main_v345, main_v346, main_v347, main_v348, main_v349, main_call28_cst, main_call28_v0, main_v350, main_v351, main_v352, main_v353, main_v354, main_v355, main_v356, main_v357, main_v358, main_v359, main_call29_cst, main_call29_v0, main_v360]
theorem J14_writes : (J14 : List (HloOp τ sig (Elt Ideal))).Forall fun op => op.writes ⊆ ((wr_J14.map (Proc.devRef (τ := τ) .tc)).toFinset) := by
  simp only [J14, wr_J14, List.Forall, nullary_writes, unary_writes, binary_writes, reshape_writes, nary_writes, Finset.singleton_subset_iff, List.mem_toFinset, List.mem_map]
  repeat' apply And.intro
  all_goals exact ⟨_, by decide, rfl⟩
theorem keep_J14 (W : Valuation τ sig (Elt Ideal)) {r : Ref sig .tc} (hr : r ∉ wr_J14) :
    after J14 W (no_index (Proc.devRef .tc r)) = W (Proc.devRef .tc r) :=
  after_of_writes_sub J14 W J14_writes hr
theorem res_J14 (W : Valuation τ sig (Elt Ideal)) :
    after J14 W (no_index (Proc.devRef .tc main_v360))
      = Tree.rChild (W (Proc.devRef .tc main_arg0)) (W (Proc.devRef .tc main_arg1)) (W (Proc.devRef .tc main_arg2)) (W (Proc.devRef .tc main_arg3)) (W (Proc.devRef .tc main_arg4)) 14 slices_S500000x24_S500000x1_0_14 slices_S24x7x7_S1x7x7_14_0_0 slices_S24x7_S1x7_14_0 slices_S24x6x7_S1x6x7_14_0_0 slices_S24x6_S1x6_14_0 (W (Proc.devRef .tc main_v240)) := by
  unfold J14
  after_results_simp
  rfl

def wr_J15 : List (Ref sig .tc) := [main_v361, main_v362, main_v363, main_v364, main_v365, main_v366, main_v367, main_v368, main_v369, main_v370, main_v371, main_v372, main_v373, main_call30_cst, main_call30_v0, main_v374, main_v375, main_v376, main_v377, main_v378, main_v379, main_v380, main_v381, main_v382, main_v383, main_call31_cst, main_call31_v0, main_v384]
theorem J15_writes : (J15 : List (HloOp τ sig (Elt Ideal))).Forall fun op => op.writes ⊆ ((wr_J15.map (Proc.devRef (τ := τ) .tc)).toFinset) := by
  simp only [J15, wr_J15, List.Forall, nullary_writes, unary_writes, binary_writes, reshape_writes, nary_writes, Finset.singleton_subset_iff, List.mem_toFinset, List.mem_map]
  repeat' apply And.intro
  all_goals exact ⟨_, by decide, rfl⟩
theorem keep_J15 (W : Valuation τ sig (Elt Ideal)) {r : Ref sig .tc} (hr : r ∉ wr_J15) :
    after J15 W (no_index (Proc.devRef .tc r)) = W (Proc.devRef .tc r) :=
  after_of_writes_sub J15 W J15_writes hr
theorem res_J15 (W : Valuation τ sig (Elt Ideal)) :
    after J15 W (no_index (Proc.devRef .tc main_v384))
      = Tree.rChild (W (Proc.devRef .tc main_arg0)) (W (Proc.devRef .tc main_arg1)) (W (Proc.devRef .tc main_arg2)) (W (Proc.devRef .tc main_arg3)) (W (Proc.devRef .tc main_arg4)) 15 slices_S500000x24_S500000x1_0_15 slices_S24x7x7_S1x7x7_15_0_0 slices_S24x7_S1x7_15_0 slices_S24x6x7_S1x6x7_15_0_0 slices_S24x6_S1x6_15_0 (W (Proc.devRef .tc main_v312)) := by
  unfold J15
  after_results_simp
  rfl

end Cert.ReferenceIdeal.Ops

end
-- ==== Proof.RefPiecesC.lean ====
/-
  The host reference's line of operations, piece by piece: joints 16 to 23 and the three operations that put the arrays side by side.

  Each piece writes its own buffers and no others, so a buffer it does not write keeps what the pieces before left
  (`keep_…`), and joint `j`'s piece leaves in its features' buffer the host's spelling of the joint from the arguments'
  buffers and its parent's buffer (`res_J…`).
-/
import proofs.«172863_j7009386627271_2_alg».proof.Proof.RefOps
import proofs.«172863_j7009386627271_2_alg».proof.Proof.RefTree

noncomputable section

namespace Cert.ReferenceIdeal.Ops

open Cert.ReferenceIdeal Cert.ReferenceIdeal.Gen Idealize.ShloMosaic Idealize.ShloMosaic.TcCoe Idealize.SL.Sem Idealize.ShloMosaic.StableHlo
open Cert.TreeSpec

def wr_J16 : List (Ref sig .tc) := [main_v385, main_v386, main_v387, main_v388, main_v389, main_v390, main_v391, main_v392, main_v393, main_v394, main_v395, main_v396, main_v397, main_call32_cst, main_call32_v0, main_v398, main_v399, main_v400, main_v401, main_v402, main_v403, main_v404, main_v405, main_v406, main_v407, main_call33_cst, main_call33_v0, main_v408]
theorem J16_writes : (J16 : List (HloOp τ sig (Elt Ideal))).Forall fun op => op.writes ⊆ ((wr_J16.map (Proc.devRef (τ := τ) .tc)).toFinset) := by
  simp only [J16, wr_J16, List.Forall, nullary_writes, unary_writes, binary_writes, reshape_writes, nary_writes, Finset.singleton_subset_iff, List.mem_toFinset, List.mem_map]
  repeat' apply And.intro
  all_goals exact ⟨_, by decide, rfl⟩
theorem keep_J16 (W : Valuation τ sig (Elt Ideal)) {r : Ref sig .tc} (hr : r ∉ wr_J16) :
    after J16 W (no_index (Proc.devRef .tc r)) = W (Proc.devRef .tc r) :=
  after_of_writes_sub J16 W J16_writes hr
theorem res_J16 (W : Valuation τ sig (Elt Ideal)) :
    after J16 W (no_index (Proc.devRef .tc main_v408))
      = Tree.rChild (W (Proc.devRef .tc main_arg0)) (W (Proc.devRef .tc main_arg1)) (W (Proc.devRef .tc main_arg2)) (W (Proc.devRef .tc main_arg3)) (W (Proc.devRef .tc main_arg4)) 16 slices_S500000x24_S500000x1_0_16 slices_S24x7x7_S1x7x7_16_0_0 slices_S24x7_S1x7_16_0 slices_S24x6x7_S1x6x7_16_0_0 slices_S24x6_S1x6_16_0 (W (Proc.devRef .tc main_v336)) := by
  unfold J16
  after_results_simp
  rfl

def wr_J17 : List (Ref sig .tc) := [main_v409, main_v410, main_v411, main_v412, main_v413, main_v414, main_v415, main_v416, main_v417, main_v418, main_v419, main_v420, main_v421, main_call34_cst, main_call34_v0, main_v422, main_v423, main_v424, main_v425, main_v426, main_v427, main_v428, main_v429, main_v430, main_v431, main_call35_cst, main_call35_v0, main_v432]
theorem J17_writes : (J17 : List (HloOp τ sig (Elt Ideal))).Forall fun op => op.writes ⊆ ((wr_J17.map (Proc.devRef (τ := τ) .tc)).toFinset) := by
  simp only [J17, wr_J17, List.Forall, nullary_writes, unary_writes, binary_writes, reshape_writes, nary_writes, Finset.singleton_subset_iff, List.mem_toFinset, List.mem_map]
  repeat' apply And.intro
  all_goals exact ⟨_, by decide, rfl⟩
theorem keep_J17 (W : Valuation τ sig (Elt Ideal)) {r : Ref sig .tc} (hr : r ∉ wr_J17) :
    after J17 W (no_index (Proc.devRef .tc r)) = W (Proc.devRef .tc r) :=
  after_of_writes_sub J17 W J17_writes hr
theorem res_J17 (W : Valuation τ sig (Elt Ideal)) :
    after J17 W (no_index (Proc.devRef .tc main_v432))
      = Tree.rChild (W (Proc.devRef .tc main_arg0)) (W (Proc.devRef .tc main_arg1)) (W (Proc.devRef .tc main_arg2)) (W (Proc.devRef .tc main_arg3)) (W (Proc.devRef .tc main_arg4)) 17 slices_S500000x24_S500000x1_0_17 slices_S24x7x7_S1x7x7_17_0_0 slices_S24x7_S1x7_17_0 slices_S24x6x7_S1x6x7_17_0_0 slices_S24x6_S1x6_17_0 (W (Proc.devRef .tc main_v360)) := by
  unfold J17
  after_results_simp
  rfl

def wr_J18 : List (Ref sig .tc) := [main_v433, main_v434, main_v435, main_v436, main_v437, main_v438, main_v439, main_v440, main_v441, main_v442, main_v443, main_v444, main_v445, main_call36_cst, main_call36_v0, main_v446, main_v447, main_v448, main_v449, main_v450, main_v451, main_v452, main_v453, main_v454, main_v455, main_call37_cst, main_call37_v0, main_v456]
theorem J18_writes : (J18 : List (HloOp τ sig (Elt Ideal))).Forall fun op => op.writes ⊆ ((wr_J18.map (Proc.devRef (τ := τ) .tc)).toFinset) := by
  simp only [J18, wr_J18, List.Forall, nullary_writes, unary_writes, binary_writes, reshape_writes, nary_writes, Finset.singleton_subset_iff, List.mem_toFinset, List.mem_map]
  repeat' apply And.intro
  all_goals exact ⟨_, by decide, rfl⟩
theorem keep_J18 (W : Valuation τ sig (Elt Ideal)) {r : Ref sig .tc} (hr : r ∉ wr_J18) :
    after J18 W (no_index (Proc.devRef .tc r)) = W (Proc.devRef .tc r) :=
  after_of_writes_sub J18 W J18_writes hr
theorem res_J18 (W : Valuation τ sig (Elt Ideal)) :
    after J18 W (no_index (Proc.devRef .tc main_v456))
      = Tree.rChild (W (Proc.devRef .tc main_arg0)) (W (Proc.devRef .tc main_arg1)) (W (Proc.devRef .tc main_arg2)) (W (Proc.devRef .tc main_arg3)) (W (Proc.devRef .tc main_arg4)) 18 slices_S500000x24_S500000x1_0_18 slices_S24x7x7_S1x7x7_18_0_0 slices_S24x7_S1x7_18_0 slices_S24x6x7_S1x6x7_18_0_0 slices_S24x6_S1x6_18_0 (W (Proc.devRef .tc main_v408)) := by
  unfold J18
  after_results_simp
  rfl

def wr_J19 : List (Ref sig .tc) := [main_v457, main_v458, main_v459, main_v460, main_v461, main_v462, main_v463, main_v464, main_v465, main_v466, main_v467, main_v468, main_v469, main_call38_cst, main_call38_v0, main_v470, main_v471, main_v472, main_v473, main_v474, main_v475, main_v476, main_v477, main_v478, main_v479, main_call39_cst, main_call39_v0, main_v480]
theorem J19_writes : (J19 : List (HloOp τ sig (Elt Ideal))).Forall fun op => op.writes ⊆ ((wr_J19.map (Proc.devRef (τ := τ) .tc)).toFinset) := by
  simp only [J19, wr_J19, List.Forall, nullary_writes, unary_writes, binary_writes, reshape_writes, nary_writes, Finset.singleton_subset_iff, List.mem_toFinset, List.mem_map]
  repeat' apply And.intro
  all_goals exact ⟨_, by decide, rfl⟩
theorem keep_J19 (W : Valuation τ sig (Elt Ideal)) {r : Ref sig .tc} (hr : r ∉ wr_J19) :
    after J19 W (no_index (Proc.devRef .tc r)) = W (Proc.devRef .tc r) :=
  after_of_writes_sub J19 W J19_writes hr
theorem res_J19 (W : Valuation τ sig (Elt Ideal)) :
    after J19 W (no_index (Proc.devRef .tc main_v480))
      = Tree.rChild (W (Proc.devRef .tc main_arg0)) (W (Proc.devRef .tc main_arg1)) (W (Proc.devRef .tc main_arg2)) (W (Proc.devRef .tc main_arg3)) (W (Proc.devRef .tc main_arg4)) 19 slices_S500000x24_S500000x1_0_19 slices_S24x7x7_S1x7x7_19_0_0 slices_S24x7_S1x7_19_0 slices_S24x6x7_S1x6x7_19_0_0 slices_S24x6_S1x6_19_0 (W (Proc.devRef .tc main_v432)) := by
  unfold J19
  after_results_simp
  rfl

def wr_J20 : List (Ref sig .tc) := [main_v481, main_v482, main_v483, main_v484, main_v485, main_v486, main_v487, main_v488, main_v489, main_v490, main_v491, main_v492, main_v493, main_call40_cst, main_call40_v0, main_v494, main_v495, main_v496, main_v497, main_v498, main_v499, main_v500, main_v501, main_v502, main_v503, main_call41_cst, main_call41_v0, main_v504]
theorem J20_writes : (J20 : List (HloOp τ sig (Elt Ideal))).Forall fun op => op.writes ⊆ ((wr_J20.map (Proc.devRef (τ := τ) .tc)).toFinset) := by
  simp only [J20, wr_J20, List.Forall, nullary_writes, unary_writes, binary_writes, reshape_writes, nary_writes, Finset.singleton_subset_iff, List.mem_toFinset, List.mem_map]
  repeat' apply And.intro
  all_goals exact ⟨_, by decide, rfl⟩
theorem keep_J20 (W : Valuation τ sig (Elt Ideal)) {r : Ref sig .tc} (hr : r ∉ wr_J20) :
    after J20 W (no_index (Proc.devRef .tc r)) = W (Proc.devRef .tc r) :=
  after_of_writes_sub J20 W J20_writes hr
theorem res_J20 (W : Valuation τ sig (Elt Ideal)) :
    after J20 W (no_index (Proc.devRef .tc main_v504))
      = Tree.rChild (W (Proc.devRef .tc main_arg0)) (W (Proc.devRef .tc main_arg1)) (W (Proc.devRef .tc main_arg2)) (W (Proc.devRef .tc main_arg3)) (W (Proc.devRef .tc main_arg4)) 20 slices_S500000x24_S500000x1_0_20 slices_S24x7x7_S1x7x7_20_0_0 slices_S24x7_S1x7_20_0 slices_S24x6x7_S1x6x7_20_0_0 slices_S24x6_S1x6_20_0 (W (Proc.devRef .tc main_v456)) := by
  unfold J20
  after_results_simp
  rfl

def wr_J21 : List (Ref sig .tc) := [main_v505, main_v506, main_v507, main_v508, main_v509, main_v510, main_v511, main_v512, main_v513, main_v514, main_v515, main_v516, main_v517, main_call42_cst, main_call42_v0, main_v518, main_v519, main_v520, main_v521, main_v522, main_v523, main_v524, main_v525, main_v526, main_v527, main_call43_cst, main_call43_v0, main_v528]
theorem J21_writes : (J21 : List (HloOp τ sig (Elt Ideal))).Forall fun op => op.writes ⊆ ((wr_J21.map (Proc.devRef (τ := τ) .tc)).toFinset) := by
  simp only [J21, wr_J21, List.Forall, nullary_writes, unary_writes, binary_writes, reshape_writes, nary_writes, Finset.singleton_subset_iff, List.mem_toFinset, List.mem_map]
  repeat' apply And.intro
  all_goals exact ⟨_, by decide, rfl⟩
theorem keep_J21 (W : Valuation τ sig (Elt Ideal)) {r : Ref sig .tc} (hr : r ∉ wr_J21) :
    after J21 W (no_index (Proc.devRef .tc r)) = W (Proc.devRef .tc r) :=
  after_of_writes_sub J21 W J21_writes hr
theorem res_J21 (W : Valuation τ sig (Elt Ideal)) :
    after J21 W (no_index (Proc.devRef .tc main_v528))
      = Tree.rChild (W (Proc.devRef .tc main_arg0)) (W (Proc.devRef .tc main_arg1)) (W (Proc.devRef .tc main_arg2)) (W (Proc.devRef .tc main_arg3)) (W (Proc.devRef .tc main_arg4)) 21 slices_S500000x24_S500000x1_0_21 slices_S24x7x7_S1x7x7_21_0_0 slices_S24x7_S1x7_21_0 slices_S24x6x7_S1x6x7_21_0_0 slices_S24x6_S1x6_21_0 (W (Proc.devRef .tc main_v480)) := by
  unfold J21
  after_results_simp
  rfl

def wr_J22 : List (Ref sig .tc) := [main_v529, main_v530, main_v531, main_v532, main_v533, main_v534, main_v535, main_v536, main_v537, main_v538, main_v539, main_v540, main_v541, main_call44_cst, main_call44_v0, main_v542, main_v543, main_v544, main_v545, main_v546, main_v547, main_v548, main_v549, main_v550, main_v551, main_call45_cst, main_call45_v0, main_v552]
theorem J22_writes : (J22 : List (HloOp τ sig (Elt Ideal))).Forall fun op => op.writes ⊆ ((wr_J22.map (Proc.devRef (τ := τ) .tc)).toFinset) := by
  simp only [J22, wr_J22, List.Forall, nullary_writes, unary_writes, binary_writes, reshape_writes, nary_writes, Finset.singleton_subset_iff, List.mem_toFinset, List.mem_map]
  repeat' apply And.intro
  all_goals exact ⟨_, by decide, rfl⟩
theorem keep_J22 (W : Valuation τ sig (Elt Ideal)) {r : Ref sig .tc} (hr : r ∉ wr_J22) :
    after J22 W (no_index (Proc.devRef .tc r)) = W (Proc.devRef .tc r) :=
  after_of_writes_sub J22 W J22_writes hr
theorem res_J22 (W : Valuation τ sig (Elt Ideal)) :
    after J22 W (no_index (Proc.devRef .tc main_v552))
      = Tree.rChild (W (Proc.devRef .tc main_arg0)) (W (Proc.devRef .tc main_arg1)) (W (Proc.devRef .tc main_arg2)) (W (Proc.devRef .tc main_arg3)) (W (Proc.devRef .tc main_arg4)) 22 slices_S500000x24_S500000x1_0_22 slices_S24x7x7_S1x7x7_22_0_0 slices_S24x7_S1x7_22_0 slices_S24x6x7_S1x6x7_22_0_0 slices_S24x6_S1x6_22_0 (W (Proc.devRef .tc main_v504)) := by
  unfold J22
  after_results_simp
  rfl

def wr_J23 : List (Ref sig .tc) := [main_v553, main_v554, main_v555, main_v556, main_v557, main_v558, main_v559, main_v560, main_v561, main_v562, main_v563, main_v564, main_v565, main_call46_cst, main_call46_v0, main_v566, main_v567, main_v568, main_v569, main_v570, main_v571, main_v572, main_v573, main_v574, main_v575, main_call47_cst, main_call47_v0, main_v576]
theorem J23_writes : (J23 : List (HloOp τ sig (Elt Ideal))).Forall fun op => op.writes ⊆ ((wr_J23.map (Proc.devRef (τ := τ) .tc)).toFinset) := by
  simp only [J23, wr_J23, List.Forall, nullary_writes, unary_writes, binary_writes, reshape_writes, nary_writes, Finset.singleton_subset_iff, List.mem_toFinset, List.mem_map]
  repeat' apply And.intro
  all_goals exact ⟨_, by decide, rfl⟩
theorem keep_J23 (W : Valuation τ sig (Elt Ideal)) {r : Ref sig .tc} (hr : r ∉ wr_J23) :
    after J23 W (no_index (Proc.devRef .tc r)) = W (Proc.devRef .tc r) :=
  after_of_writes_sub J23 W J23_writes hr
theorem res_J23 (W : Valuation τ sig (Elt Ideal)) :
    after J23 W (no_index (Proc.devRef .tc main_v576))
      = Tree.rChild (W (Proc.devRef .tc main_arg0)) (W (Proc.devRef .tc main_arg1)) (W (Proc.devRef .tc main_arg2)) (W (Proc.devRef .tc main_arg3)) (W (Proc.devRef .tc main_arg4)) 23 slices_S500000x24_S500000x1_0_23 slices_S24x7x7_S1x7x7_23_0_0 slices_S24x7_S1x7_23_0 slices_S24x6x7_S1x6x7_23_0_0 slices_S24x6_S1x6_23_0 (W (Proc.devRef .tc main_v528)) := by
  unfold J23
  after_results_simp
  rfl

def wr_tail : List (Ref sig .tc) := [main_v577, main_v578, main_v579]
theorem tail_writes : (tail : List (HloOp τ sig (Elt Ideal))).Forall fun op => op.writes ⊆ ((wr_tail.map (Proc.devRef (τ := τ) .tc)).toFinset) := by
  simp only [tail, wr_tail, List.Forall, nullary_writes, unary_writes, binary_writes, reshape_writes, nary_writes, Finset.singleton_subset_iff, List.mem_toFinset, List.mem_map]
  repeat' apply And.intro
  all_goals exact ⟨_, by decide, rfl⟩
theorem keep_tail (W : Valuation τ sig (Elt Ideal)) {r : Ref sig .tc} (hr : r ∉ wr_tail) :
    after tail W (no_index (Proc.devRef .tc r)) = W (Proc.devRef .tc r) :=
  after_of_writes_sub tail W tail_writes hr

end Cert.ReferenceIdeal.Ops

end
-- ==== Proof.RefAfter.lean ====
/-
  The host reference's result buffer after @main, read back through the line of operations.

  The last three operations put the 24 features' buffers side by side; chaining the pieces' lemmas, the result buffer
  ends at the host's spelling of the whole computation from the launch contents of the arguments, which is `G` of them,
  and the arguments are never written.
-/
import proofs.«172863_j7009386627271_2_alg».proof.Proof.RefPiecesA
import proofs.«172863_j7009386627271_2_alg».proof.Proof.RefPiecesB
import proofs.«172863_j7009386627271_2_alg».proof.Proof.RefPiecesC

noncomputable section

namespace Cert.ReferenceIdeal.Ops

open Cert.ReferenceIdeal Cert.ReferenceIdeal.Gen Idealize.ShloMosaic Idealize.ShloMosaic.TcCoe Idealize.SL.Sem Idealize.ShloMosaic.StableHlo
open Cert.TreeSpec

/-- The 24 arrays side by side: sixteen, eight, then the two halves. -/
def tailFn (f0 f1 f2 f3 f4 f5 f6 f7 f8 f9 f10 f11 f12 f13 f14 f15 f16 f17 f18 f19 f20 f21 f22 f23 : FVec Ideal S500000x6 .f32) : FVec Ideal S500000x144 .f32 :=
  concatenate S500000x144 1
    [⟨S500000x96, concatenate S500000x96 1 [⟨S500000x6, f0⟩, ⟨S500000x6, f1⟩, ⟨S500000x6, f2⟩, ⟨S500000x6, f3⟩, ⟨S500000x6, f4⟩, ⟨S500000x6, f5⟩, ⟨S500000x6, f6⟩, ⟨S500000x6, f7⟩, ⟨S500000x6, f8⟩, ⟨S500000x6, f9⟩, ⟨S500000x6, f10⟩, ⟨S500000x6, f11⟩, ⟨S500000x6, f12⟩, ⟨S500000x6, f13⟩, ⟨S500000x6, f14⟩, ⟨S500000x6, f15⟩] concatenates_S500000x6_S500000x6_S500000x6_S500000x6_S500000x6_S500000x6_S500000x6_S500000x6_S500000x6_S500000x6_S500000x6_S500000x6_S500000x6_S500000x6_S500000x6_S500000x6_S500000x96_d1⟩,
     ⟨S500000x48, concatenate S500000x48 1 [⟨S500000x6, f16⟩, ⟨S500000x6, f17⟩, ⟨S500000x6, f18⟩, ⟨S500000x6, f19⟩, ⟨S500000x6, f20⟩, ⟨S500000x6, f21⟩, ⟨S500000x6, f22⟩, ⟨S500000x6, f23⟩] concatenates_S500000x6_S500000x6_S500000x6_S500000x6_S500000x6_S500000x6_S500000x6_S500000x6_S500000x48_d1⟩]
    concatenates_S500000x96_S500000x48_S500000x144_d1

theorem res_tail (W : Valuation τ sig (Elt Ideal)) :
    after tail W (no_index (Proc.devRef .tc main_v579))
      = tailFn (W (Proc.devRef .tc main_v24)) (W (Proc.devRef .tc main_v48)) (W (Proc.devRef .tc main_v72)) (W (Proc.devRef .tc main_v96)) (W (Proc.devRef .tc main_v120)) (W (Proc.devRef .tc main_v144)) (W (Proc.devRef .tc main_v168)) (W (Proc.devRef .tc main_v192)) (W (Proc.devRef .tc main_v216)) (W (Proc.devRef .tc main_v240)) (W (Proc.devRef .tc main_v264)) (W (Proc.devRef .tc main_v288)) (W (Proc.devRef .tc main_v312)) (W (Proc.devRef .tc main_v336)) (W (Proc.devRef .tc main_v360)) (W (Proc.devRef .tc main_v384)) (W (Proc.devRef .tc main_v408)) (W (Proc.devRef .tc main_v432)) (W (Proc.devRef .tc main_v456)) (W (Proc.devRef .tc main_v480)) (W (Proc.devRef .tc main_v504)) (W (Proc.devRef .tc main_v528)) (W (Proc.devRef .tc main_v552)) (W (Proc.devRef .tc main_v576)) := by
  unfold tail
  after_results_simp
  rfl

/-- The host's spelling of the result is the side-by-side of the 24 joints' arrays. -/
theorem Gref_tail (x0 : FVec Ideal S500000x24 .f32) (x1 : FVec Ideal S24x7x7 .f32) (x2 : FVec Ideal S24x7 .f32)
    (x3 : FVec Ideal S24x6x7 .f32) (x4 : FVec Ideal S24x6 .f32) :
    Tree.Gref x0 x1 x2 x3 x4 = tailFn (Tree.rF0 x0 x1 x2 x3 x4) (Tree.rF1 x0 x1 x2 x3 x4) (Tree.rF2 x0 x1 x2 x3 x4) (Tree.rF3 x0 x1 x2 x3 x4) (Tree.rF4 x0 x1 x2 x3 x4) (Tree.rF5 x0 x1 x2 x3 x4) (Tree.rF6 x0 x1 x2 x3 x4) (Tree.rF7 x0 x1 x2 x3 x4) (Tree.rF8 x0 x1 x2 x3 x4) (Tree.rF9 x0 x1 x2 x3 x4) (Tree.rF10 x0 x1 x2 x3 x4) (Tree.rF11 x0 x1 x2 x3 x4) (Tree.rF12 x0 x1 x2 x3 x4) (Tree.rF13 x0 x1 x2 x3 x4) (Tree.rF14 x0 x1 x2 x3 x4) (Tree.rF15 x0 x1 x2 x3 x4) (Tree.rF16 x0 x1 x2 x3 x4) (Tree.rF17 x0 x1 x2 x3 x4) (Tree.rF18 x0 x1 x2 x3 x4) (Tree.rF19 x0 x1 x2 x3 x4) (Tree.rF20 x0 x1 x2 x3 x4) (Tree.rF21 x0 x1 x2 x3 x4) (Tree.rF22 x0 x1 x2 x3 x4) (Tree.rF23 x0 x1 x2 x3 x4) := rfl

/-- The result buffer after @main. -/
theorem after_v579 (V : Valuation τ sig (Elt Ideal)) :
    after ops V (Proc.devRef .tc main_v579) = G (V (Proc.devRef .tc main_arg0)) (V (Proc.devRef .tc main_arg1)) (V (Proc.devRef .tc main_arg2)) (V (Proc.devRef .tc main_arg3)) (V (Proc.devRef .tc main_arg4)) := by
  rw [← Tree.Gref_eq, Gref_tail]
  unfold ops
  simp (disch := decide) only [after_append, res_pre, res_tail, keep_pre, keep_J0, keep_J1, keep_J2, keep_J3, keep_J4, keep_J5, keep_J6, keep_J7, keep_J8, keep_J9, keep_J10, keep_J11, keep_J12, keep_J13, keep_J14, keep_J15, keep_J16, keep_J17, keep_J18, keep_J19, keep_J20, keep_J21, keep_J22, keep_J23, keep_tail, res_J0, res_J1, res_J2, res_J3, res_J4, res_J5, res_J6, res_J7, res_J8, res_J9, res_J10, res_J11, res_J12, res_J13, res_J14, res_J15, res_J16, res_J17, res_J18, res_J19, res_J20, res_J21, res_J22, res_J23]
  rfl

theorem after_arg0 (V : Valuation τ sig (Elt Ideal)) :
    after ops V (Proc.devRef .tc main_arg0) = V (Proc.devRef .tc main_arg0) := by
  unfold ops
  simp (disch := decide) only [after_append, keep_pre, keep_J0, keep_J1, keep_J2, keep_J3, keep_J4, keep_J5, keep_J6, keep_J7, keep_J8, keep_J9, keep_J10, keep_J11, keep_J12, keep_J13, keep_J14, keep_J15, keep_J16, keep_J17, keep_J18, keep_J19, keep_J20, keep_J21, keep_J22, keep_J23, keep_tail]
theorem after_arg1 (V : Valuation τ sig (Elt Ideal)) :
    after ops V (Proc.devRef .tc main_arg1) = V (Proc.devRef .tc main_arg1) := by
  unfold ops
  simp (disch := decide) only [after_append, keep_pre, keep_J0, keep_J1, keep_J2, keep_J3, keep_J4, keep_J5, keep_J6, keep_J7, keep_J8, keep_J9, keep_J10, keep_J11, keep_J12, keep_J13, keep_J14, keep_J15, keep_J16, keep_J17, keep_J18, keep_J19, keep_J20, keep_J21, keep_J22, keep_J23, keep_tail]
theorem after_arg2 (V : Valuation τ sig (Elt Ideal)) :
    after ops V (Proc.devRef .tc main_arg2) = V (Proc.devRef .tc main_arg2) := by
  unfold ops
  simp (disch := decide) only [after_append, keep_pre, keep_J0, keep_J1, keep_J2, keep_J3, keep_J4, keep_J5, keep_J6, keep_J7, keep_J8, keep_J9, keep_J10, keep_J11, keep_J12, keep_J13, keep_J14, keep_J15, keep_J16, keep_J17, keep_J18, keep_J19, keep_J20, keep_J21, keep_J22, keep_J23, keep_tail]
theorem after_arg3 (V : Valuation τ sig (Elt Ideal)) :
    after ops V (Proc.devRef .tc main_arg3) = V (Proc.devRef .tc main_arg3) := by
  unfold ops
  simp (disch := decide) only [after_append, keep_pre, keep_J0, keep_J1, keep_J2, keep_J3, keep_J4, keep_J5, keep_J6, keep_J7, keep_J8, keep_J9, keep_J10, keep_J11, keep_J12, keep_J13, keep_J14, keep_J15, keep_J16, keep_J17, keep_J18, keep_J19, keep_J20, keep_J21, keep_J22, keep_J23, keep_tail]
theorem after_arg4 (V : Valuation τ sig (Elt Ideal)) :
    after ops V (Proc.devRef .tc main_arg4) = V (Proc.devRef .tc main_arg4) := by
  unfold ops
  simp (disch := decide) only [after_append, keep_pre, keep_J0, keep_J1, keep_J2, keep_J3, keep_J4, keep_J5, keep_J6, keep_J7, keep_J8, keep_J9, keep_J10, keep_J11, keep_J12, keep_J13, keep_J14, keep_J15, keep_J16, keep_J17, keep_J18, keep_J19, keep_J20, keep_J21, keep_J22, keep_J23, keep_tail]

/-- The idealized reference's run: the result at `G` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v579) = G (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v579).trans (after_v579 _),
      (h c main_arg0).trans (after_arg0 _), (h c main_arg1).trans (after_arg1 _), (h c main_arg2).trans (after_arg2 _),
      (h c main_arg3).trans (after_arg3 _), (h c main_arg4).trans (after_arg4 _)⟩)
    (run_ops m ρ)

end Cert.ReferenceIdeal.Ops

end
-- ==== Proof.lean ====
/-
  The certificate of a two-layer perceptron per joint of a 24-joint kinematic tree.

  For a batch row with entries x₀ … x₂₃, joint j computes, from its parent's six features f_p (none for the root, joint 0),
      h_j = max (W1[j][:, 0] · x_j + W1[j][:, 1:] · f_p + b1[j]) 0,      f_j = max (W2[j] · h_j + b2[j]) 0,
  and the row's 144 results are f₀ … f₂₃ side by side.

  The kernel works on blocks of 5000 rows kept feature-major: it transposes the block, computes the joints in topological
  order with the row's entry and the parent's term as two separate products, writes each joint's six rows into a
  144 × 5000 buffer and stores the buffer's transpose.  The reference joins x_j and f_p into a vector of seven (zeros in
  the parent's place for the root) and contracts it with W1[j] in one product.  On the extended reals the two agree without
  any finiteness: a sum of seven products is the first plus the other six, products commute, and a product with zero is zero.

  Both programs end with their result at the one function `G` of the argument arrays (Proof/TreeRow.lean): the kernel by
  reading each grid point's block off its run and covering the result with the 100 blocks (Proof/KernelValue.lean), the
  reference by reading its line of 677 host operations joint by joint (Proof/RefAfter.lean).
-/
import proofs.«172863_j7009386627271_2_alg».proof.Defs
import proofs.«172863_j7009386627271_2_alg».proof.Proof.Gen.Kernel
import proofs.«172863_j7009386627271_2_alg».proof.Proof.Gen.Kernel.Skeleton
import proofs.«172863_j7009386627271_2_alg».proof.Proof.Gen.Kernel.Launch
import proofs.«172863_j7009386627271_2_alg».proof.Proof.Gen.Kernel.Points
import proofs.«172863_j7009386627271_2_alg».proof.Proof.Gen.Kernel.Frame
import proofs.«172863_j7009386627271_2_alg».proof.Proof.Gen.KernelIdeal
import proofs.«172863_j7009386627271_2_alg».proof.Proof.Gen.KernelIdeal.Skeleton
import proofs.«172863_j7009386627271_2_alg».proof.Proof.Gen.KernelIdeal.Launch
import proofs.«172863_j7009386627271_2_alg».proof.Proof.Gen.KernelIdeal.Points
import proofs.«172863_j7009386627271_2_alg».proof.Proof.Gen.KernelIdeal.Frame
import proofs.«172863_j7009386627271_2_alg».proof.Proof.Gen.KernelIdeal.Value
import proofs.«172863_j7009386627271_2_alg».proof.Proof.Gen.ReferenceIdeal
import proofs.«172863_j7009386627271_2_alg».proof.Proof.Gen.Pre_finite_inputs
import proofs.«172863_j7009386627271_2_alg».proof.Proof.KernelValue
import proofs.«172863_j7009386627271_2_alg».proof.Proof.RefAfter
import Idealize.ShloMosaic.Adequacy
import Idealize.ShloMosaic.Init

noncomputable section

namespace Cert.Proof

open Idealize.ShloMosaic Idealize.ShloMosaic.TcCoe Idealize.SL.Sem Cert.TreeSpec

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Ops.run m ρ)

/-- The ideal pass rewrote nothing. -/
theorem preserves : Cert.preserves_Kernel_KernelIdeal := trivial

/-- Both programs end at `G` of arguments that agree. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.TreeValue.run m ρ, ?_⟩
  refine (θ_run Cert.ReferenceIdeal.defs _ _).mono (fun _ h c => ⟨(h c).1.trans ?_, (h c).2⟩)
    (Cert.ReferenceIdeal.Ops.run m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
